-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x500 : S_.BroadcastsInDim S64x500 (![] : Fin 0 → Fin S64x500.rank)
  reducesTo_S64x500_S_d0_1 : S64x500.ReducesTo [0, 1] S_
  bcast_S_S500 : S_.BroadcastsInDim S500 (![] : Fin 0 → Fin S500.rank)
  reducesTo_S500_S_d0 : S500.ReducesTo [0] S_

variable [Facts]

def fn_part5 {F : FTy → Type} [FloatOps F] (main_arg19 : FVec F S500 .f32) (main_v83 : IVec S_ 1) (main_v84 : FVec F S64x500 .f32) (main_cst_32 : FVec F S_ .f32) : IVec S_ 1 :=
  let main_v85 : FVec F S64x500 .f32 := broadcastInDim S64x500 ![] bcast_S_S64x500 main_cst_32
  let main_v86 : IVec S64x500 1 := cmpf .olt main_v84 main_v85
  let main_c_33 : IVec S_ 1 := constantI S_ 1 1#1
  let main_v87 : IVec S_ 1 := (fun x v => Host.reduce IntOp.andi x v reducesTo_S64x500_S_d0_1 h_S_) main_v86 main_c_33
  let main_v88 : IVec S_ 1 := andi main_v83 main_v87
  let main_v89 : FVec F S500 .f32 := Host.absf main_arg19
  let main_cst_34 : FVec F S_ .f32 := constant S_ .f32 0x7F800000#32
  let main_v90 : FVec F S500 .f32 := broadcastInDim S500 ![] bcast_S_S500 main_cst_34
  let main_v91 : IVec S500 1 := cmpf .olt main_v89 main_v90
  let main_c_35 : IVec S_ 1 := constantI S_ 1 1#1
  let main_v92 : IVec S_ 1 := (fun x v => Host.reduce IntOp.andi x v reducesTo_S500_S_d0 h_S_) main_v91 main_c_35
  let main_v93 : IVec S_ 1 := andi main_v88 main_v92
  main_v93

def fn_part4 {F : FTy → Type} [FloatOps F] (main_arg15 : FVec F S64 .f32) (main_arg16 : FVec F S64 .f32) (main_arg17 : FVec F S64 .f32) (main_arg18 : FVec F S64x500 .f32) (main_arg19 : FVec F S500 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x500 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_v63 main_v67

def fn_part2 {F : FTy → Type} [FloatOps F] (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x500 .f32) (main_arg19 : FVec F S500 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S2000 : Shape := ⟨1, ![2000]⟩
abbrev S50000x256 : Shape := ⟨2, ![50000, 256]⟩
abbrev S2000x256 : Shape := ⟨2, ![2000, 256]⟩
abbrev S800000x256 : Shape := ⟨2, ![800000, 256]⟩
abbrev S1x256 : Shape := ⟨2, ![1, 256]⟩
abbrev S1x64 : Shape := ⟨2, ![1, 64]⟩
abbrev S1x500 : Shape := ⟨2, ![1, 500]⟩
abbrev S50000x500 : Shape := ⟨2, ![50000, 500]⟩
abbrev S2000x500 : Shape := ⟨2, ![2000, 500]⟩
abbrev S2000x64 : Shape := ⟨2, ![2000, 64]⟩

abbrev nBuf : Space → Nat
  | .hbm => 101
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x500, .f32⟩
  | .hbm, ⟨19, _⟩ => ⟨S500, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S50000x256, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x256, .f32⟩
  | .hbm, ⟨70, _⟩ => ⟨S_, .f32⟩
  | .hbm, ⟨71, _⟩ => ⟨S50000x256, .f32⟩
  | .hbm, ⟨72, _⟩ => ⟨S800000x1, .i32⟩
  | .hbm, ⟨73, _⟩ => ⟨S50000x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S50000x256, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S50000x128, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x500, .f32⟩
  | .hbm, ⟨100, _⟩ => ⟨S50000x500, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x256, .f32⟩
  | .local _ .vmem, ⟨21, _⟩ => ⟨S2000x1, .f32⟩
  | .local _ .vmem, ⟨22, _⟩ => ⟨S2000x1, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x1, .f32⟩
  | .local _ .vmem, ⟨30, _⟩ => ⟨S2000x1, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x128, .f32⟩
  | .local _ .vmem, ⟨39, _⟩ => ⟨S2000x1, .f32⟩
  | .local _ .vmem, ⟨40, _⟩ => ⟨S2000x1, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x1, .f32⟩
  | .local _ .vmem, ⟨48, _⟩ => ⟨S2000x1, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S64x500, .f32⟩
  | .local _ .vmem, ⟨61, _⟩ => ⟨S1x500, .f32⟩
  | .local _ .vmem, ⟨62, _⟩ => ⟨S2000x500, .f32⟩
  | .local _ .vmem, ⟨63, _⟩ => ⟨S2000x500, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_v46 : Ref sig .tc := ⟨.hbm, 80, rfl⟩
abbrev main_v47 : Ref sig .tc := ⟨.hbm, 81, rfl⟩
abbrev main_c_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg7_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem7_0 : DmaSem sig := 62
abbrev cc6_sem7_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x500 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x500 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x500 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S128x256_S128x256_0_0 : ∀ a, (![0, 0] : Fin 2 → Nat) a + S128x256.size a ≤ S128x256.size a
  h_S128x256 : 0 < S128x256.numel
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  inb_S256x128_S256x128_0_0 : ∀ a, (![0, 0] : Fin 2 → Nat) a + S256x128.size a ≤ S256x128.size a
  h_S256x128 : 0 < S256x128.numel
  shapeCasts_S64_S1x64 : S64.ShapeCasts S1x64
  shapeCasts_S500_S1x500 : S500.ShapeCasts S1x500
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S64x500_S64x500_0_0 : ∀ a, (![0, 0] : Fin 2 → Nat) a + S64x500.size a ≤ S64x500.size a
  h_S64x500 : 0 < S64x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S2000x500 : S1x500.Broadcasts S2000x500
  inb_S2000x500_S2000x500_0_0 : ∀ a, (![0, 0] : Fin 2 → Nat) a + S2000x500.size a ≤ S2000x500.size a
  h_S2000x500 : 0 < S2000x500.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x500_S2000x500_1_0_0_1_n_n_wf : DotDims.WF S2000x64 S64x500 S2000x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x500.size a ≤ S64x500.size a
  hwx6_5 : ∀ i : grid6.Coords, EltTy.bits .f32 = 32 ∨ (Rect.block (s := S64x500) S64x500.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x500.size a ≤ S1x500.size a
  hwx6_6 : ∀ i : grid6.Coords, EltTy.bits .f32 = 32 ∨ (Rect.block (s := S1x500) S1x500.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x500.size a ≤ S50000x500.size a
  hwx6_7 : ∀ i : grid6.Coords, EltTy.bits .f32 = 32 ∨ (Rect.block (s := S50000x500) S2000x500.size (cc6_transform_7 i) (hinb6_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x500_S2000x500_1_0_0_1_n_n : DotDims S2000x64 S64x500 S2000x500 where
  lhsContracting := [1]
  rhsContracting := [0]
  lhsNonContracting := [0]
  rhsNonContracting := [1]
  lhsBatch := []
  rhsBatch := []
  wf := dot_S2000x64_S64x500_S2000x500_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v44) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v59) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v59) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v62) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg18) S64x500.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v63) S1x500.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v64) S2000x500.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x500 : Shape := ⟨2, ![64, 500]⟩
abbrev S500 : Shape := ⟨1, ![500]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩
abbrev S50000x64 : Shape := ⟨2, ![50000, 64]⟩
abbrev S1x64 : Shape := ⟨2, ![1, 64]⟩
abbrev S50000x500 : Shape := ⟨2, ![50000, 500]⟩
abbrev S1x500 : Shape := ⟨2, ![1, 500]⟩

abbrev nBuf : Space → Nat
  | .hbm => 391
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x500, .f32⟩
  | 19 => ⟨S500, .f32⟩
  | 20 => ⟨S1x800000, .i32⟩
  | 21 => ⟨S800000, .i32⟩
  | 22 => ⟨S1x800000, .i32⟩
  | 23 => ⟨S800000, .i32⟩
  | 24 => ⟨S50000x128, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .i1⟩
  | 120 => ⟨S_, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x256, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x256, .f32⟩
  | 47 => ⟨S800000x1, .f32⟩
  | 48 => ⟨S800000x256, .f32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000, .f32⟩
  | 55 => ⟨S50000x1, .f32⟩
  | 56 => ⟨S50000x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000, .f32⟩
  | 64 => ⟨S50000x1, .f32⟩
  | 65 => ⟨S_, .f32⟩
  | 66 => ⟨S50000x1, .f32⟩
  | 67 => ⟨S50000x1, .f32⟩
  | 68 => ⟨S50000x256, .f32⟩
  | 69 => ⟨S50000x256, .f32⟩
  | 70 => ⟨S50000x256, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x256, .f32⟩
  | 78 => ⟨S50000x256, .f32⟩
  | 79 => ⟨S_, .f32⟩
  | 80 => ⟨S50000x1, .f32⟩
  | 81 => ⟨S50000x1, .f32⟩
  | 82 => ⟨S50000x1, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .i1⟩
  | 94 => ⟨S_, .f32⟩
  | 95 => ⟨S50000x256, .f32⟩
  | 96 => ⟨S50000x256, .i1⟩
  | 97 => ⟨S_, .f32⟩
  | 98 => ⟨S_, .f32⟩
  | 99 => ⟨S50000x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .i1⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x1, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000, .f32⟩
  | 32 => ⟨S50000x1, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .i1⟩
  | 71 => ⟨S_, .f32⟩
  | 72 => ⟨S50000x128, .f32⟩
  | 73 => ⟨S50000x128, .i1⟩
  | 74 => ⟨S_, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x64, .f32⟩
  | 94 => ⟨S50000x64, .f32⟩
  | 95 => ⟨S50000x64, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x64, .f32⟩
  | 103 => ⟨S50000x64, .f32⟩
  | 104 => ⟨S_, .f32⟩
  | 105 => ⟨S50000x1, .f32⟩
  | 106 => ⟨S50000x1, .f32⟩
  | 107 => ⟨S50000x1, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .i1⟩
  | 119 => ⟨S_, .f32⟩
  | 120 => ⟨S50000x64, .f32⟩
  | 121 => ⟨S50000x64, .i1⟩
  | 122 => ⟨S_, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_3 (i : Nat) : BufTy := match i % 128 with
  | 0 => ⟨S50000x64, .f32⟩
  | 1 => ⟨S50000x64, .f32⟩
  | 2 => ⟨S50000x64, .f32⟩
  | 3 => ⟨S50000x500, .f32⟩
  | 4 => ⟨S1x500, .f32⟩
  | 5 => ⟨S50000x500, .f32⟩
  | 6 => ⟨S50000x500, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_v31 : Ref sig .tc := ⟨.hbm, 63, rfl⟩
abbrev main_c_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_12 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call1_cst : Ref sig .tc := ⟨.hbm, 114, rfl⟩
abbrev main_call1_v0 : Ref sig .tc := ⟨.hbm, 115, rfl⟩
abbrev main_call1_v1 : Ref sig .tc := ⟨.hbm, 116, rfl⟩
abbrev main_call1_cst_0 : Ref sig .tc := ⟨.hbm, 117, rfl⟩
abbrev main_call1_v2 : Ref sig .tc := ⟨.hbm, 118, rfl⟩
abbrev main_call1_v3 : Ref sig .tc := ⟨.hbm, 119, rfl⟩
abbrev main_call1_cst_1 : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_v4 : Ref sig .tc := ⟨.hbm, 123, rfl⟩
abbrev main_call1_v5 : Ref sig .tc := ⟨.hbm, 124, rfl⟩
abbrev main_call1_cst_2 : Ref sig .tc := ⟨.hbm, 125, rfl⟩
abbrev main_call1_v6 : Ref sig .tc := ⟨.hbm, 126, rfl⟩
abbrev main_call1_v7 : Ref sig .tc := ⟨.hbm, 127, rfl⟩
abbrev main_v75 : Ref sig .tc := ⟨.hbm, 128, rfl⟩
abbrev main_v76 : Ref sig .tc := ⟨.hbm, 129, rfl⟩
abbrev main_cst_15 : Ref sig .tc := ⟨.hbm, 130, rfl⟩
abbrev main_v77 : Ref sig .tc := ⟨.hbm, 131, rfl⟩
abbrev main_cst_16 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_17 : Ref sig .tc := ⟨.hbm, 136, rfl⟩
abbrev main_v81 : Ref sig .tc := ⟨.hbm, 137, rfl⟩
abbrev main_v82 : Ref sig .tc := ⟨.hbm, 138, rfl⟩
abbrev main_cst_18 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_19 : Ref sig .tc := ⟨.hbm, 143, rfl⟩
abbrev main_call2_v0 : Ref sig .tc := ⟨.hbm, 144, rfl⟩
abbrev main_call2_v1 : Ref sig .tc := ⟨.hbm, 145, rfl⟩
abbrev main_v86 : Ref sig .tc := ⟨.hbm, 146, rfl⟩
abbrev main_c_20 : Ref sig .tc := ⟨.hbm, 147, rfl⟩
abbrev main_v87 : Ref sig .tc := ⟨.hbm, 148, rfl⟩
abbrev main_v88 : Ref sig .tc := ⟨.hbm, 149, rfl⟩
abbrev main_c_21 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_22 : Ref sig .tc := ⟨.hbm, 156, rfl⟩
abbrev main_v94 : Ref sig .tc := ⟨.hbm, 157, rfl⟩
abbrev main_v95 : Ref sig .tc := ⟨.hbm, 158, rfl⟩
abbrev main_c_23 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_24 : Ref sig .tc := ⟨.hbm, 166, rfl⟩
abbrev main_v102 : Ref sig .tc := ⟨.hbm, 167, rfl⟩
abbrev main_v103 : Ref sig .tc := ⟨.hbm, 168, rfl⟩
abbrev main_c_25 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_26 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_27 : Ref sig .tc := ⟨.hbm, 190, rfl⟩
abbrev main_v123 : Ref sig .tc := ⟨.hbm, 191, rfl⟩
abbrev main_v124 : Ref sig .tc := ⟨.hbm, 192, rfl⟩
abbrev main_cst_28 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_cst_29 : Ref sig .tc := ⟨.hbm, 199, rfl⟩
abbrev main_v130 : Ref sig .tc := ⟨.hbm, 200, rfl⟩
abbrev main_v131 : Ref sig .tc := ⟨.hbm, 201, rfl⟩
abbrev main_cst_30 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_31 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_cst_1 : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_v4 : Ref sig .tc := ⟨.hbm, 228, rfl⟩
abbrev main_call3_v5 : Ref sig .tc := ⟨.hbm, 229, rfl⟩
abbrev main_call3_cst_2 : Ref sig .tc := ⟨.hbm, 230, rfl⟩
abbrev main_call3_v6 : Ref sig .tc := ⟨.hbm, 231, rfl⟩
abbrev main_call3_v7 : Ref sig .tc := ⟨.hbm, 232, rfl⟩
abbrev main_v147 : Ref sig .tc := ⟨.hbm, 233, rfl⟩
abbrev main_v148 : Ref sig .tc := ⟨.hbm, 234, rfl⟩
abbrev main_cst_32 : Ref sig .tc := ⟨.hbm, 235, rfl⟩
abbrev main_v149 : Ref sig .tc := ⟨.hbm, 236, rfl⟩
abbrev main_cst_33 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_cst_34 : Ref sig .tc := ⟨.hbm, 241, rfl⟩
abbrev main_v153 : Ref sig .tc := ⟨.hbm, 242, rfl⟩
abbrev main_v154 : Ref sig .tc := ⟨.hbm, 243, rfl⟩
abbrev main_cst_35 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_cst_36 : Ref sig .tc := ⟨.hbm, 248, rfl⟩
abbrev main_call4_v0 : Ref sig .tc := ⟨.hbm, 249, rfl⟩
abbrev main_call4_v1 : Ref sig .tc := ⟨.hbm, 250, rfl⟩
abbrev main_v158 : Ref sig .tc := ⟨.hbm, 251, rfl⟩
abbrev main_c_37 : Ref sig .tc := ⟨.hbm, 252, rfl⟩
abbrev main_v159 : Ref sig .tc := ⟨.hbm, 253, rfl⟩
abbrev main_v160 : Ref sig .tc := ⟨.hbm, 254, rfl⟩
abbrev main_c_38 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_c_39 : Ref sig .tc := ⟨.hbm, 261, rfl⟩
abbrev main_v166 : Ref sig .tc := ⟨.hbm, 262, rfl⟩
abbrev main_v167 : Ref sig .tc := ⟨.hbm, 263, rfl⟩
abbrev main_c_40 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_c_41 : Ref sig .tc := ⟨.hbm, 271, rfl⟩
abbrev main_v174 : Ref sig .tc := ⟨.hbm, 272, rfl⟩
abbrev main_v175 : Ref sig .tc := ⟨.hbm, 273, rfl⟩
abbrev main_c_42 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_cst_43 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_cst_44 : Ref sig .tc := ⟨.hbm, 295, rfl⟩
abbrev main_v195 : Ref sig .tc := ⟨.hbm, 296, rfl⟩
abbrev main_v196 : Ref sig .tc := ⟨.hbm, 297, rfl⟩
abbrev main_cst_45 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_cst_46 : Ref sig .tc := ⟨.hbm, 304, rfl⟩
abbrev main_v202 : Ref sig .tc := ⟨.hbm, 305, rfl⟩
abbrev main_v203 : Ref sig .tc := ⟨.hbm, 306, rfl⟩
abbrev main_cst_47 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_cst_48 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_call5_cst : Ref sig .tc := ⟨.hbm, 324, rfl⟩
abbrev main_call5_v0 : Ref sig .tc := ⟨.hbm, 325, rfl⟩
abbrev main_call5_v1 : Ref sig .tc := ⟨.hbm, 326, rfl⟩
abbrev main_call5_cst_0 : Ref sig .tc := ⟨.hbm, 327, rfl⟩
abbrev main_call5_v2 : Ref sig .tc := ⟨.hbm, 328, rfl⟩
abbrev main_call5_v3 : Ref sig .tc := ⟨.hbm, 329, rfl⟩
abbrev main_call5_cst_1 : Ref sig .tc := ⟨.hbm, 330, rfl⟩
abbrev main_call5_call0_v0 : Ref sig .tc := ⟨.hbm, 331, rfl⟩
abbrev main_call5_call0_v1 : Ref sig .tc := ⟨.hbm, 332, rfl⟩
abbrev main_call5_v4 : Ref sig .tc := ⟨.hbm, 333, rfl⟩
abbrev main_call5_v5 : Ref sig .tc := ⟨.hbm, 334, rfl⟩
abbrev main_call5_cst_2 : Ref sig .tc := ⟨.hbm, 335, rfl⟩
abbrev main_call5_v6 : Ref sig .tc := ⟨.hbm, 336, rfl⟩
abbrev main_call5_v7 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_cst_49 : Ref sig .tc := ⟨.hbm, 343, rfl⟩
abbrev main_v224 : Ref sig .tc := ⟨.hbm, 344, rfl⟩
abbrev main_v225 : Ref sig .tc := ⟨.hbm, 345, rfl⟩
abbrev main_cst_50 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_cst_51 : Ref sig .tc := ⟨.hbm, 352, rfl⟩
abbrev main_v231 : Ref sig .tc := ⟨.hbm, 353, rfl⟩
abbrev main_v232 : Ref sig .tc := ⟨.hbm, 354, rfl⟩
abbrev main_cst_52 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_cst_53 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_call6_cst : Ref sig .tc := ⟨.hbm, 372, rfl⟩
abbrev main_call6_v0 : Ref sig .tc := ⟨.hbm, 373, rfl⟩
abbrev main_call6_v1 : Ref sig .tc := ⟨.hbm, 374, rfl⟩
abbrev main_call6_cst_0 : Ref sig .tc := ⟨.hbm, 375, rfl⟩
abbrev main_call6_v2 : Ref sig .tc := ⟨.hbm, 376, rfl⟩
abbrev main_call6_v3 : Ref sig .tc := ⟨.hbm, 377, rfl⟩
abbrev main_call6_cst_1 : Ref sig .tc := ⟨.hbm, 378, rfl⟩
abbrev main_call6_call0_v0 : Ref sig .tc := ⟨.hbm, 379, rfl⟩
abbrev main_call6_call0_v1 : Ref sig .tc := ⟨.hbm, 380, rfl⟩
abbrev main_call6_v4 : Ref sig .tc := ⟨.hbm, 381, rfl⟩
abbrev main_call6_v5 : Ref sig .tc := ⟨.hbm, 382, rfl⟩
abbrev main_call6_cst_2 : Ref sig .tc := ⟨.hbm, 383, rfl⟩
abbrev main_call6_v6 : Ref sig .tc := ⟨.hbm, 384, rfl⟩
abbrev main_call6_v7 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_v251 : Ref sig .tc := ⟨.hbm, 389, rfl⟩
abbrev main_v252 : Ref sig .tc := ⟨.hbm, 390, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x500_S50000x500_1_0_0_1_n_n_wf : DotDims.WF S50000x64 S64x500 S50000x500 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x500_S50000x500_1_0_0_1_n_n : DotDims S50000x64 S64x500 S50000x500 where
  lhsContracting := [1]
  rhsContracting := [0]
  lhsNonContracting := [0]
  rhsNonContracting := [1]
  lhsBatch := []
  rhsBatch := []
  wf := dot_S50000x64_S64x500_S50000x500_1_0_0_1_n_n_wf

class Facts : Prop extends Facts₀ where

variable [Facts]
-- ==== Proof.Spec.lean ====
/-
  A graph-convolution network on the extended reals, coordinate by coordinate, independent of any program.

  Arrays are functions of their coordinates: a matrix with n rows and d columns is `Fin n → Fin d → EReal`.
  One layer takes node features h (already multiplied by the weight matrix), a nonnegative finite weight dv p per
  node (the inverse square root of the node's degree), per edge e the node `src e` it reads and, per node p, the
  set `inb p` of the edges arriving at p, and returns, before normalisation,

      Σ_{e ∈ inb p} h (src e) q · dv (src e) · dv p   +   h p q · dv p · dv p   +   b q.

  The two programs compute this in two arrangements. One scales every row of h by dv FIRST, sums the scaled rows of
  the arriving edges, adds the node's own scaled row and multiplies the total by dv p ONCE (`preK`); the other
  multiplies each arriving row by the product dv (src e) · dv (dst e) of the two end weights and adds the node's own
  row times dv p squared (`preR`). They agree because multiplication by a nonnegative finite number distributes
  over every sum of extended reals (also over sums that contain +∞ and −∞), and multiplication is commutative and
  associative there; nothing is needed of h or b.

  Each row is then normalised (mean and variance over the row, with the divisor and the epsilon as given words),
  scaled and shifted by g and be, and passed through ELU (`lnelu`).
-/
import Idealize.ShloMosaic.Lib.ValueIdx
import Idealize.ShloMosaic.PureOps.Ideal

noncomputable section

namespace Cert.GCN

open Idealize.ShloMosaic

variable {n k d E : Nat}

/-- The matrix product at (p, q). -/
def mm (x : Fin n → Fin k → EReal) (w : Fin k → Fin d → EReal) (p : Fin n) (q : Fin d) : EReal :=
  ∑ c : Fin k, x p c * w c q

/-- ELU: x above zero, e^x − 1 otherwise. -/
def elu (x : EReal) : EReal := if 0 < x then x else Ideal.exp x - 1

/-- The mean of a row: its sum divided by the word `cd`. -/
def rowMean (cd : EReal) (t : Fin d → EReal) : EReal := Ideal.div (∑ c : Fin d, t c) cd

/-- The variance of a row about its mean, with the same divisor. -/
def rowVar (cd : EReal) (t : Fin d → EReal) : EReal :=
  Ideal.div (∑ c : Fin d, (t c - rowMean cd t) * (t c - rowMean cd t)) cd

/-- Layer normalisation of the row `t` at column `q`, scaled by `g`, shifted by `be`, through ELU. -/
def lnelu (cd eps : EReal) (t g be : Fin d → EReal) (q : Fin d) : EReal :=
  elu ((t q - rowMean cd t) * Ideal.rsqrt (rowVar cd t + eps) * g q + be q)

/-- The same row function applied to every row of a matrix. -/
def act (cd eps : EReal) (g be : Fin d → EReal) (t : Fin n → Fin d → EReal) (p : Fin n) (q : Fin d) : EReal :=
  lnelu cd eps (t p) g be q

/-- Rows scaled by the node weight. -/
def scaled (dv : Fin n → EReal) (h : Fin n → Fin d → EReal) (p : Fin n) (q : Fin d) : EReal := h p q * dv p

/-- The sum, over the edges arriving at p, of the rows `u (src e)`, from the initial value 0. -/
def seg (src : Fin E → Fin n) (inb : Fin n → Finset (Fin E)) (u : Fin n → Fin d → EReal) (p : Fin n) (q : Fin d) : EReal :=
  0 + ∑ e ∈ inb p, u (src e) q

/-- One layer before normalisation, rows scaled first and the total multiplied by dv p once. -/
def preK (dv : Fin n → EReal) (src : Fin E → Fin n) (inb : Fin n → Finset (Fin E)) (h : Fin n → Fin d → EReal)
    (b : Fin d → EReal) (p : Fin n) (q : Fin d) : EReal :=
  dv p * (seg src inb (scaled dv h) p q + scaled dv h p q) + b q

/-- One layer before normalisation, each arriving row times the product of its two end weights. -/
def preR (dv : Fin n → EReal) (src dst : Fin E → Fin n) (inb : Fin n → Finset (Fin E)) (h : Fin n → Fin d → EReal)
    (b : Fin d → EReal) (p : Fin n) (q : Fin d) : EReal :=
  ((0 + ∑ e ∈ inb p, h (src e) q * (dv (src e) * dv (dst e))) + h p q * (dv p * dv p)) + b q

/-- A nonnegative finite factor goes inside a finite sum of extended reals. -/
theorem mul_sum_of_nonneg {ι : Type} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- The two arrangements of a layer agree when every node weight is nonnegative and finite and every edge arriving
    at p has p as its destination. -/
theorem preK_eq_preR (dv : Fin n → EReal) (hdv : ∀ p, 0 ≤ dv p ∧ dv p ≠ ⊤) (src dst : Fin E → Fin n)
    (inb : Fin n → Finset (Fin E)) (hdst : ∀ p, ∀ e ∈ inb p, dst e = p) (h : Fin n → Fin d → EReal) (b : Fin d → EReal) :
    preK dv src inb h b = preR dv src dst inb h b := by
  funext p q
  unfold preK preR seg scaled
  obtain ⟨h0, h1⟩ := hdv p
  rw [EReal.left_distrib_of_nonneg_of_ne_top h0 h1, zero_add, zero_add, mul_sum_of_nonneg _ _ h0 h1]
  congr 1
  congr 1
  · refine Finset.sum_congr rfl fun e he => ?_
    rw [hdst p e he, mul_comm (dv p), mul_assoc]
  · rw [mul_comm (dv p), mul_assoc]

/-- One whole layer in the first arrangement: product with the weights, the layer, normalisation and ELU. -/
def layerK (cd eps : EReal) (dv : Fin n → EReal) (src : Fin E → Fin n) (inb : Fin n → Finset (Fin E))
    (w : Fin k → Fin d → EReal) (b g be : Fin d → EReal) (h : Fin n → Fin k → EReal) : Fin n → Fin d → EReal :=
  act cd eps g be (preK dv src inb (mm h w) b)

/-- One whole layer in the second arrangement. -/
def layerR (cd eps : EReal) (dv : Fin n → EReal) (src dst : Fin E → Fin n) (inb : Fin n → Finset (Fin E))
    (w : Fin k → Fin d → EReal) (b g be : Fin d → EReal) (h : Fin n → Fin k → EReal) : Fin n → Fin d → EReal :=
  act cd eps g be (preR dv src dst inb (mm h w) b)

theorem layerK_eq_layerR (cd eps : EReal) (dv : Fin n → EReal) (hdv : ∀ p, 0 ≤ dv p ∧ dv p ≠ ⊤) (src dst : Fin E → Fin n)
    (inb : Fin n → Finset (Fin E)) (hdst : ∀ p, ∀ e ∈ inb p, dst e = p)
    (w : Fin k → Fin d → EReal) (b g be : Fin d → EReal) (h : Fin n → Fin k → EReal) :
    layerK cd eps dv src inb w b g be h = layerR cd eps dv src dst inb w b g be h := by
  unfold layerK layerR
  rw [preK_eq_preR dv hdv src dst inb hdst]

/-- The two dense layers at the end: product and bias, normalisation and ELU, product and bias. -/
def head {m : Nat} (cd eps : EReal) (w1 : Fin k → Fin d → EReal) (b1 g be : Fin d → EReal) (w2 : Fin d → Fin m → EReal)
    (b2 : Fin m → EReal) (h : Fin n → Fin k → EReal) (p : Fin n) (q : Fin m) : EReal :=
  mm (act cd eps g be (fun p c => mm h w1 p c + b1 c)) w2 p q + b2 q

/-- The node weight from the degree: its inverse square root where the degree is positive, zero elsewhere. -/
def dinvOf (deg : EReal) : EReal := if 0 < deg then Ideal.rsqrt deg else 0

/-- Whatever the degree, the node weight is nonnegative and finite. -/
theorem dinvOf_nonneg_finite (deg : EReal) : 0 ≤ dinvOf deg ∧ dinvOf deg ≠ ⊤ := by
  unfold dinvOf
  split
  · rename_i h
    induction deg using EReal.rec with
    | bot => exact absurd h (by simp)
    | top => rw [show Ideal.rsqrt ⊤ = 0 from rfl]; exact ⟨le_refl _, EReal.zero_ne_top⟩
    | coe r =>
      have hr : 0 < r := by exact_mod_cast h
      have h1 : ¬ r < 0 := not_lt.mpr hr.le
      have h2 : ¬ r = 0 := ne_of_gt hr
      rw [show Ideal.rsqrt (r : EReal) = if r < 0 then ⊥ else if r = 0 then ⊤ else (((Real.sqrt r)⁻¹ : ℝ) : EReal) from rfl,
        if_neg h1, if_neg h2]
      exact ⟨by exact_mod_cast (inv_nonneg.mpr (Real.sqrt_nonneg r)), EReal.coe_ne_top _⟩
  · exact ⟨le_refl _, EReal.zero_ne_top⟩

/-- The word of the float one is the number one. -/
theorem ofBits_one_f32 : Ideal.ofBits .f32 0x3F800000#32 = 1 := by
  simp [Ideal.ofBits, Ideal.ieee]
  rw [← EReal.coe_mul]
  norm_num

end Cert.GCN

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.HostK.lean ====
import proofs.«137113_j6760278524492_2_alg».proof.Proof.Gen.KernelIdeal.Frame
import proofs.«137113_j6760278524492_2_alg».proof.Proof.Spec
import proofs.«137113_j6760278524492_2_alg».proof.Proof.LibEdgeGatherScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KerSide
open Idealize.ShloMosaic Idealize.ShloMosaic.TcCoe Idealize.ShloMosaic.ValueIdx Idealize.SL.Sem Cert.KernelIdeal Cert.KernelIdeal.Gen
variable [Cert.KernelIdeal.Facts]

/-! ## The edge data and the node weights as the host operations compute them

  The two rows of the edge array, row 0 the sources and row 1 the destinations; the sources made nonnegative by adding
  the node count to a negative one (the array index convention), as a one-column array; the destinations as they are,
  as a one-column array; the degree of a node, one plus the number of edges arriving at it, as an accumulating scatter
  of ones; and the node weight, the inverse square root of a positive degree, zero otherwise. -/

/-- Row 0 of the edge array. -/
def src1d (ei : IVec S2x800000 32) : IVec S800000 32 := fun i =>
  shapeCast S800000 (extractStridedSlice S1x800000 ![0, 0] ei slices_S2x800000_S1x800000_0_0) shapeCasts_S1x800000_S800000 i

/-- Row 1 of the edge array. -/
def dst1d (ei : IVec S2x800000 32) : IVec S800000 32 := fun i =>
  shapeCast S800000 (extractStridedSlice S1x800000 ![1, 0] ei slices_S2x800000_S1x800000_1_0) shapeCasts_S1x800000_S800000 i

/-- The destinations as a one-column array: what every scatter is keyed by. -/
def dstRaw (ei : IVec S2x800000 32) : IVec S800000x1 32 :=
  broadcastInDim S800000x1 ![0] bcast_S800000_S800000x1_0 (dst1d ei)

/-- An index array made nonnegative and laid out as one column: what a gather is keyed by. -/
def normCol (v : IVec S800000 32) : IVec S800000x1 32 :=
  broadcastInDim S800000x1 ![0] bcast_S800000_S800000x1_0
    (select (cmpi CmpIPredicate.slt v (broadcastInDim S800000 ![] bcast_S_S800000 (constantI S_ 32 0#32)))
      (addi v (broadcastInDim S800000 ![] bcast_S_S800000 (constantI S_ 32 50000#32))) v)

/-- The sources, nonnegative, as a one-column array. -/
def srcIdx (ei : IVec S2x800000 32) : IVec S800000x1 32 := normCol (src1d ei)

/-- The degrees: one plus the count of arriving edges. -/
def degArr (ei : IVec S2x800000 32) : FVec Ideal S50000 .f32 :=
  addf
    (Host.scatterAdd scatter_S50000_S800000x1_S800000_n_0_0_1
      (broadcastInDim S50000 ![] bcast_S_S50000 (constant (F := Ideal) S_ .f32 0x00000000#32))
      (dstRaw ei)
      (broadcastInDim S800000 ![] bcast_S_S800000 (constant (F := Ideal) S_ .f32 0x3F800000#32)))
    (broadcastInDim S50000 ![] bcast_S_S50000 (constant (F := Ideal) S_ .f32 0x3F800000#32))

/-- The node weights. -/
def dinvArr (ei : IVec S2x800000 32) : FVec Ideal S50000 .f32 :=
  select (cmpf CmpFPredicate.ogt (degArr ei) (broadcastInDim S50000 ![] bcast_S_S50000 (constant (F := Ideal) S_ .f32 0x00000000#32)))
    (Host.rsqrt (degArr ei))
    (broadcastInDim S50000 ![] bcast_S_S50000 (id (constant (F := Ideal) S_ .f32 0x00000000#32)))

/-! ## What each stretch of host operations leaves, from any contents it starts with -/

set_option maxHeartbeats 4000000 in
theorem host0_v1 (V0 : Valuation τ sig (Elt Ideal)) :
    StableHlo.after (hostOps0 (F := Ideal)) V0 (Proc.devRef .tc main_v1) = src1d (V0 (Proc.devRef .tc main_arg1)) := by
  delta hostOps0
  after_results_simp
  rfl

set_option maxHeartbeats 4000000 in
theorem host0_v3 (V0 : Valuation τ sig (Elt Ideal)) :
    StableHlo.after (hostOps0 (F := Ideal)) V0 (Proc.devRef .tc main_v3) = dst1d (V0 (Proc.devRef .tc main_arg1)) := by
  delta hostOps0
  after_results_simp
  rfl

set_option maxHeartbeats 4000000 in
theorem host0_v11_aux (V0 : Valuation τ sig (Elt Ideal)) (X : (⟨S50000, .i1⟩ : BufTy).Contents (Elt Ideal))
    (hX : cmpf CmpFPredicate.ogt (degArr (V0 (Proc.devRef .tc main_arg1))) (broadcastInDim S50000 ![] bcast_S_S50000 (constant (F := Ideal) S_ .f32 0x00000000#32)) = X) :
    StableHlo.after (hostOps0 (F := Ideal)) V0 (Proc.devRef .tc main_v11) = X := by
  delta hostOps0
  after_results_simp
  exact hX

theorem host0_v11 (V0 : Valuation τ sig (Elt Ideal)) :
    StableHlo.after (hostOps0 (F := Ideal)) V0 (Proc.devRef .tc main_v11) = cmpf CmpFPredicate.ogt (degArr (V0 (Proc.devRef .tc main_arg1))) (broadcastInDim S50000 ![] bcast_S_S50000 (constant (F := Ideal) S_ .f32 0x00000000#32)) := host0_v11_aux V0 _ rfl

set_option maxHeartbeats 4000000 in
theorem host0_v12_aux (V0 : Valuation τ sig (Elt Ideal)) (X : (⟨S50000, .f32⟩ : BufTy).Contents (Elt Ideal))
    (hX : Host.rsqrt (F := Ideal) (degArr (V0 (Proc.devRef .tc main_arg1))) = X) :
    StableHlo.after (hostOps0 (F := Ideal)) V0 (Proc.devRef .tc main_v12) = X := by
  delta hostOps0
  after_results_simp
  exact hX

theorem host0_v12 (V0 : Valuation τ sig (Elt Ideal)) :
    StableHlo.after (hostOps0 (F := Ideal)) V0 (Proc.devRef .tc main_v12) = Host.rsqrt (F := Ideal) (degArr (V0 (Proc.devRef .tc main_arg1))) := host0_v12_aux V0 _ rfl

set_option maxHeartbeats 4000000 in
theorem host0_cst3_aux (V0 : Valuation τ sig (Elt Ideal)) (X : (⟨S_, .f32⟩ : BufTy).Contents (Elt Ideal))
    (hX : constant (F := Ideal) S_ .f32 0x00000000#32 = X) :
    StableHlo.after (hostOps0 (F := Ideal)) V0 (Proc.devRef .tc main_cst_3) = X := by
  delta hostOps0
  after_results_simp
  exact hX

theorem host0_cst3 (V0 : Valuation τ sig (Elt Ideal)) :
    StableHlo.after (hostOps0 (F := Ideal)) V0 (Proc.devRef .tc main_cst_3) = constant (F := Ideal) S_ .f32 0x00000000#32 := host0_cst3_aux V0 _ rfl

set_option maxHeartbeats 4000000 in
theorem host01_v13_gen_aux (V1 : Valuation τ sig (Elt Ideal)) (X : (⟨S50000, .f32⟩ : BufTy).Contents (Elt Ideal))
    (hX : select (V1 (Proc.devRef .tc main_v11) : IVec S50000 1) (V1 (Proc.devRef .tc main_v12) : FVec Ideal S50000 .f32)
        (broadcastInDim S50000 ![] bcast_S_S50000 (id (V1 (Proc.devRef .tc main_cst_3) : FVec Ideal S_ .f32))) = X) :
    StableHlo.after (hostOps0_1 (F := Ideal)) V1 (Proc.devRef .tc main_v13) = X := by
  delta hostOps0_1
  after_results_simp
  exact hX

theorem host01_v13_gen (V1 : Valuation τ sig (Elt Ideal)) :
    StableHlo.after (hostOps0_1 (F := Ideal)) V1 (Proc.devRef .tc main_v13) = select (V1 (Proc.devRef .tc main_v11) : IVec S50000 1) (V1 (Proc.devRef .tc main_v12) : FVec Ideal S50000 .f32)
        (broadcastInDim S50000 ![] bcast_S_S50000 (id (V1 (Proc.devRef .tc main_cst_3) : FVec Ideal S_ .f32))) := host01_v13_gen_aux V1 _ rfl

/-- The node weights are what the first three stretches leave in the weight vector's buffer. -/
theorem host01_v13 (V0 : Valuation τ sig (Elt Ideal)) :
    StableHlo.after (hostOps0_1 (F := Ideal)) (StableHlo.after (hostOps0 (F := Ideal)) V0) (Proc.devRef .tc main_v13)
      = dinvArr (V0 (Proc.devRef .tc main_arg1)) := by
  rw [host01_v13_gen, host0_v11, host0_v12, host0_cst3]
  rfl

theorem host02_v14 (V0 : Valuation τ sig (Elt Ideal)) (p : Fin 50000) :
    (StableHlo.after (hostOps0_2 (F := Ideal)) V0 (Proc.devRef .tc main_v14) : S50000x1.Idx → EReal) (ix2 p (0 : Fin 1))
      = (V0 (Proc.devRef .tc main_v13) : S50000.Idx → EReal) (ix1 p) := by
  delta hostOps0_2
  after_results
  refine shapeCast_apply _ _ _ _ ?_
  show ((⟨1, ![50000]⟩ : Shape).rowMajor (ix1 p)).val = ((⟨2, ![50000, 1]⟩ : Shape).rowMajor (ix2 p (0 : Fin 1))).val
  rw [Shape.rowMajor_val_two, Shape.rowMajor_val_one]
  show p.val = p.val * 1 + 0
  omega

end Cert.KerSide
end
-- ==== Proof.HostL.lean ====
import proofs.«137113_j6760278524492_2_alg».proof.Proof.Gen.KernelIdeal.Frame
import proofs.«137113_j6760278524492_2_alg».proof.Proof.Spec
import proofs.«137113_j6760278524492_2_alg».proof.Proof.LibEdgeGatherScatter
import proofs.«137113_j6760278524492_2_alg».proof.Proof.HostK
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KerSide
open Idealize.ShloMosaic Idealize.ShloMosaic.TcCoe Idealize.ShloMosaic.ValueIdx Idealize.SL.Sem Cert.KernelIdeal Cert.KernelIdeal.Gen
variable [Cert.KernelIdeal.Facts]

set_option maxHeartbeats 4000000 in
theorem hostOps1_main_v25_aux (V0 : Valuation τ sig (Elt Ideal)) (X : (⟨S50000x128, .f32⟩ : BufTy).Contents (Elt Ideal))
    (hX : Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (V0 (Proc.devRef .tc main_v3) : IVec S800000 32))
        (Host.gather gather_S50000x128_S800000x1_S800000x128_1_0_n_n_0_1_1128 (V0 (Proc.devRef .tc main_v15) : FVec Ideal S50000x128 .f32)
          (normCol (V0 (Proc.devRef .tc main_v1) : IVec S800000 32))) = X) :
    StableHlo.after (hostOps1 (F := Ideal)) V0 (Proc.devRef .tc main_v25) = X := by
  delta hostOps1
  after_results_simp
  exact hX

set_option maxHeartbeats 4000000 in
theorem hostOps1_main_v26 (V0 : Valuation τ sig (Elt Ideal)) (k : Fin 128) :
    (StableHlo.after (hostOps1 (F := Ideal)) V0 (Proc.devRef .tc main_v26) : S1x128.Idx → EReal) (ix2 (0 : Fin 1) k)
      = (V0 (Proc.devRef .tc main_arg3) : S128.Idx → EReal) (ix1 k) := by
  delta hostOps1
  after_results_simp
  exact shapeCast_a_1a_apply _ _ _ _

set_option maxHeartbeats 4000000 in
theorem hostOps1_main_v27 (V0 : Valuation τ sig (Elt Ideal)) (k : Fin 128) :
    (StableHlo.after (hostOps1 (F := Ideal)) V0 (Proc.devRef .tc main_v27) : S1x128.Idx → EReal) (ix2 (0 : Fin 1) k)
      = (V0 (Proc.devRef .tc main_arg4) : S128.Idx → EReal) (ix1 k) := by
  delta hostOps1
  after_results_simp
  exact shapeCast_a_1a_apply _ _ _ _

set_option maxHeartbeats 4000000 in
theorem hostOps1_main_v28 (V0 : Valuation τ sig (Elt Ideal)) (k : Fin 128) :
    (StableHlo.after (hostOps1 (F := Ideal)) V0 (Proc.devRef .tc main_v28) : S1x128.Idx → EReal) (ix2 (0 : Fin 1) k)
      = (V0 (Proc.devRef .tc main_arg5) : S128.Idx → EReal) (ix1 k) := by
  delta hostOps1
  after_results_simp
  exact shapeCast_a_1a_apply _ _ _ _

set_option maxHeartbeats 4000000 in
theorem hostOps3_main_v40_aux (V0 : Valuation τ sig (Elt Ideal)) (X : (⟨S50000x256, .f32⟩ : BufTy).Contents (Elt Ideal))
    (hX : Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 (V0 (Proc.devRef .tc main_v3) : IVec S800000 32))
        (Host.gather gather_S50000x256_S800000x1_S800000x256_1_0_n_n_0_1_1256 (V0 (Proc.devRef .tc main_v30) : FVec Ideal S50000x256 .f32)
          (normCol (V0 (Proc.devRef .tc main_v1) : IVec S800000 32))) = X) :
    StableHlo.after (hostOps3 (F := Ideal)) V0 (Proc.devRef .tc main_v40) = X := by
  delta hostOps3
  after_results_simp
  exact hX

set_option maxHeartbeats 4000000 in
theorem hostOps3_main_v41 (V0 : Valuation τ sig (Elt Ideal)) (k : Fin 256) :
    (StableHlo.after (hostOps3 (F := Ideal)) V0 (Proc.devRef .tc main_v41) : S1x256.Idx → EReal) (ix2 (0 : Fin 1) k)
      = (V0 (Proc.devRef .tc main_arg7) : S256.Idx → EReal) (ix1 k) := by
  delta hostOps3
  after_results_simp
  exact shapeCast_a_1a_apply _ _ _ _

set_option maxHeartbeats 4000000 in
theorem hostOps3_main_v42 (V0 : Valuation τ sig (Elt Ideal)) (k : Fin 256) :
    (StableHlo.after (hostOps3 (F := Ideal)) V0 (Proc.devRef .tc main_v42) : S1x256.Idx → EReal) (ix2 (0 : Fin 1) k)
      = (V0 (Proc.devRef .tc main_arg8) : S256.Idx → EReal) (ix1 k) := by
  delta hostOps3
  after_results_simp
  exact shapeCast_a_1a_apply _ _ _ _

set_option maxHeartbeats 4000000 in
theorem hostOps3_main_v43 (V0 : Valuation τ sig (Elt Ideal)) (k : Fin 256) :
    (StableHlo.after (hostOps3 (F := Ideal)) V0 (Proc.devRef .tc main_v43) : S1x256.Idx → EReal) (ix2 (0 : Fin 1) k)
      = (V0 (Proc.devRef .tc main_arg9) : S256.Idx → EReal) (ix1 k) := by
  delta hostOps3
  after_results_simp
  exact shapeCast_a_1a_apply _ _ _ _

set_option maxHeartbeats 4000000 in
theorem hostOps5_main_v55_aux (V0 : Valuation τ sig (Elt Ideal)) (X : (⟨S50000x128, .f32⟩ : BufTy).Contents (Elt Ideal))
    (hX : Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (V0 (Proc.devRef .tc main_v3) : IVec S800000 32))
        (Host.gather gather_S50000x128_S800000x1_S800000x128_1_0_n_n_0_1_1128 (V0 (Proc.devRef .tc main_v45) : FVec Ideal S50000x128 .f32)
          (normCol (V0 (Proc.devRef .tc main_v1) : IVec S800000 32))) = X) :
    StableHlo.after (hostOps5 (F := Ideal)) V0 (Proc.devRef .tc main_v55) = X := by
  delta hostOps5
  after_results_simp
  exact hX

set_option maxHeartbeats 4000000 in
theorem hostOps5_main_v56 (V0 : Valuation τ sig (Elt Ideal)) (k : Fin 128) :
    (StableHlo.after (hostOps5 (F := Ideal)) V0 (Proc.devRef .tc main_v56) : S1x128.Idx → EReal) (ix2 (0 : Fin 1) k)
      = (V0 (Proc.devRef .tc main_arg11) : S128.Idx → EReal) (ix1 k) := by
  delta hostOps5
  after_results_simp
  exact shapeCast_a_1a_apply _ _ _ _

set_option maxHeartbeats 4000000 in
theorem hostOps5_main_v57 (V0 : Valuation τ sig (Elt Ideal)) (k : Fin 128) :
    (StableHlo.after (hostOps5 (F := Ideal)) V0 (Proc.devRef .tc main_v57) : S1x128.Idx → EReal) (ix2 (0 : Fin 1) k)
      = (V0 (Proc.devRef .tc main_arg12) : S128.Idx → EReal) (ix1 k) := by
  delta hostOps5
  after_results_simp
  exact shapeCast_a_1a_apply _ _ _ _

set_option maxHeartbeats 4000000 in
theorem hostOps5_main_v58 (V0 : Valuation τ sig (Elt Ideal)) (k : Fin 128) :
    (StableHlo.after (hostOps5 (F := Ideal)) V0 (Proc.devRef .tc main_v58) : S1x128.Idx → EReal) (ix2 (0 : Fin 1) k)
      = (V0 (Proc.devRef .tc main_arg13) : S128.Idx → EReal) (ix1 k) := by
  delta hostOps5
  after_results_simp
  exact shapeCast_a_1a_apply _ _ _ _

theorem hostOps6_main_v60 (V0 : Valuation τ sig (Elt Ideal)) (k : Fin 64) :
    (StableHlo.after (hostOps6 (F := Ideal)) V0 (Proc.devRef .tc main_v60) : S1x64.Idx → EReal) (ix2 (0 : Fin 1) k)
      = (V0 (Proc.devRef .tc main_arg15) : S64.Idx → EReal) (ix1 k) := by
  delta hostOps6
  after_results_simp
  exact shapeCast_a_1a_apply _ _ _ _

theorem hostOps6_main_v61 (V0 : Valuation τ sig (Elt Ideal)) (k : Fin 64) :
    (StableHlo.after (hostOps6 (F := Ideal)) V0 (Proc.devRef .tc main_v61) : S1x64.Idx → EReal) (ix2 (0 : Fin 1) k)
      = (V0 (Proc.devRef .tc main_arg16) : S64.Idx → EReal) (ix1 k) := by
  delta hostOps6
  after_results_simp
  exact shapeCast_a_1a_apply _ _ _ _

theorem hostOps6_main_v62 (V0 : Valuation τ sig (Elt Ideal)) (k : Fin 64) :
    (StableHlo.after (hostOps6 (F := Ideal)) V0 (Proc.devRef .tc main_v62) : S1x64.Idx → EReal) (ix2 (0 : Fin 1) k)
      = (V0 (Proc.devRef .tc main_arg17) : S64.Idx → EReal) (ix1 k) := by
  delta hostOps6
  after_results_simp
  exact shapeCast_a_1a_apply _ _ _ _

theorem hostOps6_main_v63 (V0 : Valuation τ sig (Elt Ideal)) (k : Fin 500) :
    (StableHlo.after (hostOps6 (F := Ideal)) V0 (Proc.devRef .tc main_v63) : S1x500.Idx → EReal) (ix2 (0 : Fin 1) k)
      = (V0 (Proc.devRef .tc main_arg19) : S500.Idx → EReal) (ix1 k) := by
  delta hostOps6
  after_results_simp
  exact shapeCast_a_1a_apply _ _ _ _

end Cert.KerSide
end
-- ==== Proof.HostSeg.lean ====
import proofs.«137113_j6760278524492_2_alg».proof.Proof.Gen.KernelIdeal.Frame
import proofs.«137113_j6760278524492_2_alg».proof.Proof.Spec
import proofs.«137113_j6760278524492_2_alg».proof.Proof.LibEdgeGatherScatter
import proofs.«137113_j6760278524492_2_alg».proof.Proof.HostK
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KerSide
open Idealize.ShloMosaic Idealize.ShloMosaic.TcCoe Idealize.ShloMosaic.ValueIdx Idealize.SL.Sem Cert.KernelIdeal Cert.KernelIdeal.Gen
variable [Cert.KernelIdeal.Facts]

/-! ## A gather of rows followed by an accumulating scatter, read at an index -/

theorem scatter128_eq (x : FVec Ideal S50000x128 .f32) (idx : IVec S800000x1 32) (upd : FVec Ideal S800000x128 .f32) :
    Host.scatterAdd (F := Ideal) scatter_S50000x128_S800000x1_S800000x128_1_0_0_1 x idx upd
      = Ideal.hostScatterAdd (Cert.Lib.rowScatterDims 50000 128 800000 scatter_S50000x128_S800000x1_S800000x128_1_0_0_1_wf) x idx upd := rfl

theorem zeros128_apply (j : S50000x128.Idx) :
    (broadcastInDim S50000x128 ![] bcast_S_S50000x128 (constant (F := Ideal) S_ .f32 0x00000000#32) : FVec Ideal S50000x128 .f32) j = 0 :=
  Ideal.ofBits_zero_f32

/-- The rows gathered at the edges' sources and summed into the edges' destinations, read at (p, q): the sum over the
    edges arriving at p of the source rows at column q, from zero. -/
theorem segsum128_apply (hs : FVec Ideal S50000x128 .f32) (dcol scol : IVec S800000x1 32) (p : Fin 50000) (q : Fin 128) :
    Host.scatterAdd (F := Ideal) scatter_S50000x128_S800000x1_S800000x128_1_0_0_1
        (broadcastInDim S50000x128 ![] bcast_S_S50000x128 (constant (F := Ideal) S_ .f32 0x00000000#32)) dcol
        (Host.gather gather_S50000x128_S800000x1_S800000x128_1_0_n_n_0_1_1128 hs scol) (ix2 p q)
      = Cert.GCN.seg (fun e => Cert.Lib.clampRow 50000 (by decide) scol e)
          (fun p => Finset.univ.filter fun e : Fin 800000 => (dcol (ix2 e (0 : Fin 1))).toInt = (p.val : Int))
          (fun p q => hs (ix2 p q)) p q := by
  rw [scatter128_eq, Cert.Lib.scatterAdd_rows_apply, zeros128_apply]
  unfold Cert.GCN.seg
  refine congrArg (0 + ·) (Finset.sum_congr rfl fun e _ => ?_)
  exact Cert.Lib.gather_rows_apply (by decide) gather_S50000x128_S800000x1_S800000x128_1_0_n_n_0_1_1128_wf hs scol e q

theorem scatter256_eq (x : FVec Ideal S50000x256 .f32) (idx : IVec S800000x1 32) (upd : FVec Ideal S800000x256 .f32) :
    Host.scatterAdd (F := Ideal) scatter_S50000x256_S800000x1_S800000x256_1_0_0_1 x idx upd
      = Ideal.hostScatterAdd (Cert.Lib.rowScatterDims 50000 256 800000 scatter_S50000x256_S800000x1_S800000x256_1_0_0_1_wf) x idx upd := rfl

theorem zeros256_apply (j : S50000x256.Idx) :
    (broadcastInDim S50000x256 ![] bcast_S_S50000x256 (constant (F := Ideal) S_ .f32 0x00000000#32) : FVec Ideal S50000x256 .f32) j = 0 :=
  Ideal.ofBits_zero_f32

/-- The rows gathered at the edges' sources and summed into the edges' destinations, read at (p, q): the sum over the
    edges arriving at p of the source rows at column q, from zero. -/
theorem segsum256_apply (hs : FVec Ideal S50000x256 .f32) (dcol scol : IVec S800000x1 32) (p : Fin 50000) (q : Fin 256) :
    Host.scatterAdd (F := Ideal) scatter_S50000x256_S800000x1_S800000x256_1_0_0_1
        (broadcastInDim S50000x256 ![] bcast_S_S50000x256 (constant (F := Ideal) S_ .f32 0x00000000#32)) dcol
        (Host.gather gather_S50000x256_S800000x1_S800000x256_1_0_n_n_0_1_1256 hs scol) (ix2 p q)
      = Cert.GCN.seg (fun e => Cert.Lib.clampRow 50000 (by decide) scol e)
          (fun p => Finset.univ.filter fun e : Fin 800000 => (dcol (ix2 e (0 : Fin 1))).toInt = (p.val : Int))
          (fun p q => hs (ix2 p q)) p q := by
  rw [scatter256_eq, Cert.Lib.scatterAdd_rows_apply, zeros256_apply]
  unfold Cert.GCN.seg
  refine congrArg (0 + ·) (Finset.sum_congr rfl fun e _ => ?_)
  exact Cert.Lib.gather_rows_apply (by decide) gather_S50000x256_S800000x1_S800000x256_1_0_n_n_0_1_1256_wf hs scol e q

end Cert.KerSide
end
-- ==== Proof.KerKeep.lean ====
import proofs.«137113_j6760278524492_2_alg».proof.Proof.Gen.KernelIdeal.Frame
import proofs.«137113_j6760278524492_2_alg».proof.Proof.Spec
import proofs.«137113_j6760278524492_2_alg».proof.Proof.LibEdgeGatherScatter
import proofs.«137113_j6760278524492_2_alg».proof.Proof.HostK
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KerSide
open Idealize.ShloMosaic Idealize.ShloMosaic.TcCoe Idealize.ShloMosaic.ValueIdx Idealize.SL.Sem Cert.KernelIdeal Cert.KernelIdeal.Gen
variable [Cert.KernelIdeal.Facts]
variable (m : (ℓ : Loc nD τ sig) → Buf (Elt Ideal) ℓ) (ρ : Dev nD → PrngReg)

/-! ## Buffers that a stretch of the program leaves as it found them

  A buffer keeps its contents across a host operation that does not write it and across a kernel launch that either
  does not name it or reads it through an input window. Each fact below walks one buffer back, boundary by boundary,
  to the place where it was last written. -/

theorem keep_main_arg0_3_0 (c : Dev nD) : W3 (F := Ideal) m ρ c (Proc.devRef .tc main_arg0) = W0 (F := Ideal) m ρ c (Proc.devRef .tc main_arg0) :=
  calc W3 (F := Ideal) m ρ c (Proc.devRef .tc main_arg0)
    _ = W2 (F := Ideal) m ρ c (Proc.devRef .tc main_arg0) := (StableHlo.after_of_forall_not_mem (b := Proc.devRef .tc main_arg0) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg0) := (StableHlo.after_of_forall_not_mem (b := Proc.devRef .tc main_arg0) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg0) := (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg2_3_0 (c : Dev nD) : W3 (F := Ideal) m ρ c (Proc.devRef .tc main_arg2) = W0 (F := Ideal) m ρ c (Proc.devRef .tc main_arg2) :=
  calc W3 (F := Ideal) m ρ c (Proc.devRef .tc main_arg2)
    _ = W2 (F := Ideal) m ρ c (Proc.devRef .tc main_arg2) := (StableHlo.after_of_forall_not_mem (b := Proc.devRef .tc main_arg2) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg2) := (StableHlo.after_of_forall_not_mem (b := Proc.devRef .tc main_arg2) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg2) := (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v1_4_1 (c : Dev nD) : W4 (F := Ideal) m ρ c (Proc.devRef .tc main_v1) = W1 (F := Ideal) m ρ c (Proc.devRef .tc main_v1) :=
  calc W4 (F := Ideal) m ρ c (Proc.devRef .tc main_v1)
    _ = W3 (F := Ideal) m ρ c (Proc.devRef .tc main_v1) := (W4_of_ne m ρ c main_v1 (by decide))
    _ = W2 (F := Ideal) m ρ c (Proc.devRef .tc main_v1) := (StableHlo.after_of_forall_not_mem (b := Proc.devRef .tc main_v1) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v1) := (StableHlo.after_of_forall_not_mem (b := Proc.devRef .tc main_v1) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v3_4_1 (c : Dev nD) : W4 (F := Ideal) m ρ c (Proc.devRef .tc main_v3) = W1 (F := Ideal) m ρ c (Proc.devRef .tc main_v3) :=
  calc W4 (F := Ideal) m ρ c (Proc.devRef .tc main_v3)
    _ = W3 (F := Ideal) m ρ c (Proc.devRef .tc main_v3) := (W4_of_ne m ρ c main_v3 (by decide))
    _ = W2 (F := Ideal) m ρ c (Proc.devRef .tc main_v3) := (StableHlo.after_of_forall_not_mem (b := Proc.devRef .tc main_v3) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v3) := (StableHlo.after_of_forall_not_mem (b := Proc.devRef .tc main_v3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v1_7_1 (c : Dev nD) : W7 (F := Ideal) m ρ c (Proc.devRef .tc main_v1) = W1 (F := Ideal) m ρ c (Proc.devRef .tc main_v1) :=
  calc W7 (F := Ideal) m ρ c (Proc.devRef .tc main_v1)
    _ = W6 (F := Ideal) m ρ c (Proc.devRef .tc main_v1) := (W7_of_ne m ρ c main_v1 (by decide))
    _ = W5 (F := Ideal) m ρ c (Proc.devRef .tc main_v1) := (W6_of_ne m ρ c main_v1 (by decide))
    _ = W4 (F := Ideal) m ρ c (Proc.devRef .tc main_v1) := (StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v1) := (W4_of_ne m ρ c main_v1 (by decide))
    _ = W2 (F := Ideal) m ρ c (Proc.devRef .tc main_v1) := (StableHlo.after_of_forall_not_mem (b := Proc.devRef .tc main_v1) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v1) := (StableHlo.after_of_forall_not_mem (b := Proc.devRef .tc main_v1) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v3_7_1 (c : Dev nD) : W7 (F := Ideal) m ρ c (Proc.devRef .tc main_v3) = W1 (F := Ideal) m ρ c (Proc.devRef .tc main_v3) :=
  calc W7 (F := Ideal) m ρ c (Proc.devRef .tc main_v3)
    _ = W6 (F := Ideal) m ρ c (Proc.devRef .tc main_v3) := (W7_of_ne m ρ c main_v3 (by decide))
    _ = W5 (F := Ideal) m ρ c (Proc.devRef .tc main_v3) := (W6_of_ne m ρ c main_v3 (by decide))
    _ = W4 (F := Ideal) m ρ c (Proc.devRef .tc main_v3) := (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v3) := (W4_of_ne m ρ c main_v3 (by decide))
    _ = W2 (F := Ideal) m ρ c (Proc.devRef .tc main_v3) := (StableHlo.after_of_forall_not_mem (b := Proc.devRef .tc main_v3) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v3) := (StableHlo.after_of_forall_not_mem (b := Proc.devRef .tc main_v3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v1_10_1 (c : Dev nD) : W10 (F := Ideal) m ρ c (Proc.devRef .tc main_v1) = W1 (F := Ideal) m ρ c (Proc.devRef .tc main_v1) :=
  calc W10 (F := Ideal) m ρ c (Proc.devRef .tc main_v1)
    _ = W9 (F := Ideal) m ρ c (Proc.devRef .tc main_v1) := (W10_of_ne m ρ c main_v1 (by decide))
    _ = W8 (F := Ideal) m ρ c (Proc.devRef .tc main_v1) := (W9_of_ne m ρ c main_v1 (by decide))
    _ = W7 (F := Ideal) m ρ c (Proc.devRef .tc main_v1) := (StableHlo.after_of_forall_not_mem (b := Proc.devRef .tc main_v1) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_v1) := (W7_of_ne m ρ c main_v1 (by decide))
    _ = W5 (F := Ideal) m ρ c (Proc.devRef .tc main_v1) := (W6_of_ne m ρ c main_v1 (by decide))
    _ = W4 (F := Ideal) m ρ c (Proc.devRef .tc main_v1) := (StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v1) := (W4_of_ne m ρ c main_v1 (by decide))
    _ = W2 (F := Ideal) m ρ c (Proc.devRef .tc main_v1) := (StableHlo.after_of_forall_not_mem (b := Proc.devRef .tc main_v1) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v1) := (StableHlo.after_of_forall_not_mem (b := Proc.devRef .tc main_v1) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v3_10_1 (c : Dev nD) : W10 (F := Ideal) m ρ c (Proc.devRef .tc main_v3) = W1 (F := Ideal) m ρ c (Proc.devRef .tc main_v3) :=
  calc W10 (F := Ideal) m ρ c (Proc.devRef .tc main_v3)
    _ = W9 (F := Ideal) m ρ c (Proc.devRef .tc main_v3) := (W10_of_ne m ρ c main_v3 (by decide))
    _ = W8 (F := Ideal) m ρ c (Proc.devRef .tc main_v3) := (W9_of_ne m ρ c main_v3 (by decide))
    _ = W7 (F := Ideal) m ρ c (Proc.devRef .tc main_v3) := (StableHlo.after_of_forall_not_mem (b := Proc.devRef .tc main_v3) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_v3) := (W7_of_ne m ρ c main_v3 (by decide))
    _ = W5 (F := Ideal) m ρ c (Proc.devRef .tc main_v3) := (W6_of_ne m ρ c main_v3 (by decide))
    _ = W4 (F := Ideal) m ρ c (Proc.devRef .tc main_v3) := (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v3) := (W4_of_ne m ρ c main_v3 (by decide))
    _ = W2 (F := Ideal) m ρ c (Proc.devRef .tc main_v3) := (StableHlo.after_of_forall_not_mem (b := Proc.devRef .tc main_v3) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_v3) := (StableHlo.after_of_forall_not_mem (b := Proc.devRef .tc main_v3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v14_5_3 (c : Dev nD) : W5 (F := Ideal) m ρ c (Proc.devRef .tc main_v14) = W3 (F := Ideal) m ρ c (Proc.devRef .tc main_v14) :=
  calc W5 (F := Ideal) m ρ c (Proc.devRef .tc main_v14)
    _ = W4 (F := Ideal) m ρ c (Proc.devRef .tc main_v14) := (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v14) := ((W4_arr m ρ c 2).trans (((dat0 (V3 m ρ) c).arrAt_in 2 rfl _).trans (A_eq0 (V3 m ρ) c 2)))

theorem keep_main_v14_6_3 (c : Dev nD) : W6 (F := Ideal) m ρ c (Proc.devRef .tc main_v14) = W3 (F := Ideal) m ρ c (Proc.devRef .tc main_v14) :=
  calc W6 (F := Ideal) m ρ c (Proc.devRef .tc main_v14)
    _ = W5 (F := Ideal) m ρ c (Proc.devRef .tc main_v14) := ((W6_arr m ρ c 2).trans (((dat1 (V5 m ρ) c).arrAt_in 2 rfl _).trans (A_eq1 (V5 m ρ) c 2)))
    _ = W4 (F := Ideal) m ρ c (Proc.devRef .tc main_v14) := (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v14) := ((W4_arr m ρ c 2).trans (((dat0 (V3 m ρ) c).arrAt_in 2 rfl _).trans (A_eq0 (V3 m ρ) c 2)))

theorem keep_main_v14_8_3 (c : Dev nD) : W8 (F := Ideal) m ρ c (Proc.devRef .tc main_v14) = W3 (F := Ideal) m ρ c (Proc.devRef .tc main_v14) :=
  calc W8 (F := Ideal) m ρ c (Proc.devRef .tc main_v14)
    _ = W7 (F := Ideal) m ρ c (Proc.devRef .tc main_v14) := (StableHlo.after_of_forall_not_mem (b := Proc.devRef .tc main_v14) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_v14) := ((W7_arr m ρ c 2).trans (((dat2 (V6 m ρ) c).arrAt_in 2 rfl _).trans (A_eq2 (V6 m ρ) c 2)))
    _ = W5 (F := Ideal) m ρ c (Proc.devRef .tc main_v14) := ((W6_arr m ρ c 2).trans (((dat1 (V5 m ρ) c).arrAt_in 2 rfl _).trans (A_eq1 (V5 m ρ) c 2)))
    _ = W4 (F := Ideal) m ρ c (Proc.devRef .tc main_v14) := (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v14) := ((W4_arr m ρ c 2).trans (((dat0 (V3 m ρ) c).arrAt_in 2 rfl _).trans (A_eq0 (V3 m ρ) c 2)))

theorem keep_main_v14_9_3 (c : Dev nD) : W9 (F := Ideal) m ρ c (Proc.devRef .tc main_v14) = W3 (F := Ideal) m ρ c (Proc.devRef .tc main_v14) :=
  calc W9 (F := Ideal) m ρ c (Proc.devRef .tc main_v14)
    _ = W8 (F := Ideal) m ρ c (Proc.devRef .tc main_v14) := ((W9_arr m ρ c 2).trans (((dat3 (V8 m ρ) c).arrAt_in 2 rfl _).trans (A_eq3 (V8 m ρ) c 2)))
    _ = W7 (F := Ideal) m ρ c (Proc.devRef .tc main_v14) := (StableHlo.after_of_forall_not_mem (b := Proc.devRef .tc main_v14) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_v14) := ((W7_arr m ρ c 2).trans (((dat2 (V6 m ρ) c).arrAt_in 2 rfl _).trans (A_eq2 (V6 m ρ) c 2)))
    _ = W5 (F := Ideal) m ρ c (Proc.devRef .tc main_v14) := ((W6_arr m ρ c 2).trans (((dat1 (V5 m ρ) c).arrAt_in 2 rfl _).trans (A_eq1 (V5 m ρ) c 2)))
    _ = W4 (F := Ideal) m ρ c (Proc.devRef .tc main_v14) := (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v14) := ((W4_arr m ρ c 2).trans (((dat0 (V3 m ρ) c).arrAt_in 2 rfl _).trans (A_eq0 (V3 m ρ) c 2)))

theorem keep_main_v14_11_3 (c : Dev nD) : W11 (F := Ideal) m ρ c (Proc.devRef .tc main_v14) = W3 (F := Ideal) m ρ c (Proc.devRef .tc main_v14) :=
  calc W11 (F := Ideal) m ρ c (Proc.devRef .tc main_v14)
    _ = W10 (F := Ideal) m ρ c (Proc.devRef .tc main_v14) := (StableHlo.after_of_forall_not_mem (b := Proc.devRef .tc main_v14) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_v14) := ((W10_arr m ρ c 2).trans (((dat4 (V9 m ρ) c).arrAt_in 2 rfl _).trans (A_eq4 (V9 m ρ) c 2)))
    _ = W8 (F := Ideal) m ρ c (Proc.devRef .tc main_v14) := ((W9_arr m ρ c 2).trans (((dat3 (V8 m ρ) c).arrAt_in 2 rfl _).trans (A_eq3 (V8 m ρ) c 2)))
    _ = W7 (F := Ideal) m ρ c (Proc.devRef .tc main_v14) := (StableHlo.after_of_forall_not_mem (b := Proc.devRef .tc main_v14) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_v14) := ((W7_arr m ρ c 2).trans (((dat2 (V6 m ρ) c).arrAt_in 2 rfl _).trans (A_eq2 (V6 m ρ) c 2)))
    _ = W5 (F := Ideal) m ρ c (Proc.devRef .tc main_v14) := ((W6_arr m ρ c 2).trans (((dat1 (V5 m ρ) c).arrAt_in 2 rfl _).trans (A_eq1 (V5 m ρ) c 2)))
    _ = W4 (F := Ideal) m ρ c (Proc.devRef .tc main_v14) := (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_v14) := ((W4_arr m ρ c 2).trans (((dat0 (V3 m ρ) c).arrAt_in 2 rfl _).trans (A_eq0 (V3 m ρ) c 2)))

theorem keep_main_arg3_4_0 (c : Dev nD) : W4 (F := Ideal) m ρ c (Proc.devRef .tc main_arg3) = W0 (F := Ideal) m ρ c (Proc.devRef .tc main_arg3) :=
  calc W4 (F := Ideal) m ρ c (Proc.devRef .tc main_arg3)
    _ = W3 (F := Ideal) m ρ c (Proc.devRef .tc main_arg3) := (W4_of_ne m ρ c main_arg3 (by decide))
    _ = W2 (F := Ideal) m ρ c (Proc.devRef .tc main_arg3) := (StableHlo.after_of_forall_not_mem (b := Proc.devRef .tc main_arg3) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg3) := (StableHlo.after_of_forall_not_mem (b := Proc.devRef .tc main_arg3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg3) := (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg4_4_0 (c : Dev nD) : W4 (F := Ideal) m ρ c (Proc.devRef .tc main_arg4) = W0 (F := Ideal) m ρ c (Proc.devRef .tc main_arg4) :=
  calc W4 (F := Ideal) m ρ c (Proc.devRef .tc main_arg4)
    _ = W3 (F := Ideal) m ρ c (Proc.devRef .tc main_arg4) := (W4_of_ne m ρ c main_arg4 (by decide))
    _ = W2 (F := Ideal) m ρ c (Proc.devRef .tc main_arg4) := (StableHlo.after_of_forall_not_mem (b := Proc.devRef .tc main_arg4) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg4) := (StableHlo.after_of_forall_not_mem (b := Proc.devRef .tc main_arg4) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg4) := (StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg5_4_0 (c : Dev nD) : W4 (F := Ideal) m ρ c (Proc.devRef .tc main_arg5) = W0 (F := Ideal) m ρ c (Proc.devRef .tc main_arg5) :=
  calc W4 (F := Ideal) m ρ c (Proc.devRef .tc main_arg5)
    _ = W3 (F := Ideal) m ρ c (Proc.devRef .tc main_arg5) := (W4_of_ne m ρ c main_arg5 (by decide))
    _ = W2 (F := Ideal) m ρ c (Proc.devRef .tc main_arg5) := (StableHlo.after_of_forall_not_mem (b := Proc.devRef .tc main_arg5) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg5) := (StableHlo.after_of_forall_not_mem (b := Proc.devRef .tc main_arg5) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg5) := (StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg6_6_0 (c : Dev nD) : W6 (F := Ideal) m ρ c (Proc.devRef .tc main_arg6) = W0 (F := Ideal) m ρ c (Proc.devRef .tc main_arg6) :=
  calc W6 (F := Ideal) m ρ c (Proc.devRef .tc main_arg6)
    _ = W5 (F := Ideal) m ρ c (Proc.devRef .tc main_arg6) := (W6_of_ne m ρ c main_arg6 (by decide))
    _ = W4 (F := Ideal) m ρ c (Proc.devRef .tc main_arg6) := (StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg6) := (W4_of_ne m ρ c main_arg6 (by decide))
    _ = W2 (F := Ideal) m ρ c (Proc.devRef .tc main_arg6) := (StableHlo.after_of_forall_not_mem (b := Proc.devRef .tc main_arg6) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg6) := (StableHlo.after_of_forall_not_mem (b := Proc.devRef .tc main_arg6) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg6) := (StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg7_7_0 (c : Dev nD) : W7 (F := Ideal) m ρ c (Proc.devRef .tc main_arg7) = W0 (F := Ideal) m ρ c (Proc.devRef .tc main_arg7) :=
  calc W7 (F := Ideal) m ρ c (Proc.devRef .tc main_arg7)
    _ = W6 (F := Ideal) m ρ c (Proc.devRef .tc main_arg7) := (W7_of_ne m ρ c main_arg7 (by decide))
    _ = W5 (F := Ideal) m ρ c (Proc.devRef .tc main_arg7) := (W6_of_ne m ρ c main_arg7 (by decide))
    _ = W4 (F := Ideal) m ρ c (Proc.devRef .tc main_arg7) := (StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg7) := (W4_of_ne m ρ c main_arg7 (by decide))
    _ = W2 (F := Ideal) m ρ c (Proc.devRef .tc main_arg7) := (StableHlo.after_of_forall_not_mem (b := Proc.devRef .tc main_arg7) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg7) := (StableHlo.after_of_forall_not_mem (b := Proc.devRef .tc main_arg7) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg7) := (StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg8_7_0 (c : Dev nD) : W7 (F := Ideal) m ρ c (Proc.devRef .tc main_arg8) = W0 (F := Ideal) m ρ c (Proc.devRef .tc main_arg8) :=
  calc W7 (F := Ideal) m ρ c (Proc.devRef .tc main_arg8)
    _ = W6 (F := Ideal) m ρ c (Proc.devRef .tc main_arg8) := (W7_of_ne m ρ c main_arg8 (by decide))
    _ = W5 (F := Ideal) m ρ c (Proc.devRef .tc main_arg8) := (W6_of_ne m ρ c main_arg8 (by decide))
    _ = W4 (F := Ideal) m ρ c (Proc.devRef .tc main_arg8) := (StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg8) := (W4_of_ne m ρ c main_arg8 (by decide))
    _ = W2 (F := Ideal) m ρ c (Proc.devRef .tc main_arg8) := (StableHlo.after_of_forall_not_mem (b := Proc.devRef .tc main_arg8) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg8) := (StableHlo.after_of_forall_not_mem (b := Proc.devRef .tc main_arg8) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg8) := (StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg9_7_0 (c : Dev nD) : W7 (F := Ideal) m ρ c (Proc.devRef .tc main_arg9) = W0 (F := Ideal) m ρ c (Proc.devRef .tc main_arg9) :=
  calc W7 (F := Ideal) m ρ c (Proc.devRef .tc main_arg9)
    _ = W6 (F := Ideal) m ρ c (Proc.devRef .tc main_arg9) := (W7_of_ne m ρ c main_arg9 (by decide))
    _ = W5 (F := Ideal) m ρ c (Proc.devRef .tc main_arg9) := (W6_of_ne m ρ c main_arg9 (by decide))
    _ = W4 (F := Ideal) m ρ c (Proc.devRef .tc main_arg9) := (StableHlo.after_of_forall_not_mem (b := Proc.devRef .tc main_arg9) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg9) := (W4_of_ne m ρ c main_arg9 (by decide))
    _ = W2 (F := Ideal) m ρ c (Proc.devRef .tc main_arg9) := (StableHlo.after_of_forall_not_mem (b := Proc.devRef .tc main_arg9) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg9) := (StableHlo.after_of_forall_not_mem (b := Proc.devRef .tc main_arg9) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg9) := (StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg10_9_0 (c : Dev nD) : W9 (F := Ideal) m ρ c (Proc.devRef .tc main_arg10) = W0 (F := Ideal) m ρ c (Proc.devRef .tc main_arg10) :=
  calc W9 (F := Ideal) m ρ c (Proc.devRef .tc main_arg10)
    _ = W8 (F := Ideal) m ρ c (Proc.devRef .tc main_arg10) := (W9_of_ne m ρ c main_arg10 (by decide))
    _ = W7 (F := Ideal) m ρ c (Proc.devRef .tc main_arg10) := (StableHlo.after_of_forall_not_mem (b := Proc.devRef .tc main_arg10) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg10) := (W7_of_ne m ρ c main_arg10 (by decide))
    _ = W5 (F := Ideal) m ρ c (Proc.devRef .tc main_arg10) := (W6_of_ne m ρ c main_arg10 (by decide))
    _ = W4 (F := Ideal) m ρ c (Proc.devRef .tc main_arg10) := (StableHlo.after_of_forall_not_mem (b := Proc.devRef .tc main_arg10) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg10) := (W4_of_ne m ρ c main_arg10 (by decide))
    _ = W2 (F := Ideal) m ρ c (Proc.devRef .tc main_arg10) := (StableHlo.after_of_forall_not_mem (b := Proc.devRef .tc main_arg10) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg10) := (StableHlo.after_of_forall_not_mem (b := Proc.devRef .tc main_arg10) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg10) := (StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg11_10_0 (c : Dev nD) : W10 (F := Ideal) m ρ c (Proc.devRef .tc main_arg11) = W0 (F := Ideal) m ρ c (Proc.devRef .tc main_arg11) :=
  calc W10 (F := Ideal) m ρ c (Proc.devRef .tc main_arg11)
    _ = W9 (F := Ideal) m ρ c (Proc.devRef .tc main_arg11) := (W10_of_ne m ρ c main_arg11 (by decide))
    _ = W8 (F := Ideal) m ρ c (Proc.devRef .tc main_arg11) := (W9_of_ne m ρ c main_arg11 (by decide))
    _ = W7 (F := Ideal) m ρ c (Proc.devRef .tc main_arg11) := (StableHlo.after_of_forall_not_mem (b := Proc.devRef .tc main_arg11) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg11) := (W7_of_ne m ρ c main_arg11 (by decide))
    _ = W5 (F := Ideal) m ρ c (Proc.devRef .tc main_arg11) := (W6_of_ne m ρ c main_arg11 (by decide))
    _ = W4 (F := Ideal) m ρ c (Proc.devRef .tc main_arg11) := (StableHlo.after_of_forall_not_mem (b := Proc.devRef .tc main_arg11) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg11) := (W4_of_ne m ρ c main_arg11 (by decide))
    _ = W2 (F := Ideal) m ρ c (Proc.devRef .tc main_arg11) := (StableHlo.after_of_forall_not_mem (b := Proc.devRef .tc main_arg11) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg11) := (StableHlo.after_of_forall_not_mem (b := Proc.devRef .tc main_arg11) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg11) := (StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg12_10_0 (c : Dev nD) : W10 (F := Ideal) m ρ c (Proc.devRef .tc main_arg12) = W0 (F := Ideal) m ρ c (Proc.devRef .tc main_arg12) :=
  calc W10 (F := Ideal) m ρ c (Proc.devRef .tc main_arg12)
    _ = W9 (F := Ideal) m ρ c (Proc.devRef .tc main_arg12) := (W10_of_ne m ρ c main_arg12 (by decide))
    _ = W8 (F := Ideal) m ρ c (Proc.devRef .tc main_arg12) := (W9_of_ne m ρ c main_arg12 (by decide))
    _ = W7 (F := Ideal) m ρ c (Proc.devRef .tc main_arg12) := (StableHlo.after_of_forall_not_mem (b := Proc.devRef .tc main_arg12) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg12) := (W7_of_ne m ρ c main_arg12 (by decide))
    _ = W5 (F := Ideal) m ρ c (Proc.devRef .tc main_arg12) := (W6_of_ne m ρ c main_arg12 (by decide))
    _ = W4 (F := Ideal) m ρ c (Proc.devRef .tc main_arg12) := (StableHlo.after_of_forall_not_mem (b := Proc.devRef .tc main_arg12) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg12) := (W4_of_ne m ρ c main_arg12 (by decide))
    _ = W2 (F := Ideal) m ρ c (Proc.devRef .tc main_arg12) := (StableHlo.after_of_forall_not_mem (b := Proc.devRef .tc main_arg12) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg12) := (StableHlo.after_of_forall_not_mem (b := Proc.devRef .tc main_arg12) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg12) := (StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg13_10_0 (c : Dev nD) : W10 (F := Ideal) m ρ c (Proc.devRef .tc main_arg13) = W0 (F := Ideal) m ρ c (Proc.devRef .tc main_arg13) :=
  calc W10 (F := Ideal) m ρ c (Proc.devRef .tc main_arg13)
    _ = W9 (F := Ideal) m ρ c (Proc.devRef .tc main_arg13) := (W10_of_ne m ρ c main_arg13 (by decide))
    _ = W8 (F := Ideal) m ρ c (Proc.devRef .tc main_arg13) := (W9_of_ne m ρ c main_arg13 (by decide))
    _ = W7 (F := Ideal) m ρ c (Proc.devRef .tc main_arg13) := (StableHlo.after_of_forall_not_mem (b := Proc.devRef .tc main_arg13) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg13) := (W7_of_ne m ρ c main_arg13 (by decide))
    _ = W5 (F := Ideal) m ρ c (Proc.devRef .tc main_arg13) := (W6_of_ne m ρ c main_arg13 (by decide))
    _ = W4 (F := Ideal) m ρ c (Proc.devRef .tc main_arg13) := (StableHlo.after_of_forall_not_mem (b := Proc.devRef .tc main_arg13) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg13) := (W4_of_ne m ρ c main_arg13 (by decide))
    _ = W2 (F := Ideal) m ρ c (Proc.devRef .tc main_arg13) := (StableHlo.after_of_forall_not_mem (b := Proc.devRef .tc main_arg13) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg13) := (StableHlo.after_of_forall_not_mem (b := Proc.devRef .tc main_arg13) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg13) := (StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg14_13_0 (c : Dev nD) : W13 (F := Ideal) m ρ c (Proc.devRef .tc main_arg14) = W0 (F := Ideal) m ρ c (Proc.devRef .tc main_arg14) :=
  calc W13 (F := Ideal) m ρ c (Proc.devRef .tc main_arg14)
    _ = W12 (F := Ideal) m ρ c (Proc.devRef .tc main_arg14) := (StableHlo.after_of_forall_not_mem (b := Proc.devRef .tc main_arg14) _ _ (List.forall_iff_forall_mem.mp (by
      simp only [hostOps6, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W11 (F := Ideal) m ρ c (Proc.devRef .tc main_arg14) := (W12_of_ne m ρ c main_arg14 (by decide))
    _ = W10 (F := Ideal) m ρ c (Proc.devRef .tc main_arg14) := (StableHlo.after_of_forall_not_mem (b := Proc.devRef .tc main_arg14) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg14) := (W10_of_ne m ρ c main_arg14 (by decide))
    _ = W8 (F := Ideal) m ρ c (Proc.devRef .tc main_arg14) := (W9_of_ne m ρ c main_arg14 (by decide))
    _ = W7 (F := Ideal) m ρ c (Proc.devRef .tc main_arg14) := (StableHlo.after_of_forall_not_mem (b := Proc.devRef .tc main_arg14) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg14) := (W7_of_ne m ρ c main_arg14 (by decide))
    _ = W5 (F := Ideal) m ρ c (Proc.devRef .tc main_arg14) := (W6_of_ne m ρ c main_arg14 (by decide))
    _ = W4 (F := Ideal) m ρ c (Proc.devRef .tc main_arg14) := (StableHlo.after_of_forall_not_mem (b := Proc.devRef .tc main_arg14) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg14) := (W4_of_ne m ρ c main_arg14 (by decide))
    _ = W2 (F := Ideal) m ρ c (Proc.devRef .tc main_arg14) := (StableHlo.after_of_forall_not_mem (b := Proc.devRef .tc main_arg14) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg14) := (StableHlo.after_of_forall_not_mem (b := Proc.devRef .tc main_arg14) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg14) := (StableHlo.after_of_forall_not_mem (b := Proc.devRef .tc main_arg14) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg15_12_0 (c : Dev nD) : W12 (F := Ideal) m ρ c (Proc.devRef .tc main_arg15) = W0 (F := Ideal) m ρ c (Proc.devRef .tc main_arg15) :=
  calc W12 (F := Ideal) m ρ c (Proc.devRef .tc main_arg15)
    _ = W11 (F := Ideal) m ρ c (Proc.devRef .tc main_arg15) := (W12_of_ne m ρ c main_arg15 (by decide))
    _ = W10 (F := Ideal) m ρ c (Proc.devRef .tc main_arg15) := (StableHlo.after_of_forall_not_mem (b := Proc.devRef .tc main_arg15) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg15) := (W10_of_ne m ρ c main_arg15 (by decide))
    _ = W8 (F := Ideal) m ρ c (Proc.devRef .tc main_arg15) := (W9_of_ne m ρ c main_arg15 (by decide))
    _ = W7 (F := Ideal) m ρ c (Proc.devRef .tc main_arg15) := (StableHlo.after_of_forall_not_mem (b := Proc.devRef .tc main_arg15) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg15) := (W7_of_ne m ρ c main_arg15 (by decide))
    _ = W5 (F := Ideal) m ρ c (Proc.devRef .tc main_arg15) := (W6_of_ne m ρ c main_arg15 (by decide))
    _ = W4 (F := Ideal) m ρ c (Proc.devRef .tc main_arg15) := (StableHlo.after_of_forall_not_mem (b := Proc.devRef .tc main_arg15) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg15) := (W4_of_ne m ρ c main_arg15 (by decide))
    _ = W2 (F := Ideal) m ρ c (Proc.devRef .tc main_arg15) := (StableHlo.after_of_forall_not_mem (b := Proc.devRef .tc main_arg15) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg15) := (StableHlo.after_of_forall_not_mem (b := Proc.devRef .tc main_arg15) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg15) := (StableHlo.after_of_forall_not_mem (b := Proc.devRef .tc main_arg15) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg16_12_0 (c : Dev nD) : W12 (F := Ideal) m ρ c (Proc.devRef .tc main_arg16) = W0 (F := Ideal) m ρ c (Proc.devRef .tc main_arg16) :=
  calc W12 (F := Ideal) m ρ c (Proc.devRef .tc main_arg16)
    _ = W11 (F := Ideal) m ρ c (Proc.devRef .tc main_arg16) := (W12_of_ne m ρ c main_arg16 (by decide))
    _ = W10 (F := Ideal) m ρ c (Proc.devRef .tc main_arg16) := (StableHlo.after_of_forall_not_mem (b := Proc.devRef .tc main_arg16) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg16) := (W10_of_ne m ρ c main_arg16 (by decide))
    _ = W8 (F := Ideal) m ρ c (Proc.devRef .tc main_arg16) := (W9_of_ne m ρ c main_arg16 (by decide))
    _ = W7 (F := Ideal) m ρ c (Proc.devRef .tc main_arg16) := (StableHlo.after_of_forall_not_mem (b := Proc.devRef .tc main_arg16) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg16) := (W7_of_ne m ρ c main_arg16 (by decide))
    _ = W5 (F := Ideal) m ρ c (Proc.devRef .tc main_arg16) := (W6_of_ne m ρ c main_arg16 (by decide))
    _ = W4 (F := Ideal) m ρ c (Proc.devRef .tc main_arg16) := (StableHlo.after_of_forall_not_mem (b := Proc.devRef .tc main_arg16) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg16) := (W4_of_ne m ρ c main_arg16 (by decide))
    _ = W2 (F := Ideal) m ρ c (Proc.devRef .tc main_arg16) := (StableHlo.after_of_forall_not_mem (b := Proc.devRef .tc main_arg16) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg16) := (StableHlo.after_of_forall_not_mem (b := Proc.devRef .tc main_arg16) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg16) := (StableHlo.after_of_forall_not_mem (b := Proc.devRef .tc main_arg16) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg17_12_0 (c : Dev nD) : W12 (F := Ideal) m ρ c (Proc.devRef .tc main_arg17) = W0 (F := Ideal) m ρ c (Proc.devRef .tc main_arg17) :=
  calc W12 (F := Ideal) m ρ c (Proc.devRef .tc main_arg17)
    _ = W11 (F := Ideal) m ρ c (Proc.devRef .tc main_arg17) := (W12_of_ne m ρ c main_arg17 (by decide))
    _ = W10 (F := Ideal) m ρ c (Proc.devRef .tc main_arg17) := (StableHlo.after_of_forall_not_mem (b := Proc.devRef .tc main_arg17) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg17) := (W10_of_ne m ρ c main_arg17 (by decide))
    _ = W8 (F := Ideal) m ρ c (Proc.devRef .tc main_arg17) := (W9_of_ne m ρ c main_arg17 (by decide))
    _ = W7 (F := Ideal) m ρ c (Proc.devRef .tc main_arg17) := (StableHlo.after_of_forall_not_mem (b := Proc.devRef .tc main_arg17) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg17) := (W7_of_ne m ρ c main_arg17 (by decide))
    _ = W5 (F := Ideal) m ρ c (Proc.devRef .tc main_arg17) := (W6_of_ne m ρ c main_arg17 (by decide))
    _ = W4 (F := Ideal) m ρ c (Proc.devRef .tc main_arg17) := (StableHlo.after_of_forall_not_mem (b := Proc.devRef .tc main_arg17) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg17) := (W4_of_ne m ρ c main_arg17 (by decide))
    _ = W2 (F := Ideal) m ρ c (Proc.devRef .tc main_arg17) := (StableHlo.after_of_forall_not_mem (b := Proc.devRef .tc main_arg17) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg17) := (StableHlo.after_of_forall_not_mem (b := Proc.devRef .tc main_arg17) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg17) := (StableHlo.after_of_forall_not_mem (b := Proc.devRef .tc main_arg17) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg19_12_0 (c : Dev nD) : W12 (F := Ideal) m ρ c (Proc.devRef .tc main_arg19) = W0 (F := Ideal) m ρ c (Proc.devRef .tc main_arg19) :=
  calc W12 (F := Ideal) m ρ c (Proc.devRef .tc main_arg19)
    _ = W11 (F := Ideal) m ρ c (Proc.devRef .tc main_arg19) := (W12_of_ne m ρ c main_arg19 (by decide))
    _ = W10 (F := Ideal) m ρ c (Proc.devRef .tc main_arg19) := (StableHlo.after_of_forall_not_mem (b := Proc.devRef .tc main_arg19) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg19) := (W10_of_ne m ρ c main_arg19 (by decide))
    _ = W8 (F := Ideal) m ρ c (Proc.devRef .tc main_arg19) := (W9_of_ne m ρ c main_arg19 (by decide))
    _ = W7 (F := Ideal) m ρ c (Proc.devRef .tc main_arg19) := (StableHlo.after_of_forall_not_mem (b := Proc.devRef .tc main_arg19) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg19) := (W7_of_ne m ρ c main_arg19 (by decide))
    _ = W5 (F := Ideal) m ρ c (Proc.devRef .tc main_arg19) := (W6_of_ne m ρ c main_arg19 (by decide))
    _ = W4 (F := Ideal) m ρ c (Proc.devRef .tc main_arg19) := (StableHlo.after_of_forall_not_mem (b := Proc.devRef .tc main_arg19) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg19) := (W4_of_ne m ρ c main_arg19 (by decide))
    _ = W2 (F := Ideal) m ρ c (Proc.devRef .tc main_arg19) := (StableHlo.after_of_forall_not_mem (b := Proc.devRef .tc main_arg19) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg19) := (StableHlo.after_of_forall_not_mem (b := Proc.devRef .tc main_arg19) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg19) := (StableHlo.after_of_forall_not_mem (b := Proc.devRef .tc main_arg19) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_arg18_13_0 (c : Dev nD) : W13 (F := Ideal) m ρ c (Proc.devRef .tc main_arg18) = W0 (F := Ideal) m ρ c (Proc.devRef .tc main_arg18) :=
  calc W13 (F := Ideal) m ρ c (Proc.devRef .tc main_arg18)
    _ = W12 (F := Ideal) m ρ c (Proc.devRef .tc main_arg18) := (StableHlo.after_of_forall_not_mem (b := Proc.devRef .tc main_arg18) _ _ (List.forall_iff_forall_mem.mp (by
      simp only [hostOps6, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W11 (F := Ideal) m ρ c (Proc.devRef .tc main_arg18) := (W12_of_ne m ρ c main_arg18 (by decide))
    _ = W10 (F := Ideal) m ρ c (Proc.devRef .tc main_arg18) := (StableHlo.after_of_forall_not_mem (b := Proc.devRef .tc main_arg18) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W9 (F := Ideal) m ρ c (Proc.devRef .tc main_arg18) := (W10_of_ne m ρ c main_arg18 (by decide))
    _ = W8 (F := Ideal) m ρ c (Proc.devRef .tc main_arg18) := (W9_of_ne m ρ c main_arg18 (by decide))
    _ = W7 (F := Ideal) m ρ c (Proc.devRef .tc main_arg18) := (StableHlo.after_of_forall_not_mem (b := Proc.devRef .tc main_arg18) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W6 (F := Ideal) m ρ c (Proc.devRef .tc main_arg18) := (W7_of_ne m ρ c main_arg18 (by decide))
    _ = W5 (F := Ideal) m ρ c (Proc.devRef .tc main_arg18) := (W6_of_ne m ρ c main_arg18 (by decide))
    _ = W4 (F := Ideal) m ρ c (Proc.devRef .tc main_arg18) := (StableHlo.after_of_forall_not_mem (b := Proc.devRef .tc main_arg18) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 (F := Ideal) m ρ c (Proc.devRef .tc main_arg18) := (W4_of_ne m ρ c main_arg18 (by decide))
    _ = W2 (F := Ideal) m ρ c (Proc.devRef .tc main_arg18) := (StableHlo.after_of_forall_not_mem (b := Proc.devRef .tc main_arg18) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 (F := Ideal) m ρ c (Proc.devRef .tc main_arg18) := (StableHlo.after_of_forall_not_mem (b := Proc.devRef .tc main_arg18) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W0 (F := Ideal) m ρ c (Proc.devRef .tc main_arg18) := (StableHlo.after_of_forall_not_mem (b := Proc.devRef .tc main_arg18) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v15_5_4 (c : Dev nD) : W5 (F := Ideal) m ρ c (Proc.devRef .tc main_v15) = W4 (F := Ideal) m ρ c (Proc.devRef .tc main_v15) :=
  calc W5 (F := Ideal) m ρ c (Proc.devRef .tc main_v15)
    _ = W4 (F := Ideal) m ρ c (Proc.devRef .tc main_v15) := (StableHlo.after_of_forall_not_mem (b := Proc.devRef .tc main_v15) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v30_8_7 (c : Dev nD) : W8 (F := Ideal) m ρ c (Proc.devRef .tc main_v30) = W7 (F := Ideal) m ρ c (Proc.devRef .tc main_v30) :=
  calc W8 (F := Ideal) m ρ c (Proc.devRef .tc main_v30)
    _ = W7 (F := Ideal) m ρ c (Proc.devRef .tc main_v30) := (StableHlo.after_of_forall_not_mem (b := Proc.devRef .tc main_v30) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v45_11_10 (c : Dev nD) : W11 (F := Ideal) m ρ c (Proc.devRef .tc main_v45) = W10 (F := Ideal) m ρ c (Proc.devRef .tc main_v45) :=
  calc W11 (F := Ideal) m ρ c (Proc.devRef .tc main_v45)
    _ = W10 (F := Ideal) m ρ c (Proc.devRef .tc main_v45) := (StableHlo.after_of_forall_not_mem (b := Proc.devRef .tc main_v45) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem keep_main_v59_13_12 (c : Dev nD) : W13 (F := Ideal) m ρ c (Proc.devRef .tc main_v59) = W12 (F := Ideal) m ρ c (Proc.devRef .tc main_v59) :=
  calc W13 (F := Ideal) m ρ c (Proc.devRef .tc main_v59)
    _ = W12 (F := Ideal) m ρ c (Proc.devRef .tc main_v59) := (StableHlo.after_of_forall_not_mem (b := Proc.devRef .tc main_v59) _ _ (List.forall_iff_forall_mem.mp (by
      simp only [hostOps6, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

end Cert.KerSide
end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KerBodyLib.lean ====
/-
  Layout and reduction readings used by the kernel bodies, at an index, independent of any program:

  * a column [a, 1] broadcast along the lanes to [a, b] reads, at (p, c), the column's entry at row p;
  * a vector [a] recast as a column [a, 1] reads, at (p, 0), the vector's entry p;
  * the sum over the second axis of an [a, b] array, read at row p, is the sum over the columns c of the entries (p, c);
  * the inverse square root and the exponential of an array are taken entry by entry;
  * choosing x where x is above zero and e^x − 1 elsewhere is ELU.
-/
import proofs.«137113_j6760278524492_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KerLib

open Idealize.ShloMosaic Idealize.ShloMosaic.ValueIdx Cert.GCN

variable {α : Type}

/-- An [a, 1] column broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector recast as an [a, 1] column reads, at (p, u), the vector at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the second axis of an [a, b] array of extended reals, read at row p: the sum over the columns. -/
theorem rowSum_apply {a b : ℕ} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src ?_
  funext c; apply Fin.ext
  fin_cases c <;> rfl

/-- The normalised, scaled and shifted row before ELU. -/
def preElu {d : Nat} (cd eps : EReal) (t g be : Fin d → EReal) (q : Fin d) : EReal :=
  (t q - rowMean cd t) * Ideal.rsqrt (rowVar cd t + eps) * g q + be q

/-- Layer normalisation through ELU is ELU of that row. -/
theorem lnelu_eq_elu_preElu {d : Nat} (cd eps : EReal) (t g be : Fin d → EReal) (q : Fin d) :
    lnelu cd eps t g be q = elu (preElu cd eps t g be q) := rfl

/-- The inverse square root of an array, entry by entry. -/
theorem rsqrt_apply {s : Shape} {φ : FTy} (x : FVec Ideal s φ) (i : s.Idx) : rsqrt x i = Ideal.rsqrt (x i) := rfl

/-- The exponential of an array, entry by entry. -/
theorem exp_apply {s : Shape} {φ : FTy} (x : FVec Ideal s φ) (i : s.Idx) : exp x i = Ideal.exp (x i) := rfl

/-- A scalar constant of a word is the word's value. -/
theorem scalar_ofBits_apply (w : BitVec 32) : (Scalar.ofBits .f32 w : Ideal .f32) = Ideal.ofBits .f32 w := rfl

/-- x where x is above the zero word's value, e^x minus the one word's value elsewhere: ELU. -/
theorem select_elu (x : EReal) :
    Scalar.select (FloatOps.cmpf (F := Ideal) (φ := .f32) .ogt x (Ideal.ofBits .f32 0x00000000#32)) x
        (Ideal.exp x - Ideal.ofBits .f32 0x3F800000#32) = elu x := by
  rw [Ideal.ofBits_zero_f32, ofBits_one_f32]
  show Scalar.select (BitVec.ofBool (decide ((0 : EReal) < x))) x (Ideal.exp x - 1) = elu x
  unfold elu
  by_cases hx : (0 : EReal) < x
  · rw [decide_eq_true hx, if_pos hx]; rfl
  · rw [decide_eq_false hx, if_neg hx]; rfl

end Cert.KerLib

end
-- ==== Proof.KerBodyMM.lean ====
/-
  The product-and-scale bodies at an index: the matrix product of the row block with the whole weight matrix at
  (r, q), times the row's node weight. The operands are narrowed before the product, which changes nothing on the
  extended reals; the product accumulates from zero.
-/
import proofs.«137113_j6760278524492_2_alg».proof.Proof.Gen.KernelIdeal.Skeleton
import proofs.«137113_j6760278524492_2_alg».proof.Proof.KerBodyLib
import proofs.«137113_j6760278524492_2_alg».proof.Proof.LibPlainDot

set_option maxRecDepth 16384

noncomputable section

namespace Cert.KerBody

open Idealize.ShloMosaic Idealize.ShloMosaic.ValueIdx Cert.KernelIdeal Cert.KernelIdeal.Gen Cert.GCN Cert.KerLib

theorem k0_pay1_apply (x0 : Vec Ideal S2000x128 .f32) (x1 : Vec Ideal S128x128 .f32) (x2 : Vec Ideal S2000x1 .f32)
    (r : Fin 2000) (q : Fin 128) :
    k0_pay1 (F := Ideal) x0 x1 x2 (ix2 r q)
      = mm (fun p c => x0 (ix2 p c)) (fun c q => x1 (ix2 c q)) r q * x2 (ix2 r (0 : Fin 1)) := by
  unfold k0_pay1 mm
  simp only [mulf_apply, shapeCast_self, broadcastTo_a1_ab_apply]
  congr 1
  exact Cert.Lib.matmul_zero_apply (M := 2000) (K := 128) (N := 128)
    dot_S2000x128_S128x128_S2000x128_1_0_0_1_n_n.wf none _ _ r q

theorem k2_pay1_apply (x0 : Vec Ideal S2000x128 .f32) (x1 : Vec Ideal S128x256 .f32) (x2 : Vec Ideal S2000x1 .f32)
    (r : Fin 2000) (q : Fin 256) :
    k2_pay1 (F := Ideal) x0 x1 x2 (ix2 r q)
      = mm (fun p c => x0 (ix2 p c)) (fun c q => x1 (ix2 c q)) r q * x2 (ix2 r (0 : Fin 1)) := by
  unfold k2_pay1 mm
  simp only [mulf_apply, shapeCast_self, broadcastTo_a1_ab_apply]
  congr 1
  exact Cert.Lib.matmul_zero_apply (M := 2000) (K := 128) (N := 256)
    dot_S2000x128_S128x256_S2000x256_1_0_0_1_n_n.wf none _ _ r q

theorem k4_pay1_apply (x0 : Vec Ideal S2000x256 .f32) (x1 : Vec Ideal S256x128 .f32) (x2 : Vec Ideal S2000x1 .f32)
    (r : Fin 2000) (q : Fin 128) :
    k4_pay1 (F := Ideal) x0 x1 x2 (ix2 r q)
      = mm (fun p c => x0 (ix2 p c)) (fun c q => x1 (ix2 c q)) r q * x2 (ix2 r (0 : Fin 1)) := by
  unfold k4_pay1 mm
  simp only [mulf_apply, shapeCast_self, broadcastTo_a1_ab_apply]
  congr 1
  exact Cert.Lib.matmul_zero_apply (M := 2000) (K := 256) (N := 128)
    dot_S2000x256_S256x128_S2000x128_1_0_0_1_n_n.wf none _ _ r q

end Cert.KerBody

end
-- ==== Proof.KerBodyEp1.lean ====
/-
  The epilogue bodies at an index. In row r the body forms the row  t = w·(a + u) + b  (w the row's node weight, a and
  u the two input rows, b the bias), takes its mean and its variance over the columns with the given divisor, and leaves
  (t q − mean)·rsqrt(variance + eps)·g q + be q  passed through ELU: the value itself where it is above zero, e^value − 1
  elsewhere.
-/
import proofs.«137113_j6760278524492_2_alg».proof.Proof.Gen.KernelIdeal.Skeleton
import proofs.«137113_j6760278524492_2_alg».proof.Proof.KerBodyLib

set_option maxRecDepth 16384

noncomputable section

namespace Cert.KerBody

open Idealize.ShloMosaic Idealize.ShloMosaic.ValueIdx Cert.KernelIdeal Cert.KernelIdeal.Gen Cert.GCN Cert.KerLib

theorem k1_pay2_apply (v0 : Vec Ideal S2000x1 .f32) (v2 v4 : Vec Ideal S2000x128 .f32) (v9 v31 v35 : Vec Ideal S1x128 .f32)
    (r : Fin 2000) (q : Fin 128) :
    k1_pay2 (F := Ideal) v0 v2 v4 v9 v31 v35 (ix2 r q)
      = preElu (Ideal.ofBits .f32 0x43000000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  unfold k1_pay2 preElu rowVar rowMean
  simp (config := { index := false }) only [mulf_apply, addf_apply, subf_apply, divf_apply, broadcast_apply, rsqrt_apply,
    scalar_ofBits_apply, shapeCast_self, broadcastTo_a1_ab_apply, broadcastTo_1b_ab_apply, shapeCast_a_a1_apply,
    rowSum_apply]

theorem k1_body_apply (v0 : Vec Ideal S2000x1 .f32) (v2 v4 : Vec Ideal S2000x128 .f32) (v9 v31 v35 : Vec Ideal S1x128 .f32)
    (r : Fin 2000) (q : Fin 128) :
    k1_pay1 (F := Ideal) (k1_pay2 v0 v2 v4 v9 v31 v35) (k1_pay3 v0 v2 v4 v9 v31 v35) (ix2 r q)
      = lnelu (Ideal.ofBits .f32 0x43000000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  rw [lnelu_eq_elu_preElu, ← k1_pay2_apply]
  unfold k1_pay1 k1_pay3
  generalize k1_pay2 (F := Ideal) v0 v2 v4 v9 v31 v35 = y
  simp only [select_apply, cmpf_apply, subf_apply, exp_apply, broadcast_apply, scalar_ofBits_apply]
  exact select_elu _

end Cert.KerBody

end
-- ==== Proof.KerBodyEp3.lean ====
/-
  The epilogue bodies at an index. In row r the body forms the row  t = w·(a + u) + b  (w the row's node weight, a and
  u the two input rows, b the bias), takes its mean and its variance over the columns with the given divisor, and leaves
  (t q − mean)·rsqrt(variance + eps)·g q + be q  passed through ELU: the value itself where it is above zero, e^value − 1
  elsewhere.
-/
import proofs.«137113_j6760278524492_2_alg».proof.Proof.Gen.KernelIdeal.Skeleton
import proofs.«137113_j6760278524492_2_alg».proof.Proof.KerBodyLib

set_option maxRecDepth 16384

noncomputable section

namespace Cert.KerBody

open Idealize.ShloMosaic Idealize.ShloMosaic.ValueIdx Cert.KernelIdeal Cert.KernelIdeal.Gen Cert.GCN Cert.KerLib

theorem k3_pay2_apply (v0 : Vec Ideal S2000x1 .f32) (v2 v4 : Vec Ideal S2000x256 .f32) (v9 v31 v35 : Vec Ideal S1x256 .f32)
    (r : Fin 2000) (q : Fin 256) :
    k3_pay2 (F := Ideal) v0 v2 v4 v9 v31 v35 (ix2 r q)
      = preElu (Ideal.ofBits .f32 0x43800000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  unfold k3_pay2 preElu rowVar rowMean
  simp (config := { index := false }) only [mulf_apply, addf_apply, subf_apply, divf_apply, broadcast_apply, rsqrt_apply,
    scalar_ofBits_apply, shapeCast_self, broadcastTo_a1_ab_apply, broadcastTo_1b_ab_apply, shapeCast_a_a1_apply,
    rowSum_apply]

theorem k3_body_apply (v0 : Vec Ideal S2000x1 .f32) (v2 v4 : Vec Ideal S2000x256 .f32) (v9 v31 v35 : Vec Ideal S1x256 .f32)
    (r : Fin 2000) (q : Fin 256) :
    k3_pay1 (F := Ideal) (k3_pay2 v0 v2 v4 v9 v31 v35) (k3_pay3 v0 v2 v4 v9 v31 v35) (ix2 r q)
      = lnelu (Ideal.ofBits .f32 0x43800000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  rw [lnelu_eq_elu_preElu, ← k3_pay2_apply]
  unfold k3_pay1 k3_pay3
  generalize k3_pay2 (F := Ideal) v0 v2 v4 v9 v31 v35 = y
  simp only [select_apply, cmpf_apply, subf_apply, exp_apply, broadcast_apply, scalar_ofBits_apply]
  exact select_elu _

end Cert.KerBody

end
-- ==== Proof.KerBodyEp5.lean ====
/-
  The epilogue bodies at an index. In row r the body forms the row  t = w·(a + u) + b  (w the row's node weight, a and
  u the two input rows, b the bias), takes its mean and its variance over the columns with the given divisor, and leaves
  (t q − mean)·rsqrt(variance + eps)·g q + be q  passed through ELU: the value itself where it is above zero, e^value − 1
  elsewhere.
-/
import proofs.«137113_j6760278524492_2_alg».proof.Proof.Gen.KernelIdeal.Skeleton
import proofs.«137113_j6760278524492_2_alg».proof.Proof.KerBodyLib

set_option maxRecDepth 16384

noncomputable section

namespace Cert.KerBody

open Idealize.ShloMosaic Idealize.ShloMosaic.ValueIdx Cert.KernelIdeal Cert.KernelIdeal.Gen Cert.GCN Cert.KerLib

theorem k5_pay2_apply (v0 : Vec Ideal S2000x1 .f32) (v2 v4 : Vec Ideal S2000x128 .f32) (v9 v31 v35 : Vec Ideal S1x128 .f32)
    (r : Fin 2000) (q : Fin 128) :
    k5_pay2 (F := Ideal) v0 v2 v4 v9 v31 v35 (ix2 r q)
      = preElu (Ideal.ofBits .f32 0x43000000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  unfold k5_pay2 preElu rowVar rowMean
  simp (config := { index := false }) only [mulf_apply, addf_apply, subf_apply, divf_apply, broadcast_apply, rsqrt_apply,
    scalar_ofBits_apply, shapeCast_self, broadcastTo_a1_ab_apply, broadcastTo_1b_ab_apply, shapeCast_a_a1_apply,
    rowSum_apply]

theorem k5_body_apply (v0 : Vec Ideal S2000x1 .f32) (v2 v4 : Vec Ideal S2000x128 .f32) (v9 v31 v35 : Vec Ideal S1x128 .f32)
    (r : Fin 2000) (q : Fin 128) :
    k5_pay1 (F := Ideal) (k5_pay2 v0 v2 v4 v9 v31 v35) (k5_pay3 v0 v2 v4 v9 v31 v35) (ix2 r q)
      = lnelu (Ideal.ofBits .f32 0x43000000#32) (Ideal.ofBits .f32 0x3727C5AC#32)
          (fun c => v0 (ix2 r (0 : Fin 1)) * (v2 (ix2 r c) + v4 (ix2 r c)) + v9 (ix2 (0 : Fin 1) c))
          (fun c => v31 (ix2 (0 : Fin 1) c)) (fun c => v35 (ix2 (0 : Fin 1) c)) q := by
  rw [lnelu_eq_elu_preElu, ← k5_pay2_apply]
  unfold k5_pay1 k5_pay3
  generalize k5_pay2 (F := Ideal) v0 v2 v4 v9 v31 v35 = y
  simp only [select_apply, cmpf_apply, subf_apply, exp_apply, broadcast_apply, scalar_ofBits_apply]
  exact select_elu _

end Cert.KerBody

end
-- ==== Proof.KerBodyHead.lean ====
/-
  The head at an index. Row r of the input times the first weight matrix plus the first bias is normalised over its 64
  columns, scaled, shifted and passed through ELU; the result row times the second weight matrix plus the second bias is
  what the body leaves at (r, q). Both products narrow their operands first, which changes nothing on the extended reals,
  and accumulate from zero.
-/
import proofs.«137113_j6760278524492_2_alg».proof.Proof.Gen.KernelIdeal.Skeleton
import proofs.«137113_j6760278524492_2_alg».proof.Proof.KerBodyLib
import proofs.«137113_j6760278524492_2_alg».proof.Proof.LibPlainDot

set_option maxRecDepth 16384

noncomputable section

namespace Cert.KerBody

open Idealize.ShloMosaic Idealize.ShloMosaic.ValueIdx Cert.KernelIdeal Cert.KernelIdeal.Gen Cert.GCN Cert.KerLib

/-- The first product of the head at (p, q). -/
theorem k6_dot1_apply (l : FVec Ideal S2000x128 .bf16) (w : FVec Ideal S128x64 .bf16) (p : Fin 2000) (q : Fin 64) :
    matmul dot_S2000x128_S128x64_S2000x64_1_0_0_1_n_n none l w (constant (F := Ideal) S2000x64 .f32 0x00000000#32) (ix2 p q)
      = ∑ k : Fin 128, l (ix2 p k) * w (ix2 k q) :=
  Cert.Lib.matmul_zero_apply (M := 2000) (K := 128) (N := 64) dot_S2000x128_S128x64_S2000x64_1_0_0_1_n_n.wf none l w p q

/-- The second product of the head at (p, q). -/
theorem k6_dot2_apply (l : FVec Ideal S2000x64 .bf16) (w : FVec Ideal S64x500 .bf16) (p : Fin 2000) (q : Fin 500) :
    matmul dot_S2000x64_S64x500_S2000x500_1_0_0_1_n_n none l w (constant (F := Ideal) S2000x500 .f32 0x00000000#32) (ix2 p q)
      = ∑ k : Fin 64, l (ix2 p k) * w (ix2 k q) :=
  Cert.Lib.matmul_zero_apply (M := 2000) (K := 64) (N := 500) dot_S2000x64_S64x500_S2000x500_1_0_0_1_n_n.wf none l w p q

/-- The normalised row of the first dense layer, before ELU, at (r, c). -/
theorem k6_pay2_apply (v0 : Vec Ideal S2000x128 .f32) (v3 : Vec Ideal S128x64 .f32) (v6 v28 v32 : Vec Ideal S1x64 .f32)
    (r : Fin 2000) (c : Fin 64) :
    k6_pay2 (F := Ideal) v0 v3 v6 v28 v32 (ix2 r c)
      = preElu (Ideal.ofBits .f32 0x42800000#32) (Ideal.ofBits .f32 0x3727C5AC#32)
          (fun c => mm (fun p c => v0 (ix2 p c)) (fun c q => v3 (ix2 c q)) r c + v6 (ix2 (0 : Fin 1) c))
          (fun c => v28 (ix2 (0 : Fin 1) c)) (fun c => v32 (ix2 (0 : Fin 1) c)) c := by
  unfold k6_pay2 preElu rowVar rowMean mm
  simp (config := { index := false }) only [mulf_apply, addf_apply, subf_apply, divf_apply, broadcast_apply, rsqrt_apply,
    scalar_ofBits_apply, shapeCast_self, broadcastTo_a1_ab_apply, broadcastTo_1b_ab_apply, shapeCast_a_a1_apply,
    rowSum_apply, k6_dot1_apply, truncf_apply]

/-- The choice between the row and its exponential minus one is ELU of the row. -/
theorem k6_select_apply (v0 : Vec Ideal S2000x128 .f32) (v3 : Vec Ideal S128x64 .f32) (v6 v28 v32 : Vec Ideal S1x64 .f32)
    (j : S2000x64.Idx) :
    Scalar.select (k6_pay3 (F := Ideal) v0 v3 v6 v28 v32 j) (k6_pay2 (F := Ideal) v0 v3 v6 v28 v32 j)
        (k6_pay4 (F := Ideal) v0 v3 v6 v28 v32 j) = elu (k6_pay2 (F := Ideal) v0 v3 v6 v28 v32 j) := by
  unfold k6_pay3 k6_pay4
  generalize k6_pay2 (F := Ideal) v0 v3 v6 v28 v32 = y
  simp only [cmpf_apply, subf_apply, exp_apply, broadcast_apply, scalar_ofBits_apply]
  exact select_elu _

theorem k6_body_apply (v0 : Vec Ideal S2000x128 .f32) (v3 : Vec Ideal S128x64 .f32) (v6 v28 v32 : Vec Ideal S1x64 .f32)
    (v43 : Vec Ideal S64x500 .f32) (v46 : Vec Ideal S1x500 .f32) (r : Fin 2000) (q : Fin 500) :
    k6_pay1 (F := Ideal) (k6_pay2 v0 v3 v6 v28 v32) (k6_pay3 v0 v3 v6 v28 v32) (k6_pay4 v0 v3 v6 v28 v32) v43 v46 (ix2 r q)
      = head (Ideal.ofBits .f32 0x42800000#32) (Ideal.ofBits .f32 0x3727C5AC#32)
          (fun c q => v3 (ix2 c q)) (fun c => v6 (ix2 (0 : Fin 1) c)) (fun c => v28 (ix2 (0 : Fin 1) c))
          (fun c => v32 (ix2 (0 : Fin 1) c)) (fun c q => v43 (ix2 c q)) (fun c => v46 (ix2 (0 : Fin 1) c))
          (fun p c => v0 (ix2 p c)) r q := by
  unfold k6_pay1
  simp (config := { index := false }) only [addf_apply, shapeCast_self, broadcastTo_1b_ab_apply, k6_dot2_apply,
    truncf_apply, select_apply, k6_select_apply]
  simp only [k6_pay2_apply]
  rfl

end Cert.KerBody

end
-- ==== Proof.KerBody.lean ====
/-
  What each of the seven kernel bodies leaves in its output block, read at a row r and a column q of the block, as a
  function of the input blocks (at the ideal instance).

  A product-and-scale body leaves the matrix product of its row block with the whole weight matrix, times the row's
  node weight. An epilogue body leaves, in row r, the row  w·(a + u) + b  (w the row's node weight, a and u the two
  input rows, b the bias) normalised over its columns, scaled, shifted and passed through ELU. The last body leaves the
  two dense layers of the head applied to row r.
-/
import proofs.«137113_j6760278524492_2_alg».proof.Proof.Gen.KernelIdeal.Frame
import proofs.«137113_j6760278524492_2_alg».proof.Proof.Spec
import proofs.«137113_j6760278524492_2_alg».proof.Proof.LibPlainDot
import proofs.«137113_j6760278524492_2_alg».proof.Proof.KerBodyMM
import proofs.«137113_j6760278524492_2_alg».proof.Proof.KerBodyEp1
import proofs.«137113_j6760278524492_2_alg».proof.Proof.KerBodyEp3
import proofs.«137113_j6760278524492_2_alg».proof.Proof.KerBodyEp5
import proofs.«137113_j6760278524492_2_alg».proof.Proof.KerBodyHead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerBody

open Idealize.ShloMosaic Idealize.ShloMosaic.ValueIdx Cert.KernelIdeal Cert.KernelIdeal.Gen Cert.GCN

/-- The offset of every access: zero on both axes. -/
theorem off_zero : (![0, 0] : Fin 2 → Nat) = fun _ => 0 := by
  funext a; fin_cases a <;> rfl

/-! ## The three product-and-scale bodies -/

theorem out0_3_apply (x0 : Vec Ideal S2000x128 .f32) (x1 : Vec Ideal S128x128 .f32) (x2 : Vec Ideal S2000x1 .f32)
    (r : Fin 2000) (q : Fin 128) :
    out0_3 (F := Ideal) x0 x1 x2 (ix2 r q)
      = mm (fun p c => x0 (ix2 p c)) (fun c q => x1 (ix2 c q)) r q * x2 (ix2 r (0 : Fin 1)) := by
  unfold out0_3
  rw [View.canon_unit_zero off_zero, View.ld_unit_zero off_zero, View.ld_unit_zero off_zero, View.ld_unit_zero off_zero]
  exact k0_pay1_apply x0 x1 x2 r q

theorem out2_3_apply (x0 : Vec Ideal S2000x128 .f32) (x1 : Vec Ideal S128x256 .f32) (x2 : Vec Ideal S2000x1 .f32)
    (r : Fin 2000) (q : Fin 256) :
    out2_3 (F := Ideal) x0 x1 x2 (ix2 r q)
      = mm (fun p c => x0 (ix2 p c)) (fun c q => x1 (ix2 c q)) r q * x2 (ix2 r (0 : Fin 1)) := by
  unfold out2_3
  rw [View.canon_unit_zero off_zero, View.ld_unit_zero off_zero, View.ld_unit_zero off_zero, View.ld_unit_zero off_zero]
  exact k2_pay1_apply x0 x1 x2 r q

theorem out4_3_apply (x0 : Vec Ideal S2000x256 .f32) (x1 : Vec Ideal S256x128 .f32) (x2 : Vec Ideal S2000x1 .f32)
    (r : Fin 2000) (q : Fin 128) :
    out4_3 (F := Ideal) x0 x1 x2 (ix2 r q)
      = mm (fun p c => x0 (ix2 p c)) (fun c q => x1 (ix2 c q)) r q * x2 (ix2 r (0 : Fin 1)) := by
  unfold out4_3
  rw [View.canon_unit_zero off_zero, View.ld_unit_zero off_zero, View.ld_unit_zero off_zero, View.ld_unit_zero off_zero]
  exact k4_pay1_apply x0 x1 x2 r q

/-! ## The three epilogue bodies -/

theorem out1_6_apply (x0 x1 : Vec Ideal S2000x128 .f32) (x2 : Vec Ideal S2000x1 .f32) (x3 x4 x5 : Vec Ideal S1x128 .f32)
    (r : Fin 2000) (q : Fin 128) :
    out1_6 (F := Ideal) x0 x1 x2 x3 x4 x5 (ix2 r q)
      = lnelu (Ideal.ofBits .f32 0x43000000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q := by
  unfold out1_6
  rw [View.canon_unit_zero off_zero]
  iterate 6 rw [View.ld_unit_zero off_zero]
  exact k1_body_apply x2 x0 x1 x3 x4 x5 r q

theorem out3_6_apply (x0 x1 : Vec Ideal S2000x256 .f32) (x2 : Vec Ideal S2000x1 .f32) (x3 x4 x5 : Vec Ideal S1x256 .f32)
    (r : Fin 2000) (q : Fin 256) :
    out3_6 (F := Ideal) x0 x1 x2 x3 x4 x5 (ix2 r q)
      = lnelu (Ideal.ofBits .f32 0x43800000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q := by
  unfold out3_6
  rw [View.canon_unit_zero off_zero]
  iterate 6 rw [View.ld_unit_zero off_zero]
  exact k3_body_apply x2 x0 x1 x3 x4 x5 r q

theorem out5_6_apply (x0 x1 : Vec Ideal S2000x128 .f32) (x2 : Vec Ideal S2000x1 .f32) (x3 x4 x5 : Vec Ideal S1x128 .f32)
    (r : Fin 2000) (q : Fin 128) :
    out5_6 (F := Ideal) x0 x1 x2 x3 x4 x5 (ix2 r q)
      = lnelu (Ideal.ofBits .f32 0x43000000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q := by
  unfold out5_6
  rw [View.canon_unit_zero off_zero]
  iterate 6 rw [View.ld_unit_zero off_zero]
  exact k5_body_apply x2 x0 x1 x3 x4 x5 r q

/-! ## The head -/

theorem out6_7_apply (x0 : Vec Ideal S2000x128 .f32) (x1 : Vec Ideal S128x64 .f32) (x2 x3 x4 : Vec Ideal S1x64 .f32)
    (x5 : Vec Ideal S64x500 .f32) (x6 : Vec Ideal S1x500 .f32) (r : Fin 2000) (q : Fin 500) :
    out6_7 (F := Ideal) x0 x1 x2 x3 x4 x5 x6 (ix2 r q)
      = head (Ideal.ofBits .f32 0x42800000#32) (Ideal.ofBits .f32 0x3727C5AC#32)
          (fun c q => x1 (ix2 c q)) (fun c => x2 (ix2 (0 : Fin 1) c)) (fun c => x3 (ix2 (0 : Fin 1) c))
          (fun c => x4 (ix2 (0 : Fin 1) c)) (fun c q => x5 (ix2 c q)) (fun c => x6 (ix2 (0 : Fin 1) c))
          (fun p c => x0 (ix2 p c)) r q := by
  unfold out6_7
  rw [View.canon_unit_zero off_zero]
  iterate 7 rw [View.ld_unit_zero off_zero]
  exact k6_body_apply x0 x1 x2 x3 x4 x5 x6 r q

end Cert.KerBody

end
-- ==== Proof.KerRun.lean ====
/-
  The kernel program's run with its result named.

  From any memory with zero counters, every weakly fair execution of @main on the TensorCores terminates without a
  fault, and in every final state the result buffer holds what the last region's write-backs leave (the contents
  `W14` of the fold through @main's fourteen segments, read at the result's reference), while every argument
  array is as launched.
-/
import proofs.«137113_j6760278524492_2_alg».proof.Proof.Gen.KernelIdeal.Frame
import Idealize.ShloMosaic.PureOps.Ideal

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- The run of @main at the ideal instance, the result buffer named: it ends at `W14` read at the result's
    reference, and the twenty arguments end as launched. -/
theorem run_main [Cert.KernelIdeal.Facts] (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v64) = W14 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v64 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c)⟩)

end Cert.KerSide

end
-- ==== Proof.KerArr0.lean ====
/-
  Region 0 of the kernel program: its output array after the region, as ONE function of the arrays the region found:
  the product of the region's first array with the weight matrix, each row times its node weight.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact0`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = 0 ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

/-! ## Each input block read off its array: coordinate = block index × block size + 1 × the coordinate inside -/

/-- Window 0's block at point t is rows t·2000 … t·2000 + 1999 of its array. -/
theorem blk0_0 (c : Dev nD) (t : Fin cfg0.N) (y : S2000x128.Idx) (i : S50000x128.Idx)
    (e0 : (i 0).val = t.val * 2000 + (y 0).val) (e1 : (i 1).val = (y 1).val) :
    (iblk0 V c 0 t : Vec Ideal S2000x128 .f32) y = (V c (Pipeline.arrRef spec0 0) : S50000x128.Idx → EReal) i := by
  obtain ⟨h0, h1⟩ := idx0_0 t
  unfold iblk0
  rw [View.read_apply]
  show (V c (Pipeline.arrRef spec0 0) : S50000x128.Idx → EReal) _ = _
  congr 1
  funext a
  apply Fin.ext
  match a with
  | ⟨0, _⟩ => show win0_0.index t (0 : Fin 2) * 2000 + 1 * (y 0).val = (i 0).val; rw [h0, e0]; omega
  | ⟨1, _⟩ => show win0_0.index t (1 : Fin 2) * 128 + 1 * (y 1).val = (i 1).val; rw [h1, e1]; omega

/-- Window 1's block at every point is its whole array. -/
theorem blk0_1 (c : Dev nD) (t : Fin cfg0.N) (y : S128x128.Idx) :
    (iblk0 V c 1 t : Vec Ideal S128x128 .f32) y = (V c (Pipeline.arrRef spec0 1) : S128x128.Idx → EReal) y := by
  obtain ⟨h0, h1⟩ := idx0_1 t
  unfold iblk0
  rw [View.read_apply]
  show (V c (Pipeline.arrRef spec0 1) : S128x128.Idx → EReal) _ = _
  congr 1
  funext a
  apply Fin.ext
  match a with
  | ⟨0, _⟩ => show win0_1.index t (0 : Fin 2) * 128 + 1 * (y 0).val = (y 0).val; rw [h0]; omega
  | ⟨1, _⟩ => show win0_1.index t (1 : Fin 2) * 128 + 1 * (y 1).val = (y 1).val; rw [h1]; omega

/-- Window 2's block at point t is rows t·2000 … t·2000 + 1999 of its array. -/
theorem blk0_2 (c : Dev nD) (t : Fin cfg0.N) (y : S2000x1.Idx) (i : S50000x1.Idx)
    (e0 : (i 0).val = t.val * 2000 + (y 0).val) (e1 : (i 1).val = (y 1).val) :
    (iblk0 V c 2 t : Vec Ideal S2000x1 .f32) y = (V c (Pipeline.arrRef spec0 2) : S50000x1.Idx → EReal) i := by
  obtain ⟨h0, h1⟩ := idx0_2 t
  unfold iblk0
  rw [View.read_apply]
  show (V c (Pipeline.arrRef spec0 2) : S50000x1.Idx → EReal) _ = _
  congr 1
  funext a
  apply Fin.ext
  match a with
  | ⟨0, _⟩ => show win0_2.index t (0 : Fin 2) * 2000 + 1 * (y 0).val = (i 0).val; rw [h0, e0]; omega
  | ⟨1, _⟩ => show win0_2.index t (1 : Fin 2) * 1 + 1 * (y 1).val = (i 1).val; rw [h1, e1]; omega

/-! ## The body's block fact this module starts from -/

/-- What the region's body leaves at row r and column q of its output block, from its input blocks. -/
abbrev BodyFact0 : Prop :=
  ∀ (x0 : Vec Ideal S2000x128 .f32) (x1 : Vec Ideal S128x128 .f32) (x2 : Vec Ideal S2000x1 .f32) (r : Fin 2000) (q : Fin 128),
    out0_3 (F := Ideal) x0 x1 x2 (ix2 r q)
      = mm (fun p c => x0 (ix2 p c)) (fun c q => x1 (ix2 c q)) r q * x2 (ix2 r (0 : Fin 1))

/-! ## The region's output array as one function of its input arrays -/

/-- The product of row p of the first array with the weight matrix, times the node weight of row p. -/
def g0 (A0 : S50000x128.Idx → EReal) (A1 : S128x128.Idx → EReal) (A2 : S50000x1.Idx → EReal)
    (p : Fin 50000) (q : Fin 128) : EReal :=
  mm (fun p k => A0 (ix2 p k)) (fun k q => A1 (ix2 k q)) p q * A2 (ix2 p (0 : Fin 1))

/-- The same over the array's index set. -/
def G0 (A0 : S50000x128.Idx → EReal) (A1 : S128x128.Idx → EReal) (A2 : S50000x1.Idx → EReal) :
    S50000x128.Idx → EReal :=
  fun i => g0 A0 A1 A2 (i 0) (i 1)

/-- The body's block formula at row r of block n is the whole-array function at row n·2000 + r, when the input blocks
    are block n of the row-tiled arrays and all of the others. -/
theorem pt0 (hb : BodyFact0) (A0 : S50000x128.Idx → EReal) (A1 : S128x128.Idx → EReal) (A2 : S50000x1.Idx → EReal)
    (x0 : Vec Ideal S2000x128 .f32) (x1 : Vec Ideal S128x128 .f32) (x2 : Vec Ideal S2000x1 .f32) (n : Nat)
    (h0 : ∀ (y : S2000x128.Idx) (i : S50000x128.Idx), (i 0).val = n * 2000 + (y 0).val → (i 1).val = (y 1).val → x0 y = A0 i)
    (h1 : ∀ y : S128x128.Idx, x1 y = A1 y)
    (h2 : ∀ (y : S2000x1.Idx) (i : S50000x1.Idx), (i 0).val = n * 2000 + (y 0).val → (i 1).val = (y 1).val → x2 y = A2 i)
    (y : S2000x128.Idx) (i : S50000x128.Idx) (hi0 : (i 0).val = n * 2000 + (y 0).val) (hi1 : (i 1).val = (y 1).val) :
    out0_3 (F := Ideal) x0 x1 x2 y = G0 A0 A1 A2 i := by
  obtain ⟨r, q, rfl⟩ : ∃ (r : Fin 2000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext hi1
  rw [hb x0 x1 x2 r q']
  show (∑ k : Fin 128, x0 (ix2 r k) * x1 (ix2 k q')) * x2 (ix2 r (0 : Fin 1))
    = (∑ k : Fin 128, A0 (ix2 p k) * A1 (ix2 k q')) * A2 (ix2 p (0 : Fin 1))
  rw [h2 (ix2 r (0 : Fin 1)) (ix2 p (0 : Fin 1)) hi0 rfl]
  congr 1
  refine Finset.sum_congr rfl fun k _ => ?_
  rw [h0 (ix2 r k) (ix2 p k) hi0 rfl, h1]

/-! ## From the blocks to the array -/

/-- What point t writes back is block t of the whole-array function of the arrays the region found. -/
theorem flushed0 (hb : BodyFact0) (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨h0, h1⟩ := idx0_3 t
  funext y
  rw [View.read_apply]
  refine pt0 hb (V c (Pipeline.arrRef spec0 0)) (V c (Pipeline.arrRef spec0 1)) (V c (Pipeline.arrRef spec0 2))
    (iblk0 V c 0 t) (iblk0 V c 1 t) (iblk0 V c 2 t) t.val
    (blk0_0 V c t) (blk0_1 V c t) (blk0_2 V c t) y
    (((cfg0.win 3).blk t).view.emb y) ?_ ?_
  · show win0_3.index t (0 : Fin 2) * 2000 + 1 * (y 0).val = _; rw [h0]; omega
  · show win0_3.index t (1 : Fin 2) * 128 + 1 * (y 1).val = _; rw [h1]; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v15).slice (win0_3.rect t)).set ↔ _
  rw [View.set_slice_whole, Rect.mem_set_unit]
  exact Iff.rfl

/-- Every index of the output array is in some point's block: row p is in the block of point p / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < cfg0.N := by rw [show cfg0.N = 25 from N_0]; omega
  refine ⟨⟨(i 0).val / 2000, ht⟩, flush0_3 _, ?_⟩
  rw [mem_blk0]
  obtain ⟨h0, h1⟩ := idx0_3 ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [h1]; omega

/-- The output array after the region is the whole-array function of the arrays the region found. -/
theorem final0 (hb : BodyFact0) (c : Dev nD) : (dat0 V c).arrAt 3 cfg0.N
    = G0 (V c (Pipeline.arrRef spec0 0)) (V c (Pipeline.arrRef spec0 1)) (V c (Pipeline.arrRef spec0 2)) :=
  (dat0 V c).arrAt_eq_of_cover 3 _ (fun t _ => flushed0 V hb c t) cover0

/-- The output array after the region, read at row p and column q: the region's function of the arrays it found. -/
theorem arr0_at (hb : BodyFact0) (c : Dev nD) (p : Fin 50000) (q : Fin 128) :
    (dat0 V c).arrAt 3 cfg0.N (ix2 p q)
      = g0 (V c (Pipeline.arrRef spec0 0)) (V c (Pipeline.arrRef spec0 1)) (V c (Pipeline.arrRef spec0 2)) p q := by
  rw [final0 V hb]; rfl

/-- The same with the arrays the region found named: whatever functions they are, the output array is this function of
    them. -/
theorem arr0_of_at (hb : BodyFact0) (c : Dev nD) (A0 : S50000x128.Idx → EReal) (A1 : S128x128.Idx → EReal) (A2 : S50000x1.Idx → EReal)
    (e0 : V c (Pipeline.arrRef spec0 0) = A0)
    (e1 : V c (Pipeline.arrRef spec0 1) = A1)
    (e2 : V c (Pipeline.arrRef spec0 2) = A2)
    (p : Fin 50000) (q : Fin 128) :
    (dat0 V c).arrAt 3 cfg0.N (ix2 p q)
      = Cert.GCN.mm (fun p k => A0 (ix2 p k)) (fun k q => A1 (ix2 k q)) p q * A2 (ix2 p (0 : Fin 1)) := by
  subst e0 e1 e2
  exact arr0_at V hb c p q

end Cert.KerSide

end
-- ==== Proof.KerArr1.lean ====
/-
  Region 1 of the kernel program: its output array after the region, as ONE function of the arrays the region found:
  each row of  w·(a + u) + b  normalised over its columns, scaled, shifted and passed through ELU.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact1`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

theorem idx1_6 : ∀ t : Fin cfg1.N, win1_6.index t (0 : Fin 2) = t.val ∧ win1_6.index t (1 : Fin 2) = 0 :=
  (by decide +kernel : ∀ t : Fin grid1.N, _)

/-! ## Each input block read off its array: coordinate = block index × block size + 1 × the coordinate inside -/

/-- Window 0's block at point t is rows t·2000 … t·2000 + 1999 of its array. -/
theorem blk1_0 (c : Dev nD) (t : Fin cfg1.N) (y : S2000x128.Idx) (i : S50000x128.Idx)
    (e0 : (i 0).val = t.val * 2000 + (y 0).val) (e1 : (i 1).val = (y 1).val) :
    (iblk1 V c 0 t : Vec Ideal S2000x128 .f32) y = (V c (Pipeline.arrRef spec1 0) : S50000x128.Idx → EReal) i := by
  obtain ⟨h0, h1⟩ := idx1_0 t
  unfold iblk1
  rw [View.read_apply]
  show (V c (Pipeline.arrRef spec1 0) : S50000x128.Idx → EReal) _ = _
  congr 1
  funext a
  apply Fin.ext
  match a with
  | ⟨0, _⟩ => show win1_0.index t (0 : Fin 2) * 2000 + 1 * (y 0).val = (i 0).val; rw [h0, e0]; omega
  | ⟨1, _⟩ => show win1_0.index t (1 : Fin 2) * 128 + 1 * (y 1).val = (i 1).val; rw [h1, e1]; omega

/-- Window 1's block at point t is rows t·2000 … t·2000 + 1999 of its array. -/
theorem blk1_1 (c : Dev nD) (t : Fin cfg1.N) (y : S2000x128.Idx) (i : S50000x128.Idx)
    (e0 : (i 0).val = t.val * 2000 + (y 0).val) (e1 : (i 1).val = (y 1).val) :
    (iblk1 V c 1 t : Vec Ideal S2000x128 .f32) y = (V c (Pipeline.arrRef spec1 1) : S50000x128.Idx → EReal) i := by
  obtain ⟨h0, h1⟩ := idx1_1 t
  unfold iblk1
  rw [View.read_apply]
  show (V c (Pipeline.arrRef spec1 1) : S50000x128.Idx → EReal) _ = _
  congr 1
  funext a
  apply Fin.ext
  match a with
  | ⟨0, _⟩ => show win1_1.index t (0 : Fin 2) * 2000 + 1 * (y 0).val = (i 0).val; rw [h0, e0]; omega
  | ⟨1, _⟩ => show win1_1.index t (1 : Fin 2) * 128 + 1 * (y 1).val = (i 1).val; rw [h1, e1]; omega

/-- Window 2's block at point t is rows t·2000 … t·2000 + 1999 of its array. -/
theorem blk1_2 (c : Dev nD) (t : Fin cfg1.N) (y : S2000x1.Idx) (i : S50000x1.Idx)
    (e0 : (i 0).val = t.val * 2000 + (y 0).val) (e1 : (i 1).val = (y 1).val) :
    (iblk1 V c 2 t : Vec Ideal S2000x1 .f32) y = (V c (Pipeline.arrRef spec1 2) : S50000x1.Idx → EReal) i := by
  obtain ⟨h0, h1⟩ := idx1_2 t
  unfold iblk1
  rw [View.read_apply]
  show (V c (Pipeline.arrRef spec1 2) : S50000x1.Idx → EReal) _ = _
  congr 1
  funext a
  apply Fin.ext
  match a with
  | ⟨0, _⟩ => show win1_2.index t (0 : Fin 2) * 2000 + 1 * (y 0).val = (i 0).val; rw [h0, e0]; omega
  | ⟨1, _⟩ => show win1_2.index t (1 : Fin 2) * 1 + 1 * (y 1).val = (i 1).val; rw [h1, e1]; omega

/-- Window 3's block at every point is its whole array. -/
theorem blk1_3 (c : Dev nD) (t : Fin cfg1.N) (y : S1x128.Idx) :
    (iblk1 V c 3 t : Vec Ideal S1x128 .f32) y = (V c (Pipeline.arrRef spec1 3) : S1x128.Idx → EReal) y := by
  obtain ⟨h0, h1⟩ := idx1_3 t
  unfold iblk1
  rw [View.read_apply]
  show (V c (Pipeline.arrRef spec1 3) : S1x128.Idx → EReal) _ = _
  congr 1
  funext a
  apply Fin.ext
  match a with
  | ⟨0, _⟩ => show win1_3.index t (0 : Fin 2) * 1 + 1 * (y 0).val = (y 0).val; rw [h0]; omega
  | ⟨1, _⟩ => show win1_3.index t (1 : Fin 2) * 128 + 1 * (y 1).val = (y 1).val; rw [h1]; omega

/-- Window 4's block at every point is its whole array. -/
theorem blk1_4 (c : Dev nD) (t : Fin cfg1.N) (y : S1x128.Idx) :
    (iblk1 V c 4 t : Vec Ideal S1x128 .f32) y = (V c (Pipeline.arrRef spec1 4) : S1x128.Idx → EReal) y := by
  obtain ⟨h0, h1⟩ := idx1_4 t
  unfold iblk1
  rw [View.read_apply]
  show (V c (Pipeline.arrRef spec1 4) : S1x128.Idx → EReal) _ = _
  congr 1
  funext a
  apply Fin.ext
  match a with
  | ⟨0, _⟩ => show win1_4.index t (0 : Fin 2) * 1 + 1 * (y 0).val = (y 0).val; rw [h0]; omega
  | ⟨1, _⟩ => show win1_4.index t (1 : Fin 2) * 128 + 1 * (y 1).val = (y 1).val; rw [h1]; omega

/-- Window 5's block at every point is its whole array. -/
theorem blk1_5 (c : Dev nD) (t : Fin cfg1.N) (y : S1x128.Idx) :
    (iblk1 V c 5 t : Vec Ideal S1x128 .f32) y = (V c (Pipeline.arrRef spec1 5) : S1x128.Idx → EReal) y := by
  obtain ⟨h0, h1⟩ := idx1_5 t
  unfold iblk1
  rw [View.read_apply]
  show (V c (Pipeline.arrRef spec1 5) : S1x128.Idx → EReal) _ = _
  congr 1
  funext a
  apply Fin.ext
  match a with
  | ⟨0, _⟩ => show win1_5.index t (0 : Fin 2) * 1 + 1 * (y 0).val = (y 0).val; rw [h0]; omega
  | ⟨1, _⟩ => show win1_5.index t (1 : Fin 2) * 128 + 1 * (y 1).val = (y 1).val; rw [h1]; omega

/-! ## The body's block fact this module starts from -/

/-- What the region's body leaves at row r and column q of its output block, from its input blocks. -/
abbrev BodyFact1 : Prop :=
  ∀ (x0 : Vec Ideal S2000x128 .f32) (x1 : Vec Ideal S2000x128 .f32) (x2 : Vec Ideal S2000x1 .f32) (x3 : Vec Ideal S1x128 .f32) (x4 : Vec Ideal S1x128 .f32) (x5 : Vec Ideal S1x128 .f32) (r : Fin 2000) (q : Fin 128),
    out1_6 (F := Ideal) x0 x1 x2 x3 x4 x5 (ix2 r q)
      = lnelu (Ideal.ofBits .f32 0x43000000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q

/-! ## The region's output array as one function of its input arrays -/

/-- Row p of  w·(a + u) + b  normalised over its columns, scaled, shifted and passed through ELU. -/
def g1 (A0 : S50000x128.Idx → EReal) (A1 : S50000x128.Idx → EReal) (A2 : S50000x1.Idx → EReal) (A3 : S1x128.Idx → EReal) (A4 : S1x128.Idx → EReal) (A5 : S1x128.Idx → EReal)
    (p : Fin 50000) (q : Fin 128) : EReal :=
  lnelu (Ideal.ofBits .f32 0x43000000#32) (Ideal.ofBits .f32 0x3727C5AC#32)
    (fun k => A2 (ix2 p (0 : Fin 1)) * (A0 (ix2 p k) + A1 (ix2 p k)) + A3 (ix2 (0 : Fin 1) k))
    (fun k => A4 (ix2 (0 : Fin 1) k)) (fun k => A5 (ix2 (0 : Fin 1) k)) q

/-- The same over the array's index set. -/
def G1 (A0 : S50000x128.Idx → EReal) (A1 : S50000x128.Idx → EReal) (A2 : S50000x1.Idx → EReal) (A3 : S1x128.Idx → EReal) (A4 : S1x128.Idx → EReal) (A5 : S1x128.Idx → EReal) :
    S50000x128.Idx → EReal :=
  fun i => g1 A0 A1 A2 A3 A4 A5 (i 0) (i 1)

/-- The body's block formula at row r of block n is the whole-array function at row n·2000 + r, when the input blocks
    are block n of the row-tiled arrays and all of the others. -/
theorem pt1 (hb : BodyFact1) (A0 : S50000x128.Idx → EReal) (A1 : S50000x128.Idx → EReal) (A2 : S50000x1.Idx → EReal) (A3 : S1x128.Idx → EReal) (A4 : S1x128.Idx → EReal) (A5 : S1x128.Idx → EReal)
    (x0 : Vec Ideal S2000x128 .f32) (x1 : Vec Ideal S2000x128 .f32) (x2 : Vec Ideal S2000x1 .f32) (x3 : Vec Ideal S1x128 .f32) (x4 : Vec Ideal S1x128 .f32) (x5 : Vec Ideal S1x128 .f32) (n : Nat)
    (h0 : ∀ (y : S2000x128.Idx) (i : S50000x128.Idx), (i 0).val = n * 2000 + (y 0).val → (i 1).val = (y 1).val → x0 y = A0 i)
    (h1 : ∀ (y : S2000x128.Idx) (i : S50000x128.Idx), (i 0).val = n * 2000 + (y 0).val → (i 1).val = (y 1).val → x1 y = A1 i)
    (h2 : ∀ (y : S2000x1.Idx) (i : S50000x1.Idx), (i 0).val = n * 2000 + (y 0).val → (i 1).val = (y 1).val → x2 y = A2 i)
    (h3 : ∀ y : S1x128.Idx, x3 y = A3 y)
    (h4 : ∀ y : S1x128.Idx, x4 y = A4 y)
    (h5 : ∀ y : S1x128.Idx, x5 y = A5 y)
    (y : S2000x128.Idx) (i : S50000x128.Idx) (hi0 : (i 0).val = n * 2000 + (y 0).val) (hi1 : (i 1).val = (y 1).val) :
    out1_6 (F := Ideal) x0 x1 x2 x3 x4 x5 y = G1 A0 A1 A2 A3 A4 A5 i := by
  obtain ⟨r, q, rfl⟩ : ∃ (r : Fin 2000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext hi1
  rw [hb x0 x1 x2 x3 x4 x5 r q']
  change _ = g1 A0 A1 A2 A3 A4 A5 p q'
  unfold g1
  have e0 : ∀ k : Fin 128, x0 (ix2 r k) = A0 (ix2 p k) := fun k => h0 (ix2 r k) (ix2 p k) hi0 rfl
  have e1 : ∀ k : Fin 128, x1 (ix2 r k) = A1 (ix2 p k) := fun k => h1 (ix2 r k) (ix2 p k) hi0 rfl
  have e2 : x2 (ix2 r (0 : Fin 1)) = A2 (ix2 p (0 : Fin 1)) := h2 (ix2 r (0 : Fin 1)) (ix2 p (0 : Fin 1)) hi0 rfl
  simp only [e0, e1, e2, h3, h4, h5]

/-! ## From the blocks to the array -/

/-- What point t writes back is block t of the whole-array function of the arrays the region found. -/
theorem flushed1 (hb : BodyFact1) (c : Dev nD) (t : Fin cfg1.N) :
    (dat1 V c).flushed 6 t = ((cfg1.win 6).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  obtain ⟨h0, h1⟩ := idx1_6 t
  funext y
  rw [View.read_apply]
  refine pt1 hb (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t) t.val
    (blk1_0 V c t) (blk1_1 V c t) (blk1_2 V c t) (blk1_3 V c t) (blk1_4 V c t) (blk1_5 V c t) y
    (((cfg1.win 6).blk t).view.emb y) ?_ ?_
  · show win1_6.index t (0 : Fin 2) * 2000 + 1 * (y 0).val = _; rw [h0]; omega
  · show win1_6.index t (1 : Fin 2) * 128 + 1 * (y 1).val = _; rw [h1]; omega

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

/-- Every index of the output array is in some point's block: row p is in the block of point p / 2000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 2000 < cfg1.N := by rw [show cfg1.N = 25 from N_1]; omega
  refine ⟨⟨(i 0).val / 2000, ht⟩, flush1_6 _, ?_⟩
  rw [mem_blk1]
  obtain ⟨h0, h1⟩ := idx1_6 ⟨(i 0).val / 2000, ht⟩
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [h1]; omega

/-- The output array after the region is the whole-array function of the arrays the region found. -/
theorem final1 (hb : BodyFact1) (c : Dev nD) : (dat1 V c).arrAt 6 cfg1.N
    = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1 V hb c t) cover1

/-- The output array after the region, read at row p and column q: the region's function of the arrays it found. -/
theorem arr1_at (hb : BodyFact1) (c : Dev nD) (p : Fin 50000) (q : Fin 128) :
    (dat1 V c).arrAt 6 cfg1.N (ix2 p q)
      = g1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) p q := by
  rw [final1 V hb]; rfl

/-- The same with the arrays the region found named: whatever functions they are, the output array is this function of
    them. -/
theorem arr1_of_at (hb : BodyFact1) (c : Dev nD) (A0 : S50000x128.Idx → EReal) (A1 : S50000x128.Idx → EReal) (A2 : S50000x1.Idx → EReal) (A3 : S1x128.Idx → EReal) (A4 : S1x128.Idx → EReal) (A5 : S1x128.Idx → EReal)
    (e0 : V c (Pipeline.arrRef spec1 0) = A0)
    (e1 : V c (Pipeline.arrRef spec1 1) = A1)
    (e2 : V c (Pipeline.arrRef spec1 2) = A2)
    (e3 : V c (Pipeline.arrRef spec1 3) = A3)
    (e4 : V c (Pipeline.arrRef spec1 4) = A4)
    (e5 : V c (Pipeline.arrRef spec1 5) = A5)
    (p : Fin 50000) (q : Fin 128) :
    (dat1 V c).arrAt 6 cfg1.N (ix2 p q)
      = Cert.GCN.lnelu (Ideal.ofBits .f32 0x43000000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q := by
  subst e0 e1 e2 e3 e4 e5
  exact arr1_at V hb c p q

end Cert.KerSide

end
-- ==== Proof.KerArr2.lean ====
/-
  Region 2 of the kernel program: its output array after the region, as ONE function of the arrays the region found:
  the product of the region's first array with the weight matrix, each row times its node weight.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact2`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = 0 ∧ win2_1.index t (1 : Fin 2) = 0 :=
  (by decide +kernel : ∀ t : Fin grid2.N, _)

theorem idx2_2 : ∀ t : Fin cfg2.N, win2_2.index t (0 : Fin 2) = t.val ∧ win2_2.index t (1 : Fin 2) = 0 :=
  (by decide +kernel : ∀ t : Fin grid2.N, _)

theorem idx2_3 : ∀ t : Fin cfg2.N, win2_3.index t (0 : Fin 2) = t.val ∧ win2_3.index t (1 : Fin 2) = 0 :=
  (by decide +kernel : ∀ t : Fin grid2.N, _)

/-! ## Each input block read off its array: coordinate = block index × block size + 1 × the coordinate inside -/

/-- Window 0's block at point t is rows t·2000 … t·2000 + 1999 of its array. -/
theorem blk2_0 (c : Dev nD) (t : Fin cfg2.N) (y : S2000x128.Idx) (i : S50000x128.Idx)
    (e0 : (i 0).val = t.val * 2000 + (y 0).val) (e1 : (i 1).val = (y 1).val) :
    (iblk2 V c 0 t : Vec Ideal S2000x128 .f32) y = (V c (Pipeline.arrRef spec2 0) : S50000x128.Idx → EReal) i := by
  obtain ⟨h0, h1⟩ := idx2_0 t
  unfold iblk2
  rw [View.read_apply]
  show (V c (Pipeline.arrRef spec2 0) : S50000x128.Idx → EReal) _ = _
  congr 1
  funext a
  apply Fin.ext
  match a with
  | ⟨0, _⟩ => show win2_0.index t (0 : Fin 2) * 2000 + 1 * (y 0).val = (i 0).val; rw [h0, e0]; omega
  | ⟨1, _⟩ => show win2_0.index t (1 : Fin 2) * 128 + 1 * (y 1).val = (i 1).val; rw [h1, e1]; omega

/-- Window 1's block at every point is its whole array. -/
theorem blk2_1 (c : Dev nD) (t : Fin cfg2.N) (y : S128x256.Idx) :
    (iblk2 V c 1 t : Vec Ideal S128x256 .f32) y = (V c (Pipeline.arrRef spec2 1) : S128x256.Idx → EReal) y := by
  obtain ⟨h0, h1⟩ := idx2_1 t
  unfold iblk2
  rw [View.read_apply]
  show (V c (Pipeline.arrRef spec2 1) : S128x256.Idx → EReal) _ = _
  congr 1
  funext a
  apply Fin.ext
  match a with
  | ⟨0, _⟩ => show win2_1.index t (0 : Fin 2) * 128 + 1 * (y 0).val = (y 0).val; rw [h0]; omega
  | ⟨1, _⟩ => show win2_1.index t (1 : Fin 2) * 256 + 1 * (y 1).val = (y 1).val; rw [h1]; omega

/-- Window 2's block at point t is rows t·2000 … t·2000 + 1999 of its array. -/
theorem blk2_2 (c : Dev nD) (t : Fin cfg2.N) (y : S2000x1.Idx) (i : S50000x1.Idx)
    (e0 : (i 0).val = t.val * 2000 + (y 0).val) (e1 : (i 1).val = (y 1).val) :
    (iblk2 V c 2 t : Vec Ideal S2000x1 .f32) y = (V c (Pipeline.arrRef spec2 2) : S50000x1.Idx → EReal) i := by
  obtain ⟨h0, h1⟩ := idx2_2 t
  unfold iblk2
  rw [View.read_apply]
  show (V c (Pipeline.arrRef spec2 2) : S50000x1.Idx → EReal) _ = _
  congr 1
  funext a
  apply Fin.ext
  match a with
  | ⟨0, _⟩ => show win2_2.index t (0 : Fin 2) * 2000 + 1 * (y 0).val = (i 0).val; rw [h0, e0]; omega
  | ⟨1, _⟩ => show win2_2.index t (1 : Fin 2) * 1 + 1 * (y 1).val = (i 1).val; rw [h1, e1]; omega

/-! ## The body's block fact this module starts from -/

/-- What the region's body leaves at row r and column q of its output block, from its input blocks. -/
abbrev BodyFact2 : Prop :=
  ∀ (x0 : Vec Ideal S2000x128 .f32) (x1 : Vec Ideal S128x256 .f32) (x2 : Vec Ideal S2000x1 .f32) (r : Fin 2000) (q : Fin 256),
    out2_3 (F := Ideal) x0 x1 x2 (ix2 r q)
      = mm (fun p c => x0 (ix2 p c)) (fun c q => x1 (ix2 c q)) r q * x2 (ix2 r (0 : Fin 1))

/-! ## The region's output array as one function of its input arrays -/

/-- The product of row p of the first array with the weight matrix, times the node weight of row p. -/
def g2 (A0 : S50000x128.Idx → EReal) (A1 : S128x256.Idx → EReal) (A2 : S50000x1.Idx → EReal)
    (p : Fin 50000) (q : Fin 256) : EReal :=
  mm (fun p k => A0 (ix2 p k)) (fun k q => A1 (ix2 k q)) p q * A2 (ix2 p (0 : Fin 1))

/-- The same over the array's index set. -/
def G2 (A0 : S50000x128.Idx → EReal) (A1 : S128x256.Idx → EReal) (A2 : S50000x1.Idx → EReal) :
    S50000x256.Idx → EReal :=
  fun i => g2 A0 A1 A2 (i 0) (i 1)

/-- The body's block formula at row r of block n is the whole-array function at row n·2000 + r, when the input blocks
    are block n of the row-tiled arrays and all of the others. -/
theorem pt2 (hb : BodyFact2) (A0 : S50000x128.Idx → EReal) (A1 : S128x256.Idx → EReal) (A2 : S50000x1.Idx → EReal)
    (x0 : Vec Ideal S2000x128 .f32) (x1 : Vec Ideal S128x256 .f32) (x2 : Vec Ideal S2000x1 .f32) (n : Nat)
    (h0 : ∀ (y : S2000x128.Idx) (i : S50000x128.Idx), (i 0).val = n * 2000 + (y 0).val → (i 1).val = (y 1).val → x0 y = A0 i)
    (h1 : ∀ y : S128x256.Idx, x1 y = A1 y)
    (h2 : ∀ (y : S2000x1.Idx) (i : S50000x1.Idx), (i 0).val = n * 2000 + (y 0).val → (i 1).val = (y 1).val → x2 y = A2 i)
    (y : S2000x256.Idx) (i : S50000x256.Idx) (hi0 : (i 0).val = n * 2000 + (y 0).val) (hi1 : (i 1).val = (y 1).val) :
    out2_3 (F := Ideal) x0 x1 x2 y = G2 A0 A1 A2 i := by
  obtain ⟨r, q, rfl⟩ : ∃ (r : Fin 2000) (q : Fin 256), y = ix2 r q := ⟨y 0, y 1, eq_ix2 y⟩
  obtain ⟨p, q', rfl⟩ : ∃ (p : Fin 50000) (q' : Fin 256), i = ix2 p q' := ⟨i 0, i 1, eq_ix2 i⟩
  obtain rfl : q' = q := Fin.ext hi1
  rw [hb x0 x1 x2 r q']
  show (∑ k : Fin 128, x0 (ix2 r k) * x1 (ix2 k q')) * x2 (ix2 r (0 : Fin 1))
    = (∑ k : Fin 128, A0 (ix2 p k) * A1 (ix2 k q')) * A2 (ix2 p (0 : Fin 1))
  rw [h2 (ix2 r (0 : Fin 1)) (ix2 p (0 : Fin 1)) hi0 rfl]
  congr 1
  refine Finset.sum_congr rfl fun k _ => ?_
  rw [h0 (ix2 r k) (ix2 p k) hi0 rfl, h1]

/-! ## From the blocks to the array -/

/-- What point t writes back is block t of the whole-array function of the arrays the region found. -/
theorem flushed2 (hb : BodyFact2) (c : Dev nD) (t : Fin cfg2.N) :
    (dat2 V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 V c).after 3 t) = _
  rw [after2_3]
  obtain ⟨h0, h1⟩ := idx2_3 t
  funext y
  rw [View.read_apply]
  refine pt2 hb (V c (Pipeline.arrRef spec2 0)) (V c (Pipeline.arrRef spec2 1)) (V c (Pipeline.arrRef spec2 2))
    (iblk2 V c 0 t) (iblk2 V c 1 t) (iblk2 V c 2 t) t.val
    (blk2_0 V c t) (blk2_1 V c t) (blk2_2 V c t) y
    (((cfg2.win 3).blk t).view.emb y) ?_ ?_
  · show win2_3.index t (0 : Fin 2) * 2000 + 1 * (y 0).val = _; rw [h0]; omega
  · show win2_3.index t (1 : Fin 2) * 256 + 1 * (y 1).val = _; rw [h1]; omega

/-- An index of the output array is in point t's block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v30).slice (win2_3.rect t)).set ↔ _
  rw [View.set_slice_whole, Rect.mem_set_unit]
  exact Iff.rfl

/-- Every index of the output array is in some point's block: row p is in the block of point p / 2000. -/
theorem cover2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have ht : (i 0).val / 2000 < cfg2.N := by rw [show cfg2.N = 25 from N_2]; omega
  refine ⟨⟨(i 0).val / 2000, ht⟩, flush2_3 _, ?_⟩
  rw [mem_blk2]
  obtain ⟨h0, h1⟩ := idx2_3 ⟨(i 0).val / 2000, ht⟩
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    rw [h1]; omega

/-- The output array after the region is the whole-array function of the arrays the region found. -/
theorem final2 (hb : BodyFact2) (c : Dev nD) : (dat2 V c).arrAt 3 cfg2.N
    = G2 (V c (Pipeline.arrRef spec2 0)) (V c (Pipeline.arrRef spec2 1)) (V c (Pipeline.arrRef spec2 2)) :=
  (dat2 V c).arrAt_eq_of_cover 3 _ (fun t _ => flushed2 V hb c t) cover2

/-- The output array after the region, read at row p and column q: the region's function of the arrays it found. -/
theorem arr2_at (hb : BodyFact2) (c : Dev nD) (p : Fin 50000) (q : Fin 256) :
    (dat2 V c).arrAt 3 cfg2.N (ix2 p q)
      = g2 (V c (Pipeline.arrRef spec2 0)) (V c (Pipeline.arrRef spec2 1)) (V c (Pipeline.arrRef spec2 2)) p q := by
  rw [final2 V hb]; rfl

/-- The same with the arrays the region found named: whatever functions they are, the output array is this function of
    them. -/
theorem arr2_of_at (hb : BodyFact2) (c : Dev nD) (A0 : S50000x128.Idx → EReal) (A1 : S128x256.Idx → EReal) (A2 : S50000x1.Idx → EReal)
    (e0 : V c (Pipeline.arrRef spec2 0) = A0)
    (e1 : V c (Pipeline.arrRef spec2 1) = A1)
    (e2 : V c (Pipeline.arrRef spec2 2) = A2)
    (p : Fin 50000) (q : Fin 256) :
    (dat2 V c).arrAt 3 cfg2.N (ix2 p q)
      = Cert.GCN.mm (fun p k => A0 (ix2 p k)) (fun k q => A1 (ix2 k q)) p q * A2 (ix2 p (0 : Fin 1)) := by
  subst e0 e1 e2
  exact arr2_at V hb c p q

end Cert.KerSide

end
-- ==== Proof.KerArr3.lean ====
/-
  Region 3 of the kernel program: its output array after the region, as ONE function of the arrays the region found:
  each row of  w·(a + u) + b  normalised over its columns, scaled, shifted and passed through ELU.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact3`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = t.val ∧ win3_1.index t (1 : Fin 2) = 0 :=
  (by decide +kernel : ∀ t : Fin grid3.N, _)

theorem idx3_2 : ∀ t : Fin cfg3.N, win3_2.index t (0 : Fin 2) = t.val ∧ win3_2.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)

theorem idx3_4 : ∀ t : Fin cfg3.N, win3_4.index t (0 : Fin 2) = 0 ∧ win3_4.index t (1 : Fin 2) = 0 :=
  (by decide +kernel : ∀ t : Fin grid3.N, _)

theorem idx3_5 : ∀ t : Fin cfg3.N, win3_5.index t (0 : Fin 2) = 0 ∧ win3_5.index t (1 : Fin 2) = 0 :=
  (by decide +kernel : ∀ t : Fin grid3.N, _)

theorem idx3_6 : ∀ t : Fin cfg3.N, win3_6.index t (0 : Fin 2) = t.val ∧ win3_6.index t (1 : Fin 2) = 0 :=
  (by decide +kernel : ∀ t : Fin grid3.N, _)

/-! ## Each input block read off its array: coordinate = block index × block size + 1 × the coordinate inside -/

/-- Window 0's block at point t is rows t·2000 … t·2000 + 1999 of its array. -/
theorem blk3_0 (c : Dev nD) (t : Fin cfg3.N) (y : S2000x256.Idx) (i : S50000x256.Idx)
    (e0 : (i 0).val = t.val * 2000 + (y 0).val) (e1 : (i 1).val = (y 1).val) :
    (iblk3 V c 0 t : Vec Ideal S2000x256 .f32) y = (V c (Pipeline.arrRef spec3 0) : S50000x256.Idx → EReal) i := by
  obtain ⟨h0, h1⟩ := idx3_0 t
  unfold iblk3
  rw [View.read_apply]
  show (V c (Pipeline.arrRef spec3 0) : S50000x256.Idx → EReal) _ = _
  congr 1
  funext a
  apply Fin.ext
  match a with
  | ⟨0, _⟩ => show win3_0.index t (0 : Fin 2) * 2000 + 1 * (y 0).val = (i 0).val; rw [h0, e0]; omega
  | ⟨1, _⟩ => show win3_0.index t (1 : Fin 2) * 256 + 1 * (y 1).val = (i 1).val; rw [h1, e1]; omega

/-- Window 1's block at point t is rows t·2000 … t·2000 + 1999 of its array. -/
theorem blk3_1 (c : Dev nD) (t : Fin cfg3.N) (y : S2000x256.Idx) (i : S50000x256.Idx)
    (e0 : (i 0).val = t.val * 2000 + (y 0).val) (e1 : (i 1).val = (y 1).val) :
    (iblk3 V c 1 t : Vec Ideal S2000x256 .f32) y = (V c (Pipeline.arrRef spec3 1) : S50000x256.Idx → EReal) i := by
  obtain ⟨h0, h1⟩ := idx3_1 t
  unfold iblk3
  rw [View.read_apply]
  show (V c (Pipeline.arrRef spec3 1) : S50000x256.Idx → EReal) _ = _
  congr 1
  funext a
  apply Fin.ext
  match a with
  | ⟨0, _⟩ => show win3_1.index t (0 : Fin 2) * 2000 + 1 * (y 0).val = (i 0).val; rw [h0, e0]; omega
  | ⟨1, _⟩ => show win3_1.index t (1 : Fin 2) * 256 + 1 * (y 1).val = (i 1).val; rw [h1, e1]; omega

/-- Window 2's block at point t is rows t·2000 … t·2000 + 1999 of its array. -/
theorem blk3_2 (c : Dev nD) (t : Fin cfg3.N) (y : S2000x1.Idx) (i : S50000x1.Idx)
    (e0 : (i 0).val = t.val * 2000 + (y 0).val) (e1 : (i 1).val = (y 1).val) :
    (iblk3 V c 2 t : Vec Ideal S2000x1 .f32) y = (V c (Pipeline.arrRef spec3 2) : S50000x1.Idx → EReal) i := by
  obtain ⟨h0, h1⟩ := idx3_2 t
  unfold iblk3
  rw [View.read_apply]
  show (V c (Pipeline.arrRef spec3 2) : S50000x1.Idx → EReal) _ = _
  congr 1
  funext a
  apply Fin.ext
  match a with
  | ⟨0, _⟩ => show win3_2.index t (0 : Fin 2) * 2000 + 1 * (y 0).val = (i 0).val; rw [h0, e0]; omega
  | ⟨1, _⟩ => show win3_2.index t (1 : Fin 2) * 1 + 1 * (y 1).val = (i 1).val; rw [h1, e1]; omega

/-- Window 3's block at every point is its whole array. -/
theorem blk3_3 (c : Dev nD) (t : Fin cfg3.N) (y : S1x256.Idx) :
    (iblk3 V c 3 t : Vec Ideal S1x256 .f32) y = (V c (Pipeline.arrRef spec3 3) : S1x256.Idx → EReal) y := by
  obtain ⟨h0, h1⟩ := idx3_3 t
  unfold iblk3
  rw [View.read_apply]
  show (V c (Pipeline.arrRef spec3 3) : S1x256.Idx → EReal) _ = _
  congr 1
  funext a
  apply Fin.ext
  match a with
  | ⟨0, _⟩ => show win3_3.index t (0 : Fin 2) * 1 + 1 * (y 0).val = (y 0).val; rw [h0]; omega
  | ⟨1, _⟩ => show win3_3.index t (1 : Fin 2) * 256 + 1 * (y 1).val = (y 1).val; rw [h1]; omega

/-- Window 4's block at every point is its whole array. -/
theorem blk3_4 (c : Dev nD) (t : Fin cfg3.N) (y : S1x256.Idx) :
    (iblk3 V c 4 t : Vec Ideal S1x256 .f32) y = (V c (Pipeline.arrRef spec3 4) : S1x256.Idx → EReal) y := by
  obtain ⟨h0, h1⟩ := idx3_4 t
  unfold iblk3
  rw [View.read_apply]
  show (V c (Pipeline.arrRef spec3 4) : S1x256.Idx → EReal) _ = _
  congr 1
  funext a
  apply Fin.ext
  match a with
  | ⟨0, _⟩ => show win3_4.index t (0 : Fin 2) * 1 + 1 * (y 0).val = (y 0).val; rw [h0]; omega
  | ⟨1, _⟩ => show win3_4.index t (1 : Fin 2) * 256 + 1 * (y 1).val = (y 1).val; rw [h1]; omega

/-- Window 5's block at every point is its whole array. -/
theorem blk3_5 (c : Dev nD) (t : Fin cfg3.N) (y : S1x256.Idx) :
    (iblk3 V c 5 t : Vec Ideal S1x256 .f32) y = (V c (Pipeline.arrRef spec3 5) : S1x256.Idx → EReal) y := by
  obtain ⟨h0, h1⟩ := idx3_5 t
  unfold iblk3
  rw [View.read_apply]
  show (V c (Pipeline.arrRef spec3 5) : S1x256.Idx → EReal) _ = _
  congr 1
  funext a
  apply Fin.ext
  match a with
  | ⟨0, _⟩ => show win3_5.index t (0 : Fin 2) * 1 + 1 * (y 0).val = (y 0).val; rw [h0]; omega
  | ⟨1, _⟩ => show win3_5.index t (1 : Fin 2) * 256 + 1 * (y 1).val = (y 1).val; rw [h1]; omega

/-! ## The body's block fact this module starts from -/

/-- What the region's body leaves at row r and column q of its output block, from its input blocks. -/
abbrev BodyFact3 : Prop :=
  ∀ (x0 : Vec Ideal S2000x256 .f32) (x1 : Vec Ideal S2000x256 .f32) (x2 : Vec Ideal S2000x1 .f32) (x3 : Vec Ideal S1x256 .f32) (x4 : Vec Ideal S1x256 .f32) (x5 : Vec Ideal S1x256 .f32) (r : Fin 2000) (q : Fin 256),
    out3_6 (F := Ideal) x0 x1 x2 x3 x4 x5 (ix2 r q)
      = lnelu (Ideal.ofBits .f32 0x43800000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q

/-! ## The region's output array as one function of its input arrays -/

/-- Row p of  w·(a + u) + b  normalised over its columns, scaled, shifted and passed through ELU. -/
def g3 (A0 : S50000x256.Idx → EReal) (A1 : S50000x256.Idx → EReal) (A2 : S50000x1.Idx → EReal) (A3 : S1x256.Idx → EReal) (A4 : S1x256.Idx → EReal) (A5 : S1x256.Idx → EReal)
    (p : Fin 50000) (q : Fin 256) : EReal :=
  lnelu (Ideal.ofBits .f32 0x43800000#32) (Ideal.ofBits .f32 0x3727C5AC#32)
    (fun k => A2 (ix2 p (0 : Fin 1)) * (A0 (ix2 p k) + A1 (ix2 p k)) + A3 (ix2 (0 : Fin 1) k))
    (fun k => A4 (ix2 (0 : Fin 1) k)) (fun k => A5 (ix2 (0 : Fin 1) k)) q

/-- The same over the array's index set. -/
def G3 (A0 : S50000x256.Idx → EReal) (A1 : S50000x256.Idx → EReal) (A2 : S50000x1.Idx → EReal) (A3 : S1x256.Idx → EReal) (A4 : S1x256.Idx → EReal) (A5 : S1x256.Idx → EReal) :
    S50000x256.Idx → EReal :=
  fun i => g3 A0 A1 A2 A3 A4 A5 (i 0) (i 1)

/-- The body's block formula at row r of block n is the whole-array function at row n·2000 + r, when the input blocks
    are block n of the row-tiled arrays and all of the others. -/
theorem pt3 (hb : BodyFact3) (A0 : S50000x256.Idx → EReal) (A1 : S50000x256.Idx → EReal) (A2 : S50000x1.Idx → EReal) (A3 : S1x256.Idx → EReal) (A4 : S1x256.Idx → EReal) (A5 : S1x256.Idx → EReal)
    (x0 : Vec Ideal S2000x256 .f32) (x1 : Vec Ideal S2000x256 .f32) (x2 : Vec Ideal S2000x1 .f32) (x3 : Vec Ideal S1x256 .f32) (x4 : Vec Ideal S1x256 .f32) (x5 : Vec Ideal S1x256 .f32) (n : Nat)
    (h0 : ∀ (y : S2000x256.Idx) (i : S50000x256.Idx), (i 0).val = n * 2000 + (y 0).val → (i 1).val = (y 1).val → x0 y = A0 i)
    (h1 : ∀ (y : S2000x256.Idx) (i : S50000x256.Idx), (i 0).val = n * 2000 + (y 0).val → (i 1).val = (y 1).val → x1 y = A1 i)
    (h2 : ∀ (y : S2000x1.Idx) (i : S50000x1.Idx), (i 0).val = n * 2000 + (y 0).val → (i 1).val = (y 1).val → x2 y = A2 i)
    (h3 : ∀ y : S1x256.Idx, x3 y = A3 y)
    (h4 : ∀ y : S1x256.Idx, x4 y = A4 y)
    (h5 : ∀ y : S1x256.Idx, x5 y = A5 y)
    (y : S2000x256.Idx) (i : S50000x256.Idx) (hi0 : (i 0).val = n * 2000 + (y 0).val) (hi1 : (i 1).val = (y 1).val) :
    out3_6 (F := Ideal) x0 x1 x2 x3 x4 x5 y = G3 A0 A1 A2 A3 A4 A5 i := by
  obtain ⟨r, q, rfl⟩ : ∃ (r : Fin 2000) (q : Fin 256), y = ix2 r q := ⟨y 0, y 1, eq_ix2 y⟩
  obtain ⟨p, q', rfl⟩ : ∃ (p : Fin 50000) (q' : Fin 256), i = ix2 p q' := ⟨i 0, i 1, eq_ix2 i⟩
  obtain rfl : q' = q := Fin.ext hi1
  rw [hb x0 x1 x2 x3 x4 x5 r q']
  change _ = g3 A0 A1 A2 A3 A4 A5 p q'
  unfold g3
  have e0 : ∀ k : Fin 256, x0 (ix2 r k) = A0 (ix2 p k) := fun k => h0 (ix2 r k) (ix2 p k) hi0 rfl
  have e1 : ∀ k : Fin 256, x1 (ix2 r k) = A1 (ix2 p k) := fun k => h1 (ix2 r k) (ix2 p k) hi0 rfl
  have e2 : x2 (ix2 r (0 : Fin 1)) = A2 (ix2 p (0 : Fin 1)) := h2 (ix2 r (0 : Fin 1)) (ix2 p (0 : Fin 1)) hi0 rfl
  simp only [e0, e1, e2, h3, h4, h5]

/-! ## From the blocks to the array -/

/-- What point t writes back is block t of the whole-array function of the arrays the region found. -/
theorem flushed3 (hb : BodyFact3) (c : Dev nD) (t : Fin cfg3.N) :
    (dat3 V c).flushed 6 t = ((cfg3.win 6).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  obtain ⟨h0, h1⟩ := idx3_6 t
  funext y
  rw [View.read_apply]
  refine pt3 hb (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t) t.val
    (blk3_0 V c t) (blk3_1 V c t) (blk3_2 V c t) (blk3_3 V c t) (blk3_4 V c t) (blk3_5 V c t) y
    (((cfg3.win 6).blk t).view.emb y) ?_ ?_
  · show win3_6.index t (0 : Fin 2) * 2000 + 1 * (y 0).val = _; rw [h0]; omega
  · show win3_6.index t (1 : Fin 2) * 256 + 1 * (y 1).val = _; rw [h1]; omega

/-- An index of the output array is in point t's block iff each coordinate is in the block's range on its axis. -/
theorem mem_blk3 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v44).slice (win3_6.rect t)).set ↔ _
  rw [View.set_slice_whole, Rect.mem_set_unit]
  exact Iff.rfl

/-- Every index of the output array is in some point's block: row p is in the block of point p / 2000. -/
theorem cover3 (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  have ht : (i 0).val / 2000 < cfg3.N := by rw [show cfg3.N = 25 from N_3]; omega
  refine ⟨⟨(i 0).val / 2000, ht⟩, flush3_6 _, ?_⟩
  rw [mem_blk3]
  obtain ⟨h0, h1⟩ := idx3_6 ⟨(i 0).val / 2000, ht⟩
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win3_6.index ⟨(i 0).val / 2000, ht⟩ (1 : Fin 2) * 256 ≤ (i 1).val
      ∧ (i 1).val < win3_6.index ⟨(i 0).val / 2000, ht⟩ (1 : Fin 2) * 256 + 256
    rw [h1]; omega

/-- The output array after the region is the whole-array function of the arrays the region found. -/
theorem final3 (hb : BodyFact3) (c : Dev nD) : (dat3 V c).arrAt 6 cfg3.N
    = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed3 V hb c t) cover3

/-- The output array after the region, read at row p and column q: the region's function of the arrays it found. -/
theorem arr3_at (hb : BodyFact3) (c : Dev nD) (p : Fin 50000) (q : Fin 256) :
    (dat3 V c).arrAt 6 cfg3.N (ix2 p q)
      = g3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) p q := by
  rw [final3 V hb]; rfl

/-- The same with the arrays the region found named: whatever functions they are, the output array is this function of
    them. -/
theorem arr3_of_at (hb : BodyFact3) (c : Dev nD) (A0 : S50000x256.Idx → EReal) (A1 : S50000x256.Idx → EReal) (A2 : S50000x1.Idx → EReal) (A3 : S1x256.Idx → EReal) (A4 : S1x256.Idx → EReal) (A5 : S1x256.Idx → EReal)
    (e0 : V c (Pipeline.arrRef spec3 0) = A0)
    (e1 : V c (Pipeline.arrRef spec3 1) = A1)
    (e2 : V c (Pipeline.arrRef spec3 2) = A2)
    (e3 : V c (Pipeline.arrRef spec3 3) = A3)
    (e4 : V c (Pipeline.arrRef spec3 4) = A4)
    (e5 : V c (Pipeline.arrRef spec3 5) = A5)
    (p : Fin 50000) (q : Fin 256) :
    (dat3 V c).arrAt 6 cfg3.N (ix2 p q)
      = Cert.GCN.lnelu (Ideal.ofBits .f32 0x43800000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q := by
  subst e0 e1 e2 e3 e4 e5
  exact arr3_at V hb c p q

end Cert.KerSide

end
-- ==== Proof.KerArr4.lean ====
/-
  Region 4 of the kernel program: its output array after the region, as ONE function of the arrays the region found:
  the product of the region's first array with the weight matrix, each row times its node weight.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact4`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx4_0 : ∀ t : Fin cfg4.N, win4_0.index t (0 : Fin 2) = t.val ∧ win4_0.index t (1 : Fin 2) = 0 :=
  (by decide +kernel : ∀ t : Fin grid4.N, _)

theorem idx4_1 : ∀ t : Fin cfg4.N, win4_1.index t (0 : Fin 2) = 0 ∧ win4_1.index t (1 : Fin 2) = 0 :=
  (by decide +kernel : ∀ t : Fin grid4.N, _)

theorem idx4_2 : ∀ t : Fin cfg4.N, win4_2.index t (0 : Fin 2) = t.val ∧ win4_2.index t (1 : Fin 2) = 0 :=
  (by decide +kernel : ∀ t : Fin grid4.N, _)

theorem idx4_3 : ∀ t : Fin cfg4.N, win4_3.index t (0 : Fin 2) = t.val ∧ win4_3.index t (1 : Fin 2) = 0 :=
  (by decide +kernel : ∀ t : Fin grid4.N, _)

/-! ## Each input block read off its array: coordinate = block index × block size + 1 × the coordinate inside -/

/-- Window 0's block at point t is rows t·2000 … t·2000 + 1999 of its array. -/
theorem blk4_0 (c : Dev nD) (t : Fin cfg4.N) (y : S2000x256.Idx) (i : S50000x256.Idx)
    (e0 : (i 0).val = t.val * 2000 + (y 0).val) (e1 : (i 1).val = (y 1).val) :
    (iblk4 V c 0 t : Vec Ideal S2000x256 .f32) y = (V c (Pipeline.arrRef spec4 0) : S50000x256.Idx → EReal) i := by
  obtain ⟨h0, h1⟩ := idx4_0 t
  unfold iblk4
  rw [View.read_apply]
  show (V c (Pipeline.arrRef spec4 0) : S50000x256.Idx → EReal) _ = _
  congr 1
  funext a
  apply Fin.ext
  match a with
  | ⟨0, _⟩ => show win4_0.index t (0 : Fin 2) * 2000 + 1 * (y 0).val = (i 0).val; rw [h0, e0]; omega
  | ⟨1, _⟩ => show win4_0.index t (1 : Fin 2) * 256 + 1 * (y 1).val = (i 1).val; rw [h1, e1]; omega

/-- Window 1's block at every point is its whole array. -/
theorem blk4_1 (c : Dev nD) (t : Fin cfg4.N) (y : S256x128.Idx) :
    (iblk4 V c 1 t : Vec Ideal S256x128 .f32) y = (V c (Pipeline.arrRef spec4 1) : S256x128.Idx → EReal) y := by
  obtain ⟨h0, h1⟩ := idx4_1 t
  unfold iblk4
  rw [View.read_apply]
  show (V c (Pipeline.arrRef spec4 1) : S256x128.Idx → EReal) _ = _
  congr 1
  funext a
  apply Fin.ext
  match a with
  | ⟨0, _⟩ => show win4_1.index t (0 : Fin 2) * 256 + 1 * (y 0).val = (y 0).val; rw [h0]; omega
  | ⟨1, _⟩ => show win4_1.index t (1 : Fin 2) * 128 + 1 * (y 1).val = (y 1).val; rw [h1]; omega

/-- Window 2's block at point t is rows t·2000 … t·2000 + 1999 of its array. -/
theorem blk4_2 (c : Dev nD) (t : Fin cfg4.N) (y : S2000x1.Idx) (i : S50000x1.Idx)
    (e0 : (i 0).val = t.val * 2000 + (y 0).val) (e1 : (i 1).val = (y 1).val) :
    (iblk4 V c 2 t : Vec Ideal S2000x1 .f32) y = (V c (Pipeline.arrRef spec4 2) : S50000x1.Idx → EReal) i := by
  obtain ⟨h0, h1⟩ := idx4_2 t
  unfold iblk4
  rw [View.read_apply]
  show (V c (Pipeline.arrRef spec4 2) : S50000x1.Idx → EReal) _ = _
  congr 1
  funext a
  apply Fin.ext
  match a with
  | ⟨0, _⟩ => show win4_2.index t (0 : Fin 2) * 2000 + 1 * (y 0).val = (i 0).val; rw [h0, e0]; omega
  | ⟨1, _⟩ => show win4_2.index t (1 : Fin 2) * 1 + 1 * (y 1).val = (i 1).val; rw [h1, e1]; omega

/-! ## The body's block fact this module starts from -/

/-- What the region's body leaves at row r and column q of its output block, from its input blocks. -/
abbrev BodyFact4 : Prop :=
  ∀ (x0 : Vec Ideal S2000x256 .f32) (x1 : Vec Ideal S256x128 .f32) (x2 : Vec Ideal S2000x1 .f32) (r : Fin 2000) (q : Fin 128),
    out4_3 (F := Ideal) x0 x1 x2 (ix2 r q)
      = mm (fun p c => x0 (ix2 p c)) (fun c q => x1 (ix2 c q)) r q * x2 (ix2 r (0 : Fin 1))

/-! ## The region's output array as one function of its input arrays -/

/-- The product of row p of the first array with the weight matrix, times the node weight of row p. -/
def g4 (A0 : S50000x256.Idx → EReal) (A1 : S256x128.Idx → EReal) (A2 : S50000x1.Idx → EReal)
    (p : Fin 50000) (q : Fin 128) : EReal :=
  mm (fun p k => A0 (ix2 p k)) (fun k q => A1 (ix2 k q)) p q * A2 (ix2 p (0 : Fin 1))

/-- The same over the array's index set. -/
def G4 (A0 : S50000x256.Idx → EReal) (A1 : S256x128.Idx → EReal) (A2 : S50000x1.Idx → EReal) :
    S50000x128.Idx → EReal :=
  fun i => g4 A0 A1 A2 (i 0) (i 1)

/-- The body's block formula at row r of block n is the whole-array function at row n·2000 + r, when the input blocks
    are block n of the row-tiled arrays and all of the others. -/
theorem pt4 (hb : BodyFact4) (A0 : S50000x256.Idx → EReal) (A1 : S256x128.Idx → EReal) (A2 : S50000x1.Idx → EReal)
    (x0 : Vec Ideal S2000x256 .f32) (x1 : Vec Ideal S256x128 .f32) (x2 : Vec Ideal S2000x1 .f32) (n : Nat)
    (h0 : ∀ (y : S2000x256.Idx) (i : S50000x256.Idx), (i 0).val = n * 2000 + (y 0).val → (i 1).val = (y 1).val → x0 y = A0 i)
    (h1 : ∀ y : S256x128.Idx, x1 y = A1 y)
    (h2 : ∀ (y : S2000x1.Idx) (i : S50000x1.Idx), (i 0).val = n * 2000 + (y 0).val → (i 1).val = (y 1).val → x2 y = A2 i)
    (y : S2000x128.Idx) (i : S50000x128.Idx) (hi0 : (i 0).val = n * 2000 + (y 0).val) (hi1 : (i 1).val = (y 1).val) :
    out4_3 (F := Ideal) x0 x1 x2 y = G4 A0 A1 A2 i := by
  obtain ⟨r, q, rfl⟩ : ∃ (r : Fin 2000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext hi1
  rw [hb x0 x1 x2 r q']
  show (∑ k : Fin 256, x0 (ix2 r k) * x1 (ix2 k q')) * x2 (ix2 r (0 : Fin 1))
    = (∑ k : Fin 256, A0 (ix2 p k) * A1 (ix2 k q')) * A2 (ix2 p (0 : Fin 1))
  rw [h2 (ix2 r (0 : Fin 1)) (ix2 p (0 : Fin 1)) hi0 rfl]
  congr 1
  refine Finset.sum_congr rfl fun k _ => ?_
  rw [h0 (ix2 r k) (ix2 p k) hi0 rfl, h1]

/-! ## From the blocks to the array -/

/-- What point t writes back is block t of the whole-array function of the arrays the region found. -/
theorem flushed4 (hb : BodyFact4) (c : Dev nD) (t : Fin cfg4.N) :
    (dat4 V c).flushed 3 t = ((cfg4.win 3).blk t).view.read (Elt Ideal)
      (G4 (V c (Pipeline.arrRef spec4 0)) (V c (Pipeline.arrRef spec4 1)) (V c (Pipeline.arrRef spec4 2))) := by
  show (cfg4.win 3).cut (grid4.coords t) ((dat4 V c).after 3 t) = _
  rw [after4_3]
  obtain ⟨h0, h1⟩ := idx4_3 t
  funext y
  rw [View.read_apply]
  refine pt4 hb (V c (Pipeline.arrRef spec4 0)) (V c (Pipeline.arrRef spec4 1)) (V c (Pipeline.arrRef spec4 2))
    (iblk4 V c 0 t) (iblk4 V c 1 t) (iblk4 V c 2 t) t.val
    (blk4_0 V c t) (blk4_1 V c t) (blk4_2 V c t) y
    (((cfg4.win 3).blk t).view.emb y) ?_ ?_
  · show win4_3.index t (0 : Fin 2) * 2000 + 1 * (y 0).val = _; rw [h0]; omega
  · show win4_3.index t (1 : Fin 2) * 128 + 1 * (y 1).val = _; rw [h1]; omega

/-- An index of the output array is in point t's block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v45).slice (win4_3.rect t)).set ↔ _
  rw [View.set_slice_whole, Rect.mem_set_unit]
  exact Iff.rfl

/-- Every index of the output array is in some point's block: row p is in the block of point p / 2000. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have ht : (i 0).val / 2000 < cfg4.N := by rw [show cfg4.N = 25 from N_4]; omega
  refine ⟨⟨(i 0).val / 2000, ht⟩, flush4_3 _, ?_⟩
  rw [mem_blk4]
  obtain ⟨h0, h1⟩ := idx4_3 ⟨(i 0).val / 2000, ht⟩
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win4_3.index ⟨(i 0).val / 2000, ht⟩ (1 : Fin 2) * 128 ≤ (i 1).val
      ∧ (i 1).val < win4_3.index ⟨(i 0).val / 2000, ht⟩ (1 : Fin 2) * 128 + 128
    rw [h1]; omega

/-- The output array after the region is the whole-array function of the arrays the region found. -/
theorem final4 (hb : BodyFact4) (c : Dev nD) : (dat4 V c).arrAt 3 cfg4.N
    = G4 (V c (Pipeline.arrRef spec4 0)) (V c (Pipeline.arrRef spec4 1)) (V c (Pipeline.arrRef spec4 2)) :=
  (dat4 V c).arrAt_eq_of_cover 3 _ (fun t _ => flushed4 V hb c t) cover4

/-- The output array after the region, read at row p and column q: the region's function of the arrays it found. -/
theorem arr4_at (hb : BodyFact4) (c : Dev nD) (p : Fin 50000) (q : Fin 128) :
    (dat4 V c).arrAt 3 cfg4.N (ix2 p q)
      = g4 (V c (Pipeline.arrRef spec4 0)) (V c (Pipeline.arrRef spec4 1)) (V c (Pipeline.arrRef spec4 2)) p q := by
  rw [final4 V hb]; rfl

/-- The same with the arrays the region found named: whatever functions they are, the output array is this function of
    them. -/
theorem arr4_of_at (hb : BodyFact4) (c : Dev nD) (A0 : S50000x256.Idx → EReal) (A1 : S256x128.Idx → EReal) (A2 : S50000x1.Idx → EReal)
    (e0 : V c (Pipeline.arrRef spec4 0) = A0)
    (e1 : V c (Pipeline.arrRef spec4 1) = A1)
    (e2 : V c (Pipeline.arrRef spec4 2) = A2)
    (p : Fin 50000) (q : Fin 128) :
    (dat4 V c).arrAt 3 cfg4.N (ix2 p q)
      = Cert.GCN.mm (fun p k => A0 (ix2 p k)) (fun k q => A1 (ix2 k q)) p q * A2 (ix2 p (0 : Fin 1)) := by
  subst e0 e1 e2
  exact arr4_at V hb c p q

end Cert.KerSide

end
-- ==== Proof.KerArr5.lean ====
/-
  Region 5 of the kernel program: its output array after the region, as ONE function of the arrays the region found:
  each row of  w·(a + u) + b  normalised over its columns, scaled, shifted and passed through ELU.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact5`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx5_0 : ∀ t : Fin cfg5.N, win5_0.index t (0 : Fin 2) = t.val ∧ win5_0.index t (1 : Fin 2) = 0 :=
  (by decide +kernel : ∀ t : Fin grid5.N, _)

theorem idx5_1 : ∀ t : Fin cfg5.N, win5_1.index t (0 : Fin 2) = t.val ∧ win5_1.index t (1 : Fin 2) = 0 :=
  (by decide +kernel : ∀ t : Fin grid5.N, _)

theorem idx5_2 : ∀ t : Fin cfg5.N, win5_2.index t (0 : Fin 2) = t.val ∧ win5_2.index t (1 : Fin 2) = 0 :=
  (by decide +kernel : ∀ t : Fin grid5.N, _)

theorem idx5_3 : ∀ t : Fin cfg5.N, win5_3.index t (0 : Fin 2) = 0 ∧ win5_3.index t (1 : Fin 2) = 0 :=
  (by decide +kernel : ∀ t : Fin grid5.N, _)

theorem idx5_4 : ∀ t : Fin cfg5.N, win5_4.index t (0 : Fin 2) = 0 ∧ win5_4.index t (1 : Fin 2) = 0 :=
  (by decide +kernel : ∀ t : Fin grid5.N, _)

theorem idx5_5 : ∀ t : Fin cfg5.N, win5_5.index t (0 : Fin 2) = 0 ∧ win5_5.index t (1 : Fin 2) = 0 :=
  (by decide +kernel : ∀ t : Fin grid5.N, _)

theorem idx5_6 : ∀ t : Fin cfg5.N, win5_6.index t (0 : Fin 2) = t.val ∧ win5_6.index t (1 : Fin 2) = 0 :=
  (by decide +kernel : ∀ t : Fin grid5.N, _)

/-! ## Each input block read off its array: coordinate = block index × block size + 1 × the coordinate inside -/

/-- Window 0's block at point t is rows t·2000 … t·2000 + 1999 of its array. -/
theorem blk5_0 (c : Dev nD) (t : Fin cfg5.N) (y : S2000x128.Idx) (i : S50000x128.Idx)
    (e0 : (i 0).val = t.val * 2000 + (y 0).val) (e1 : (i 1).val = (y 1).val) :
    (iblk5 V c 0 t : Vec Ideal S2000x128 .f32) y = (V c (Pipeline.arrRef spec5 0) : S50000x128.Idx → EReal) i := by
  obtain ⟨h0, h1⟩ := idx5_0 t
  unfold iblk5
  rw [View.read_apply]
  show (V c (Pipeline.arrRef spec5 0) : S50000x128.Idx → EReal) _ = _
  congr 1
  funext a
  apply Fin.ext
  match a with
  | ⟨0, _⟩ => show win5_0.index t (0 : Fin 2) * 2000 + 1 * (y 0).val = (i 0).val; rw [h0, e0]; omega
  | ⟨1, _⟩ => show win5_0.index t (1 : Fin 2) * 128 + 1 * (y 1).val = (i 1).val; rw [h1, e1]; omega

/-- Window 1's block at point t is rows t·2000 … t·2000 + 1999 of its array. -/
theorem blk5_1 (c : Dev nD) (t : Fin cfg5.N) (y : S2000x128.Idx) (i : S50000x128.Idx)
    (e0 : (i 0).val = t.val * 2000 + (y 0).val) (e1 : (i 1).val = (y 1).val) :
    (iblk5 V c 1 t : Vec Ideal S2000x128 .f32) y = (V c (Pipeline.arrRef spec5 1) : S50000x128.Idx → EReal) i := by
  obtain ⟨h0, h1⟩ := idx5_1 t
  unfold iblk5
  rw [View.read_apply]
  show (V c (Pipeline.arrRef spec5 1) : S50000x128.Idx → EReal) _ = _
  congr 1
  funext a
  apply Fin.ext
  match a with
  | ⟨0, _⟩ => show win5_1.index t (0 : Fin 2) * 2000 + 1 * (y 0).val = (i 0).val; rw [h0, e0]; omega
  | ⟨1, _⟩ => show win5_1.index t (1 : Fin 2) * 128 + 1 * (y 1).val = (i 1).val; rw [h1, e1]; omega

/-- Window 2's block at point t is rows t·2000 … t·2000 + 1999 of its array. -/
theorem blk5_2 (c : Dev nD) (t : Fin cfg5.N) (y : S2000x1.Idx) (i : S50000x1.Idx)
    (e0 : (i 0).val = t.val * 2000 + (y 0).val) (e1 : (i 1).val = (y 1).val) :
    (iblk5 V c 2 t : Vec Ideal S2000x1 .f32) y = (V c (Pipeline.arrRef spec5 2) : S50000x1.Idx → EReal) i := by
  obtain ⟨h0, h1⟩ := idx5_2 t
  unfold iblk5
  rw [View.read_apply]
  show (V c (Pipeline.arrRef spec5 2) : S50000x1.Idx → EReal) _ = _
  congr 1
  funext a
  apply Fin.ext
  match a with
  | ⟨0, _⟩ => show win5_2.index t (0 : Fin 2) * 2000 + 1 * (y 0).val = (i 0).val; rw [h0, e0]; omega
  | ⟨1, _⟩ => show win5_2.index t (1 : Fin 2) * 1 + 1 * (y 1).val = (i 1).val; rw [h1, e1]; omega

/-- Window 3's block at every point is its whole array. -/
theorem blk5_3 (c : Dev nD) (t : Fin cfg5.N) (y : S1x128.Idx) :
    (iblk5 V c 3 t : Vec Ideal S1x128 .f32) y = (V c (Pipeline.arrRef spec5 3) : S1x128.Idx → EReal) y := by
  obtain ⟨h0, h1⟩ := idx5_3 t
  unfold iblk5
  rw [View.read_apply]
  show (V c (Pipeline.arrRef spec5 3) : S1x128.Idx → EReal) _ = _
  congr 1
  funext a
  apply Fin.ext
  match a with
  | ⟨0, _⟩ => show win5_3.index t (0 : Fin 2) * 1 + 1 * (y 0).val = (y 0).val; rw [h0]; omega
  | ⟨1, _⟩ => show win5_3.index t (1 : Fin 2) * 128 + 1 * (y 1).val = (y 1).val; rw [h1]; omega

/-- Window 4's block at every point is its whole array. -/
theorem blk5_4 (c : Dev nD) (t : Fin cfg5.N) (y : S1x128.Idx) :
    (iblk5 V c 4 t : Vec Ideal S1x128 .f32) y = (V c (Pipeline.arrRef spec5 4) : S1x128.Idx → EReal) y := by
  obtain ⟨h0, h1⟩ := idx5_4 t
  unfold iblk5
  rw [View.read_apply]
  show (V c (Pipeline.arrRef spec5 4) : S1x128.Idx → EReal) _ = _
  congr 1
  funext a
  apply Fin.ext
  match a with
  | ⟨0, _⟩ => show win5_4.index t (0 : Fin 2) * 1 + 1 * (y 0).val = (y 0).val; rw [h0]; omega
  | ⟨1, _⟩ => show win5_4.index t (1 : Fin 2) * 128 + 1 * (y 1).val = (y 1).val; rw [h1]; omega

/-- Window 5's block at every point is its whole array. -/
theorem blk5_5 (c : Dev nD) (t : Fin cfg5.N) (y : S1x128.Idx) :
    (iblk5 V c 5 t : Vec Ideal S1x128 .f32) y = (V c (Pipeline.arrRef spec5 5) : S1x128.Idx → EReal) y := by
  obtain ⟨h0, h1⟩ := idx5_5 t
  unfold iblk5
  rw [View.read_apply]
  show (V c (Pipeline.arrRef spec5 5) : S1x128.Idx → EReal) _ = _
  congr 1
  funext a
  apply Fin.ext
  match a with
  | ⟨0, _⟩ => show win5_5.index t (0 : Fin 2) * 1 + 1 * (y 0).val = (y 0).val; rw [h0]; omega
  | ⟨1, _⟩ => show win5_5.index t (1 : Fin 2) * 128 + 1 * (y 1).val = (y 1).val; rw [h1]; omega

/-! ## The body's block fact this module starts from -/

/-- What the region's body leaves at row r and column q of its output block, from its input blocks. -/
abbrev BodyFact5 : Prop :=
  ∀ (x0 : Vec Ideal S2000x128 .f32) (x1 : Vec Ideal S2000x128 .f32) (x2 : Vec Ideal S2000x1 .f32) (x3 : Vec Ideal S1x128 .f32) (x4 : Vec Ideal S1x128 .f32) (x5 : Vec Ideal S1x128 .f32) (r : Fin 2000) (q : Fin 128),
    out5_6 (F := Ideal) x0 x1 x2 x3 x4 x5 (ix2 r q)
      = lnelu (Ideal.ofBits .f32 0x43000000#32) (Ideal.ofBits .f32 0x3727C5AC#32)
          (fun c => x2 (ix2 r (0 : Fin 1)) * (x0 (ix2 r c) + x1 (ix2 r c)) + x3 (ix2 (0 : Fin 1) c))
          (fun c => x4 (ix2 (0 : Fin 1) c)) (fun c => x5 (ix2 (0 : Fin 1) c)) q

/-! ## The region's output array as one function of its input arrays -/

/-- Row p of  w·(a + u) + b  normalised over its columns, scaled, shifted and passed through ELU. -/
def g5 (A0 : S50000x128.Idx → EReal) (A1 : S50000x128.Idx → EReal) (A2 : S50000x1.Idx → EReal) (A3 : S1x128.Idx → EReal) (A4 : S1x128.Idx → EReal) (A5 : S1x128.Idx → EReal)
    (p : Fin 50000) (q : Fin 128) : EReal :=
  lnelu (Ideal.ofBits .f32 0x43000000#32) (Ideal.ofBits .f32 0x3727C5AC#32)
    (fun k => A2 (ix2 p (0 : Fin 1)) * (A0 (ix2 p k) + A1 (ix2 p k)) + A3 (ix2 (0 : Fin 1) k))
    (fun k => A4 (ix2 (0 : Fin 1) k)) (fun k => A5 (ix2 (0 : Fin 1) k)) q

/-- The same over the array's index set. -/
def G5 (A0 : S50000x128.Idx → EReal) (A1 : S50000x128.Idx → EReal) (A2 : S50000x1.Idx → EReal) (A3 : S1x128.Idx → EReal) (A4 : S1x128.Idx → EReal) (A5 : S1x128.Idx → EReal) :
    S50000x128.Idx → EReal :=
  fun i => g5 A0 A1 A2 A3 A4 A5 (i 0) (i 1)

/-- The body's block formula at row r of block n is the whole-array function at row n·2000 + r, when the input blocks
    are block n of the row-tiled arrays and all of the others. -/
theorem pt5 (hb : BodyFact5) (A0 : S50000x128.Idx → EReal) (A1 : S50000x128.Idx → EReal) (A2 : S50000x1.Idx → EReal) (A3 : S1x128.Idx → EReal) (A4 : S1x128.Idx → EReal) (A5 : S1x128.Idx → EReal)
    (x0 : Vec Ideal S2000x128 .f32) (x1 : Vec Ideal S2000x128 .f32) (x2 : Vec Ideal S2000x1 .f32) (x3 : Vec Ideal S1x128 .f32) (x4 : Vec Ideal S1x128 .f32) (x5 : Vec Ideal S1x128 .f32) (n : Nat)
    (h0 : ∀ (y : S2000x128.Idx) (i : S50000x128.Idx), (i 0).val = n * 2000 + (y 0).val → (i 1).val = (y 1).val → x0 y = A0 i)
    (h1 : ∀ (y : S2000x128.Idx) (i : S50000x128.Idx), (i 0).val = n * 2000 + (y 0).val → (i 1).val = (y 1).val → x1 y = A1 i)
    (h2 : ∀ (y : S2000x1.Idx) (i : S50000x1.Idx), (i 0).val = n * 2000 + (y 0).val → (i 1).val = (y 1).val → x2 y = A2 i)
    (h3 : ∀ y : S1x128.Idx, x3 y = A3 y)
    (h4 : ∀ y : S1x128.Idx, x4 y = A4 y)
    (h5 : ∀ y : S1x128.Idx, x5 y = A5 y)
    (y : S2000x128.Idx) (i : S50000x128.Idx) (hi0 : (i 0).val = n * 2000 + (y 0).val) (hi1 : (i 1).val = (y 1).val) :
    out5_6 (F := Ideal) x0 x1 x2 x3 x4 x5 y = G5 A0 A1 A2 A3 A4 A5 i := by
  obtain ⟨r, q, rfl⟩ : ∃ (r : Fin 2000) (q : Fin 128), y = ix2 r q := ⟨y 0, y 1, eq_ix2 y⟩
  obtain ⟨p, q', rfl⟩ : ∃ (p : Fin 50000) (q' : Fin 128), i = ix2 p q' := ⟨i 0, i 1, eq_ix2 i⟩
  obtain rfl : q' = q := Fin.ext hi1
  rw [hb x0 x1 x2 x3 x4 x5 r q']
  change _ = g5 A0 A1 A2 A3 A4 A5 p q'
  unfold g5
  have e0 : ∀ k : Fin 128, x0 (ix2 r k) = A0 (ix2 p k) := fun k => h0 (ix2 r k) (ix2 p k) hi0 rfl
  have e1 : ∀ k : Fin 128, x1 (ix2 r k) = A1 (ix2 p k) := fun k => h1 (ix2 r k) (ix2 p k) hi0 rfl
  have e2 : x2 (ix2 r (0 : Fin 1)) = A2 (ix2 p (0 : Fin 1)) := h2 (ix2 r (0 : Fin 1)) (ix2 p (0 : Fin 1)) hi0 rfl
  simp only [e0, e1, e2, h3, h4, h5]

/-! ## From the blocks to the array -/

/-- What point t writes back is block t of the whole-array function of the arrays the region found. -/
theorem flushed5 (hb : BodyFact5) (c : Dev nD) (t : Fin cfg5.N) :
    (dat5 V c).flushed 6 t = ((cfg5.win 6).blk t).view.read (Elt Ideal)
      (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  obtain ⟨h0, h1⟩ := idx5_6 t
  funext y
  rw [View.read_apply]
  refine pt5 hb (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
    (iblk5 V c 0 t) (iblk5 V c 1 t) (iblk5 V c 2 t) (iblk5 V c 3 t) (iblk5 V c 4 t) (iblk5 V c 5 t) t.val
    (blk5_0 V c t) (blk5_1 V c t) (blk5_2 V c t) (blk5_3 V c t) (blk5_4 V c t) (blk5_5 V c t) y
    (((cfg5.win 6).blk t).view.emb y) ?_ ?_
  · show win5_6.index t (0 : Fin 2) * 2000 + 1 * (y 0).val = _; rw [h0]; omega
  · show win5_6.index t (1 : Fin 2) * 128 + 1 * (y 1).val = _; rw [h1]; omega

/-- An index of the output array is in point t's block iff each coordinate is in the block's range on its axis. -/
theorem mem_blk5 (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v59).slice (win5_6.rect t)).set ↔ _
  rw [View.set_slice_whole, Rect.mem_set_unit]
  exact Iff.rfl

/-- Every index of the output array is in some point's block: row p is in the block of point p / 2000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have ht : (i 0).val / 2000 < cfg5.N := by rw [show cfg5.N = 25 from N_5]; omega
  refine ⟨⟨(i 0).val / 2000, ht⟩, flush5_6 _, ?_⟩
  rw [mem_blk5]
  obtain ⟨h0, h1⟩ := idx5_6 ⟨(i 0).val / 2000, ht⟩
  intro a
  match a with
  | ⟨0, _⟩ =>
    show win5_6.index ⟨(i 0).val / 2000, ht⟩ (0 : Fin 2) * 2000 ≤ (i 0).val
      ∧ (i 0).val < win5_6.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win5_6.index ⟨(i 0).val / 2000, ht⟩ (1 : Fin 2) * 128 ≤ (i 1).val
      ∧ (i 1).val < win5_6.index ⟨(i 0).val / 2000, ht⟩ (1 : Fin 2) * 128 + 128
    rw [h1]; omega

/-- The output array after the region is the whole-array function of the arrays the region found. -/
theorem final5 (hb : BodyFact5) (c : Dev nD) : (dat5 V c).arrAt 6 cfg5.N
    = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5 V hb c t) cover5

/-- The output array after the region, read at row p and column q: the region's function of the arrays it found. -/
theorem arr5_at (hb : BodyFact5) (c : Dev nD) (p : Fin 50000) (q : Fin 128) :
    (dat5 V c).arrAt 6 cfg5.N (ix2 p q)
      = g5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) p q := by
  rw [final5 V hb]; rfl

/-- The same with the arrays the region found named: whatever functions they are, the output array is this function of
    them. -/
theorem arr5_of_at (hb : BodyFact5) (c : Dev nD) (A0 : S50000x128.Idx → EReal) (A1 : S50000x128.Idx → EReal) (A2 : S50000x1.Idx → EReal) (A3 : S1x128.Idx → EReal) (A4 : S1x128.Idx → EReal) (A5 : S1x128.Idx → EReal)
    (e0 : V c (Pipeline.arrRef spec5 0) = A0)
    (e1 : V c (Pipeline.arrRef spec5 1) = A1)
    (e2 : V c (Pipeline.arrRef spec5 2) = A2)
    (e3 : V c (Pipeline.arrRef spec5 3) = A3)
    (e4 : V c (Pipeline.arrRef spec5 4) = A4)
    (e5 : V c (Pipeline.arrRef spec5 5) = A5)
    (p : Fin 50000) (q : Fin 128) :
    (dat5 V c).arrAt 6 cfg5.N (ix2 p q)
      = Cert.GCN.lnelu (Ideal.ofBits .f32 0x43000000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q := by
  subst e0 e1 e2 e3 e4 e5
  exact arr5_at V hb c p q

end Cert.KerSide

end
-- ==== Proof.KerArr6.lean ====
/-
  Region 6 of the kernel program: its output array after the region, as ONE function of the arrays the region found:
  the two dense layers of the head applied to each row of the region's first array.

  The grid has 25 points; point t works on rows t·2000 … t·2000 + 1999 (the row-tiled windows' block index is (t, 0),
  the whole windows' (0, 0)). What point t writes back is the body's block formula of its input blocks; each input
  block is read off its array (coordinate = block index × block size + the coordinate inside the block), so the
  written block is block t of the whole-array function; the 25 blocks cover the array (row p is in block p / 2000).
  The body's block formula itself is taken as a hypothesis here (`BodyFact6`); the assembling module supplies it.
-/
import proofs.«137113_j6760278524492_2_alg».proof.Proof.Gen.KernelIdeal.Frame
import proofs.«137113_j6760278524492_2_alg».proof.Proof.Spec
import Idealize.ShloMosaic.Lib.ValueIdx
import Idealize.ShloMosaic.Lib.Pipeline.Value
import Idealize.ShloMosaic.PureOps.Ideal

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## The index maps over the grid: a row-tiled window's block index at point t is (t, 0), a whole window's (0, 0) -/

theorem idx6_0 : ∀ t : Fin cfg6.N, win6_0.index t (0 : Fin 2) = t.val ∧ win6_0.index t (1 : Fin 2) = 0 :=
  (by decide +kernel : ∀ t : Fin grid6.N, _)

theorem idx6_1 : ∀ t : Fin cfg6.N, win6_1.index t (0 : Fin 2) = 0 ∧ win6_1.index t (1 : Fin 2) = 0 :=
  (by decide +kernel : ∀ t : Fin grid6.N, _)

theorem idx6_2 : ∀ t : Fin cfg6.N, win6_2.index t (0 : Fin 2) = 0 ∧ win6_2.index t (1 : Fin 2) = 0 :=
  (by decide +kernel : ∀ t : Fin grid6.N, _)

theorem idx6_3 : ∀ t : Fin cfg6.N, win6_3.index t (0 : Fin 2) = 0 ∧ win6_3.index t (1 : Fin 2) = 0 :=
  (by decide +kernel : ∀ t : Fin grid6.N, _)

theorem idx6_4 : ∀ t : Fin cfg6.N, win6_4.index t (0 : Fin 2) = 0 ∧ win6_4.index t (1 : Fin 2) = 0 :=
  (by decide +kernel : ∀ t : Fin grid6.N, _)

theorem idx6_5 : ∀ t : Fin cfg6.N, win6_5.index t (0 : Fin 2) = 0 ∧ win6_5.index t (1 : Fin 2) = 0 :=
  (by decide +kernel : ∀ t : Fin grid6.N, _)

theorem idx6_6 : ∀ t : Fin cfg6.N, win6_6.index t (0 : Fin 2) = 0 ∧ win6_6.index t (1 : Fin 2) = 0 :=
  (by decide +kernel : ∀ t : Fin grid6.N, _)

theorem idx6_7 : ∀ t : Fin cfg6.N, win6_7.index t (0 : Fin 2) = t.val ∧ win6_7.index t (1 : Fin 2) = 0 :=
  (by decide +kernel : ∀ t : Fin grid6.N, _)

/-! ## Each input block read off its array: coordinate = block index × block size + 1 × the coordinate inside -/

/-- Window 0's block at point t is rows t·2000 … t·2000 + 1999 of its array. -/
theorem blk6_0 (c : Dev nD) (t : Fin cfg6.N) (y : S2000x128.Idx) (i : S50000x128.Idx)
    (e0 : (i 0).val = t.val * 2000 + (y 0).val) (e1 : (i 1).val = (y 1).val) :
    (iblk6 V c 0 t : Vec Ideal S2000x128 .f32) y = (V c (Pipeline.arrRef spec6 0) : S50000x128.Idx → EReal) i := by
  obtain ⟨h0, h1⟩ := idx6_0 t
  unfold iblk6
  rw [View.read_apply]
  show (V c (Pipeline.arrRef spec6 0) : S50000x128.Idx → EReal) _ = _
  congr 1
  funext a
  apply Fin.ext
  match a with
  | ⟨0, _⟩ => show win6_0.index t (0 : Fin 2) * 2000 + 1 * (y 0).val = (i 0).val; rw [h0, e0]; omega
  | ⟨1, _⟩ => show win6_0.index t (1 : Fin 2) * 128 + 1 * (y 1).val = (i 1).val; rw [h1, e1]; omega

/-- Window 1's block at every point is its whole array. -/
theorem blk6_1 (c : Dev nD) (t : Fin cfg6.N) (y : S128x64.Idx) :
    (iblk6 V c 1 t : Vec Ideal S128x64 .f32) y = (V c (Pipeline.arrRef spec6 1) : S128x64.Idx → EReal) y := by
  obtain ⟨h0, h1⟩ := idx6_1 t
  unfold iblk6
  rw [View.read_apply]
  show (V c (Pipeline.arrRef spec6 1) : S128x64.Idx → EReal) _ = _
  congr 1
  funext a
  apply Fin.ext
  match a with
  | ⟨0, _⟩ => show win6_1.index t (0 : Fin 2) * 128 + 1 * (y 0).val = (y 0).val; rw [h0]; omega
  | ⟨1, _⟩ => show win6_1.index t (1 : Fin 2) * 64 + 1 * (y 1).val = (y 1).val; rw [h1]; omega

/-- Window 2's block at every point is its whole array. -/
theorem blk6_2 (c : Dev nD) (t : Fin cfg6.N) (y : S1x64.Idx) :
    (iblk6 V c 2 t : Vec Ideal S1x64 .f32) y = (V c (Pipeline.arrRef spec6 2) : S1x64.Idx → EReal) y := by
  obtain ⟨h0, h1⟩ := idx6_2 t
  unfold iblk6
  rw [View.read_apply]
  show (V c (Pipeline.arrRef spec6 2) : S1x64.Idx → EReal) _ = _
  congr 1
  funext a
  apply Fin.ext
  match a with
  | ⟨0, _⟩ => show win6_2.index t (0 : Fin 2) * 1 + 1 * (y 0).val = (y 0).val; rw [h0]; omega
  | ⟨1, _⟩ => show win6_2.index t (1 : Fin 2) * 64 + 1 * (y 1).val = (y 1).val; rw [h1]; omega

/-- Window 3's block at every point is its whole array. -/
theorem blk6_3 (c : Dev nD) (t : Fin cfg6.N) (y : S1x64.Idx) :
    (iblk6 V c 3 t : Vec Ideal S1x64 .f32) y = (V c (Pipeline.arrRef spec6 3) : S1x64.Idx → EReal) y := by
  obtain ⟨h0, h1⟩ := idx6_3 t
  unfold iblk6
  rw [View.read_apply]
  show (V c (Pipeline.arrRef spec6 3) : S1x64.Idx → EReal) _ = _
  congr 1
  funext a
  apply Fin.ext
  match a with
  | ⟨0, _⟩ => show win6_3.index t (0 : Fin 2) * 1 + 1 * (y 0).val = (y 0).val; rw [h0]; omega
  | ⟨1, _⟩ => show win6_3.index t (1 : Fin 2) * 64 + 1 * (y 1).val = (y 1).val; rw [h1]; omega

/-- Window 4's block at every point is its whole array. -/
theorem blk6_4 (c : Dev nD) (t : Fin cfg6.N) (y : S1x64.Idx) :
    (iblk6 V c 4 t : Vec Ideal S1x64 .f32) y = (V c (Pipeline.arrRef spec6 4) : S1x64.Idx → EReal) y := by
  obtain ⟨h0, h1⟩ := idx6_4 t
  unfold iblk6
  rw [View.read_apply]
  show (V c (Pipeline.arrRef spec6 4) : S1x64.Idx → EReal) _ = _
  congr 1
  funext a
  apply Fin.ext
  match a with
  | ⟨0, _⟩ => show win6_4.index t (0 : Fin 2) * 1 + 1 * (y 0).val = (y 0).val; rw [h0]; omega
  | ⟨1, _⟩ => show win6_4.index t (1 : Fin 2) * 64 + 1 * (y 1).val = (y 1).val; rw [h1]; omega

/-- Window 5's block at every point is its whole array. -/
theorem blk6_5 (c : Dev nD) (t : Fin cfg6.N) (y : S64x500.Idx) :
    (iblk6 V c 5 t : Vec Ideal S64x500 .f32) y = (V c (Pipeline.arrRef spec6 5) : S64x500.Idx → EReal) y := by
  obtain ⟨h0, h1⟩ := idx6_5 t
  unfold iblk6
  rw [View.read_apply]
  show (V c (Pipeline.arrRef spec6 5) : S64x500.Idx → EReal) _ = _
  congr 1
  funext a
  apply Fin.ext
  match a with
  | ⟨0, _⟩ => show win6_5.index t (0 : Fin 2) * 64 + 1 * (y 0).val = (y 0).val; rw [h0]; omega
  | ⟨1, _⟩ => show win6_5.index t (1 : Fin 2) * 500 + 1 * (y 1).val = (y 1).val; rw [h1]; omega

/-- Window 6's block at every point is its whole array. -/
theorem blk6_6 (c : Dev nD) (t : Fin cfg6.N) (y : S1x500.Idx) :
    (iblk6 V c 6 t : Vec Ideal S1x500 .f32) y = (V c (Pipeline.arrRef spec6 6) : S1x500.Idx → EReal) y := by
  obtain ⟨h0, h1⟩ := idx6_6 t
  unfold iblk6
  rw [View.read_apply]
  show (V c (Pipeline.arrRef spec6 6) : S1x500.Idx → EReal) _ = _
  congr 1
  funext a
  apply Fin.ext
  match a with
  | ⟨0, _⟩ => show win6_6.index t (0 : Fin 2) * 1 + 1 * (y 0).val = (y 0).val; rw [h0]; omega
  | ⟨1, _⟩ => show win6_6.index t (1 : Fin 2) * 500 + 1 * (y 1).val = (y 1).val; rw [h1]; omega

/-! ## The head reads one row of its input -/

/-- The head at row p depends on the input matrix only through its row p. -/
theorem head_row {n n' k d m : Nat} (cd eps : EReal) (w1 : Fin k → Fin d → EReal) (b1 g be : Fin d → EReal)
    (w2 : Fin d → Fin m → EReal) (b2 : Fin m → EReal) (h : Fin n → Fin k → EReal) (h' : Fin n' → Fin k → EReal)
    (p : Fin n) (p' : Fin n') (e : ∀ c, h p c = h' p' c) (q : Fin m) :
    head cd eps w1 b1 g be w2 b2 h p q = head cd eps w1 b1 g be w2 b2 h' p' q := by
  simp only [head, mm, act, e]

/-! ## The body's block fact this module starts from -/

/-- What the region's body leaves at row r and column q of its output block, from its input blocks. -/
abbrev BodyFact6 : Prop :=
  ∀ (x0 : Vec Ideal S2000x128 .f32) (x1 : Vec Ideal S128x64 .f32) (x2 : Vec Ideal S1x64 .f32) (x3 : Vec Ideal S1x64 .f32) (x4 : Vec Ideal S1x64 .f32) (x5 : Vec Ideal S64x500 .f32) (x6 : Vec Ideal S1x500 .f32) (r : Fin 2000) (q : Fin 500),
    out6_7 (F := Ideal) x0 x1 x2 x3 x4 x5 x6 (ix2 r q)
      = head (Ideal.ofBits .f32 0x42800000#32) (Ideal.ofBits .f32 0x3727C5AC#32)
          (fun c q => x1 (ix2 c q)) (fun c => x2 (ix2 (0 : Fin 1) c)) (fun c => x3 (ix2 (0 : Fin 1) c))
          (fun c => x4 (ix2 (0 : Fin 1) c)) (fun c q => x5 (ix2 c q)) (fun c => x6 (ix2 (0 : Fin 1) c))
          (fun p c => x0 (ix2 p c)) r q

/-! ## The region's output array as one function of its input arrays -/

/-- The two dense layers of the head applied to row p of the first array. -/
def g6 (A0 : S50000x128.Idx → EReal) (A1 : S128x64.Idx → EReal) (A2 : S1x64.Idx → EReal) (A3 : S1x64.Idx → EReal) (A4 : S1x64.Idx → EReal) (A5 : S64x500.Idx → EReal) (A6 : S1x500.Idx → EReal)
    (p : Fin 50000) (q : Fin 500) : EReal :=
  head (Ideal.ofBits .f32 0x42800000#32) (Ideal.ofBits .f32 0x3727C5AC#32)
    (fun k q => A1 (ix2 k q)) (fun k => A2 (ix2 (0 : Fin 1) k)) (fun k => A3 (ix2 (0 : Fin 1) k))
    (fun k => A4 (ix2 (0 : Fin 1) k)) (fun k q => A5 (ix2 k q)) (fun k => A6 (ix2 (0 : Fin 1) k))
    (fun p k => A0 (ix2 p k)) p q

/-- The same over the array's index set. -/
def G6 (A0 : S50000x128.Idx → EReal) (A1 : S128x64.Idx → EReal) (A2 : S1x64.Idx → EReal) (A3 : S1x64.Idx → EReal) (A4 : S1x64.Idx → EReal) (A5 : S64x500.Idx → EReal) (A6 : S1x500.Idx → EReal) :
    S50000x500.Idx → EReal :=
  fun i => g6 A0 A1 A2 A3 A4 A5 A6 (i 0) (i 1)

/-- The body's block formula at row r of block n is the whole-array function at row n·2000 + r, when the input blocks
    are block n of the row-tiled arrays and all of the others. -/
theorem pt6 (hb : BodyFact6) (A0 : S50000x128.Idx → EReal) (A1 : S128x64.Idx → EReal) (A2 : S1x64.Idx → EReal) (A3 : S1x64.Idx → EReal) (A4 : S1x64.Idx → EReal) (A5 : S64x500.Idx → EReal) (A6 : S1x500.Idx → EReal)
    (x0 : Vec Ideal S2000x128 .f32) (x1 : Vec Ideal S128x64 .f32) (x2 : Vec Ideal S1x64 .f32) (x3 : Vec Ideal S1x64 .f32) (x4 : Vec Ideal S1x64 .f32) (x5 : Vec Ideal S64x500 .f32) (x6 : Vec Ideal S1x500 .f32) (n : Nat)
    (h0 : ∀ (y : S2000x128.Idx) (i : S50000x128.Idx), (i 0).val = n * 2000 + (y 0).val → (i 1).val = (y 1).val → x0 y = A0 i)
    (h1 : ∀ y : S128x64.Idx, x1 y = A1 y)
    (h2 : ∀ y : S1x64.Idx, x2 y = A2 y)
    (h3 : ∀ y : S1x64.Idx, x3 y = A3 y)
    (h4 : ∀ y : S1x64.Idx, x4 y = A4 y)
    (h5 : ∀ y : S64x500.Idx, x5 y = A5 y)
    (h6 : ∀ y : S1x500.Idx, x6 y = A6 y)
    (y : S2000x500.Idx) (i : S50000x500.Idx) (hi0 : (i 0).val = n * 2000 + (y 0).val) (hi1 : (i 1).val = (y 1).val) :
    out6_7 (F := Ideal) x0 x1 x2 x3 x4 x5 x6 y = G6 A0 A1 A2 A3 A4 A5 A6 i := by
  obtain ⟨r, q, rfl⟩ : ∃ (r : Fin 2000) (q : Fin 500), y = ix2 r q := ⟨y 0, y 1, eq_ix2 y⟩
  obtain ⟨p, q', rfl⟩ : ∃ (p : Fin 50000) (q' : Fin 500), i = ix2 p q' := ⟨i 0, i 1, eq_ix2 i⟩
  obtain rfl : q' = q := Fin.ext hi1
  rw [hb x0 x1 x2 x3 x4 x5 x6 r q']
  change _ = g6 A0 A1 A2 A3 A4 A5 A6 p q'
  unfold g6
  have e0 : ∀ k : Fin 128, x0 (ix2 r k) = A0 (ix2 p k) := fun k => h0 (ix2 r k) (ix2 p k) hi0 rfl
  simp only [h1, h2, h3, h4, h5, h6]
  exact head_row _ _ _ _ _ _ _ _ (fun p c => x0 (ix2 p c)) (fun p k => A0 (ix2 p k)) r p e0 q'

/-! ## From the blocks to the array -/

/-- What point t writes back is block t of the whole-array function of the arrays the region found. -/
theorem flushed6 (hb : BodyFact6) (c : Dev nD) (t : Fin cfg6.N) :
    (dat6 V c).flushed 7 t = ((cfg6.win 7).blk t).view.read (Elt Ideal)
      (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7]
  obtain ⟨h0, h1⟩ := idx6_7 t
  funext y
  rw [View.read_apply]
  refine pt6 hb (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))
    (iblk6 V c 0 t) (iblk6 V c 1 t) (iblk6 V c 2 t) (iblk6 V c 3 t) (iblk6 V c 4 t) (iblk6 V c 5 t) (iblk6 V c 6 t) t.val
    (blk6_0 V c t) (blk6_1 V c t) (blk6_2 V c t) (blk6_3 V c t) (blk6_4 V c t) (blk6_5 V c t) (blk6_6 V c t) y
    (((cfg6.win 7).blk t).view.emb y) ?_ ?_
  · show win6_7.index t (0 : Fin 2) * 2000 + 1 * (y 0).val = _; rw [h0]; omega
  · show win6_7.index t (1 : Fin 2) * 500 + 1 * (y 1).val = _; rw [h1]; omega

/-- An index of the output array is in point t's block iff each coordinate is in the block's range on its axis. -/
theorem mem_blk6 (t : Fin cfg6.N) (i : S50000x500.Idx) :
    i ∈ ((cfg6.win 7).blk t).view.set ↔ ∀ a : Fin 2, win6_7.index t a * S2000x500.size a ≤ (i a).val
      ∧ (i a).val < win6_7.index t a * S2000x500.size a + S2000x500.size a := by
  show i ∈ ((View.whole main_v64).slice (win6_7.rect t)).set ↔ _
  rw [View.set_slice_whole, Rect.mem_set_unit]
  exact Iff.rfl

/-- Every index of the output array is in some point's block: row p is in the block of point p / 2000. -/
theorem cover6 (i : S50000x500.Idx) :
    ∃ t : Fin cfg6.N, (cfg6.win 7).flush t = true ∧ i ∈ ((cfg6.win 7).blk t).view.set := by
  have hi0 : (i 0).val < 50000 := (i 0).isLt
  have hi1 : (i 1).val < 500 := (i 1).isLt
  have ht : (i 0).val / 2000 < cfg6.N := by rw [show cfg6.N = 25 from N_6]; omega
  refine ⟨⟨(i 0).val / 2000, ht⟩, flush6_7 _, ?_⟩
  rw [mem_blk6]
  obtain ⟨h0, h1⟩ := idx6_7 ⟨(i 0).val / 2000, ht⟩
  intro a
  match a with
  | ⟨0, _⟩ =>
    show win6_7.index ⟨(i 0).val / 2000, ht⟩ (0 : Fin 2) * 2000 ≤ (i 0).val
      ∧ (i 0).val < win6_7.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win6_7.index ⟨(i 0).val / 2000, ht⟩ (1 : Fin 2) * 500 ≤ (i 1).val
      ∧ (i 1).val < win6_7.index ⟨(i 0).val / 2000, ht⟩ (1 : Fin 2) * 500 + 500
    rw [h1]; omega

/-- The output array after the region is the whole-array function of the arrays the region found. -/
theorem final6 (hb : BodyFact6) (c : Dev nD) : (dat6 V c).arrAt 7 cfg6.N
    = G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 7 _ (fun t _ => flushed6 V hb c t) cover6

/-- The output array after the region, read at row p and column q: the region's function of the arrays it found. -/
theorem arr6_at (hb : BodyFact6) (c : Dev nD) (p : Fin 50000) (q : Fin 500) :
    (dat6 V c).arrAt 7 cfg6.N (ix2 p q)
      = g6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) p q := by
  rw [final6 V hb]; rfl

/-- The same with the arrays the region found named: whatever functions they are, the output array is this function of
    them. -/
theorem arr6_of_at (hb : BodyFact6) (c : Dev nD) (A0 : S50000x128.Idx → EReal) (A1 : S128x64.Idx → EReal) (A2 : S1x64.Idx → EReal) (A3 : S1x64.Idx → EReal) (A4 : S1x64.Idx → EReal) (A5 : S64x500.Idx → EReal) (A6 : S1x500.Idx → EReal)
    (e0 : V c (Pipeline.arrRef spec6 0) = A0)
    (e1 : V c (Pipeline.arrRef spec6 1) = A1)
    (e2 : V c (Pipeline.arrRef spec6 2) = A2)
    (e3 : V c (Pipeline.arrRef spec6 3) = A3)
    (e4 : V c (Pipeline.arrRef spec6 4) = A4)
    (e5 : V c (Pipeline.arrRef spec6 5) = A5)
    (e6 : V c (Pipeline.arrRef spec6 6) = A6)
    (p : Fin 50000) (q : Fin 500) :
    (dat6 V c).arrAt 7 cfg6.N (ix2 p q)
      = Cert.GCN.head (Ideal.ofBits .f32 0x42800000#32) (Ideal.ofBits .f32 0x3727C5AC#32)
        (fun k q => A1 (ix2 k q)) (fun k => A2 (ix2 (0 : Fin 1) k)) (fun k => A3 (ix2 (0 : Fin 1) k))
        (fun k => A4 (ix2 (0 : Fin 1) k)) (fun k q => A5 (ix2 k q)) (fun k => A6 (ix2 (0 : Fin 1) k))
        (fun p k => A0 (ix2 p k)) p q := by
  subst e0 e1 e2 e3 e4 e5 e6
  exact arr6_at V hb c p q

end Cert.KerSide

end
-- ==== Proof.KerValue.lean ====
/-
  The kernel side of the certificate, assembled: the run of the kernel program with its result named (`run_main`, in
  the module of the run), and each of the seven regions' output array after the region as one whole-array function of
  the arrays the region found: `out<r>_eq` (the array is `G<r>` of them), `arr<r>` (read at row p, column q) and
  `arr<r>_of` (with those arrays named, in the vocabulary of the specification).

  Regions 0, 2, 4 leave the product of their first array with a weight matrix, each row times its node weight;
  regions 1, 3, 5 leave each row of  w·(a + u) + b  normalised, scaled, shifted and passed through ELU; region 6
  leaves the two dense layers of the head applied to each row. Each region's module derives this from the body's
  block formula; here that formula is supplied.
-/
import proofs.«137113_j6760278524492_2_alg».proof.Proof.KerBody
import proofs.«137113_j6760278524492_2_alg».proof.Proof.KerRun
import proofs.«137113_j6760278524492_2_alg».proof.Proof.KerArr0
import proofs.«137113_j6760278524492_2_alg».proof.Proof.KerArr1
import proofs.«137113_j6760278524492_2_alg».proof.Proof.KerArr2
import proofs.«137113_j6760278524492_2_alg».proof.Proof.KerArr3
import proofs.«137113_j6760278524492_2_alg».proof.Proof.KerArr4
import proofs.«137113_j6760278524492_2_alg».proof.Proof.KerArr5
import proofs.«137113_j6760278524492_2_alg».proof.Proof.KerArr6

set_option maxRecDepth 16384

noncomputable section

namespace Cert.KerSide

open Idealize.ShloMosaic Idealize.ShloMosaic.TcCoe Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-! ## Region 0 -/

/-- Region 0's output array after the region is its function `G0` of the arrays the region found. -/
theorem out0_eq (c : Dev nD) : (dat0 V c).arrAt 3 cfg0.N
    = G0 (V c (Pipeline.arrRef spec0 0)) (V c (Pipeline.arrRef spec0 1)) (V c (Pipeline.arrRef spec0 2)) :=
  final0 V Cert.KerBody.out0_3_apply c

/-- The same read at row p and column q. -/
theorem arr0 (c : Dev nD) (p : Fin 50000) (q : Fin 128) :
    (dat0 V c).arrAt 3 cfg0.N (ix2 p q)
      = g0 (V c (Pipeline.arrRef spec0 0)) (V c (Pipeline.arrRef spec0 1)) (V c (Pipeline.arrRef spec0 2)) p q :=
  arr0_at V Cert.KerBody.out0_3_apply c p q

/-- The same with the arrays the region found named. -/
theorem arr0_of (c : Dev nD) (A0 : S50000x128.Idx → EReal) (A1 : S128x128.Idx → EReal) (A2 : S50000x1.Idx → EReal)
    (e0 : V c (Pipeline.arrRef spec0 0) = A0)
    (e1 : V c (Pipeline.arrRef spec0 1) = A1)
    (e2 : V c (Pipeline.arrRef spec0 2) = A2)
    (p : Fin 50000) (q : Fin 128) :
    (dat0 V c).arrAt 3 cfg0.N (ix2 p q)
      = Cert.GCN.mm (fun p k => A0 (ix2 p k)) (fun k q => A1 (ix2 k q)) p q * A2 (ix2 p (0 : Fin 1)) :=
  arr0_of_at V Cert.KerBody.out0_3_apply c A0 A1 A2 e0 e1 e2 p q

/-! ## Region 1 -/

/-- Region 1's output array after the region is its function `G1` of the arrays the region found. -/
theorem out1_eq (c : Dev nD) : (dat1 V c).arrAt 6 cfg1.N
    = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  final1 V Cert.KerBody.out1_6_apply c

/-- The same read at row p and column q. -/
theorem arr1 (c : Dev nD) (p : Fin 50000) (q : Fin 128) :
    (dat1 V c).arrAt 6 cfg1.N (ix2 p q)
      = g1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) p q :=
  arr1_at V Cert.KerBody.out1_6_apply c p q

/-- The same with the arrays the region found named. -/
theorem arr1_of (c : Dev nD) (A0 : S50000x128.Idx → EReal) (A1 : S50000x128.Idx → EReal) (A2 : S50000x1.Idx → EReal) (A3 : S1x128.Idx → EReal) (A4 : S1x128.Idx → EReal) (A5 : S1x128.Idx → EReal)
    (e0 : V c (Pipeline.arrRef spec1 0) = A0)
    (e1 : V c (Pipeline.arrRef spec1 1) = A1)
    (e2 : V c (Pipeline.arrRef spec1 2) = A2)
    (e3 : V c (Pipeline.arrRef spec1 3) = A3)
    (e4 : V c (Pipeline.arrRef spec1 4) = A4)
    (e5 : V c (Pipeline.arrRef spec1 5) = A5)
    (p : Fin 50000) (q : Fin 128) :
    (dat1 V c).arrAt 6 cfg1.N (ix2 p q)
      = Cert.GCN.lnelu (Ideal.ofBits .f32 0x43000000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q :=
  arr1_of_at V Cert.KerBody.out1_6_apply c A0 A1 A2 A3 A4 A5 e0 e1 e2 e3 e4 e5 p q

/-! ## Region 2 -/

/-- Region 2's output array after the region is its function `G2` of the arrays the region found. -/
theorem out2_eq (c : Dev nD) : (dat2 V c).arrAt 3 cfg2.N
    = G2 (V c (Pipeline.arrRef spec2 0)) (V c (Pipeline.arrRef spec2 1)) (V c (Pipeline.arrRef spec2 2)) :=
  final2 V Cert.KerBody.out2_3_apply c

/-- The same read at row p and column q. -/
theorem arr2 (c : Dev nD) (p : Fin 50000) (q : Fin 256) :
    (dat2 V c).arrAt 3 cfg2.N (ix2 p q)
      = g2 (V c (Pipeline.arrRef spec2 0)) (V c (Pipeline.arrRef spec2 1)) (V c (Pipeline.arrRef spec2 2)) p q :=
  arr2_at V Cert.KerBody.out2_3_apply c p q

/-- The same with the arrays the region found named. -/
theorem arr2_of (c : Dev nD) (A0 : S50000x128.Idx → EReal) (A1 : S128x256.Idx → EReal) (A2 : S50000x1.Idx → EReal)
    (e0 : V c (Pipeline.arrRef spec2 0) = A0)
    (e1 : V c (Pipeline.arrRef spec2 1) = A1)
    (e2 : V c (Pipeline.arrRef spec2 2) = A2)
    (p : Fin 50000) (q : Fin 256) :
    (dat2 V c).arrAt 3 cfg2.N (ix2 p q)
      = Cert.GCN.mm (fun p k => A0 (ix2 p k)) (fun k q => A1 (ix2 k q)) p q * A2 (ix2 p (0 : Fin 1)) :=
  arr2_of_at V Cert.KerBody.out2_3_apply c A0 A1 A2 e0 e1 e2 p q

/-! ## Region 3 -/

/-- Region 3's output array after the region is its function `G3` of the arrays the region found. -/
theorem out3_eq (c : Dev nD) : (dat3 V c).arrAt 6 cfg3.N
    = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  final3 V Cert.KerBody.out3_6_apply c

/-- The same read at row p and column q. -/
theorem arr3 (c : Dev nD) (p : Fin 50000) (q : Fin 256) :
    (dat3 V c).arrAt 6 cfg3.N (ix2 p q)
      = g3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) p q :=
  arr3_at V Cert.KerBody.out3_6_apply c p q

/-- The same with the arrays the region found named. -/
theorem arr3_of (c : Dev nD) (A0 : S50000x256.Idx → EReal) (A1 : S50000x256.Idx → EReal) (A2 : S50000x1.Idx → EReal) (A3 : S1x256.Idx → EReal) (A4 : S1x256.Idx → EReal) (A5 : S1x256.Idx → EReal)
    (e0 : V c (Pipeline.arrRef spec3 0) = A0)
    (e1 : V c (Pipeline.arrRef spec3 1) = A1)
    (e2 : V c (Pipeline.arrRef spec3 2) = A2)
    (e3 : V c (Pipeline.arrRef spec3 3) = A3)
    (e4 : V c (Pipeline.arrRef spec3 4) = A4)
    (e5 : V c (Pipeline.arrRef spec3 5) = A5)
    (p : Fin 50000) (q : Fin 256) :
    (dat3 V c).arrAt 6 cfg3.N (ix2 p q)
      = Cert.GCN.lnelu (Ideal.ofBits .f32 0x43800000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q :=
  arr3_of_at V Cert.KerBody.out3_6_apply c A0 A1 A2 A3 A4 A5 e0 e1 e2 e3 e4 e5 p q

/-! ## Region 4 -/

/-- Region 4's output array after the region is its function `G4` of the arrays the region found. -/
theorem out4_eq (c : Dev nD) : (dat4 V c).arrAt 3 cfg4.N
    = G4 (V c (Pipeline.arrRef spec4 0)) (V c (Pipeline.arrRef spec4 1)) (V c (Pipeline.arrRef spec4 2)) :=
  final4 V Cert.KerBody.out4_3_apply c

/-- The same read at row p and column q. -/
theorem arr4 (c : Dev nD) (p : Fin 50000) (q : Fin 128) :
    (dat4 V c).arrAt 3 cfg4.N (ix2 p q)
      = g4 (V c (Pipeline.arrRef spec4 0)) (V c (Pipeline.arrRef spec4 1)) (V c (Pipeline.arrRef spec4 2)) p q :=
  arr4_at V Cert.KerBody.out4_3_apply c p q

/-- The same with the arrays the region found named. -/
theorem arr4_of (c : Dev nD) (A0 : S50000x256.Idx → EReal) (A1 : S256x128.Idx → EReal) (A2 : S50000x1.Idx → EReal)
    (e0 : V c (Pipeline.arrRef spec4 0) = A0)
    (e1 : V c (Pipeline.arrRef spec4 1) = A1)
    (e2 : V c (Pipeline.arrRef spec4 2) = A2)
    (p : Fin 50000) (q : Fin 128) :
    (dat4 V c).arrAt 3 cfg4.N (ix2 p q)
      = Cert.GCN.mm (fun p k => A0 (ix2 p k)) (fun k q => A1 (ix2 k q)) p q * A2 (ix2 p (0 : Fin 1)) :=
  arr4_of_at V Cert.KerBody.out4_3_apply c A0 A1 A2 e0 e1 e2 p q

/-! ## Region 5 -/

/-- Region 5's output array after the region is its function `G5` of the arrays the region found. -/
theorem out5_eq (c : Dev nD) : (dat5 V c).arrAt 6 cfg5.N
    = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  final5 V Cert.KerBody.out5_6_apply c

/-- The same read at row p and column q. -/
theorem arr5 (c : Dev nD) (p : Fin 50000) (q : Fin 128) :
    (dat5 V c).arrAt 6 cfg5.N (ix2 p q)
      = g5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) p q :=
  arr5_at V Cert.KerBody.out5_6_apply c p q

/-- The same with the arrays the region found named. -/
theorem arr5_of (c : Dev nD) (A0 : S50000x128.Idx → EReal) (A1 : S50000x128.Idx → EReal) (A2 : S50000x1.Idx → EReal) (A3 : S1x128.Idx → EReal) (A4 : S1x128.Idx → EReal) (A5 : S1x128.Idx → EReal)
    (e0 : V c (Pipeline.arrRef spec5 0) = A0)
    (e1 : V c (Pipeline.arrRef spec5 1) = A1)
    (e2 : V c (Pipeline.arrRef spec5 2) = A2)
    (e3 : V c (Pipeline.arrRef spec5 3) = A3)
    (e4 : V c (Pipeline.arrRef spec5 4) = A4)
    (e5 : V c (Pipeline.arrRef spec5 5) = A5)
    (p : Fin 50000) (q : Fin 128) :
    (dat5 V c).arrAt 6 cfg5.N (ix2 p q)
      = Cert.GCN.lnelu (Ideal.ofBits .f32 0x43000000#32) (Ideal.ofBits .f32 0x3727C5AC#32)
        (fun k => A2 (ix2 p (0 : Fin 1)) * (A0 (ix2 p k) + A1 (ix2 p k)) + A3 (ix2 (0 : Fin 1) k))
        (fun k => A4 (ix2 (0 : Fin 1) k)) (fun k => A5 (ix2 (0 : Fin 1) k)) q :=
  arr5_of_at V Cert.KerBody.out5_6_apply c A0 A1 A2 A3 A4 A5 e0 e1 e2 e3 e4 e5 p q

/-! ## Region 6 -/

/-- Region 6's output array after the region is its function `G6` of the arrays the region found. -/
theorem out6_eq (c : Dev nD) : (dat6 V c).arrAt 7 cfg6.N
    = G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  final6 V Cert.KerBody.out6_7_apply c

/-- The same read at row p and column q. -/
theorem arr6 (c : Dev nD) (p : Fin 50000) (q : Fin 500) :
    (dat6 V c).arrAt 7 cfg6.N (ix2 p q)
      = g6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) p q :=
  arr6_at V Cert.KerBody.out6_7_apply c p q

/-- The same with the arrays the region found named. -/
theorem arr6_of (c : Dev nD) (A0 : S50000x128.Idx → EReal) (A1 : S128x64.Idx → EReal) (A2 : S1x64.Idx → EReal) (A3 : S1x64.Idx → EReal) (A4 : S1x64.Idx → EReal) (A5 : S64x500.Idx → EReal) (A6 : S1x500.Idx → EReal)
    (e0 : V c (Pipeline.arrRef spec6 0) = A0)
    (e1 : V c (Pipeline.arrRef spec6 1) = A1)
    (e2 : V c (Pipeline.arrRef spec6 2) = A2)
    (e3 : V c (Pipeline.arrRef spec6 3) = A3)
    (e4 : V c (Pipeline.arrRef spec6 4) = A4)
    (e5 : V c (Pipeline.arrRef spec6 5) = A5)
    (e6 : V c (Pipeline.arrRef spec6 6) = A6)
    (p : Fin 50000) (q : Fin 500) :
    (dat6 V c).arrAt 7 cfg6.N (ix2 p q)
      = Cert.GCN.head (Ideal.ofBits .f32 0x42800000#32) (Ideal.ofBits .f32 0x3727C5AC#32)
        (fun k q => A1 (ix2 k q)) (fun k => A2 (ix2 (0 : Fin 1) k)) (fun k => A3 (ix2 (0 : Fin 1) k))
        (fun k => A4 (ix2 (0 : Fin 1) k)) (fun k q => A5 (ix2 k q)) (fun k => A6 (ix2 (0 : Fin 1) k))
        (fun p k => A0 (ix2 p k)) p q :=
  arr6_of_at V Cert.KerBody.out6_7_apply c A0 A1 A2 A3 A4 A5 A6 e0 e1 e2 e3 e4 e5 e6 p q

end Cert.KerSide

end
-- ==== Proof.KerChain.lean ====
import proofs.«137113_j6760278524492_2_alg».proof.Proof.Gen.KernelIdeal.Frame
import proofs.«137113_j6760278524492_2_alg».proof.Proof.Spec
import proofs.«137113_j6760278524492_2_alg».proof.Proof.LibEdgeGatherScatter
import proofs.«137113_j6760278524492_2_alg».proof.Proof.HostK
import proofs.«137113_j6760278524492_2_alg».proof.Proof.HostL
import proofs.«137113_j6760278524492_2_alg».proof.Proof.HostSeg
import proofs.«137113_j6760278524492_2_alg».proof.Proof.KerKeep
import proofs.«137113_j6760278524492_2_alg».proof.Proof.KerValue
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KerSide
open Idealize.ShloMosaic Idealize.ShloMosaic.TcCoe Idealize.ShloMosaic.ValueIdx Idealize.SL.Sem Cert.KernelIdeal Cert.KernelIdeal.Gen
open Cert.GCN
variable [Cert.KernelIdeal.Facts]
variable (m : (ℓ : Loc nD τ sig) → Buf (Elt Ideal) ℓ) (ρ : Dev nD → PrngReg) (c : Dev nD)

/-! ## The edge data and the node weights of the launch memory -/

/-- The edge array of the launch memory. -/
abbrev eiK : IVec S2x800000 32 := m ((c : Thread nD τ).loc main_arg1)

/-- The node weight of node p. -/
def DV (ei : IVec S2x800000 32) (p : Fin 50000) : EReal := dinvArr ei (ix1 p)

/-- The node edge e reads. -/
def SRC (ei : IVec S2x800000 32) (e : Fin 800000) : Fin 50000 := Cert.Lib.clampRow 50000 (by decide) (srcIdx ei) e

/-- The edges arriving at node p. -/
def INB (ei : IVec S2x800000 32) (p : Fin 50000) : Finset (Fin 800000) :=
  Finset.univ.filter fun e => (dstRaw ei (ix2 e (0 : Fin 1))).toInt = (p.val : Int)

/-- The weight vector's one-column copy holds the node weights. -/
theorem dv3 (p : Fin 50000) :
    (W3 (F := Ideal) m ρ c (Proc.devRef .tc main_v14) : S50000x1.Idx → EReal) (ix2 p (0 : Fin 1)) = DV (eiK m c) p :=
  (host02_v14 (W2 (F := Ideal) m ρ c) p).trans (congrFun (host01_v13 (W0 (F := Ideal) m ρ c)) (ix1 p))

/-- The normalised row depends only on the values of the three rows it is given. -/
theorem lnelu_congr {d : Nat} (cd eps : EReal) {t t' g g' be be' : Fin d → EReal} (ht : ∀ k, t k = t' k) (hg : ∀ k, g k = g' k)
    (hb : ∀ k, be k = be' k) (q : Fin d) : lnelu cd eps t g be q = lnelu cd eps t' g' be' q := by
  rw [funext ht, funext hg, funext hb]

/-! ## Layer 1 -/

/-- The scaled product the first kernel of the layer leaves: row p of the layer's input times the weight matrix, times
    the node weight of p. -/
theorem hs1 (Hprev : Fin 50000 → Fin 128 → EReal)
    (hx : ∀ p k, (W3 (F := Ideal) m ρ c (Proc.devRef .tc main_arg0) : S50000x128.Idx → EReal) (ix2 p k) = Hprev p k)
    (p : Fin 50000) (q : Fin 128) :
    (W4 (F := Ideal) m ρ c (Proc.devRef .tc main_v15) : S50000x128.Idx → EReal) (ix2 p q)
      = scaled (DV (eiK m c)) (mm Hprev (fun k q => (m ((c : Thread nD τ).loc main_arg2) : S128x128.Idx → EReal) (ix2 k q))) p q := by
  have e := arr0_of (V3 (F := Ideal) m ρ) c _ _ _ rfl rfl rfl p q
  have hA0 : V3 (F := Ideal) m ρ c (Pipeline.arrRef spec0 0) = W3 (F := Ideal) m ρ c (Proc.devRef .tc main_arg0) := rfl
  have hA1 : V3 (F := Ideal) m ρ c (Pipeline.arrRef spec0 1) = m ((c : Thread nD τ).loc main_arg2) :=
    (keep_main_arg2_3_0 m ρ c).trans (show W0 (F := Ideal) m ρ c (Proc.devRef .tc main_arg2) = m ((c : Thread nD τ).loc main_arg2) from rfl)
  have hA2 : V3 (F := Ideal) m ρ c (Pipeline.arrRef spec0 2) = W3 (F := Ideal) m ρ c (Proc.devRef .tc main_v14) := rfl
  rw [hA0, hA1, hA2] at e
  rw [W4_arr m ρ c 3, e, dv3 m ρ c p]
  unfold scaled mm
  simp only [hx]

/-- What the host leaves between the layer's two kernels: at (p, q) the sum over the edges arriving at p of the scaled
    rows of their sources. -/
theorem seg1 (p : Fin 50000) (q : Fin 128) :
    (W5 (F := Ideal) m ρ c (Proc.devRef .tc main_v25) : S50000x128.Idx → EReal) (ix2 p q)
      = seg (SRC (eiK m c)) (INB (eiK m c))
          (fun p q => (W4 (F := Ideal) m ρ c (Proc.devRef .tc main_v15) : S50000x128.Idx → EReal) (ix2 p q)) p q := by
  have e := hostOps1_main_v25_aux (W4 (F := Ideal) m ρ c) _ rfl
  have h3 : W1 (F := Ideal) m ρ c (Proc.devRef .tc main_v3) = dst1d (eiK m c) := host0_v3 (W0 (F := Ideal) m ρ c)
  have h1 : W1 (F := Ideal) m ρ c (Proc.devRef .tc main_v1) = src1d (eiK m c) := host0_v1 (W0 (F := Ideal) m ρ c)
  rw [keep_main_v3_4_1 m ρ c, keep_main_v1_4_1 m ρ c, h3, h1] at e
  rw [show W5 (F := Ideal) m ρ c (Proc.devRef .tc main_v25) = _ from e]
  exact segsum128_apply _ (dstRaw (eiK m c)) (srcIdx (eiK m c)) p q

set_option maxRecDepth 65536 in
set_option maxHeartbeats 8000000 in
/-- What the second kernel of the layer leaves: the whole layer, in the arrangement that scales the rows first. -/
theorem layer1 (Hprev : Fin 50000 → Fin 128 → EReal)
    (hx : ∀ p k, (W3 (F := Ideal) m ρ c (Proc.devRef .tc main_arg0) : S50000x128.Idx → EReal) (ix2 p k) = Hprev p k)
    (p : Fin 50000) (q : Fin 128) :
    (W6 (F := Ideal) m ρ c (Proc.devRef .tc main_v29) : S50000x128.Idx → EReal) (ix2 p q)
      = layerK (Ideal.ofBits .f32 0x43000000#32) (Ideal.ofBits .f32 0x3727C5AC#32) (DV (eiK m c)) (SRC (eiK m c)) (INB (eiK m c))
          (fun k q => (m ((c : Thread nD τ).loc main_arg2) : S128x128.Idx → EReal) (ix2 k q))
          (fun k => (m ((c : Thread nD τ).loc main_arg3) : S128.Idx → EReal) (ix1 k))
          (fun k => (m ((c : Thread nD τ).loc main_arg4) : S128.Idx → EReal) (ix1 k))
          (fun k => (m ((c : Thread nD τ).loc main_arg5) : S128.Idx → EReal) (ix1 k)) Hprev p q := by
  have e := arr1_of (V5 (F := Ideal) m ρ) c _ _ _ _ _ _ rfl rfl rfl rfl rfl rfl p q
  have hA0 : V5 (F := Ideal) m ρ c (Pipeline.arrRef spec1 0) = W5 (F := Ideal) m ρ c (Proc.devRef .tc main_v25) := rfl
  have hA1 : V5 (F := Ideal) m ρ c (Pipeline.arrRef spec1 1) = W4 (F := Ideal) m ρ c (Proc.devRef .tc main_v15) := keep_main_v15_5_4 m ρ c
  have hA2 : V5 (F := Ideal) m ρ c (Pipeline.arrRef spec1 2) = W3 (F := Ideal) m ρ c (Proc.devRef .tc main_v14) := keep_main_v14_5_3 m ρ c
  have hA3 : V5 (F := Ideal) m ρ c (Pipeline.arrRef spec1 3) = W5 (F := Ideal) m ρ c (Proc.devRef .tc main_v26) := rfl
  have hA4 : V5 (F := Ideal) m ρ c (Pipeline.arrRef spec1 4) = W5 (F := Ideal) m ρ c (Proc.devRef .tc main_v27) := rfl
  have hA5 : V5 (F := Ideal) m ρ c (Pipeline.arrRef spec1 5) = W5 (F := Ideal) m ρ c (Proc.devRef .tc main_v28) := rfl
  rw [hA0, hA1, hA2, hA3, hA4, hA5] at e
  rw [W6_arr m ρ c 6, e]
  unfold layerK act
  refine lnelu_congr _ _ (fun k => ?_) (fun k => ?_) (fun k => ?_) q
  · unfold preK
    have hb : (W5 (F := Ideal) m ρ c (Proc.devRef .tc main_v26) : S1x128.Idx → EReal) (ix2 (0 : Fin 1) k)
        = (m ((c : Thread nD τ).loc main_arg3) : S128.Idx → EReal) (ix1 k) :=
      (hostOps1_main_v26 (W4 (F := Ideal) m ρ c) k).trans (congrFun (keep_main_arg3_4_0 m ρ c) (ix1 k))
    rw [dv3 m ρ c p, seg1 m ρ c p k, hs1 m ρ c Hprev hx p k, hb]
    refine congrArg₂ (· + ·) (congrArg (DV (eiK m c) p * ·) (congrArg₂ (· + ·) ?_ rfl)) rfl
    unfold seg
    exact congrArg (0 + ·) (Finset.sum_congr rfl fun e _ => hs1 m ρ c Hprev hx _ k)
  · exact (hostOps1_main_v27 (W4 (F := Ideal) m ρ c) k).trans (congrFun (keep_main_arg4_4_0 m ρ c) (ix1 k))
  · exact (hostOps1_main_v28 (W4 (F := Ideal) m ρ c) k).trans (congrFun (keep_main_arg5_4_0 m ρ c) (ix1 k))

/-! ## Layer 2 -/

/-- The scaled product the first kernel of the layer leaves: row p of the layer's input times the weight matrix, times
    the node weight of p. -/
theorem hs2 (Hprev : Fin 50000 → Fin 128 → EReal)
    (hx : ∀ p k, (W6 (F := Ideal) m ρ c (Proc.devRef .tc main_v29) : S50000x128.Idx → EReal) (ix2 p k) = Hprev p k)
    (p : Fin 50000) (q : Fin 256) :
    (W7 (F := Ideal) m ρ c (Proc.devRef .tc main_v30) : S50000x256.Idx → EReal) (ix2 p q)
      = scaled (DV (eiK m c)) (mm Hprev (fun k q => (m ((c : Thread nD τ).loc main_arg6) : S128x256.Idx → EReal) (ix2 k q))) p q := by
  have e := arr2_of (V6 (F := Ideal) m ρ) c _ _ _ rfl rfl rfl p q
  have hA0 : V6 (F := Ideal) m ρ c (Pipeline.arrRef spec2 0) = W6 (F := Ideal) m ρ c (Proc.devRef .tc main_v29) := rfl
  have hA1 : V6 (F := Ideal) m ρ c (Pipeline.arrRef spec2 1) = m ((c : Thread nD τ).loc main_arg6) :=
    (keep_main_arg6_6_0 m ρ c).trans (show W0 (F := Ideal) m ρ c (Proc.devRef .tc main_arg6) = m ((c : Thread nD τ).loc main_arg6) from rfl)
  have hA2 : V6 (F := Ideal) m ρ c (Pipeline.arrRef spec2 2) = W3 (F := Ideal) m ρ c (Proc.devRef .tc main_v14) := keep_main_v14_6_3 m ρ c
  rw [hA0, hA1, hA2] at e
  rw [W7_arr m ρ c 3, e, dv3 m ρ c p]
  unfold scaled mm
  simp only [hx]

/-- What the host leaves between the layer's two kernels: at (p, q) the sum over the edges arriving at p of the scaled
    rows of their sources. -/
theorem seg2 (p : Fin 50000) (q : Fin 256) :
    (W8 (F := Ideal) m ρ c (Proc.devRef .tc main_v40) : S50000x256.Idx → EReal) (ix2 p q)
      = seg (SRC (eiK m c)) (INB (eiK m c))
          (fun p q => (W7 (F := Ideal) m ρ c (Proc.devRef .tc main_v30) : S50000x256.Idx → EReal) (ix2 p q)) p q := by
  have e := hostOps3_main_v40_aux (W7 (F := Ideal) m ρ c) _ rfl
  have h3 : W1 (F := Ideal) m ρ c (Proc.devRef .tc main_v3) = dst1d (eiK m c) := host0_v3 (W0 (F := Ideal) m ρ c)
  have h1 : W1 (F := Ideal) m ρ c (Proc.devRef .tc main_v1) = src1d (eiK m c) := host0_v1 (W0 (F := Ideal) m ρ c)
  rw [keep_main_v3_7_1 m ρ c, keep_main_v1_7_1 m ρ c, h3, h1] at e
  rw [show W8 (F := Ideal) m ρ c (Proc.devRef .tc main_v40) = _ from e]
  exact segsum256_apply _ (dstRaw (eiK m c)) (srcIdx (eiK m c)) p q

set_option maxRecDepth 65536 in
set_option maxHeartbeats 8000000 in
/-- What the second kernel of the layer leaves: the whole layer, in the arrangement that scales the rows first. -/
theorem layer2 (Hprev : Fin 50000 → Fin 128 → EReal)
    (hx : ∀ p k, (W6 (F := Ideal) m ρ c (Proc.devRef .tc main_v29) : S50000x128.Idx → EReal) (ix2 p k) = Hprev p k)
    (p : Fin 50000) (q : Fin 256) :
    (W9 (F := Ideal) m ρ c (Proc.devRef .tc main_v44) : S50000x256.Idx → EReal) (ix2 p q)
      = layerK (Ideal.ofBits .f32 0x43800000#32) (Ideal.ofBits .f32 0x3727C5AC#32) (DV (eiK m c)) (SRC (eiK m c)) (INB (eiK m c))
          (fun k q => (m ((c : Thread nD τ).loc main_arg6) : S128x256.Idx → EReal) (ix2 k q))
          (fun k => (m ((c : Thread nD τ).loc main_arg7) : S256.Idx → EReal) (ix1 k))
          (fun k => (m ((c : Thread nD τ).loc main_arg8) : S256.Idx → EReal) (ix1 k))
          (fun k => (m ((c : Thread nD τ).loc main_arg9) : S256.Idx → EReal) (ix1 k)) Hprev p q := by
  have e := arr3_of (V8 (F := Ideal) m ρ) c _ _ _ _ _ _ rfl rfl rfl rfl rfl rfl p q
  have hA0 : V8 (F := Ideal) m ρ c (Pipeline.arrRef spec3 0) = W8 (F := Ideal) m ρ c (Proc.devRef .tc main_v40) := rfl
  have hA1 : V8 (F := Ideal) m ρ c (Pipeline.arrRef spec3 1) = W7 (F := Ideal) m ρ c (Proc.devRef .tc main_v30) := keep_main_v30_8_7 m ρ c
  have hA2 : V8 (F := Ideal) m ρ c (Pipeline.arrRef spec3 2) = W3 (F := Ideal) m ρ c (Proc.devRef .tc main_v14) := keep_main_v14_8_3 m ρ c
  have hA3 : V8 (F := Ideal) m ρ c (Pipeline.arrRef spec3 3) = W8 (F := Ideal) m ρ c (Proc.devRef .tc main_v41) := rfl
  have hA4 : V8 (F := Ideal) m ρ c (Pipeline.arrRef spec3 4) = W8 (F := Ideal) m ρ c (Proc.devRef .tc main_v42) := rfl
  have hA5 : V8 (F := Ideal) m ρ c (Pipeline.arrRef spec3 5) = W8 (F := Ideal) m ρ c (Proc.devRef .tc main_v43) := rfl
  rw [hA0, hA1, hA2, hA3, hA4, hA5] at e
  rw [W9_arr m ρ c 6, e]
  unfold layerK act
  refine lnelu_congr _ _ (fun k => ?_) (fun k => ?_) (fun k => ?_) q
  · unfold preK
    have hb : (W8 (F := Ideal) m ρ c (Proc.devRef .tc main_v41) : S1x256.Idx → EReal) (ix2 (0 : Fin 1) k)
        = (m ((c : Thread nD τ).loc main_arg7) : S256.Idx → EReal) (ix1 k) :=
      (hostOps3_main_v41 (W7 (F := Ideal) m ρ c) k).trans (congrFun (keep_main_arg7_7_0 m ρ c) (ix1 k))
    rw [dv3 m ρ c p, seg2 m ρ c p k, hs2 m ρ c Hprev hx p k, hb]
    refine congrArg₂ (· + ·) (congrArg (DV (eiK m c) p * ·) (congrArg₂ (· + ·) ?_ rfl)) rfl
    unfold seg
    exact congrArg (0 + ·) (Finset.sum_congr rfl fun e _ => hs2 m ρ c Hprev hx _ k)
  · exact (hostOps3_main_v42 (W7 (F := Ideal) m ρ c) k).trans (congrFun (keep_main_arg8_7_0 m ρ c) (ix1 k))
  · exact (hostOps3_main_v43 (W7 (F := Ideal) m ρ c) k).trans (congrFun (keep_main_arg9_7_0 m ρ c) (ix1 k))

/-! ## Layer 3 -/

/-- The scaled product the first kernel of the layer leaves: row p of the layer's input times the weight matrix, times
    the node weight of p. -/
theorem hs3 (Hprev : Fin 50000 → Fin 256 → EReal)
    (hx : ∀ p k, (W9 (F := Ideal) m ρ c (Proc.devRef .tc main_v44) : S50000x256.Idx → EReal) (ix2 p k) = Hprev p k)
    (p : Fin 50000) (q : Fin 128) :
    (W10 (F := Ideal) m ρ c (Proc.devRef .tc main_v45) : S50000x128.Idx → EReal) (ix2 p q)
      = scaled (DV (eiK m c)) (mm Hprev (fun k q => (m ((c : Thread nD τ).loc main_arg10) : S256x128.Idx → EReal) (ix2 k q))) p q := by
  have e := arr4_of (V9 (F := Ideal) m ρ) c _ _ _ rfl rfl rfl p q
  have hA0 : V9 (F := Ideal) m ρ c (Pipeline.arrRef spec4 0) = W9 (F := Ideal) m ρ c (Proc.devRef .tc main_v44) := rfl
  have hA1 : V9 (F := Ideal) m ρ c (Pipeline.arrRef spec4 1) = m ((c : Thread nD τ).loc main_arg10) :=
    (keep_main_arg10_9_0 m ρ c).trans (show W0 (F := Ideal) m ρ c (Proc.devRef .tc main_arg10) = m ((c : Thread nD τ).loc main_arg10) from rfl)
  have hA2 : V9 (F := Ideal) m ρ c (Pipeline.arrRef spec4 2) = W3 (F := Ideal) m ρ c (Proc.devRef .tc main_v14) := keep_main_v14_9_3 m ρ c
  rw [hA0, hA1, hA2] at e
  rw [W10_arr m ρ c 3, e, dv3 m ρ c p]
  unfold scaled mm
  simp only [hx]

/-- What the host leaves between the layer's two kernels: at (p, q) the sum over the edges arriving at p of the scaled
    rows of their sources. -/
theorem seg3 (p : Fin 50000) (q : Fin 128) :
    (W11 (F := Ideal) m ρ c (Proc.devRef .tc main_v55) : S50000x128.Idx → EReal) (ix2 p q)
      = seg (SRC (eiK m c)) (INB (eiK m c))
          (fun p q => (W10 (F := Ideal) m ρ c (Proc.devRef .tc main_v45) : S50000x128.Idx → EReal) (ix2 p q)) p q := by
  have e := hostOps5_main_v55_aux (W10 (F := Ideal) m ρ c) _ rfl
  have h3 : W1 (F := Ideal) m ρ c (Proc.devRef .tc main_v3) = dst1d (eiK m c) := host0_v3 (W0 (F := Ideal) m ρ c)
  have h1 : W1 (F := Ideal) m ρ c (Proc.devRef .tc main_v1) = src1d (eiK m c) := host0_v1 (W0 (F := Ideal) m ρ c)
  rw [keep_main_v3_10_1 m ρ c, keep_main_v1_10_1 m ρ c, h3, h1] at e
  rw [show W11 (F := Ideal) m ρ c (Proc.devRef .tc main_v55) = _ from e]
  exact segsum128_apply _ (dstRaw (eiK m c)) (srcIdx (eiK m c)) p q

set_option maxRecDepth 65536 in
set_option maxHeartbeats 8000000 in
/-- What the second kernel of the layer leaves: the whole layer, in the arrangement that scales the rows first. -/
theorem layer3 (Hprev : Fin 50000 → Fin 256 → EReal)
    (hx : ∀ p k, (W9 (F := Ideal) m ρ c (Proc.devRef .tc main_v44) : S50000x256.Idx → EReal) (ix2 p k) = Hprev p k)
    (p : Fin 50000) (q : Fin 128) :
    (W12 (F := Ideal) m ρ c (Proc.devRef .tc main_v59) : S50000x128.Idx → EReal) (ix2 p q)
      = layerK (Ideal.ofBits .f32 0x43000000#32) (Ideal.ofBits .f32 0x3727C5AC#32) (DV (eiK m c)) (SRC (eiK m c)) (INB (eiK m c))
          (fun k q => (m ((c : Thread nD τ).loc main_arg10) : S256x128.Idx → EReal) (ix2 k q))
          (fun k => (m ((c : Thread nD τ).loc main_arg11) : S128.Idx → EReal) (ix1 k))
          (fun k => (m ((c : Thread nD τ).loc main_arg12) : S128.Idx → EReal) (ix1 k))
          (fun k => (m ((c : Thread nD τ).loc main_arg13) : S128.Idx → EReal) (ix1 k)) Hprev p q := by
  have e := arr5_of (V11 (F := Ideal) m ρ) c _ _ _ _ _ _ rfl rfl rfl rfl rfl rfl p q
  have hA0 : V11 (F := Ideal) m ρ c (Pipeline.arrRef spec5 0) = W11 (F := Ideal) m ρ c (Proc.devRef .tc main_v55) := rfl
  have hA1 : V11 (F := Ideal) m ρ c (Pipeline.arrRef spec5 1) = W10 (F := Ideal) m ρ c (Proc.devRef .tc main_v45) := keep_main_v45_11_10 m ρ c
  have hA2 : V11 (F := Ideal) m ρ c (Pipeline.arrRef spec5 2) = W3 (F := Ideal) m ρ c (Proc.devRef .tc main_v14) := keep_main_v14_11_3 m ρ c
  have hA3 : V11 (F := Ideal) m ρ c (Pipeline.arrRef spec5 3) = W11 (F := Ideal) m ρ c (Proc.devRef .tc main_v56) := rfl
  have hA4 : V11 (F := Ideal) m ρ c (Pipeline.arrRef spec5 4) = W11 (F := Ideal) m ρ c (Proc.devRef .tc main_v57) := rfl
  have hA5 : V11 (F := Ideal) m ρ c (Pipeline.arrRef spec5 5) = W11 (F := Ideal) m ρ c (Proc.devRef .tc main_v58) := rfl
  rw [hA0, hA1, hA2, hA3, hA4, hA5] at e
  rw [W12_arr m ρ c 6, e]
  unfold layerK act
  refine lnelu_congr _ _ (fun k => ?_) (fun k => ?_) (fun k => ?_) q
  · unfold preK
    have hb : (W11 (F := Ideal) m ρ c (Proc.devRef .tc main_v56) : S1x128.Idx → EReal) (ix2 (0 : Fin 1) k)
        = (m ((c : Thread nD τ).loc main_arg11) : S128.Idx → EReal) (ix1 k) :=
      (hostOps5_main_v56 (W10 (F := Ideal) m ρ c) k).trans (congrFun (keep_main_arg11_10_0 m ρ c) (ix1 k))
    rw [dv3 m ρ c p, seg3 m ρ c p k, hs3 m ρ c Hprev hx p k, hb]
    refine congrArg₂ (· + ·) (congrArg (DV (eiK m c) p * ·) (congrArg₂ (· + ·) ?_ rfl)) rfl
    unfold seg
    exact congrArg (0 + ·) (Finset.sum_congr rfl fun e _ => hs3 m ρ c Hprev hx _ k)
  · exact (hostOps5_main_v57 (W10 (F := Ideal) m ρ c) k).trans (congrFun (keep_main_arg12_10_0 m ρ c) (ix1 k))
  · exact (hostOps5_main_v58 (W10 (F := Ideal) m ρ c) k).trans (congrFun (keep_main_arg13_10_0 m ρ c) (ix1 k))

/-! ## The head, and the whole network -/

set_option maxRecDepth 65536 in
set_option maxHeartbeats 8000000 in
/-- What the last kernel leaves: the two dense layers applied to the third layer's output. -/
theorem headK (H3 : Fin 50000 → Fin 128 → EReal)
    (hx : ∀ p k, (W12 (F := Ideal) m ρ c (Proc.devRef .tc main_v59) : S50000x128.Idx → EReal) (ix2 p k) = H3 p k)
    (p : Fin 50000) (q : Fin 500) :
    (W14 (F := Ideal) m ρ c (Proc.devRef .tc main_v64) : S50000x500.Idx → EReal) (ix2 p q)
      = head (Ideal.ofBits .f32 0x42800000#32) (Ideal.ofBits .f32 0x3727C5AC#32)
          (fun k q => (m ((c : Thread nD τ).loc main_arg14) : S128x64.Idx → EReal) (ix2 k q)) (fun k => (m ((c : Thread nD τ).loc main_arg15) : S64.Idx → EReal) (ix1 k))
          (fun k => (m ((c : Thread nD τ).loc main_arg16) : S64.Idx → EReal) (ix1 k)) (fun k => (m ((c : Thread nD τ).loc main_arg17) : S64.Idx → EReal) (ix1 k))
          (fun k q => (m ((c : Thread nD τ).loc main_arg18) : S64x500.Idx → EReal) (ix2 k q)) (fun k => (m ((c : Thread nD τ).loc main_arg19) : S500.Idx → EReal) (ix1 k)) H3 p q := by
  have e := arr6_of (V13 (F := Ideal) m ρ) c _ _ _ _ _ _ _ rfl rfl rfl rfl rfl rfl rfl p q
  have hA0 : V13 (F := Ideal) m ρ c (Pipeline.arrRef spec6 0) = W12 (F := Ideal) m ρ c (Proc.devRef .tc main_v59) := keep_main_v59_13_12 m ρ c
  have hA1 : V13 (F := Ideal) m ρ c (Pipeline.arrRef spec6 1) = m ((c : Thread nD τ).loc main_arg14) :=
    (keep_main_arg14_13_0 m ρ c).trans (show W0 (F := Ideal) m ρ c (Proc.devRef .tc main_arg14) = m ((c : Thread nD τ).loc main_arg14) from rfl)
  have hA2 : V13 (F := Ideal) m ρ c (Pipeline.arrRef spec6 2) = W13 (F := Ideal) m ρ c (Proc.devRef .tc main_v60) := rfl
  have hA3 : V13 (F := Ideal) m ρ c (Pipeline.arrRef spec6 3) = W13 (F := Ideal) m ρ c (Proc.devRef .tc main_v61) := rfl
  have hA4 : V13 (F := Ideal) m ρ c (Pipeline.arrRef spec6 4) = W13 (F := Ideal) m ρ c (Proc.devRef .tc main_v62) := rfl
  have hA5 : V13 (F := Ideal) m ρ c (Pipeline.arrRef spec6 5) = m ((c : Thread nD τ).loc main_arg18) :=
    (keep_main_arg18_13_0 m ρ c).trans (show W0 (F := Ideal) m ρ c (Proc.devRef .tc main_arg18) = m ((c : Thread nD τ).loc main_arg18) from rfl)
  have hA6 : V13 (F := Ideal) m ρ c (Pipeline.arrRef spec6 6) = W13 (F := Ideal) m ρ c (Proc.devRef .tc main_v63) := rfl
  rw [hA0, hA1, hA2, hA3, hA4, hA5, hA6] at e
  rw [W14_arr m ρ c 7, e]
  have h60 : ∀ k : Fin 64, (W13 (F := Ideal) m ρ c (Proc.devRef .tc main_v60) : S1x64.Idx → EReal) (ix2 (0 : Fin 1) k) = (m ((c : Thread nD τ).loc main_arg15) : S64.Idx → EReal) (ix1 k) :=
    fun k => (hostOps6_main_v60 (W12 (F := Ideal) m ρ c) k).trans (congrFun (keep_main_arg15_12_0 m ρ c) (ix1 k))
  have h61 : ∀ k : Fin 64, (W13 (F := Ideal) m ρ c (Proc.devRef .tc main_v61) : S1x64.Idx → EReal) (ix2 (0 : Fin 1) k) = (m ((c : Thread nD τ).loc main_arg16) : S64.Idx → EReal) (ix1 k) :=
    fun k => (hostOps6_main_v61 (W12 (F := Ideal) m ρ c) k).trans (congrFun (keep_main_arg16_12_0 m ρ c) (ix1 k))
  have h62 : ∀ k : Fin 64, (W13 (F := Ideal) m ρ c (Proc.devRef .tc main_v62) : S1x64.Idx → EReal) (ix2 (0 : Fin 1) k) = (m ((c : Thread nD τ).loc main_arg17) : S64.Idx → EReal) (ix1 k) :=
    fun k => (hostOps6_main_v62 (W12 (F := Ideal) m ρ c) k).trans (congrFun (keep_main_arg17_12_0 m ρ c) (ix1 k))
  have h63 : ∀ k : Fin 500, (W13 (F := Ideal) m ρ c (Proc.devRef .tc main_v63) : S1x500.Idx → EReal) (ix2 (0 : Fin 1) k) = (m ((c : Thread nD τ).loc main_arg19) : S500.Idx → EReal) (ix1 k) :=
    fun k => (hostOps6_main_v63 (W12 (F := Ideal) m ρ c) k).trans (congrFun (keep_main_arg19_12_0 m ρ c) (ix1 k))
  simp only [h60, h61, h62, h63, hx]

/-- The kernel program's result array, read at (p, q): the network in the arrangement that scales the rows first. -/
theorem ker_out_apply (p : Fin 50000) (q : Fin 500) :
    (W14 (F := Ideal) m ρ c (Proc.devRef .tc main_v64) : S50000x500.Idx → EReal) (ix2 p q)
      = head (Ideal.ofBits .f32 0x42800000#32) (Ideal.ofBits .f32 0x3727C5AC#32)
          (fun k q => (m ((c : Thread nD τ).loc main_arg14) : S128x64.Idx → EReal) (ix2 k q)) (fun k => (m ((c : Thread nD τ).loc main_arg15) : S64.Idx → EReal) (ix1 k))
          (fun k => (m ((c : Thread nD τ).loc main_arg16) : S64.Idx → EReal) (ix1 k)) (fun k => (m ((c : Thread nD τ).loc main_arg17) : S64.Idx → EReal) (ix1 k))
          (fun k q => (m ((c : Thread nD τ).loc main_arg18) : S64x500.Idx → EReal) (ix2 k q)) (fun k => (m ((c : Thread nD τ).loc main_arg19) : S500.Idx → EReal) (ix1 k))
          (layerK (Ideal.ofBits .f32 0x43000000#32) (Ideal.ofBits .f32 0x3727C5AC#32) (DV (eiK m c)) (SRC (eiK m c)) (INB (eiK m c))
            (fun k q => (m ((c : Thread nD τ).loc main_arg10) : S256x128.Idx → EReal) (ix2 k q)) (fun k => (m ((c : Thread nD τ).loc main_arg11) : S128.Idx → EReal) (ix1 k))
            (fun k => (m ((c : Thread nD τ).loc main_arg12) : S128.Idx → EReal) (ix1 k)) (fun k => (m ((c : Thread nD τ).loc main_arg13) : S128.Idx → EReal) (ix1 k))
            (layerK (Ideal.ofBits .f32 0x43800000#32) (Ideal.ofBits .f32 0x3727C5AC#32) (DV (eiK m c)) (SRC (eiK m c)) (INB (eiK m c))
              (fun k q => (m ((c : Thread nD τ).loc main_arg6) : S128x256.Idx → EReal) (ix2 k q)) (fun k => (m ((c : Thread nD τ).loc main_arg7) : S256.Idx → EReal) (ix1 k))
              (fun k => (m ((c : Thread nD τ).loc main_arg8) : S256.Idx → EReal) (ix1 k)) (fun k => (m ((c : Thread nD τ).loc main_arg9) : S256.Idx → EReal) (ix1 k))
              (layerK (Ideal.ofBits .f32 0x43000000#32) (Ideal.ofBits .f32 0x3727C5AC#32) (DV (eiK m c)) (SRC (eiK m c)) (INB (eiK m c))
                (fun k q => (m ((c : Thread nD τ).loc main_arg2) : S128x128.Idx → EReal) (ix2 k q)) (fun k => (m ((c : Thread nD τ).loc main_arg3) : S128.Idx → EReal) (ix1 k))
                (fun k => (m ((c : Thread nD τ).loc main_arg4) : S128.Idx → EReal) (ix1 k)) (fun k => (m ((c : Thread nD τ).loc main_arg5) : S128.Idx → EReal) (ix1 k))
                (fun p k => (m ((c : Thread nD τ).loc main_arg0) : S50000x128.Idx → EReal) (ix2 p k))))) p q :=
  headK m ρ c _ (layer3 m ρ c _ (layer2 m ρ c _ (layer1 m ρ c _ (fun p k => congrFun (keep_main_arg0_3_0 m ρ c) (ix2 p k))))) p q

end Cert.KerSide
end
-- ==== Proof.RefStages.lean ====
/-
  The reference network as pure functions of its inputs, stage by stage.

  Each definition is the composition of the host operations of one stretch of the reference program, as a function
  of the values that stretch consumes: the two rows of the edge table and the index arrays made of them, the degree
  and the node weight, the edge weight, one layer before normalisation (per width), the row normalisation and ELU
  (per width), the matrix products and the bias additions of the two dense layers, and the whole network `out`
  composing them in the program's order. The degree, the node weight and the index arrays are recomputed by the
  same operations in each of the three layers: one definition each, used three times.
-/
import proofs.«137113_j6760278524492_2_alg».proof.ReferenceIdeal
import Idealize.ShloMosaic.PureOps.Ideal

noncomputable section

namespace Cert.RefSide

open Cert.ReferenceIdeal Idealize.ShloMosaic
open Cert.ReferenceIdeal.Facts₀ Cert.ReferenceIdeal.Facts

variable [Cert.ReferenceIdeal.Facts]

/-- Row 0 of the edge table as a vector: the node each edge reads. -/
def srcRow (ei : IVec S2x800000 32) : IVec S800000 32 :=
  shapeCast S800000 (extractStridedSlice S1x800000 ![0, 0] (ei) slices_S2x800000_S1x800000_0_0) shapeCasts_S1x800000_S800000

/-- Row 1 of the edge table as a vector: the node each edge arrives at. -/
def dstRow (ei : IVec S2x800000 32) : IVec S800000 32 :=
  shapeCast S800000 (extractStridedSlice S1x800000 ![1, 0] (ei) slices_S2x800000_S1x800000_1_0) shapeCasts_S1x800000_S800000

/-- The arriving node of each edge as an [E,1] index array, as every scatter-add takes it. -/
def dstRaw (ei : IVec S2x800000 32) : IVec S800000x1 32 :=
  broadcastInDim S800000x1 ![0] bcast_S800000_S800000x1_0 (dstRow ei)

/-- The read node of each edge, a negative index wrapped by the node count, as an [E,1] index array: what the gathers take. -/
def srcIdx (ei : IVec S2x800000 32) : IVec S800000x1 32 :=
  broadcastInDim S800000x1 ![0] bcast_S800000_S800000x1_0 (select (cmpi .slt (srcRow ei) (broadcastInDim S800000 ![] bcast_S_S800000 (constantI S_ 32 0#32))) (addi (srcRow ei) (broadcastInDim S800000 ![] bcast_S_S800000 (constantI S_ 32 50000#32))) (srcRow ei))

/-- The arriving node of each edge, a negative index wrapped by the node count, as an [E,1] index array: what the gathers take. -/
def dstIdx (ei : IVec S2x800000 32) : IVec S800000x1 32 :=
  broadcastInDim S800000x1 ![0] bcast_S800000_S800000x1_0 (select (cmpi .slt (dstRow ei) (broadcastInDim S800000 ![] bcast_S_S800000 (constantI S_ 32 0#32))) (addi (dstRow ei) (broadcastInDim S800000 ![] bcast_S_S800000 (constantI S_ 32 50000#32))) (dstRow ei))

/-- The degree of each node: one per arriving edge summed from zero, plus one for the node's own loop. -/
def deg (ei : IVec S2x800000 32) : FVec Ideal S50000 .f32 :=
  addf (F := Ideal) (Host.scatterAdd (F := Ideal) scatter_S50000_S800000x1_S800000_n_0_0_1 (broadcastInDim S50000 ![] bcast_S_S50000 (constant (F := Ideal) S_ .f32 0x00000000#32)) (dstRaw ei) (broadcastInDim S800000 ![] bcast_S_S800000 (constant (F := Ideal) S_ .f32 0x3F800000#32))) (broadcastInDim S50000 ![] bcast_S_S50000 (constant (F := Ideal) S_ .f32 0x3F800000#32))

/-- The node weight: the inverse square root of the degree where the degree is positive, zero elsewhere. -/
def dinv (ei : IVec S2x800000 32) : FVec Ideal S50000 .f32 :=
  select (cmpf (F := Ideal) .ogt (deg ei) (broadcastInDim S50000 ![] bcast_S_S50000 (constant (F := Ideal) S_ .f32 0x00000000#32))) (Host.rsqrt (F := Ideal) (deg ei)) (broadcastInDim S50000 ![] bcast_S_S50000 (id (constant (F := Ideal) S_ .f32 0x00000000#32)))

/-- The weight of each edge: the product of the node weights at its two ends. -/
def coef (ei : IVec S2x800000 32) : FVec Ideal S800000 .f32 :=
  mulf (F := Ideal) (Host.gather gather_S50000_S800000x1_S800000_n_0_n_n_0_1_1 (dinv ei) (srcIdx ei)) (Host.gather gather_S50000_S800000x1_S800000_n_0_n_n_0_1_1 (dinv ei) (dstIdx ei))

/-- The matrix product [N,128]×[128,128]. -/
def dot_128_128 (x : FVec Ideal S50000x128 .f32) (w : FVec Ideal S128x128 .f32) : FVec Ideal S50000x128 .f32 :=
  Host.dotGeneral (F := Ideal) dot_S50000x128_S128x128_S50000x128_1_0_0_1_n_n none (x) (w)

/-- The matrix product [N,128]×[128,256]. -/
def dot_128_256 (x : FVec Ideal S50000x128 .f32) (w : FVec Ideal S128x256 .f32) : FVec Ideal S50000x256 .f32 :=
  Host.dotGeneral (F := Ideal) dot_S50000x128_S128x256_S50000x256_1_0_0_1_n_n none (x) (w)

/-- The matrix product [N,256]×[256,128]. -/
def dot_256_128 (x : FVec Ideal S50000x256 .f32) (w : FVec Ideal S256x128 .f32) : FVec Ideal S50000x128 .f32 :=
  Host.dotGeneral (F := Ideal) dot_S50000x256_S256x128_S50000x128_1_0_0_1_n_n none (x) (w)

/-- The matrix product [N,128]×[128,64]. -/
def dot_128_64 (x : FVec Ideal S50000x128 .f32) (w : FVec Ideal S128x64 .f32) : FVec Ideal S50000x64 .f32 :=
  Host.dotGeneral (F := Ideal) dot_S50000x128_S128x64_S50000x64_1_0_0_1_n_n none (x) (w)

/-- The matrix product [N,64]×[64,500]. -/
def dot_64_500 (x : FVec Ideal S50000x64 .f32) (w : FVec Ideal S64x500 .f32) : FVec Ideal S50000x500 .f32 :=
  Host.dotGeneral (F := Ideal) dot_S50000x64_S64x500_S50000x500_1_0_0_1_n_n none (x) (w)

/-- One 128-column layer before normalisation, h the product with the weights already taken: the rows of h at the read nodes times the edge weights, summed into the arriving nodes from zero, plus each node's own row times its squared weight, plus the bias. -/
def conv128 (ei : IVec S2x800000 32) (h : FVec Ideal S50000x128 .f32) (b : FVec Ideal S128 .f32) : FVec Ideal S50000x128 .f32 :=
  addf (F := Ideal) (addf (F := Ideal) (Host.scatterAdd (F := Ideal) scatter_S50000x128_S800000x1_S800000x128_1_0_0_1 (broadcastInDim S50000x128 ![] bcast_S_S50000x128 (constant (F := Ideal) S_ .f32 0x00000000#32)) (dstRaw ei) (mulf (F := Ideal) (Host.gather gather_S50000x128_S800000x1_S800000x128_1_0_n_n_0_1_1128 (h) (srcIdx ei)) (broadcastInDim S800000x128 ![0, 1] bcast_S800000x1_S800000x128_0_1 (broadcastInDim S800000x1 ![0] bcast_S800000_S800000x1_0 (coef ei))))) (mulf (F := Ideal) (h) (broadcastInDim S50000x128 ![0, 1] bcast_S50000x1_S50000x128_0_1 (broadcastInDim S50000x1 ![0] bcast_S50000_S50000x1_0 (mulf (F := Ideal) (dinv ei) (dinv ei)))))) (broadcastInDim S50000x128 ![0, 1] bcast_S1x128_S50000x128_0_1 (broadcastInDim S1x128 ![1] bcast_S128_S1x128_1 (b)))

/-- The same layer at 256 columns. -/
def conv256 (ei : IVec S2x800000 32) (h : FVec Ideal S50000x256 .f32) (b : FVec Ideal S256 .f32) : FVec Ideal S50000x256 .f32 :=
  addf (F := Ideal) (addf (F := Ideal) (Host.scatterAdd (F := Ideal) scatter_S50000x256_S800000x1_S800000x256_1_0_0_1 (broadcastInDim S50000x256 ![] bcast_S_S50000x256 (constant (F := Ideal) S_ .f32 0x00000000#32)) (dstRaw ei) (mulf (F := Ideal) (Host.gather gather_S50000x256_S800000x1_S800000x256_1_0_n_n_0_1_1256 (h) (srcIdx ei)) (broadcastInDim S800000x256 ![0, 1] bcast_S800000x1_S800000x256_0_1 (broadcastInDim S800000x1 ![0] bcast_S800000_S800000x1_0 (coef ei))))) (mulf (F := Ideal) (h) (broadcastInDim S50000x256 ![0, 1] bcast_S50000x1_S50000x256_0_1 (broadcastInDim S50000x1 ![0] bcast_S50000_S50000x1_0 (mulf (F := Ideal) (dinv ei) (dinv ei)))))) (broadcastInDim S50000x256 ![0, 1] bcast_S1x256_S50000x256_0_1 (broadcastInDim S1x256 ![1] bcast_S256_S1x256_1 (b)))

/-- Row normalisation at 128 columns: the row minus its mean, times the inverse square root of its variance plus epsilon, times g, plus be. -/
def ln128 (t : FVec Ideal S50000x128 .f32) (g be : FVec Ideal S128 .f32) : FVec Ideal S50000x128 .f32 :=
  addf (F := Ideal) (mulf (F := Ideal) (mulf (F := Ideal) (subf (F := Ideal) (t) (broadcastInDim S50000x128 ![0, 1] bcast_S50000x1_S50000x128_0_1 (Host.divf (F := Ideal) (broadcastInDim S50000x1 ![0] bcast_S50000_S50000x1_0 (Host.reduceAdd (F := Ideal) (t) (constant (F := Ideal) S_ .f32 0x00000000#32) reducesTo_S50000x128_S50000_d1 h_S_)) (broadcastInDim S50000x1 ![] bcast_S_S50000x1 (constant (F := Ideal) S_ .f32 0x43000000#32))))) (broadcastInDim S50000x128 ![0, 1] bcast_S50000x1_S50000x128_0_1 (Host.rsqrt (F := Ideal) (addf (F := Ideal) (Host.divf (F := Ideal) (broadcastInDim S50000x1 ![0] bcast_S50000_S50000x1_0 (Host.reduceAdd (F := Ideal) (mulf (F := Ideal) (subf (F := Ideal) (t) (broadcastInDim S50000x128 ![0, 1] bcast_S50000x1_S50000x128_0_1 (Host.divf (F := Ideal) (broadcastInDim S50000x1 ![0] bcast_S50000_S50000x1_0 (Host.reduceAdd (F := Ideal) (t) (constant (F := Ideal) S_ .f32 0x00000000#32) reducesTo_S50000x128_S50000_d1 h_S_)) (broadcastInDim S50000x1 ![] bcast_S_S50000x1 (constant (F := Ideal) S_ .f32 0x43000000#32))))) (subf (F := Ideal) (t) (broadcastInDim S50000x128 ![0, 1] bcast_S50000x1_S50000x128_0_1 (Host.divf (F := Ideal) (broadcastInDim S50000x1 ![0] bcast_S50000_S50000x1_0 (Host.reduceAdd (F := Ideal) (t) (constant (F := Ideal) S_ .f32 0x00000000#32) reducesTo_S50000x128_S50000_d1 h_S_)) (broadcastInDim S50000x1 ![] bcast_S_S50000x1 (constant (F := Ideal) S_ .f32 0x43000000#32)))))) (constant (F := Ideal) S_ .f32 0x00000000#32) reducesTo_S50000x128_S50000_d1 h_S_)) (broadcastInDim S50000x1 ![] bcast_S_S50000x1 (constant (F := Ideal) S_ .f32 0x43000000#32))) (broadcastInDim S50000x1 ![] bcast_S_S50000x1 (constant (F := Ideal) S_ .f32 0x3727C5AC#32)))))) (broadcastInDim S50000x128 ![0, 1] bcast_S1x128_S50000x128_0_1 (broadcastInDim S1x128 ![1] bcast_S128_S1x128_1 (g)))) (broadcastInDim S50000x128 ![0, 1] bcast_S1x128_S50000x128_0_1 (broadcastInDim S1x128 ![1] bcast_S128_S1x128_1 (be)))

/-- ELU at 128 columns: x where x is positive, one times expm1 of (zero where x is positive, x elsewhere) elsewhere. -/
def elu128 (x : FVec Ideal S50000x128 .f32) : FVec Ideal S50000x128 .f32 :=
  select (cmpf (F := Ideal) .ogt (x) (broadcastInDim S50000x128 ![] bcast_S_S50000x128 (constant (F := Ideal) S_ .f32 0x00000000#32))) (x) (mulf (F := Ideal) (broadcastInDim S50000x128 ![] bcast_S_S50000x128 (constant (F := Ideal) S_ .f32 0x3F800000#32)) (Host.expm1 (F := Ideal) (select (cmpf (F := Ideal) .ogt (x) (broadcastInDim S50000x128 ![] bcast_S_S50000x128 (constant (F := Ideal) S_ .f32 0x00000000#32))) (broadcastInDim S50000x128 ![] bcast_S_S50000x128 (id (constant (F := Ideal) S_ .f32 0x00000000#32))) (x))))

/-- Normalisation then ELU at 128 columns. -/
def lnelu128 (t : FVec Ideal S50000x128 .f32) (g be : FVec Ideal S128 .f32) : FVec Ideal S50000x128 .f32 :=
  elu128 (ln128 t g be)

/-- Row normalisation at 256 columns. -/
def ln256 (t : FVec Ideal S50000x256 .f32) (g be : FVec Ideal S256 .f32) : FVec Ideal S50000x256 .f32 :=
  addf (F := Ideal) (mulf (F := Ideal) (mulf (F := Ideal) (subf (F := Ideal) (t) (broadcastInDim S50000x256 ![0, 1] bcast_S50000x1_S50000x256_0_1 (Host.divf (F := Ideal) (broadcastInDim S50000x1 ![0] bcast_S50000_S50000x1_0 (Host.reduceAdd (F := Ideal) (t) (constant (F := Ideal) S_ .f32 0x00000000#32) reducesTo_S50000x256_S50000_d1 h_S_)) (broadcastInDim S50000x1 ![] bcast_S_S50000x1 (constant (F := Ideal) S_ .f32 0x43800000#32))))) (broadcastInDim S50000x256 ![0, 1] bcast_S50000x1_S50000x256_0_1 (Host.rsqrt (F := Ideal) (addf (F := Ideal) (Host.divf (F := Ideal) (broadcastInDim S50000x1 ![0] bcast_S50000_S50000x1_0 (Host.reduceAdd (F := Ideal) (mulf (F := Ideal) (subf (F := Ideal) (t) (broadcastInDim S50000x256 ![0, 1] bcast_S50000x1_S50000x256_0_1 (Host.divf (F := Ideal) (broadcastInDim S50000x1 ![0] bcast_S50000_S50000x1_0 (Host.reduceAdd (F := Ideal) (t) (constant (F := Ideal) S_ .f32 0x00000000#32) reducesTo_S50000x256_S50000_d1 h_S_)) (broadcastInDim S50000x1 ![] bcast_S_S50000x1 (constant (F := Ideal) S_ .f32 0x43800000#32))))) (subf (F := Ideal) (t) (broadcastInDim S50000x256 ![0, 1] bcast_S50000x1_S50000x256_0_1 (Host.divf (F := Ideal) (broadcastInDim S50000x1 ![0] bcast_S50000_S50000x1_0 (Host.reduceAdd (F := Ideal) (t) (constant (F := Ideal) S_ .f32 0x00000000#32) reducesTo_S50000x256_S50000_d1 h_S_)) (broadcastInDim S50000x1 ![] bcast_S_S50000x1 (constant (F := Ideal) S_ .f32 0x43800000#32)))))) (constant (F := Ideal) S_ .f32 0x00000000#32) reducesTo_S50000x256_S50000_d1 h_S_)) (broadcastInDim S50000x1 ![] bcast_S_S50000x1 (constant (F := Ideal) S_ .f32 0x43800000#32))) (broadcastInDim S50000x1 ![] bcast_S_S50000x1 (constant (F := Ideal) S_ .f32 0x3727C5AC#32)))))) (broadcastInDim S50000x256 ![0, 1] bcast_S1x256_S50000x256_0_1 (broadcastInDim S1x256 ![1] bcast_S256_S1x256_1 (g)))) (broadcastInDim S50000x256 ![0, 1] bcast_S1x256_S50000x256_0_1 (broadcastInDim S1x256 ![1] bcast_S256_S1x256_1 (be)))

/-- ELU at 256 columns. -/
def elu256 (x : FVec Ideal S50000x256 .f32) : FVec Ideal S50000x256 .f32 :=
  select (cmpf (F := Ideal) .ogt (x) (broadcastInDim S50000x256 ![] bcast_S_S50000x256 (constant (F := Ideal) S_ .f32 0x00000000#32))) (x) (mulf (F := Ideal) (broadcastInDim S50000x256 ![] bcast_S_S50000x256 (constant (F := Ideal) S_ .f32 0x3F800000#32)) (Host.expm1 (F := Ideal) (select (cmpf (F := Ideal) .ogt (x) (broadcastInDim S50000x256 ![] bcast_S_S50000x256 (constant (F := Ideal) S_ .f32 0x00000000#32))) (broadcastInDim S50000x256 ![] bcast_S_S50000x256 (id (constant (F := Ideal) S_ .f32 0x00000000#32))) (x))))

/-- Normalisation then ELU at 256 columns. -/
def lnelu256 (t : FVec Ideal S50000x256 .f32) (g be : FVec Ideal S256 .f32) : FVec Ideal S50000x256 .f32 :=
  elu256 (ln256 t g be)

/-- Row normalisation at 64 columns. -/
def ln64 (t : FVec Ideal S50000x64 .f32) (g be : FVec Ideal S64 .f32) : FVec Ideal S50000x64 .f32 :=
  addf (F := Ideal) (mulf (F := Ideal) (mulf (F := Ideal) (subf (F := Ideal) (t) (broadcastInDim S50000x64 ![0, 1] bcast_S50000x1_S50000x64_0_1 (Host.divf (F := Ideal) (broadcastInDim S50000x1 ![0] bcast_S50000_S50000x1_0 (Host.reduceAdd (F := Ideal) (t) (constant (F := Ideal) S_ .f32 0x00000000#32) reducesTo_S50000x64_S50000_d1 h_S_)) (broadcastInDim S50000x1 ![] bcast_S_S50000x1 (constant (F := Ideal) S_ .f32 0x42800000#32))))) (broadcastInDim S50000x64 ![0, 1] bcast_S50000x1_S50000x64_0_1 (Host.rsqrt (F := Ideal) (addf (F := Ideal) (Host.divf (F := Ideal) (broadcastInDim S50000x1 ![0] bcast_S50000_S50000x1_0 (Host.reduceAdd (F := Ideal) (mulf (F := Ideal) (subf (F := Ideal) (t) (broadcastInDim S50000x64 ![0, 1] bcast_S50000x1_S50000x64_0_1 (Host.divf (F := Ideal) (broadcastInDim S50000x1 ![0] bcast_S50000_S50000x1_0 (Host.reduceAdd (F := Ideal) (t) (constant (F := Ideal) S_ .f32 0x00000000#32) reducesTo_S50000x64_S50000_d1 h_S_)) (broadcastInDim S50000x1 ![] bcast_S_S50000x1 (constant (F := Ideal) S_ .f32 0x42800000#32))))) (subf (F := Ideal) (t) (broadcastInDim S50000x64 ![0, 1] bcast_S50000x1_S50000x64_0_1 (Host.divf (F := Ideal) (broadcastInDim S50000x1 ![0] bcast_S50000_S50000x1_0 (Host.reduceAdd (F := Ideal) (t) (constant (F := Ideal) S_ .f32 0x00000000#32) reducesTo_S50000x64_S50000_d1 h_S_)) (broadcastInDim S50000x1 ![] bcast_S_S50000x1 (constant (F := Ideal) S_ .f32 0x42800000#32)))))) (constant (F := Ideal) S_ .f32 0x00000000#32) reducesTo_S50000x64_S50000_d1 h_S_)) (broadcastInDim S50000x1 ![] bcast_S_S50000x1 (constant (F := Ideal) S_ .f32 0x42800000#32))) (broadcastInDim S50000x1 ![] bcast_S_S50000x1 (constant (F := Ideal) S_ .f32 0x3727C5AC#32)))))) (broadcastInDim S50000x64 ![0, 1] bcast_S1x64_S50000x64_0_1 (broadcastInDim S1x64 ![1] bcast_S64_S1x64_1 (g)))) (broadcastInDim S50000x64 ![0, 1] bcast_S1x64_S50000x64_0_1 (broadcastInDim S1x64 ![1] bcast_S64_S1x64_1 (be)))

/-- ELU at 64 columns. -/
def elu64 (x : FVec Ideal S50000x64 .f32) : FVec Ideal S50000x64 .f32 :=
  select (cmpf (F := Ideal) .ogt (x) (broadcastInDim S50000x64 ![] bcast_S_S50000x64 (constant (F := Ideal) S_ .f32 0x00000000#32))) (x) (mulf (F := Ideal) (broadcastInDim S50000x64 ![] bcast_S_S50000x64 (constant (F := Ideal) S_ .f32 0x3F800000#32)) (Host.expm1 (F := Ideal) (select (cmpf (F := Ideal) .ogt (x) (broadcastInDim S50000x64 ![] bcast_S_S50000x64 (constant (F := Ideal) S_ .f32 0x00000000#32))) (broadcastInDim S50000x64 ![] bcast_S_S50000x64 (id (constant (F := Ideal) S_ .f32 0x00000000#32))) (x))))

/-- Normalisation then ELU at 64 columns. -/
def lnelu64 (t : FVec Ideal S50000x64 .f32) (g be : FVec Ideal S64 .f32) : FVec Ideal S50000x64 .f32 :=
  elu64 (ln64 t g be)

/-- The bias of the first dense layer added to every row. -/
def bias64 (t : FVec Ideal S50000x64 .f32) (b : FVec Ideal S64 .f32) : FVec Ideal S50000x64 .f32 :=
  addf (F := Ideal) (t) (broadcastInDim S50000x64 ![0, 1] bcast_S1x64_S50000x64_0_1 (broadcastInDim S1x64 ![1] bcast_S64_S1x64_1 (b)))

/-- The bias of the last dense layer added to every row. -/
def bias500 (t : FVec Ideal S50000x500 .f32) (b : FVec Ideal S500 .f32) : FVec Ideal S50000x500 .f32 :=
  addf (F := Ideal) (t) (broadcastInDim S50000x500 ![0, 1] bcast_S1x500_S50000x500_0_1 (broadcastInDim S1x500 ![1] bcast_S500_S1x500_1 (b)))

/-- The whole network: three layers, each product, layer, normalisation and ELU, then the two dense layers. -/
def out (x : FVec Ideal S50000x128 .f32) (ei : IVec S2x800000 32)
    (W1 : FVec Ideal S128x128 .f32) (b1 g1 be1 : FVec Ideal S128 .f32)
    (W2 : FVec Ideal S128x256 .f32) (b2 g2 be2 : FVec Ideal S256 .f32)
    (W3 : FVec Ideal S256x128 .f32) (b3 g3 be3 : FVec Ideal S128 .f32)
    (Wl1 : FVec Ideal S128x64 .f32) (bl1 g4 be4 : FVec Ideal S64 .f32)
    (Wl2 : FVec Ideal S64x500 .f32) (bl2 : FVec Ideal S500 .f32) : FVec Ideal S50000x500 .f32 :=
  bias500 (dot_64_500 (lnelu64 (bias64 (dot_128_64
    (lnelu128 (conv128 ei (dot_256_128
      (lnelu256 (conv256 ei (dot_128_256
        (lnelu128 (conv128 ei (dot_128_128 x W1) b1) g1 be1) W2) b2) g2 be2) W3) b3) g3 be3) Wl1) bl1) g4 be4) Wl2) bl2

end Cert.RefSide

end
-- ==== Proof.Cross.lean ====
/-
  The edge data and the node weights are computed by the same host operations in the two programs: the two rows of
  the edge array, the destinations as a one-column array, the sources made nonnegative as a one-column array, the
  degrees and the node weights are the same functions of the edge array on both sides.
-/
import proofs.«137113_j6760278524492_2_alg».proof.Proof.HostK
import proofs.«137113_j6760278524492_2_alg».proof.Proof.RefStages

set_option maxRecDepth 16384
noncomputable section
namespace Cert.Cross
open Idealize.ShloMosaic Idealize.ShloMosaic.ValueIdx
variable [Cert.KernelIdeal.Facts] [Cert.ReferenceIdeal.Facts]

theorem src1d_eq (ei : IVec Cert.KernelIdeal.S2x800000 32) : Cert.KerSide.src1d ei = Cert.RefSide.srcRow ei := rfl

theorem dst1d_eq (ei : IVec Cert.KernelIdeal.S2x800000 32) : Cert.KerSide.dst1d ei = Cert.RefSide.dstRow ei := rfl

theorem dstRaw_eq (ei : IVec Cert.KernelIdeal.S2x800000 32) : Cert.KerSide.dstRaw ei = Cert.RefSide.dstRaw ei := by
  unfold Cert.KerSide.dstRaw Cert.RefSide.dstRaw
  rw [dst1d_eq]

theorem normCol_eq (v : IVec Cert.KernelIdeal.S800000 32) :
    Cert.KerSide.normCol v
      = broadcastInDim Cert.ReferenceIdeal.S800000x1 ![0] Cert.ReferenceIdeal.Facts₀.bcast_S800000_S800000x1_0
          (select (cmpi .slt v (broadcastInDim Cert.ReferenceIdeal.S800000 ![] Cert.ReferenceIdeal.Facts₀.bcast_S_S800000 (constantI Cert.ReferenceIdeal.S_ 32 0#32)))
            (addi v (broadcastInDim Cert.ReferenceIdeal.S800000 ![] Cert.ReferenceIdeal.Facts₀.bcast_S_S800000 (constantI Cert.ReferenceIdeal.S_ 32 50000#32))) v) := rfl

theorem srcIdx_eq (ei : IVec Cert.KernelIdeal.S2x800000 32) : Cert.KerSide.srcIdx ei = Cert.RefSide.srcIdx ei := by
  unfold Cert.KerSide.srcIdx Cert.RefSide.srcIdx
  rw [normCol_eq, src1d_eq]

theorem scatterDeg_eq (x : FVec Ideal Cert.KernelIdeal.S50000 .f32) (idx : IVec Cert.KernelIdeal.S800000x1 32)
    (upd : FVec Ideal Cert.KernelIdeal.S800000 .f32) :
    Host.scatterAdd (F := Ideal) Cert.KernelIdeal.scatter_S50000_S800000x1_S800000_n_0_0_1 x idx upd
      = Host.scatterAdd (F := Ideal) Cert.ReferenceIdeal.scatter_S50000_S800000x1_S800000_n_0_0_1 x idx upd := rfl

theorem deg_eq (ei : IVec Cert.KernelIdeal.S2x800000 32) : Cert.KerSide.degArr ei = Cert.RefSide.deg ei := by
  unfold Cert.KerSide.degArr Cert.RefSide.deg
  rw [scatterDeg_eq, dstRaw_eq]

theorem dinv_eq (ei : IVec Cert.KernelIdeal.S2x800000 32) : Cert.KerSide.dinvArr ei = Cert.RefSide.dinv ei := by
  unfold Cert.KerSide.dinvArr Cert.RefSide.dinv
  rw [deg_eq]

end Cert.Cross
end
-- ==== Proof.RefReadBc.lean ====
/-
  Broadcasts read at an index, for matrices of any extent: a column [N,1] spread over the columns, a vector [N] made
  a column, a row [1,D] spread over the rows, a vector [D] made a row.
-/
import Idealize.ShloMosaic.Lib.ValueIdx
import Idealize.ShloMosaic.Lib.IdealHost
import Idealize.ShloMosaic.Lib.Pipeline.Value

namespace Cert.RefSide

open Idealize.ShloMosaic Idealize.ShloMosaic.ValueIdx

variable {N D : Nat} {α : Type}

/-- A column [N,1] broadcast to [N,D] reads the column's entry of the row. -/
theorem bcCol_apply (h : (⟨2, ![N, 1]⟩ : Shape).BroadcastsInDim ⟨2, ![N, D]⟩ ![0, 1])
    (x : (⟨2, ![N, 1]⟩ : Shape).Idx → α) (p : Fin N) (q : Fin D) :
    broadcastInDim ⟨2, ![N, D]⟩ ![0, 1] h x (ix2 p q) = x (ix2 p (0 : Fin 1)) := by
  refine broadcastInDim_apply _ h x _ _ fun a => ?_
  match a with
  | ⟨0, _⟩ =>
    show p.val = if N = 1 then 0 else p.val
    split
    · have := p.isLt; omega
    · rfl
  | ⟨1, _⟩ => rfl

/-- A vector [N] broadcast to a column [N,1] reads the vector's entry of the row. -/
theorem bcVecCol_apply (h : (⟨1, ![N]⟩ : Shape).BroadcastsInDim ⟨2, ![N, 1]⟩ ![0])
    (x : (⟨1, ![N]⟩ : Shape).Idx → α) (p : Fin N) (z : Fin 1) :
    broadcastInDim ⟨2, ![N, 1]⟩ ![0] h x (ix2 p z) = x (ix1 p) := by
  refine broadcastInDim_apply _ h x _ _ fun a => ?_
  match a with
  | ⟨0, _⟩ =>
    show p.val = if N = 1 then 0 else p.val
    split
    · have := p.isLt; omega
    · rfl

/-- A row [1,D] broadcast to [N,D] reads the row's entry of the column. -/
theorem bcRow_apply (h : (⟨2, ![1, D]⟩ : Shape).BroadcastsInDim ⟨2, ![N, D]⟩ ![0, 1])
    (x : (⟨2, ![1, D]⟩ : Shape).Idx → α) (p : Fin N) (q : Fin D) :
    broadcastInDim ⟨2, ![N, D]⟩ ![0, 1] h x (ix2 p q) = x (ix2 (0 : Fin 1) q) := by
  refine broadcastInDim_apply _ h x _ _ fun a => ?_
  match a with
  | ⟨0, _⟩ => rfl
  | ⟨1, _⟩ =>
    show q.val = if D = 1 then 0 else q.val
    split
    · have := q.isLt; omega
    · rfl

/-- A vector [D] broadcast to a row [1,D] reads the vector's entry of the column. -/
theorem bcVecRow_apply (h : (⟨1, ![D]⟩ : Shape).BroadcastsInDim ⟨2, ![1, D]⟩ ![1])
    (x : (⟨1, ![D]⟩ : Shape).Idx → α) (z : Fin 1) (q : Fin D) :
    broadcastInDim ⟨2, ![1, D]⟩ ![1] h x (ix2 z q) = x (ix1 q) := by
  refine broadcastInDim_apply _ h x _ _ fun a => ?_
  match a with
  | ⟨0, _⟩ =>
    show q.val = if D = 1 then 0 else q.val
    split
    · have := q.isLt; omega
    · rfl

/-- A scalar word broadcast to any shape reads the word's value everywhere. -/
theorem bcScalar_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

end Cert.RefSide
-- ==== Proof.RefReadLn128.lean ====
/-
  Row normalisation and ELU of the reference at 128 columns, read at an index.

  The row sum is a reduction over the second axis from the word of zero, which is the number zero; the mean is the
  row sum over the divisor word; the variance is the row sum of the squared differences from the mean over the
  same word; and the ELU's two selects on "x above zero" are the one case split of the function elu.
-/
import proofs.«137113_j6760278524492_2_alg».proof.Proof.RefStages
import proofs.«137113_j6760278524492_2_alg».proof.Proof.Spec
import proofs.«137113_j6760278524492_2_alg».proof.Proof.RefReadBc
import Idealize.ShloMosaic.PureOps.Ideal.Laws

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The row sums of a matrix, from the word of zero. -/
def rsum128 (t : FVec Ideal S50000x128 .f32) : FVec Ideal S50000 .f32 :=
  Host.reduceAdd (F := Ideal) (t) (constant (F := Ideal) S_ .f32 0x00000000#32) reducesTo_S50000x128_S50000_d1 h_S_

/-- The row means as a column. -/
def mean128 (t : FVec Ideal S50000x128 .f32) : FVec Ideal S50000x1 .f32 :=
  Host.divf (F := Ideal) (broadcastInDim S50000x1 ![0] bcast_S50000_S50000x1_0 (rsum128 t)) (broadcastInDim S50000x1 ![] bcast_S_S50000x1 (constant (F := Ideal) S_ .f32 0x43000000#32))

/-- The matrix minus its row means. -/
def cen128 (t : FVec Ideal S50000x128 .f32) : FVec Ideal S50000x128 .f32 :=
  subf (F := Ideal) (t) (broadcastInDim S50000x128 ![0, 1] bcast_S50000x1_S50000x128_0_1 (mean128 t))

/-- The row variances as a column. -/
def var128 (t : FVec Ideal S50000x128 .f32) : FVec Ideal S50000x1 .f32 :=
  Host.divf (F := Ideal) (broadcastInDim S50000x1 ![0] bcast_S50000_S50000x1_0 (rsum128 (mulf (F := Ideal) (cen128 t) (cen128 t)))) (broadcastInDim S50000x1 ![] bcast_S_S50000x1 (constant (F := Ideal) S_ .f32 0x43000000#32))

/-- The normalisation is built of these pieces. -/
theorem ln128_eq (t : FVec Ideal S50000x128 .f32) (g be : FVec Ideal S128 .f32) :
    ln128 t g be = addf (F := Ideal) (mulf (F := Ideal) (mulf (F := Ideal) (cen128 t)
      (broadcastInDim S50000x128 ![0, 1] bcast_S50000x1_S50000x128_0_1 (Host.rsqrt (F := Ideal) (addf (F := Ideal) (var128 t)
        (broadcastInDim S50000x1 ![] bcast_S_S50000x1 (constant (F := Ideal) S_ .f32 0x3727C5AC#32))))))
      (broadcastInDim S50000x128 ![0, 1] bcast_S1x128_S50000x128_0_1 (broadcastInDim S1x128 ![1] bcast_S128_S1x128_1 (g))))
      (broadcastInDim S50000x128 ![0, 1] bcast_S1x128_S50000x128_0_1 (broadcastInDim S1x128 ![1] bcast_S128_S1x128_1 (be))) := rfl

/-- A row sum is the sum of the row. -/
theorem rsum128_apply (t : FVec Ideal S50000x128 .f32) (p : Fin 50000) :
    rsum128 t (ix1 p) = ∑ k : Fin 128, t (ix2 p k) := by
  unfold rsum128
  refine (Ideal.hostReduceAdd_single reducesTo_S50000x128_S50000_d1 (by decide) t _ (ix1 p)).trans ?_
  show Ideal.ofBits .f32 0x00000000#32 + ∑ k : Fin 128, t _ = _
  rw [Ideal.ofBits_zero_f32, zero_add]
  refine Finset.sum_congr rfl fun k _ => congrArg t ?_
  funext a
  apply Fin.ext
  match a with
  | ⟨0, _⟩ => rfl
  | ⟨1, _⟩ => rfl

/-- A row mean. -/
theorem mean128_apply (t : FVec Ideal S50000x128 .f32) (p : Fin 50000) (z : Fin 1) :
    mean128 t (ix2 p z) = rowMean (Ideal.ofBits .f32 0x43000000#32) (fun k => t (ix2 p k)) := by
  unfold mean128 rowMean
  show Ideal.div (broadcastInDim S50000x1 ![0] bcast_S50000_S50000x1_0 (rsum128 t) (ix2 p z))
    (broadcastInDim S50000x1 ![] bcast_S_S50000x1 (constant (F := Ideal) S_ .f32 0x43000000#32) (ix2 p z)) = _
  rw [bcVecCol_apply, rsum128_apply, broadcastInDim_scalar_apply]
  rfl

/-- An entry minus its row mean. -/
theorem cen128_apply (t : FVec Ideal S50000x128 .f32) (p : Fin 50000) (q : Fin 128) :
    cen128 t (ix2 p q) = t (ix2 p q) - rowMean (Ideal.ofBits .f32 0x43000000#32) (fun k => t (ix2 p k)) := by
  unfold cen128
  show t (ix2 p q) - broadcastInDim S50000x128 ![0, 1] bcast_S50000x1_S50000x128_0_1 (mean128 t) (ix2 p q) = _
  rw [bcCol_apply, mean128_apply]

/-- A row variance. -/
theorem var128_apply (t : FVec Ideal S50000x128 .f32) (p : Fin 50000) (z : Fin 1) :
    var128 t (ix2 p z) = rowVar (Ideal.ofBits .f32 0x43000000#32) (fun k => t (ix2 p k)) := by
  unfold var128 rowVar
  show Ideal.div (broadcastInDim S50000x1 ![0] bcast_S50000_S50000x1_0 (rsum128 (mulf (F := Ideal) (cen128 t) (cen128 t))) (ix2 p z))
    (broadcastInDim S50000x1 ![] bcast_S_S50000x1 (constant (F := Ideal) S_ .f32 0x43000000#32) (ix2 p z)) = _
  rw [bcVecCol_apply, rsum128_apply, broadcastInDim_scalar_apply]
  show Ideal.div (∑ k : Fin 128, cen128 t (ix2 p k) * cen128 t (ix2 p k)) _ = _
  simp only [cen128_apply]
  rfl

/-- The normalisation at an index. -/
theorem ln128_apply (t : FVec Ideal S50000x128 .f32) (g be : FVec Ideal S128 .f32) (p : Fin 50000) (q : Fin 128) :
    ln128 t g be (ix2 p q)
      = (t (ix2 p q) - rowMean (Ideal.ofBits .f32 0x43000000#32) (fun k => t (ix2 p k)))
          * Ideal.rsqrt (rowVar (Ideal.ofBits .f32 0x43000000#32) (fun k => t (ix2 p k)) + Ideal.ofBits .f32 0x3727C5AC#32)
          * g (ix1 q) + be (ix1 q) := by
  rw [ln128_eq]
  show cen128 t (ix2 p q)
      * broadcastInDim S50000x128 ![0, 1] bcast_S50000x1_S50000x128_0_1 (Host.rsqrt (F := Ideal) (addf (F := Ideal) (var128 t)
        (broadcastInDim S50000x1 ![] bcast_S_S50000x1 (constant (F := Ideal) S_ .f32 0x3727C5AC#32)))) (ix2 p q)
      * broadcastInDim S50000x128 ![0, 1] bcast_S1x128_S50000x128_0_1 (broadcastInDim S1x128 ![1] bcast_S128_S1x128_1 (g)) (ix2 p q)
      + broadcastInDim S50000x128 ![0, 1] bcast_S1x128_S50000x128_0_1 (broadcastInDim S1x128 ![1] bcast_S128_S1x128_1 (be)) (ix2 p q) = _
  rw [bcCol_apply, bcRow_apply, bcRow_apply, bcVecRow_apply, bcVecRow_apply, cen128_apply]
  show _ * Ideal.rsqrt (var128 t (ix2 p 0) + broadcastInDim S50000x1 ![] bcast_S_S50000x1 (constant (F := Ideal) S_ .f32 0x3727C5AC#32) (ix2 p 0)) * _ + _ = _
  rw [var128_apply, broadcastInDim_scalar_apply]
  rfl

/-- The two selects of the program's ELU are the one case split of elu. -/
theorem elu128_apply (x : FVec Ideal S50000x128 .f32) (p : Fin 50000) (q : Fin 128) :
    elu128 x (ix2 p q) = elu (x (ix2 p q)) := by
  unfold elu128 elu
  show Scalar.select (Ideal.cmp .ogt (x (ix2 p q)) (broadcastInDim S50000x128 ![] bcast_S_S50000x128 (constant (F := Ideal) S_ .f32 0x00000000#32) (ix2 p q)))
      (x (ix2 p q))
      (broadcastInDim S50000x128 ![] bcast_S_S50000x128 (constant (F := Ideal) S_ .f32 0x3F800000#32) (ix2 p q)
        * (Ideal.exp (Scalar.select (Ideal.cmp .ogt (x (ix2 p q)) (broadcastInDim S50000x128 ![] bcast_S_S50000x128 (constant (F := Ideal) S_ .f32 0x00000000#32) (ix2 p q)))
            (broadcastInDim S50000x128 ![] bcast_S_S50000x128 (id (constant (F := Ideal) S_ .f32 0x00000000#32)) (ix2 p q)) (x (ix2 p q))) - 1)) = _
  simp only [id]
  rw [bcScalar_apply, bcScalar_apply, Ideal.ofBits_zero_f32, ofBits_one_f32, one_mul]
  by_cases h : 0 < x (ix2 p q)
  · rw [if_pos h, show Ideal.cmp .ogt (x (ix2 p q)) 0 = 1#1 from by simp [Ideal.cmp, h]]
    rfl
  · rw [if_neg h, show Ideal.cmp .ogt (x (ix2 p q)) 0 = 0#1 from by simp [Ideal.cmp, h]]
    rfl

/-- Normalisation then ELU at an index: the row function lnelu of the row. -/
theorem lnelu128_apply (t : FVec Ideal S50000x128 .f32) (g be : FVec Ideal S128 .f32) (p : Fin 50000) (q : Fin 128) :
    lnelu128 t g be (ix2 p q)
      = lnelu (Ideal.ofBits .f32 0x43000000#32) (Ideal.ofBits .f32 0x3727C5AC#32) (fun k => t (ix2 p k)) (fun k => g (ix1 k)) (fun k => be (ix1 k)) q := by
  unfold lnelu128 lnelu
  rw [elu128_apply, ln128_apply]

end Cert.RefSide

end
-- ==== Proof.RefReadLn256.lean ====
/-
  Row normalisation and ELU of the reference at 256 columns, read at an index.

  The row sum is a reduction over the second axis from the word of zero, which is the number zero; the mean is the
  row sum over the divisor word; the variance is the row sum of the squared differences from the mean over the
  same word; and the ELU's two selects on "x above zero" are the one case split of the function elu.
-/
import proofs.«137113_j6760278524492_2_alg».proof.Proof.RefStages
import proofs.«137113_j6760278524492_2_alg».proof.Proof.Spec
import proofs.«137113_j6760278524492_2_alg».proof.Proof.RefReadBc
import Idealize.ShloMosaic.PureOps.Ideal.Laws

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The row sums of a matrix, from the word of zero. -/
def rsum256 (t : FVec Ideal S50000x256 .f32) : FVec Ideal S50000 .f32 :=
  Host.reduceAdd (F := Ideal) (t) (constant (F := Ideal) S_ .f32 0x00000000#32) reducesTo_S50000x256_S50000_d1 h_S_

/-- The row means as a column. -/
def mean256 (t : FVec Ideal S50000x256 .f32) : FVec Ideal S50000x1 .f32 :=
  Host.divf (F := Ideal) (broadcastInDim S50000x1 ![0] bcast_S50000_S50000x1_0 (rsum256 t)) (broadcastInDim S50000x1 ![] bcast_S_S50000x1 (constant (F := Ideal) S_ .f32 0x43800000#32))

/-- The matrix minus its row means. -/
def cen256 (t : FVec Ideal S50000x256 .f32) : FVec Ideal S50000x256 .f32 :=
  subf (F := Ideal) (t) (broadcastInDim S50000x256 ![0, 1] bcast_S50000x1_S50000x256_0_1 (mean256 t))

/-- The row variances as a column. -/
def var256 (t : FVec Ideal S50000x256 .f32) : FVec Ideal S50000x1 .f32 :=
  Host.divf (F := Ideal) (broadcastInDim S50000x1 ![0] bcast_S50000_S50000x1_0 (rsum256 (mulf (F := Ideal) (cen256 t) (cen256 t)))) (broadcastInDim S50000x1 ![] bcast_S_S50000x1 (constant (F := Ideal) S_ .f32 0x43800000#32))

/-- The normalisation is built of these pieces. -/
theorem ln256_eq (t : FVec Ideal S50000x256 .f32) (g be : FVec Ideal S256 .f32) :
    ln256 t g be = addf (F := Ideal) (mulf (F := Ideal) (mulf (F := Ideal) (cen256 t)
      (broadcastInDim S50000x256 ![0, 1] bcast_S50000x1_S50000x256_0_1 (Host.rsqrt (F := Ideal) (addf (F := Ideal) (var256 t)
        (broadcastInDim S50000x1 ![] bcast_S_S50000x1 (constant (F := Ideal) S_ .f32 0x3727C5AC#32))))))
      (broadcastInDim S50000x256 ![0, 1] bcast_S1x256_S50000x256_0_1 (broadcastInDim S1x256 ![1] bcast_S256_S1x256_1 (g))))
      (broadcastInDim S50000x256 ![0, 1] bcast_S1x256_S50000x256_0_1 (broadcastInDim S1x256 ![1] bcast_S256_S1x256_1 (be))) := rfl

/-- A row sum is the sum of the row. -/
theorem rsum256_apply (t : FVec Ideal S50000x256 .f32) (p : Fin 50000) :
    rsum256 t (ix1 p) = ∑ k : Fin 256, t (ix2 p k) := by
  unfold rsum256
  refine (Ideal.hostReduceAdd_single reducesTo_S50000x256_S50000_d1 (by decide) t _ (ix1 p)).trans ?_
  show Ideal.ofBits .f32 0x00000000#32 + ∑ k : Fin 256, t _ = _
  rw [Ideal.ofBits_zero_f32, zero_add]
  refine Finset.sum_congr rfl fun k _ => congrArg t ?_
  funext a
  apply Fin.ext
  match a with
  | ⟨0, _⟩ => rfl
  | ⟨1, _⟩ => rfl

/-- A row mean. -/
theorem mean256_apply (t : FVec Ideal S50000x256 .f32) (p : Fin 50000) (z : Fin 1) :
    mean256 t (ix2 p z) = rowMean (Ideal.ofBits .f32 0x43800000#32) (fun k => t (ix2 p k)) := by
  unfold mean256 rowMean
  show Ideal.div (broadcastInDim S50000x1 ![0] bcast_S50000_S50000x1_0 (rsum256 t) (ix2 p z))
    (broadcastInDim S50000x1 ![] bcast_S_S50000x1 (constant (F := Ideal) S_ .f32 0x43800000#32) (ix2 p z)) = _
  rw [bcVecCol_apply, rsum256_apply, broadcastInDim_scalar_apply]
  rfl

/-- An entry minus its row mean. -/
theorem cen256_apply (t : FVec Ideal S50000x256 .f32) (p : Fin 50000) (q : Fin 256) :
    cen256 t (ix2 p q) = t (ix2 p q) - rowMean (Ideal.ofBits .f32 0x43800000#32) (fun k => t (ix2 p k)) := by
  unfold cen256
  show t (ix2 p q) - broadcastInDim S50000x256 ![0, 1] bcast_S50000x1_S50000x256_0_1 (mean256 t) (ix2 p q) = _
  rw [bcCol_apply, mean256_apply]

/-- A row variance. -/
theorem var256_apply (t : FVec Ideal S50000x256 .f32) (p : Fin 50000) (z : Fin 1) :
    var256 t (ix2 p z) = rowVar (Ideal.ofBits .f32 0x43800000#32) (fun k => t (ix2 p k)) := by
  unfold var256 rowVar
  show Ideal.div (broadcastInDim S50000x1 ![0] bcast_S50000_S50000x1_0 (rsum256 (mulf (F := Ideal) (cen256 t) (cen256 t))) (ix2 p z))
    (broadcastInDim S50000x1 ![] bcast_S_S50000x1 (constant (F := Ideal) S_ .f32 0x43800000#32) (ix2 p z)) = _
  rw [bcVecCol_apply, rsum256_apply, broadcastInDim_scalar_apply]
  show Ideal.div (∑ k : Fin 256, cen256 t (ix2 p k) * cen256 t (ix2 p k)) _ = _
  simp only [cen256_apply]
  rfl

/-- The normalisation at an index. -/
theorem ln256_apply (t : FVec Ideal S50000x256 .f32) (g be : FVec Ideal S256 .f32) (p : Fin 50000) (q : Fin 256) :
    ln256 t g be (ix2 p q)
      = (t (ix2 p q) - rowMean (Ideal.ofBits .f32 0x43800000#32) (fun k => t (ix2 p k)))
          * Ideal.rsqrt (rowVar (Ideal.ofBits .f32 0x43800000#32) (fun k => t (ix2 p k)) + Ideal.ofBits .f32 0x3727C5AC#32)
          * g (ix1 q) + be (ix1 q) := by
  rw [ln256_eq]
  show cen256 t (ix2 p q)
      * broadcastInDim S50000x256 ![0, 1] bcast_S50000x1_S50000x256_0_1 (Host.rsqrt (F := Ideal) (addf (F := Ideal) (var256 t)
        (broadcastInDim S50000x1 ![] bcast_S_S50000x1 (constant (F := Ideal) S_ .f32 0x3727C5AC#32)))) (ix2 p q)
      * broadcastInDim S50000x256 ![0, 1] bcast_S1x256_S50000x256_0_1 (broadcastInDim S1x256 ![1] bcast_S256_S1x256_1 (g)) (ix2 p q)
      + broadcastInDim S50000x256 ![0, 1] bcast_S1x256_S50000x256_0_1 (broadcastInDim S1x256 ![1] bcast_S256_S1x256_1 (be)) (ix2 p q) = _
  rw [bcCol_apply, bcRow_apply, bcRow_apply, bcVecRow_apply, bcVecRow_apply, cen256_apply]
  show _ * Ideal.rsqrt (var256 t (ix2 p 0) + broadcastInDim S50000x1 ![] bcast_S_S50000x1 (constant (F := Ideal) S_ .f32 0x3727C5AC#32) (ix2 p 0)) * _ + _ = _
  rw [var256_apply, broadcastInDim_scalar_apply]
  rfl

/-- The two selects of the program's ELU are the one case split of elu. -/
theorem elu256_apply (x : FVec Ideal S50000x256 .f32) (p : Fin 50000) (q : Fin 256) :
    elu256 x (ix2 p q) = elu (x (ix2 p q)) := by
  unfold elu256 elu
  show Scalar.select (Ideal.cmp .ogt (x (ix2 p q)) (broadcastInDim S50000x256 ![] bcast_S_S50000x256 (constant (F := Ideal) S_ .f32 0x00000000#32) (ix2 p q)))
      (x (ix2 p q))
      (broadcastInDim S50000x256 ![] bcast_S_S50000x256 (constant (F := Ideal) S_ .f32 0x3F800000#32) (ix2 p q)
        * (Ideal.exp (Scalar.select (Ideal.cmp .ogt (x (ix2 p q)) (broadcastInDim S50000x256 ![] bcast_S_S50000x256 (constant (F := Ideal) S_ .f32 0x00000000#32) (ix2 p q)))
            (broadcastInDim S50000x256 ![] bcast_S_S50000x256 (id (constant (F := Ideal) S_ .f32 0x00000000#32)) (ix2 p q)) (x (ix2 p q))) - 1)) = _
  simp only [id]
  rw [bcScalar_apply, bcScalar_apply, Ideal.ofBits_zero_f32, ofBits_one_f32, one_mul]
  by_cases h : 0 < x (ix2 p q)
  · rw [if_pos h, show Ideal.cmp .ogt (x (ix2 p q)) 0 = 1#1 from by simp [Ideal.cmp, h]]
    rfl
  · rw [if_neg h, show Ideal.cmp .ogt (x (ix2 p q)) 0 = 0#1 from by simp [Ideal.cmp, h]]
    rfl

/-- Normalisation then ELU at an index: the row function lnelu of the row. -/
theorem lnelu256_apply (t : FVec Ideal S50000x256 .f32) (g be : FVec Ideal S256 .f32) (p : Fin 50000) (q : Fin 256) :
    lnelu256 t g be (ix2 p q)
      = lnelu (Ideal.ofBits .f32 0x43800000#32) (Ideal.ofBits .f32 0x3727C5AC#32) (fun k => t (ix2 p k)) (fun k => g (ix1 k)) (fun k => be (ix1 k)) q := by
  unfold lnelu256 lnelu
  rw [elu256_apply, ln256_apply]

end Cert.RefSide

end
-- ==== Proof.RefReadLn64.lean ====
/-
  Row normalisation and ELU of the reference at 64 columns, read at an index.

  The row sum is a reduction over the second axis from the word of zero, which is the number zero; the mean is the
  row sum over the divisor word; the variance is the row sum of the squared differences from the mean over the
  same word; and the ELU's two selects on "x above zero" are the one case split of the function elu.
-/
import proofs.«137113_j6760278524492_2_alg».proof.Proof.RefStages
import proofs.«137113_j6760278524492_2_alg».proof.Proof.Spec
import proofs.«137113_j6760278524492_2_alg».proof.Proof.RefReadBc
import Idealize.ShloMosaic.PureOps.Ideal.Laws

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The row sums of a matrix, from the word of zero. -/
def rsum64 (t : FVec Ideal S50000x64 .f32) : FVec Ideal S50000 .f32 :=
  Host.reduceAdd (F := Ideal) (t) (constant (F := Ideal) S_ .f32 0x00000000#32) reducesTo_S50000x64_S50000_d1 h_S_

/-- The row means as a column. -/
def mean64 (t : FVec Ideal S50000x64 .f32) : FVec Ideal S50000x1 .f32 :=
  Host.divf (F := Ideal) (broadcastInDim S50000x1 ![0] bcast_S50000_S50000x1_0 (rsum64 t)) (broadcastInDim S50000x1 ![] bcast_S_S50000x1 (constant (F := Ideal) S_ .f32 0x42800000#32))

/-- The matrix minus its row means. -/
def cen64 (t : FVec Ideal S50000x64 .f32) : FVec Ideal S50000x64 .f32 :=
  subf (F := Ideal) (t) (broadcastInDim S50000x64 ![0, 1] bcast_S50000x1_S50000x64_0_1 (mean64 t))

/-- The row variances as a column. -/
def var64 (t : FVec Ideal S50000x64 .f32) : FVec Ideal S50000x1 .f32 :=
  Host.divf (F := Ideal) (broadcastInDim S50000x1 ![0] bcast_S50000_S50000x1_0 (rsum64 (mulf (F := Ideal) (cen64 t) (cen64 t)))) (broadcastInDim S50000x1 ![] bcast_S_S50000x1 (constant (F := Ideal) S_ .f32 0x42800000#32))

/-- The normalisation is built of these pieces. -/
theorem ln64_eq (t : FVec Ideal S50000x64 .f32) (g be : FVec Ideal S64 .f32) :
    ln64 t g be = addf (F := Ideal) (mulf (F := Ideal) (mulf (F := Ideal) (cen64 t)
      (broadcastInDim S50000x64 ![0, 1] bcast_S50000x1_S50000x64_0_1 (Host.rsqrt (F := Ideal) (addf (F := Ideal) (var64 t)
        (broadcastInDim S50000x1 ![] bcast_S_S50000x1 (constant (F := Ideal) S_ .f32 0x3727C5AC#32))))))
      (broadcastInDim S50000x64 ![0, 1] bcast_S1x64_S50000x64_0_1 (broadcastInDim S1x64 ![1] bcast_S64_S1x64_1 (g))))
      (broadcastInDim S50000x64 ![0, 1] bcast_S1x64_S50000x64_0_1 (broadcastInDim S1x64 ![1] bcast_S64_S1x64_1 (be))) := rfl

/-- A row sum is the sum of the row. -/
theorem rsum64_apply (t : FVec Ideal S50000x64 .f32) (p : Fin 50000) :
    rsum64 t (ix1 p) = ∑ k : Fin 64, t (ix2 p k) := by
  unfold rsum64
  refine (Ideal.hostReduceAdd_single reducesTo_S50000x64_S50000_d1 (by decide) t _ (ix1 p)).trans ?_
  show Ideal.ofBits .f32 0x00000000#32 + ∑ k : Fin 64, t _ = _
  rw [Ideal.ofBits_zero_f32, zero_add]
  refine Finset.sum_congr rfl fun k _ => congrArg t ?_
  funext a
  apply Fin.ext
  match a with
  | ⟨0, _⟩ => rfl
  | ⟨1, _⟩ => rfl

/-- A row mean. -/
theorem mean64_apply (t : FVec Ideal S50000x64 .f32) (p : Fin 50000) (z : Fin 1) :
    mean64 t (ix2 p z) = rowMean (Ideal.ofBits .f32 0x42800000#32) (fun k => t (ix2 p k)) := by
  unfold mean64 rowMean
  show Ideal.div (broadcastInDim S50000x1 ![0] bcast_S50000_S50000x1_0 (rsum64 t) (ix2 p z))
    (broadcastInDim S50000x1 ![] bcast_S_S50000x1 (constant (F := Ideal) S_ .f32 0x42800000#32) (ix2 p z)) = _
  rw [bcVecCol_apply, rsum64_apply, broadcastInDim_scalar_apply]
  rfl

/-- An entry minus its row mean. -/
theorem cen64_apply (t : FVec Ideal S50000x64 .f32) (p : Fin 50000) (q : Fin 64) :
    cen64 t (ix2 p q) = t (ix2 p q) - rowMean (Ideal.ofBits .f32 0x42800000#32) (fun k => t (ix2 p k)) := by
  unfold cen64
  show t (ix2 p q) - broadcastInDim S50000x64 ![0, 1] bcast_S50000x1_S50000x64_0_1 (mean64 t) (ix2 p q) = _
  rw [bcCol_apply, mean64_apply]

/-- A row variance. -/
theorem var64_apply (t : FVec Ideal S50000x64 .f32) (p : Fin 50000) (z : Fin 1) :
    var64 t (ix2 p z) = rowVar (Ideal.ofBits .f32 0x42800000#32) (fun k => t (ix2 p k)) := by
  unfold var64 rowVar
  show Ideal.div (broadcastInDim S50000x1 ![0] bcast_S50000_S50000x1_0 (rsum64 (mulf (F := Ideal) (cen64 t) (cen64 t))) (ix2 p z))
    (broadcastInDim S50000x1 ![] bcast_S_S50000x1 (constant (F := Ideal) S_ .f32 0x42800000#32) (ix2 p z)) = _
  rw [bcVecCol_apply, rsum64_apply, broadcastInDim_scalar_apply]
  show Ideal.div (∑ k : Fin 64, cen64 t (ix2 p k) * cen64 t (ix2 p k)) _ = _
  simp only [cen64_apply]
  rfl

/-- The normalisation at an index. -/
theorem ln64_apply (t : FVec Ideal S50000x64 .f32) (g be : FVec Ideal S64 .f32) (p : Fin 50000) (q : Fin 64) :
    ln64 t g be (ix2 p q)
      = (t (ix2 p q) - rowMean (Ideal.ofBits .f32 0x42800000#32) (fun k => t (ix2 p k)))
          * Ideal.rsqrt (rowVar (Ideal.ofBits .f32 0x42800000#32) (fun k => t (ix2 p k)) + Ideal.ofBits .f32 0x3727C5AC#32)
          * g (ix1 q) + be (ix1 q) := by
  rw [ln64_eq]
  show cen64 t (ix2 p q)
      * broadcastInDim S50000x64 ![0, 1] bcast_S50000x1_S50000x64_0_1 (Host.rsqrt (F := Ideal) (addf (F := Ideal) (var64 t)
        (broadcastInDim S50000x1 ![] bcast_S_S50000x1 (constant (F := Ideal) S_ .f32 0x3727C5AC#32)))) (ix2 p q)
      * broadcastInDim S50000x64 ![0, 1] bcast_S1x64_S50000x64_0_1 (broadcastInDim S1x64 ![1] bcast_S64_S1x64_1 (g)) (ix2 p q)
      + broadcastInDim S50000x64 ![0, 1] bcast_S1x64_S50000x64_0_1 (broadcastInDim S1x64 ![1] bcast_S64_S1x64_1 (be)) (ix2 p q) = _
  rw [bcCol_apply, bcRow_apply, bcRow_apply, bcVecRow_apply, bcVecRow_apply, cen64_apply]
  show _ * Ideal.rsqrt (var64 t (ix2 p 0) + broadcastInDim S50000x1 ![] bcast_S_S50000x1 (constant (F := Ideal) S_ .f32 0x3727C5AC#32) (ix2 p 0)) * _ + _ = _
  rw [var64_apply, broadcastInDim_scalar_apply]
  rfl

/-- The two selects of the program's ELU are the one case split of elu. -/
theorem elu64_apply (x : FVec Ideal S50000x64 .f32) (p : Fin 50000) (q : Fin 64) :
    elu64 x (ix2 p q) = elu (x (ix2 p q)) := by
  unfold elu64 elu
  show Scalar.select (Ideal.cmp .ogt (x (ix2 p q)) (broadcastInDim S50000x64 ![] bcast_S_S50000x64 (constant (F := Ideal) S_ .f32 0x00000000#32) (ix2 p q)))
      (x (ix2 p q))
      (broadcastInDim S50000x64 ![] bcast_S_S50000x64 (constant (F := Ideal) S_ .f32 0x3F800000#32) (ix2 p q)
        * (Ideal.exp (Scalar.select (Ideal.cmp .ogt (x (ix2 p q)) (broadcastInDim S50000x64 ![] bcast_S_S50000x64 (constant (F := Ideal) S_ .f32 0x00000000#32) (ix2 p q)))
            (broadcastInDim S50000x64 ![] bcast_S_S50000x64 (id (constant (F := Ideal) S_ .f32 0x00000000#32)) (ix2 p q)) (x (ix2 p q))) - 1)) = _
  simp only [id]
  rw [bcScalar_apply, bcScalar_apply, Ideal.ofBits_zero_f32, ofBits_one_f32, one_mul]
  by_cases h : 0 < x (ix2 p q)
  · rw [if_pos h, show Ideal.cmp .ogt (x (ix2 p q)) 0 = 1#1 from by simp [Ideal.cmp, h]]
    rfl
  · rw [if_neg h, show Ideal.cmp .ogt (x (ix2 p q)) 0 = 0#1 from by simp [Ideal.cmp, h]]
    rfl

/-- Normalisation then ELU at an index: the row function lnelu of the row. -/
theorem lnelu64_apply (t : FVec Ideal S50000x64 .f32) (g be : FVec Ideal S64 .f32) (p : Fin 50000) (q : Fin 64) :
    lnelu64 t g be (ix2 p q)
      = lnelu (Ideal.ofBits .f32 0x42800000#32) (Ideal.ofBits .f32 0x3727C5AC#32) (fun k => t (ix2 p k)) (fun k => g (ix1 k)) (fun k => be (ix1 k)) q := by
  unfold lnelu64 lnelu
  rw [elu64_apply, ln64_apply]

end Cert.RefSide

end
-- ==== Proof.RefReadDot.lean ====
/-
  The reference's matrix products read at an index: each is the sum over the shared index of the products of the
  left operand's row entry and the right operand's column entry.
-/
import proofs.«137113_j6760278524492_2_alg».proof.Proof.RefStages
import proofs.«137113_j6760278524492_2_alg».proof.Proof.Spec
import proofs.«137113_j6760278524492_2_alg».proof.Proof.LibPlainDot

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The product [50000,128]×[128,128] at (p, q). -/
theorem dot_128_128_apply (x : FVec Ideal S50000x128 .f32) (w : FVec Ideal S128x128 .f32) (p : Fin 50000) (q : Fin 128) :
    dot_128_128 x w (ix2 p q) = mm (fun p k => x (ix2 p k)) (fun k q => w (ix2 k q)) p q := by
  unfold dot_128_128 mm
  exact Cert.Lib.dotGeneral_plain_apply dot_S50000x128_S128x128_S50000x128_1_0_0_1_n_n_wf none .single x w p q

/-- The product [50000,128]×[128,256] at (p, q). -/
theorem dot_128_256_apply (x : FVec Ideal S50000x128 .f32) (w : FVec Ideal S128x256 .f32) (p : Fin 50000) (q : Fin 256) :
    dot_128_256 x w (ix2 p q) = mm (fun p k => x (ix2 p k)) (fun k q => w (ix2 k q)) p q := by
  unfold dot_128_256 mm
  exact Cert.Lib.dotGeneral_plain_apply dot_S50000x128_S128x256_S50000x256_1_0_0_1_n_n_wf none .single x w p q

/-- The product [50000,256]×[256,128] at (p, q). -/
theorem dot_256_128_apply (x : FVec Ideal S50000x256 .f32) (w : FVec Ideal S256x128 .f32) (p : Fin 50000) (q : Fin 128) :
    dot_256_128 x w (ix2 p q) = mm (fun p k => x (ix2 p k)) (fun k q => w (ix2 k q)) p q := by
  unfold dot_256_128 mm
  exact Cert.Lib.dotGeneral_plain_apply dot_S50000x256_S256x128_S50000x128_1_0_0_1_n_n_wf none .single x w p q

/-- The product [50000,128]×[128,64] at (p, q). -/
theorem dot_128_64_apply (x : FVec Ideal S50000x128 .f32) (w : FVec Ideal S128x64 .f32) (p : Fin 50000) (q : Fin 64) :
    dot_128_64 x w (ix2 p q) = mm (fun p k => x (ix2 p k)) (fun k q => w (ix2 k q)) p q := by
  unfold dot_128_64 mm
  exact Cert.Lib.dotGeneral_plain_apply dot_S50000x128_S128x64_S50000x64_1_0_0_1_n_n_wf none .single x w p q

/-- The product [50000,64]×[64,500] at (p, q). -/
theorem dot_64_500_apply (x : FVec Ideal S50000x64 .f32) (w : FVec Ideal S64x500 .f32) (p : Fin 50000) (q : Fin 500) :
    dot_64_500 x w (ix2 p q) = mm (fun p k => x (ix2 p k)) (fun k q => w (ix2 k q)) p q := by
  unfold dot_64_500 mm
  exact Cert.Lib.dotGeneral_plain_apply dot_S50000x64_S64x500_S50000x500_1_0_0_1_n_n_wf none .single x w p q

end Cert.RefSide

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«137113_j6760278524492_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.RefReadEdges.lean ====
/-
  The reference's edge data read at an index: the node each edge reads and the node it arrives at (negative
  indices wrapped by the node count, then clamped into range, as the gathers take them), the edges arriving at a
  node (by the raw destination, as the scatter-adds take it), the node weight, and the edge weight.

  An edge whose raw destination, read signed, is the node p itself (so between 0 and the node count) is not wrapped
  and is clamped to itself: its gathered destination is p.
-/
import proofs.«137113_j6760278524492_2_alg».proof.Proof.RefStages
import proofs.«137113_j6760278524492_2_alg».proof.Proof.Spec
import proofs.«137113_j6760278524492_2_alg».proof.Proof.RefReadBc
import proofs.«137113_j6760278524492_2_alg».proof.Proof.LibEdgeGatherScatter
import proofs.«137113_j6760278524492_2_alg».proof.Proof.LibEdgeGatherVec
import Idealize.ShloMosaic.PureOps.Ideal.Laws

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The node edge e reads. -/
def srcOf (ei : IVec S2x800000 32) (e : Fin 800000) : Fin 50000 := Cert.Lib.clampRow 50000 (by decide) (srcIdx ei) e

/-- The node edge e arrives at, as the gathers read it. -/
def dstOf (ei : IVec S2x800000 32) (e : Fin 800000) : Fin 50000 := Cert.Lib.clampRow 50000 (by decide) (dstIdx ei) e

/-- The edges arriving at node p, as the scatter-adds read them. -/
def inbOf (ei : IVec S2x800000 32) (p : Fin 50000) : Finset (Fin 800000) :=
  Finset.univ.filter fun e => ((dstRaw ei) (ix2 e (0 : Fin 1))).toInt = (p.val : Int)

/-- The weight of node p. -/
def dvOf (ei : IVec S2x800000 32) (p : Fin 50000) : EReal := dinv ei (ix1 p)

/-- The select of the inverse square root on "above zero", at an index, for any array in place of the degree. -/
theorem dinvG_apply (d : FVec Ideal S50000 .f32) (p : Fin 50000) :
    select (cmpf (F := Ideal) .ogt (d) (broadcastInDim S50000 ![] bcast_S_S50000 (constant (F := Ideal) S_ .f32 0x00000000#32))) (Host.rsqrt (F := Ideal) (d)) (broadcastInDim S50000 ![] bcast_S_S50000 (id (constant (F := Ideal) S_ .f32 0x00000000#32))) (ix1 p)
      = Cert.GCN.dinvOf (d (ix1 p)) := by
  unfold dinvOf
  show Scalar.select (Ideal.cmp .ogt (d (ix1 p)) (broadcastInDim S50000 ![] bcast_S_S50000 (constant (F := Ideal) S_ .f32 0x00000000#32) (ix1 p)))
      (Ideal.rsqrt (d (ix1 p)))
      (broadcastInDim S50000 ![] bcast_S_S50000 (id (constant (F := Ideal) S_ .f32 0x00000000#32)) (ix1 p)) = _
  simp only [id]
  rw [bcScalar_apply, Ideal.ofBits_zero_f32]
  by_cases h : 0 < d (ix1 p)
  · rw [if_pos h, show Ideal.cmp .ogt (d (ix1 p)) 0 = 1#1 from by simp [Ideal.cmp, h]]
    rfl
  · rw [if_neg h, show Ideal.cmp .ogt (d (ix1 p)) 0 = 0#1 from by simp [Ideal.cmp, h]]
    rfl

/-- The node weight is the function dinvOf of the degree. -/
theorem dinv_apply (ei : IVec S2x800000 32) (p : Fin 50000) : dinv ei (ix1 p) = Cert.GCN.dinvOf (deg ei (ix1 p)) :=
  dinvG_apply (deg ei) p

/-- The raw destination column reads the destination row of the edge table. -/
theorem dstRaw_apply (ei : IVec S2x800000 32) (e : Fin 800000) (z : Fin 1) : dstRaw ei (ix2 e z) = dstRow ei (ix1 e) := by
  unfold dstRaw
  exact bcVecCol_apply _ _ e z

/-- A word that is nonnegative read signed is not below zero. -/
theorem slt_zero_of_toInt_nonneg (r : BitVec 32) (h : 0 ≤ r.toInt) : BitVec.slt r 0#32 = false := by
  simp [BitVec.slt, h]

/-- The gathered destination column: the destination row, wrapped by the node count where negative. -/
theorem dstIdx_apply (ei : IVec S2x800000 32) (e : Fin 800000) (z : Fin 1) :
    dstIdx ei (ix2 e z) = Scalar.select (IntOp.cmpi .slt (dstRow ei (ix1 e)) 0#32) (IntOp.addi (dstRow ei (ix1 e)) 50000#32) (dstRow ei (ix1 e)) := by
  unfold dstIdx
  refine (bcVecCol_apply _ _ e z).trans ?_
  show Scalar.select (IntOp.cmpi .slt (dstRow ei (ix1 e)) (broadcastInDim S800000 ![] bcast_S_S800000 (constantI S_ 32 0#32) (ix1 e)))
      (IntOp.addi (dstRow ei (ix1 e)) (broadcastInDim S800000 ![] bcast_S_S800000 (constantI S_ 32 50000#32) (ix1 e))) (dstRow ei (ix1 e)) = _
  rw [broadcastInDim_scalar_apply, broadcastInDim_scalar_apply]
  rfl

/-- An edge arriving at p by its raw destination has p as its gathered destination. -/
theorem dstOf_eq_of_mem (ei : IVec S2x800000 32) (p : Fin 50000) (e : Fin 800000) (he : e ∈ inbOf ei p) : dstOf ei e = p := by
  have hr : (dstRow ei (ix1 e)).toInt = (p.val : Int) := by
    have := (Finset.mem_filter.mp he).2
    rwa [dstRaw_apply] at this
  have h0 : 0 ≤ (dstRow ei (ix1 e)).toInt := by rw [hr]; omega
  have hsel : dstIdx ei (ix2 e (0 : Fin 1)) = dstRow ei (ix1 e) := by
    rw [dstIdx_apply]
    show Scalar.select (BitVec.ofBool (BitVec.slt (dstRow ei (ix1 e)) 0#32)) _ _ = _
    rw [slt_zero_of_toInt_nonneg _ h0]
    rfl
  unfold dstOf Cert.Lib.clampRow
  apply Fin.ext
  show min (dstIdx ei (ix2 e (0 : Fin 1))).toInt.toNat (50000 - 1) = p.val
  rw [hsel, hr]
  have := p.isLt
  omega

/-- The product of two vector gathers at an edge, for any vector and index columns. -/
theorem coefG_apply (dv : FVec Ideal S50000 .f32) (si di : IVec S800000x1 32) (e : Fin 800000) :
    mulf (F := Ideal) (Host.gather gather_S50000_S800000x1_S800000_n_0_n_n_0_1_1 (dv) (si)) (Host.gather gather_S50000_S800000x1_S800000_n_0_n_n_0_1_1 (dv) (di)) (ix1 e)
      = dv (ix1 (Cert.Lib.clampRow 50000 (by decide) si e)) * dv (ix1 (Cert.Lib.clampRow 50000 (by decide) di e)) := by
  show Host.gather (Cert.Lib.vecGatherDims 50000 800000 gather_S50000_S800000x1_S800000_n_0_n_n_0_1_1_wf) (dv) (si) (ix1 e)
      * Host.gather (Cert.Lib.vecGatherDims 50000 800000 gather_S50000_S800000x1_S800000_n_0_n_n_0_1_1_wf) (dv) (di) (ix1 e) = _
  rw [Cert.Lib.gather_vec_apply (N := 50000) (by decide), Cert.Lib.gather_vec_apply (N := 50000) (by decide)]

/-- The edge weight: the product of the weights of the two nodes the gathers read. -/
theorem coef_apply (ei : IVec S2x800000 32) (e : Fin 800000) :
    coef ei (ix1 e) = dvOf ei (srcOf ei e) * dvOf ei (dstOf ei e) :=
  coefG_apply (dinv ei) (srcIdx ei) (dstIdx ei) e

end Cert.RefSide

end
-- ==== Proof.RefReadConv128.lean ====
/-
  One 128-column layer of the reference before normalisation, read at an index.

  The scatter-add from the zero matrix reads, at (p, q), zero plus the sum over the edges arriving at p of the update
  rows; an update row is the gathered row of h at the edge's read node times the edge weight; the node's own row is
  multiplied by its squared weight; the bias is added to every row. First for any index columns, edge weights and
  node weights in place of the network's, then at the network's.
-/
import proofs.«137113_j6760278524492_2_alg».proof.Proof.RefReadEdges

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The row gather of the program is the row gather of a matrix by an index column. -/
theorem gathG128_eq (h : FVec Ideal S50000x128 .f32) (si : IVec S800000x1 32) :
    Host.gather gather_S50000x128_S800000x1_S800000x128_1_0_n_n_0_1_1128 (h) (si)
      = Host.gather (Cert.Lib.rowGatherDims 50000 128 800000 gather_S50000x128_S800000x1_S800000x128_1_0_n_n_0_1_1128_wf) (h) (si) := rfl

/-- The scatter-add of the program is the exact sum into the rows of a matrix by an index column. -/
theorem scatG128_eq (x : FVec Ideal S50000x128 .f32) (dr : IVec S800000x1 32) (u : FVec Ideal S800000x128 .f32) :
    Host.scatterAdd (F := Ideal) scatter_S50000x128_S800000x1_S800000x128_1_0_0_1 x dr u
      = Ideal.hostScatterAdd (Cert.Lib.rowScatterDims 50000 128 800000 scatter_S50000x128_S800000x1_S800000x128_1_0_0_1_wf) x dr u := rfl

/-- An update row at (e, q): the gathered row of h times the edge's weight. -/
theorem updG128_apply (h : FVec Ideal S50000x128 .f32) (si : IVec S800000x1 32) (cf : FVec Ideal S800000 .f32) (e : Fin 800000) (q : Fin 128) :
    mulf (F := Ideal) (Host.gather gather_S50000x128_S800000x1_S800000x128_1_0_n_n_0_1_1128 (h) (si)) (broadcastInDim S800000x128 ![0, 1] bcast_S800000x1_S800000x128_0_1 (broadcastInDim S800000x1 ![0] bcast_S800000_S800000x1_0 (cf))) (ix2 e q)
      = h (ix2 (Cert.Lib.clampRow 50000 (by decide) si e) q) * cf (ix1 e) := by
  rw [mulf_apply, gathG128_eq, Cert.Lib.gather_rows_apply (N := 50000) (by decide), bcCol_apply, bcVecCol_apply]

/-- The layer at (p, q), for any index columns, edge weights and node weights. -/
theorem convG128_apply (h : FVec Ideal S50000x128 .f32) (b : FVec Ideal S128 .f32) (si dr : IVec S800000x1 32)
    (cf : FVec Ideal S800000 .f32) (dv : FVec Ideal S50000 .f32) (p : Fin 50000) (q : Fin 128) :
    addf (F := Ideal) (addf (F := Ideal) (Host.scatterAdd (F := Ideal) scatter_S50000x128_S800000x1_S800000x128_1_0_0_1 (broadcastInDim S50000x128 ![] bcast_S_S50000x128 (constant (F := Ideal) S_ .f32 0x00000000#32)) (dr) (mulf (F := Ideal) (Host.gather gather_S50000x128_S800000x1_S800000x128_1_0_n_n_0_1_1128 (h) (si)) (broadcastInDim S800000x128 ![0, 1] bcast_S800000x1_S800000x128_0_1 (broadcastInDim S800000x1 ![0] bcast_S800000_S800000x1_0 (cf))))) (mulf (F := Ideal) (h) (broadcastInDim S50000x128 ![0, 1] bcast_S50000x1_S50000x128_0_1 (broadcastInDim S50000x1 ![0] bcast_S50000_S50000x1_0 (mulf (F := Ideal) (dv) (dv)))))) (broadcastInDim S50000x128 ![0, 1] bcast_S1x128_S50000x128_0_1 (broadcastInDim S1x128 ![1] bcast_S128_S1x128_1 (b))) (ix2 p q)
      = ((0 + ∑ e ∈ Finset.univ.filter (fun e : Fin 800000 => (dr (ix2 e (0 : Fin 1))).toInt = (p.val : Int)),
            h (ix2 (Cert.Lib.clampRow 50000 (by decide) si e) q) * cf (ix1 e))
          + h (ix2 p q) * (dv (ix1 p) * dv (ix1 p))) + b (ix1 q) := by
  rw [addf_apply, addf_apply, mulf_apply, scatG128_eq, Cert.Lib.scatterAdd_rows_apply, bcScalar_apply, Ideal.ofBits_zero_f32,
    bcCol_apply, bcVecCol_apply, mulf_apply, bcRow_apply, bcVecRow_apply]
  exact congrArg (fun s => 0 + s + h (ix2 p q) * (dv (ix1 p) * dv (ix1 p)) + b (ix1 q))
    (Finset.sum_congr rfl fun e _ => updG128_apply h si cf e q)

/-- The layer of the network at (p, q). -/
theorem conv128_apply (ei : IVec S2x800000 32) (h : FVec Ideal S50000x128 .f32) (b : FVec Ideal S128 .f32) (p : Fin 50000) (q : Fin 128) :
    conv128 ei h b (ix2 p q)
      = preR (dvOf ei) (srcOf ei) (dstOf ei) (inbOf ei) (fun p q => h (ix2 p q)) (fun k => b (ix1 k)) p q := by
  refine (convG128_apply h b (srcIdx ei) (dstRaw ei) (coef ei) (dinv ei) p q).trans ?_
  unfold preR
  exact congrArg (fun s => 0 + s + h (ix2 p q) * (dvOf ei p * dvOf ei p) + b (ix1 q))
    (Finset.sum_congr rfl fun e _ => congrArg (h (ix2 (srcOf ei e) q) * ·) (coef_apply ei e))

end Cert.RefSide

end
-- ==== Proof.RefReadConv256.lean ====
/-
  One 256-column layer of the reference before normalisation, read at an index.

  The scatter-add from the zero matrix reads, at (p, q), zero plus the sum over the edges arriving at p of the update
  rows; an update row is the gathered row of h at the edge's read node times the edge weight; the node's own row is
  multiplied by its squared weight; the bias is added to every row. First for any index columns, edge weights and
  node weights in place of the network's, then at the network's.
-/
import proofs.«137113_j6760278524492_2_alg».proof.Proof.RefReadEdges

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The row gather of the program is the row gather of a matrix by an index column. -/
theorem gathG256_eq (h : FVec Ideal S50000x256 .f32) (si : IVec S800000x1 32) :
    Host.gather gather_S50000x256_S800000x1_S800000x256_1_0_n_n_0_1_1256 (h) (si)
      = Host.gather (Cert.Lib.rowGatherDims 50000 256 800000 gather_S50000x256_S800000x1_S800000x256_1_0_n_n_0_1_1256_wf) (h) (si) := rfl

/-- The scatter-add of the program is the exact sum into the rows of a matrix by an index column. -/
theorem scatG256_eq (x : FVec Ideal S50000x256 .f32) (dr : IVec S800000x1 32) (u : FVec Ideal S800000x256 .f32) :
    Host.scatterAdd (F := Ideal) scatter_S50000x256_S800000x1_S800000x256_1_0_0_1 x dr u
      = Ideal.hostScatterAdd (Cert.Lib.rowScatterDims 50000 256 800000 scatter_S50000x256_S800000x1_S800000x256_1_0_0_1_wf) x dr u := rfl

/-- An update row at (e, q): the gathered row of h times the edge's weight. -/
theorem updG256_apply (h : FVec Ideal S50000x256 .f32) (si : IVec S800000x1 32) (cf : FVec Ideal S800000 .f32) (e : Fin 800000) (q : Fin 256) :
    mulf (F := Ideal) (Host.gather gather_S50000x256_S800000x1_S800000x256_1_0_n_n_0_1_1256 (h) (si)) (broadcastInDim S800000x256 ![0, 1] bcast_S800000x1_S800000x256_0_1 (broadcastInDim S800000x1 ![0] bcast_S800000_S800000x1_0 (cf))) (ix2 e q)
      = h (ix2 (Cert.Lib.clampRow 50000 (by decide) si e) q) * cf (ix1 e) := by
  rw [mulf_apply, gathG256_eq, Cert.Lib.gather_rows_apply (N := 50000) (by decide), bcCol_apply, bcVecCol_apply]

/-- The layer at (p, q), for any index columns, edge weights and node weights. -/
theorem convG256_apply (h : FVec Ideal S50000x256 .f32) (b : FVec Ideal S256 .f32) (si dr : IVec S800000x1 32)
    (cf : FVec Ideal S800000 .f32) (dv : FVec Ideal S50000 .f32) (p : Fin 50000) (q : Fin 256) :
    addf (F := Ideal) (addf (F := Ideal) (Host.scatterAdd (F := Ideal) scatter_S50000x256_S800000x1_S800000x256_1_0_0_1 (broadcastInDim S50000x256 ![] bcast_S_S50000x256 (constant (F := Ideal) S_ .f32 0x00000000#32)) (dr) (mulf (F := Ideal) (Host.gather gather_S50000x256_S800000x1_S800000x256_1_0_n_n_0_1_1256 (h) (si)) (broadcastInDim S800000x256 ![0, 1] bcast_S800000x1_S800000x256_0_1 (broadcastInDim S800000x1 ![0] bcast_S800000_S800000x1_0 (cf))))) (mulf (F := Ideal) (h) (broadcastInDim S50000x256 ![0, 1] bcast_S50000x1_S50000x256_0_1 (broadcastInDim S50000x1 ![0] bcast_S50000_S50000x1_0 (mulf (F := Ideal) (dv) (dv)))))) (broadcastInDim S50000x256 ![0, 1] bcast_S1x256_S50000x256_0_1 (broadcastInDim S1x256 ![1] bcast_S256_S1x256_1 (b))) (ix2 p q)
      = ((0 + ∑ e ∈ Finset.univ.filter (fun e : Fin 800000 => (dr (ix2 e (0 : Fin 1))).toInt = (p.val : Int)),
            h (ix2 (Cert.Lib.clampRow 50000 (by decide) si e) q) * cf (ix1 e))
          + h (ix2 p q) * (dv (ix1 p) * dv (ix1 p))) + b (ix1 q) := by
  rw [addf_apply, addf_apply, mulf_apply, scatG256_eq, Cert.Lib.scatterAdd_rows_apply, bcScalar_apply, Ideal.ofBits_zero_f32,
    bcCol_apply, bcVecCol_apply, mulf_apply, bcRow_apply, bcVecRow_apply]
  exact congrArg (fun s => 0 + s + h (ix2 p q) * (dv (ix1 p) * dv (ix1 p)) + b (ix1 q))
    (Finset.sum_congr rfl fun e _ => updG256_apply h si cf e q)

/-- The layer of the network at (p, q). -/
theorem conv256_apply (ei : IVec S2x800000 32) (h : FVec Ideal S50000x256 .f32) (b : FVec Ideal S256 .f32) (p : Fin 50000) (q : Fin 256) :
    conv256 ei h b (ix2 p q)
      = preR (dvOf ei) (srcOf ei) (dstOf ei) (inbOf ei) (fun p q => h (ix2 p q)) (fun k => b (ix1 k)) p q := by
  refine (convG256_apply h b (srcIdx ei) (dstRaw ei) (coef ei) (dinv ei) p q).trans ?_
  unfold preR
  exact congrArg (fun s => 0 + s + h (ix2 p q) * (dvOf ei p * dvOf ei p) + b (ix1 q))
    (Finset.sum_congr rfl fun e _ => congrArg (h (ix2 (srcOf ei e) q) * ·) (coef_apply ei e))

end Cert.RefSide

end
-- ==== Proof.RefReadOut.lean ====
/-
  The whole reference network read at an index: three layers (product with the weights, the layer before
  normalisation, normalisation and ELU), then the two dense layers (product and bias, normalisation and ELU, product
  and bias), each stage read at an index and the stages composed.
-/
import proofs.«137113_j6760278524492_2_alg».proof.Proof.RefReadLn128
import proofs.«137113_j6760278524492_2_alg».proof.Proof.RefReadLn256
import proofs.«137113_j6760278524492_2_alg».proof.Proof.RefReadLn64
import proofs.«137113_j6760278524492_2_alg».proof.Proof.RefReadDot
import proofs.«137113_j6760278524492_2_alg».proof.Proof.RefReadConv128
import proofs.«137113_j6760278524492_2_alg».proof.Proof.RefReadConv256

noncomputable section

namespace Cert.RefSide

open Cert.ReferenceIdeal Idealize.ShloMosaic Idealize.ShloMosaic.ValueIdx Cert.GCN
open Cert.ReferenceIdeal.Facts₀ Cert.ReferenceIdeal.Facts

variable [Cert.ReferenceIdeal.Facts]

/-- The bias of the first dense layer at an index. -/
theorem bias64_apply (t : FVec Ideal S50000x64 .f32) (b : FVec Ideal S64 .f32) (p : Fin 50000) (q : Fin 64) :
    bias64 t b (ix2 p q) = t (ix2 p q) + b (ix1 q) := by
  unfold bias64
  show t (ix2 p q) + broadcastInDim S50000x64 ![0, 1] bcast_S1x64_S50000x64_0_1 (broadcastInDim S1x64 ![1] bcast_S64_S1x64_1 (b)) (ix2 p q) = _
  rw [bcRow_apply, bcVecRow_apply]

/-- The bias of the last dense layer at an index. -/
theorem bias500_apply (t : FVec Ideal S50000x500 .f32) (b : FVec Ideal S500 .f32) (p : Fin 50000) (q : Fin 500) :
    bias500 t b (ix2 p q) = t (ix2 p q) + b (ix1 q) := by
  unfold bias500
  show t (ix2 p q) + broadcastInDim S50000x500 ![0, 1] bcast_S1x500_S50000x500_0_1 (broadcastInDim S1x500 ![1] bcast_S500_S1x500_1 (b)) (ix2 p q) = _
  rw [bcRow_apply, bcVecRow_apply]

/-- One whole layer [N,128] → [N,128] of the reference at an index: the layer function of the spec at the layer's input. -/
theorem layer_128_128_apply (ei : IVec S2x800000 32) (h : FVec Ideal S50000x128 .f32) (W : FVec Ideal S128x128 .f32) (b g be : FVec Ideal S128 .f32)
    (p : Fin 50000) (k : Fin 128) :
    lnelu128 (conv128 ei (dot_128_128 h W) b) g be (ix2 p k)
      = layerR (Ideal.ofBits .f32 0x43000000#32) (Ideal.ofBits .f32 0x3727C5AC#32) (dvOf ei) (srcOf ei) (dstOf ei) (inbOf ei)
          (fun k q => W (ix2 k q)) (fun k => b (ix1 k)) (fun k => g (ix1 k)) (fun k => be (ix1 k)) (fun p k => h (ix2 p k)) p k := by
  rw [lnelu128_apply]
  unfold layerR act
  have e' : (fun p q => dot_128_128 h W (ix2 p q)) = mm (fun p k => h (ix2 p k)) (fun k q => W (ix2 k q)) := by
    funext p' q'
    exact dot_128_128_apply h W p' q'
  have e : (fun c => conv128 ei (dot_128_128 h W) b (ix2 p c))
      = preR (dvOf ei) (srcOf ei) (dstOf ei) (inbOf ei) (mm (fun p k => h (ix2 p k)) (fun k q => W (ix2 k q))) (fun k => b (ix1 k)) p := by
    funext c
    rw [conv128_apply, e']
  rw [e]

/-- One whole layer [N,128] → [N,256] of the reference at an index: the layer function of the spec at the layer's input. -/
theorem layer_128_256_apply (ei : IVec S2x800000 32) (h : FVec Ideal S50000x128 .f32) (W : FVec Ideal S128x256 .f32) (b g be : FVec Ideal S256 .f32)
    (p : Fin 50000) (k : Fin 256) :
    lnelu256 (conv256 ei (dot_128_256 h W) b) g be (ix2 p k)
      = layerR (Ideal.ofBits .f32 0x43800000#32) (Ideal.ofBits .f32 0x3727C5AC#32) (dvOf ei) (srcOf ei) (dstOf ei) (inbOf ei)
          (fun k q => W (ix2 k q)) (fun k => b (ix1 k)) (fun k => g (ix1 k)) (fun k => be (ix1 k)) (fun p k => h (ix2 p k)) p k := by
  rw [lnelu256_apply]
  unfold layerR act
  have e' : (fun p q => dot_128_256 h W (ix2 p q)) = mm (fun p k => h (ix2 p k)) (fun k q => W (ix2 k q)) := by
    funext p' q'
    exact dot_128_256_apply h W p' q'
  have e : (fun c => conv256 ei (dot_128_256 h W) b (ix2 p c))
      = preR (dvOf ei) (srcOf ei) (dstOf ei) (inbOf ei) (mm (fun p k => h (ix2 p k)) (fun k q => W (ix2 k q))) (fun k => b (ix1 k)) p := by
    funext c
    rw [conv256_apply, e']
  rw [e]

/-- One whole layer [N,256] → [N,128] of the reference at an index: the layer function of the spec at the layer's input. -/
theorem layer_256_128_apply (ei : IVec S2x800000 32) (h : FVec Ideal S50000x256 .f32) (W : FVec Ideal S256x128 .f32) (b g be : FVec Ideal S128 .f32)
    (p : Fin 50000) (k : Fin 128) :
    lnelu128 (conv128 ei (dot_256_128 h W) b) g be (ix2 p k)
      = layerR (Ideal.ofBits .f32 0x43000000#32) (Ideal.ofBits .f32 0x3727C5AC#32) (dvOf ei) (srcOf ei) (dstOf ei) (inbOf ei)
          (fun k q => W (ix2 k q)) (fun k => b (ix1 k)) (fun k => g (ix1 k)) (fun k => be (ix1 k)) (fun p k => h (ix2 p k)) p k := by
  rw [lnelu128_apply]
  unfold layerR act
  have e' : (fun p q => dot_256_128 h W (ix2 p q)) = mm (fun p k => h (ix2 p k)) (fun k q => W (ix2 k q)) := by
    funext p' q'
    exact dot_256_128_apply h W p' q'
  have e : (fun c => conv128 ei (dot_256_128 h W) b (ix2 p c))
      = preR (dvOf ei) (srcOf ei) (dstOf ei) (inbOf ei) (mm (fun p k => h (ix2 p k)) (fun k q => W (ix2 k q))) (fun k => b (ix1 k)) p := by
    funext c
    rw [conv128_apply, e']
  rw [e]

/-- The two dense layers of the reference at an index: the head function of the spec at their input. -/
theorem head_apply (h : FVec Ideal S50000x128 .f32) (Wl1 : FVec Ideal S128x64 .f32) (bl1 g4 be4 : FVec Ideal S64 .f32)
    (Wl2 : FVec Ideal S64x500 .f32) (bl2 : FVec Ideal S500 .f32) (p : Fin 50000) (q : Fin 500) :
    bias500 (dot_64_500 (lnelu64 (bias64 (dot_128_64 h Wl1) bl1) g4 be4) Wl2) bl2 (ix2 p q)
      = head (Ideal.ofBits .f32 0x42800000#32) (Ideal.ofBits .f32 0x3727C5AC#32) (fun k q => Wl1 (ix2 k q)) (fun k => bl1 (ix1 k)) (fun k => g4 (ix1 k)) (fun k => be4 (ix1 k))
          (fun k q => Wl2 (ix2 k q)) (fun k => bl2 (ix1 k)) (fun p k => h (ix2 p k)) p q := by
  have e : (fun p k => lnelu64 (bias64 (dot_128_64 h Wl1) bl1) g4 be4 (ix2 p k))
      = act (Ideal.ofBits .f32 0x42800000#32) (Ideal.ofBits .f32 0x3727C5AC#32) (fun k => g4 (ix1 k)) (fun k => be4 (ix1 k))
          (fun p c => mm (fun p k => h (ix2 p k)) (fun k q => Wl1 (ix2 k q)) p c + (fun k => bl1 (ix1 k)) c) := by
    funext p k
    rw [lnelu64_apply]
    unfold act
    have e' : (fun c => bias64 (dot_128_64 h Wl1) bl1 (ix2 p c))
        = (fun c => mm (fun p k => h (ix2 p k)) (fun k q => Wl1 (ix2 k q)) p c + bl1 (ix1 c)) := by
      funext c
      rw [bias64_apply, dot_128_64_apply]
    rw [e']
  rw [bias500_apply, dot_64_500_apply, e]
  rfl

/-- The whole reference network at an index. -/
theorem out_apply (x : FVec Ideal S50000x128 .f32) (ei : IVec S2x800000 32)
    (W1 : FVec Ideal S128x128 .f32) (b1 g1 be1 : FVec Ideal S128 .f32)
    (W2 : FVec Ideal S128x256 .f32) (b2 g2 be2 : FVec Ideal S256 .f32)
    (W3 : FVec Ideal S256x128 .f32) (b3 g3 be3 : FVec Ideal S128 .f32)
    (Wl1 : FVec Ideal S128x64 .f32) (bl1 g4 be4 : FVec Ideal S64 .f32)
    (Wl2 : FVec Ideal S64x500 .f32) (bl2 : FVec Ideal S500 .f32) (p : Fin 50000) (q : Fin 500) :
    out x ei W1 b1 g1 be1 W2 b2 g2 be2 W3 b3 g3 be3 Wl1 bl1 g4 be4 Wl2 bl2 (ix2 p q)
      = head (Ideal.ofBits .f32 0x42800000#32) (Ideal.ofBits .f32 0x3727C5AC#32) (fun k q => Wl1 (ix2 k q)) (fun k => bl1 (ix1 k)) (fun k => g4 (ix1 k)) (fun k => be4 (ix1 k))
          (fun k q => Wl2 (ix2 k q)) (fun k => bl2 (ix1 k))
          (layerR (Ideal.ofBits .f32 0x43000000#32) (Ideal.ofBits .f32 0x3727C5AC#32) (dvOf ei) (srcOf ei) (dstOf ei) (inbOf ei)
            (fun k q => W3 (ix2 k q)) (fun k => b3 (ix1 k)) (fun k => g3 (ix1 k)) (fun k => be3 (ix1 k))
            (layerR (Ideal.ofBits .f32 0x43800000#32) (Ideal.ofBits .f32 0x3727C5AC#32) (dvOf ei) (srcOf ei) (dstOf ei) (inbOf ei)
              (fun k q => W2 (ix2 k q)) (fun k => b2 (ix1 k)) (fun k => g2 (ix1 k)) (fun k => be2 (ix1 k))
              (layerR (Ideal.ofBits .f32 0x43000000#32) (Ideal.ofBits .f32 0x3727C5AC#32) (dvOf ei) (srcOf ei) (dstOf ei) (inbOf ei)
                (fun k q => W1 (ix2 k q)) (fun k => b1 (ix1 k)) (fun k => g1 (ix1 k)) (fun k => be1 (ix1 k))
                (fun p k => x (ix2 p k))))) p q := by
  unfold out
  have e1 : (fun p k => lnelu128 (conv128 ei (dot_128_128 x W1) b1) g1 be1 (ix2 p k))
      = layerR (Ideal.ofBits .f32 0x43000000#32) (Ideal.ofBits .f32 0x3727C5AC#32) (dvOf ei) (srcOf ei) (dstOf ei) (inbOf ei)
          (fun k q => W1 (ix2 k q)) (fun k => b1 (ix1 k)) (fun k => g1 (ix1 k)) (fun k => be1 (ix1 k)) (fun p k => x (ix2 p k)) := by
    funext p k
    exact layer_128_128_apply ei x W1 b1 g1 be1 p k
  have e2 : (fun p k => lnelu256 (conv256 ei (dot_128_256 (lnelu128 (conv128 ei (dot_128_128 x W1) b1) g1 be1) W2) b2) g2 be2 (ix2 p k))
      = layerR (Ideal.ofBits .f32 0x43800000#32) (Ideal.ofBits .f32 0x3727C5AC#32) (dvOf ei) (srcOf ei) (dstOf ei) (inbOf ei)
          (fun k q => W2 (ix2 k q)) (fun k => b2 (ix1 k)) (fun k => g2 (ix1 k)) (fun k => be2 (ix1 k))
          (layerR (Ideal.ofBits .f32 0x43000000#32) (Ideal.ofBits .f32 0x3727C5AC#32) (dvOf ei) (srcOf ei) (dstOf ei) (inbOf ei)
            (fun k q => W1 (ix2 k q)) (fun k => b1 (ix1 k)) (fun k => g1 (ix1 k)) (fun k => be1 (ix1 k)) (fun p k => x (ix2 p k))) := by
    funext p k
    rw [layer_128_256_apply, e1]
  have e3 : (fun p k => lnelu128 (conv128 ei (dot_256_128 (lnelu256 (conv256 ei (dot_128_256 (lnelu128 (conv128 ei (dot_128_128 x W1) b1) g1 be1) W2) b2) g2 be2) W3) b3) g3 be3 (ix2 p k))
      = layerR (Ideal.ofBits .f32 0x43000000#32) (Ideal.ofBits .f32 0x3727C5AC#32) (dvOf ei) (srcOf ei) (dstOf ei) (inbOf ei)
          (fun k q => W3 (ix2 k q)) (fun k => b3 (ix1 k)) (fun k => g3 (ix1 k)) (fun k => be3 (ix1 k))
          (layerR (Ideal.ofBits .f32 0x43800000#32) (Ideal.ofBits .f32 0x3727C5AC#32) (dvOf ei) (srcOf ei) (dstOf ei) (inbOf ei)
            (fun k q => W2 (ix2 k q)) (fun k => b2 (ix1 k)) (fun k => g2 (ix1 k)) (fun k => be2 (ix1 k))
            (layerR (Ideal.ofBits .f32 0x43000000#32) (Ideal.ofBits .f32 0x3727C5AC#32) (dvOf ei) (srcOf ei) (dstOf ei) (inbOf ei)
              (fun k q => W1 (ix2 k q)) (fun k => b1 (ix1 k)) (fun k => g1 (ix1 k)) (fun k => be1 (ix1 k)) (fun p k => x (ix2 p k)))) := by
    funext p k
    rw [layer_256_128_apply, e2]
  rw [head_apply, e3]

end Cert.RefSide

end
-- ==== Proof.RefRead.lean ====
/-
  The reference's stage definitions read at an index, in the vocabulary of the spec: the edge data, the matrix
  products, the layers before normalisation, the row normalisations with ELU, the biases, and the whole network.
-/
import proofs.«137113_j6760278524492_2_alg».proof.Proof.RefReadOut
-- ==== Proof.RefRun.lean ====
/-
  The reference program's run, read back.

  The program is a straight line of host operations: the functions it calls are their bodies run on the call's own
  buffers. Its six printed windows are each the sequence of a literal list of operations; the whole line is their
  concatenation. The same line cut at the boundaries of the network's stages (the two rows of the edge table, a matrix
  product, one layer before normalisation, a normalisation with ELU, the two dense layers' bias additions) gives, stage
  by stage, the contents of the stage's result buffer as the stage's function of the contents it reads, every buffer
  the stage does not write keeping its contents. Chained, the result buffer holds `out` of the arguments' launch
  contents, and the arguments, which no operation writes, are unchanged.
-/
import proofs.«137113_j6760278524492_2_alg».proof.Proof.RefStages
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-! ## Small facts about lists of operations -/

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of two lists holds of every operation of their concatenation. -/
theorem forall_app {p : HloOp τ sig (Elt F) → Prop} {l₁ l₂ : List (HloOp τ sig (Elt F))}
    (h₁ : l₁.Forall p) (h₂ : l₂.Forall p) : (l₁ ++ l₂).Forall p := by
  rw [List.forall_iff_forall_mem] at *
  intro x hx
  rcases List.mem_append.mp hx with h | h
  · exact h₁ x h
  · exact h₂ x h

/-- An operation whose one written buffer is in a list of references writes inside that list. -/
theorem ws {op : HloOp τ sig (Elt F)} {L : List (Ref sig .tc)} (y : Ref sig .tc)
    (h : op.writes = {Proc.devRef .tc y}) (hy : y ∈ L) :
    op.writes ⊆ (L.map (Proc.devRef (τ := τ) .tc)).toFinset := by
  rw [h, Finset.singleton_subset_iff, List.mem_toFinset]
  exact List.mem_map_of_mem hy

/-! ## The printed windows as lists -/

/-- The operations of the program's window 0, the called functions' bodies in place of the calls. -/
abbrev opsP0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst (constant S_ .f32 0x3F800000#32),
    StableHlo.unary main_cst main_v5 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v6 (broadcastInDim S50000 ![] bcast_S_S50000 : (⟨S_, .f32⟩ : BufTy).Contents (Elt F) → (⟨S50000, .f32⟩ : BufTy).Contents (Elt F)),
    StableHlo.unary main_v3 main_v7 (broadcastInDim S800000x1 ![0] bcast_S800000_S800000x1_0 : (⟨S800000, .i32⟩ : BufTy).Contents (Elt F) → (⟨S800000x1, .i32⟩ : BufTy).Contents (Elt F)),
    StableHlo.ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v9 (broadcastInDim S50000 ![] bcast_S_S50000 : (⟨S_, .f32⟩ : BufTy).Contents (Elt F) → (⟨S50000, .f32⟩ : BufTy).Contents (Elt F)),
    StableHlo.binary main_v8 main_v9 main_v10 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x00000000#32),
    StableHlo.unary main_cst_2 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S50000 ![] bcast_S_S50000),
    StableHlo.TRef.ternary (.of main_v12) (.of main_v13) main_call0.v1 main_call0.v2 select,
    StableHlo.nullary main_c (constantI S_ 32 0#32),
    StableHlo.unary main_c main_v15 (broadcastInDim S800000 ![] bcast_S_S800000 : (⟨S_, .i32⟩ : BufTy).Contents (Elt F) → (⟨S800000, .i32⟩ : BufTy).Contents (Elt F)),
    StableHlo.binary main_v1 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v17 (broadcastInDim S800000 ![] bcast_S_S800000 : (⟨S_, .i32⟩ : BufTy).Contents (Elt F) → (⟨S800000, .i32⟩ : BufTy).Contents (Elt F)),
    StableHlo.binary main_v1 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v14 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_5 (constantI S_ 32 0#32),
    StableHlo.unary main_c_5 main_v22 (broadcastInDim S800000 ![] bcast_S_S800000 : (⟨S_, .i32⟩ : BufTy).Contents (Elt F) → (⟨S800000, .i32⟩ : BufTy).Contents (Elt F)),
    StableHlo.binary main_v3 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v24 (broadcastInDim S800000 ![] bcast_S_S800000 : (⟨S_, .i32⟩ : BufTy).Contents (Elt F) → (⟨S800000, .i32⟩ : BufTy).Contents (Elt F)),
    StableHlo.binary main_v3 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v14 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v21 main_v28 main_v29 (mulf : (⟨S800000, .f32⟩ : BufTy).Contents (Elt F) → (⟨S800000, .f32⟩ : BufTy).Contents (Elt F) → (⟨S800000, .f32⟩ : BufTy).Contents (Elt F)),
    StableHlo.nullary main_c_7 (constantI S_ 32 0#32),
    StableHlo.unary main_c_7 main_v30 (broadcastInDim S800000 ![] bcast_S_S800000 : (⟨S_, .i32⟩ : BufTy).Contents (Elt F) → (⟨S800000, .i32⟩ : BufTy).Contents (Elt F)),
    StableHlo.binary main_v1 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v32 (broadcastInDim S800000 ![] bcast_S_S800000 : (⟨S_, .i32⟩ : BufTy).Contents (Elt F) → (⟨S800000, .i32⟩ : BufTy).Contents (Elt F)),
    StableHlo.binary main_v1 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v4 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v29 main_v37 (broadcastInDim S800000x1 ![0] bcast_S800000_S800000x1_0 : (⟨S800000, .f32⟩ : BufTy).Contents (Elt F) → (⟨S800000x1, .f32⟩ : BufTy).Contents (Elt F)),
    StableHlo.unary main_v37 main_v38 (broadcastInDim S800000x128 ![0, 1] bcast_S800000x1_S800000x128_0_1 : (⟨S800000x1, .f32⟩ : BufTy).Contents (Elt F) → (⟨S800000x128, .f32⟩ : BufTy).Contents (Elt F)),
    StableHlo.binary main_v36 main_v38 main_v39 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v40 (broadcastInDim S50000x128 ![] bcast_S_S50000x128 : (⟨S_, .f32⟩ : BufTy).Contents (Elt F) → (⟨S50000x128, .f32⟩ : BufTy).Contents (Elt F)),
    StableHlo.unary main_v3 main_v41 (broadcastInDim S800000x1 ![0] bcast_S800000_S800000x1_0 : (⟨S800000, .i32⟩ : BufTy).Contents (Elt F) → (⟨S800000x1, .i32⟩ : BufTy).Contents (Elt F)),
    StableHlo.ternary main_v40 main_v41 main_v39 main_v42 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v14 main_v14 main_v43 (mulf : (⟨S50000, .f32⟩ : BufTy).Contents (Elt F) → (⟨S50000, .f32⟩ : BufTy).Contents (Elt F) → (⟨S50000, .f32⟩ : BufTy).Contents (Elt F)),
    StableHlo.unary main_v43 main_v44 (broadcastInDim S50000x1 ![0] bcast_S50000_S50000x1_0 : (⟨S50000, .f32⟩ : BufTy).Contents (Elt F) → (⟨S50000x1, .f32⟩ : BufTy).Contents (Elt F)),
    StableHlo.unary main_v44 main_v45 (broadcastInDim S50000x128 ![0, 1] bcast_S50000x1_S50000x128_0_1 : (⟨S50000x1, .f32⟩ : BufTy).Contents (Elt F) → (⟨S50000x128, .f32⟩ : BufTy).Contents (Elt F)),
    StableHlo.binary main_v4 main_v45 main_v46 (mulf : (⟨S50000x128, .f32⟩ : BufTy).Contents (Elt F) → (⟨S50000x128, .f32⟩ : BufTy).Contents (Elt F) → (⟨S50000x128, .f32⟩ : BufTy).Contents (Elt F)),
    StableHlo.binary main_v42 main_v46 main_v47 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem part0_eq (c : Dev nD) : main_part0 (F := F) c = seq opsP0 := by
  simp only [main_part0, fn_where.body, fn_where_0.body, fn_where_1.body, fn_elu.body, fn_where_3.body, fn_where_4.body, fn_elu_2.body, fn_where_6.body, fn_where_7.body, fn_elu_5.body, seq, bind_assoc, pure_bind] <;> rfl

/-- The operations of the program's window 1, the called functions' bodies in place of the calls. -/
abbrev opsP1 : List (HloOp τ sig (Elt F)) :=
  [ StableHlo.unary main_arg3 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v50 main_cst_10 main_v51 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v51 main_v52 (broadcastInDim S50000x1 ![0] bcast_S50000_S50000x1_0 : (⟨S50000, .f32⟩ : BufTy).Contents (Elt F) → (⟨S50000x1, .f32⟩ : BufTy).Contents (Elt F)),
    StableHlo.nullary main_cst_11 (constant S_ .f32 0x43000000#32),
    StableHlo.unary main_cst_11 main_v53 (broadcastInDim S50000x1 ![] bcast_S_S50000x1 : (⟨S_, .f32⟩ : BufTy).Contents (Elt F) → (⟨S50000x1, .f32⟩ : BufTy).Contents (Elt F)),
    StableHlo.binary main_v52 main_v53 main_v54 (Host.divf : (⟨S50000x1, .f32⟩ : BufTy).Contents (Elt F) → (⟨S50000x1, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v55 main_v56 (subf : (⟨S50000x128, .f32⟩ : BufTy).Contents (Elt F) → (⟨S50000x128, .f32⟩ : BufTy).Contents (Elt F) → (⟨S50000x128, .f32⟩ : BufTy).Contents (Elt F)),
    StableHlo.binary main_v56 main_v56 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v57 main_cst_12 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v58 main_v59 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v59 main_v60 main_v61 (Host.divf : (⟨S50000x1, .f32⟩ : BufTy).Contents (Elt F) → (⟨S50000x1, .f32⟩ : BufTy).Contents (Elt F) → (⟨S50000x1, .f32⟩ : BufTy).Contents (Elt F)),
    StableHlo.unary main_v54 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v62 main_v63 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v64 (broadcastInDim S50000x1 ![] bcast_S_S50000x1 : (⟨S_, .f32⟩ : BufTy).Contents (Elt F) → (⟨S50000x1, .f32⟩ : BufTy).Contents (Elt F)),
    StableHlo.binary main_v61 main_v64 main_v65 (addf : (⟨S50000x1, .f32⟩ : BufTy).Contents (Elt F) → (⟨S50000x1, .f32⟩ : BufTy).Contents (Elt F) → (⟨S50000x1, .f32⟩ : BufTy).Contents (Elt F)),
    StableHlo.unary main_v65 main_v66 (Host.rsqrt : (⟨S50000x1, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg4 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg5 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v74) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v74) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v74) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v74) main_call1.v7 main_call1.call1.v0 select,
    StableHlo.binary main_v75 main_arg6 main_v76 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_cst_15 (constant S_ .f32 0x3F800000#32),
    StableHlo.unary main_cst_15 main_v77 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v78 (broadcastInDim S50000 ![] bcast_S_S50000 : (⟨S_, .f32⟩ : BufTy).Contents (Elt F) → (⟨S50000, .f32⟩ : BufTy).Contents (Elt F)),
    StableHlo.unary main_v3 main_v79 (broadcastInDim S800000x1 ![0] bcast_S800000_S800000x1_0 : (⟨S800000, .i32⟩ : BufTy).Contents (Elt F) → (⟨S800000x1, .i32⟩ : BufTy).Contents (Elt F)),
    StableHlo.ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v81 (broadcastInDim S50000 ![] bcast_S_S50000 : (⟨S_, .f32⟩ : BufTy).Contents (Elt F) → (⟨S50000, .f32⟩ : BufTy).Contents (Elt F)),
    StableHlo.binary main_v80 main_v81 main_v82 (addf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.unary main_cst_18 main_v83 (broadcastInDim S50000 ![] bcast_S_S50000 : (⟨S_, .f32⟩ : BufTy).Contents (Elt F) → (⟨S50000, .f32⟩ : BufTy).Contents (Elt F)),
    StableHlo.binary main_v82 main_v83 main_v84 (cmpf .ogt : (⟨S50000, .f32⟩ : BufTy).Contents (Elt F) → (⟨S50000, .f32⟩ : BufTy).Contents (Elt F) → (⟨S50000, .i1⟩ : BufTy).Contents (Elt F)),
    StableHlo.unary main_v82 main_v85 (Host.rsqrt : (⟨S50000, .f32⟩ : BufTy).Contents (Elt F) → (⟨S50000, .f32⟩ : BufTy).Contents (Elt F)),
    StableHlo.nullary main_cst_19 (constant S_ .f32 0x00000000#32),
    StableHlo.TRef.unary (.of main_cst_19) main_call2.v0 id,
    StableHlo.TRef.unary main_call2.v0 main_call2.v1 (broadcastInDim S50000 ![] bcast_S_S50000),
    StableHlo.TRef.ternary (.of main_v84) (.of main_v85) main_call2.v1 main_call2.v2 select,
    StableHlo.nullary main_c_20 (constantI S_ 32 0#32),
    StableHlo.unary main_c_20 main_v87 (broadcastInDim S800000 ![] bcast_S_S800000 : (⟨S_, .i32⟩ : BufTy).Contents (Elt F) → (⟨S800000, .i32⟩ : BufTy).Contents (Elt F)),
    StableHlo.binary main_v1 main_v87 main_v88 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v89 (broadcastInDim S800000 ![] bcast_S_S800000 : (⟨S_, .i32⟩ : BufTy).Contents (Elt F) → (⟨S800000, .i32⟩ : BufTy).Contents (Elt F)),
    StableHlo.binary main_v1 main_v89 main_v90 (addi : (⟨S800000, .i32⟩ : BufTy).Contents (Elt F) → (⟨S800000, .i32⟩ : BufTy).Contents (Elt F) → (⟨S800000, .i32⟩ : BufTy).Contents (Elt F)),
    StableHlo.ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v91 main_v92 (broadcastInDim S800000x1 ![0] bcast_S800000_S800000x1_0 : (⟨S800000, .i32⟩ : BufTy).Contents (Elt F) → (⟨S800000x1, .i32⟩ : BufTy).Contents (Elt F)),
    StableHlo.binary main_v86 main_v92 main_v93 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_22 (constantI S_ 32 0#32),
    StableHlo.unary main_c_22 main_v94 (broadcastInDim S800000 ![] bcast_S_S800000 : (⟨S_, .i32⟩ : BufTy).Contents (Elt F) → (⟨S800000, .i32⟩ : BufTy).Contents (Elt F)) ]

set_option maxRecDepth 8192 in
set_option maxHeartbeats 4000000 in
theorem part1_eq (c : Dev nD) : main_part1 (F := F) c = seq opsP1 := by
  simp only [main_part1, fn_where.body, fn_where_0.body, fn_where_1.body, fn_elu.body, fn_where_3.body, fn_where_4.body, fn_elu_2.body, fn_where_6.body, fn_where_7.body, fn_elu_5.body, seq, bind_assoc, pure_bind] <;> rfl

/-- The operations of the program's window 2, the called functions' bodies in place of the calls. -/
abbrev opsP2 : List (HloOp τ sig (Elt F)) :=
  [ StableHlo.binary main_v3 main_v94 main_v95 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v96 (broadcastInDim S800000 ![] bcast_S_S800000 : (⟨S_, .i32⟩ : BufTy).Contents (Elt F) → (⟨S800000, .i32⟩ : BufTy).Contents (Elt F)),
    StableHlo.binary main_v3 main_v96 main_v97 (addi : (⟨S800000, .i32⟩ : BufTy).Contents (Elt F) → (⟨S800000, .i32⟩ : BufTy).Contents (Elt F) → (⟨S800000, .i32⟩ : BufTy).Contents (Elt F)),
    StableHlo.ternary main_v95 main_v97 main_v3 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v98 main_v99 (broadcastInDim S800000x1 ![0] bcast_S800000_S800000x1_0 : (⟨S800000, .i32⟩ : BufTy).Contents (Elt F) → (⟨S800000x1, .i32⟩ : BufTy).Contents (Elt F)),
    StableHlo.binary main_v86 main_v99 main_v100 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v93 main_v100 main_v101 (mulf : (⟨S800000, .f32⟩ : BufTy).Contents (Elt F) → (⟨S800000, .f32⟩ : BufTy).Contents (Elt F) → (⟨S800000, .f32⟩ : BufTy).Contents (Elt F)),
    StableHlo.nullary main_c_24 (constantI S_ 32 0#32),
    StableHlo.unary main_c_24 main_v102 (broadcastInDim S800000 ![] bcast_S_S800000 : (⟨S_, .i32⟩ : BufTy).Contents (Elt F) → (⟨S800000, .i32⟩ : BufTy).Contents (Elt F)),
    StableHlo.binary main_v1 main_v102 main_v103 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v104 (broadcastInDim S800000 ![] bcast_S_S800000 : (⟨S_, .i32⟩ : BufTy).Contents (Elt F) → (⟨S800000, .i32⟩ : BufTy).Contents (Elt F)),
    StableHlo.binary main_v1 main_v104 main_v105 (addi : (⟨S800000, .i32⟩ : BufTy).Contents (Elt F) → (⟨S800000, .i32⟩ : BufTy).Contents (Elt F) → (⟨S800000, .i32⟩ : BufTy).Contents (Elt F)),
    StableHlo.ternary main_v103 main_v105 main_v1 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v106 main_v107 (broadcastInDim S800000x1 ![0] bcast_S800000_S800000x1_0 : (⟨S800000, .i32⟩ : BufTy).Contents (Elt F) → (⟨S800000x1, .i32⟩ : BufTy).Contents (Elt F)),
    StableHlo.binary main_v76 main_v107 main_v108 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v101 main_v109 (broadcastInDim S800000x1 ![0] bcast_S800000_S800000x1_0 : (⟨S800000, .f32⟩ : BufTy).Contents (Elt F) → (⟨S800000x1, .f32⟩ : BufTy).Contents (Elt F)),
    StableHlo.unary main_v109 main_v110 (broadcastInDim S800000x256 ![0, 1] bcast_S800000x1_S800000x256_0_1 : (⟨S800000x1, .f32⟩ : BufTy).Contents (Elt F) → (⟨S800000x256, .f32⟩ : BufTy).Contents (Elt F)),
    StableHlo.binary main_v108 main_v110 main_v111 (mulf : (⟨S800000x256, .f32⟩ : BufTy).Contents (Elt F) → (⟨S800000x256, .f32⟩ : BufTy).Contents (Elt F) → (⟨S800000x256, .f32⟩ : BufTy).Contents (Elt F)),
    StableHlo.nullary main_cst_26 (constant S_ .f32 0x00000000#32),
    StableHlo.unary main_cst_26 main_v112 (broadcastInDim S50000x256 ![] bcast_S_S50000x256 : (⟨S_, .f32⟩ : BufTy).Contents (Elt F) → (⟨S50000x256, .f32⟩ : BufTy).Contents (Elt F)),
    StableHlo.unary main_v3 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v86 main_v86 main_v115 (mulf : (⟨S50000, .f32⟩ : BufTy).Contents (Elt F) → (⟨S50000, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.unary main_v116 main_v117 (broadcastInDim S50000x256 ![0, 1] bcast_S50000x1_S50000x256_0_1 : (⟨S50000x1, .f32⟩ : BufTy).Contents (Elt F) → (⟨S50000x256, .f32⟩ : BufTy).Contents (Elt F)),
    StableHlo.binary main_v76 main_v117 main_v118 (mulf : (⟨S50000x256, .f32⟩ : BufTy).Contents (Elt F) → (⟨S50000x256, .f32⟩ : BufTy).Contents (Elt F) → (⟨S50000x256, .f32⟩ : BufTy).Contents (Elt F)),
    StableHlo.binary main_v114 main_v118 main_v119 (addf : (⟨S50000x256, .f32⟩ : BufTy).Contents (Elt F) → (⟨S50000x256, .f32⟩ : BufTy).Contents (Elt F) → (⟨S50000x256, .f32⟩ : BufTy).Contents (Elt F)),
    StableHlo.unary main_arg7 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v121 main_v122 (addf : (⟨S50000x256, .f32⟩ : BufTy).Contents (Elt F) → (⟨S50000x256, .f32⟩ : BufTy).Contents (Elt F) → (⟨S50000x256, .f32⟩ : BufTy).Contents (Elt F)),
    StableHlo.nullary main_cst_27 (constant S_ .f32 0x00000000#32),
    StableHlo.binary main_v122 main_cst_27 main_v123 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v123 main_v124 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43800000#32),
    StableHlo.unary main_cst_28 main_v125 (broadcastInDim S50000x1 ![] bcast_S_S50000x1 : (⟨S_, .f32⟩ : BufTy).Contents (Elt F) → (⟨S50000x1, .f32⟩ : BufTy).Contents (Elt F)),
    StableHlo.binary main_v124 main_v125 main_v126 (Host.divf : (⟨S50000x1, .f32⟩ : BufTy).Contents (Elt F) → (⟨S50000x1, .f32⟩ : BufTy).Contents (Elt F) → (⟨S50000x1, .f32⟩ : BufTy).Contents (Elt F)),
    StableHlo.unary main_v126 main_v127 (broadcastInDim S50000x256 ![0, 1] bcast_S50000x1_S50000x256_0_1 : (⟨S50000x1, .f32⟩ : BufTy).Contents (Elt F) → (⟨S50000x256, .f32⟩ : BufTy).Contents (Elt F)),
    StableHlo.binary main_v122 main_v127 main_v128 (subf : (⟨S50000x256, .f32⟩ : BufTy).Contents (Elt F) → (⟨S50000x256, .f32⟩ : BufTy).Contents (Elt F) → (⟨S50000x256, .f32⟩ : BufTy).Contents (Elt F)),
    StableHlo.binary main_v128 main_v128 main_v129 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x00000000#32),
    StableHlo.binary main_v129 main_cst_29 main_v130 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v130 main_v131 (broadcastInDim S50000x1 ![0] bcast_S50000_S50000x1_0 : (⟨S50000, .f32⟩ : BufTy).Contents (Elt F) → (⟨S50000x1, .f32⟩ : BufTy).Contents (Elt F)),
    StableHlo.nullary main_cst_30 (constant S_ .f32 0x43800000#32),
    StableHlo.unary main_cst_30 main_v132 (broadcastInDim S50000x1 ![] bcast_S_S50000x1 : (⟨S_, .f32⟩ : BufTy).Contents (Elt F) → (⟨S50000x1, .f32⟩ : BufTy).Contents (Elt F)),
    StableHlo.binary main_v131 main_v132 main_v133 (Host.divf : (⟨S50000x1, .f32⟩ : BufTy).Contents (Elt F) → (⟨S50000x1, .f32⟩ : BufTy).Contents (Elt F) → (⟨S50000x1, .f32⟩ : BufTy).Contents (Elt F)),
    StableHlo.unary main_v126 main_v134 (broadcastInDim S50000x256 ![0, 1] bcast_S50000x1_S50000x256_0_1 : (⟨S50000x1, .f32⟩ : BufTy).Contents (Elt F) → (⟨S50000x256, .f32⟩ : BufTy).Contents (Elt F)),
    StableHlo.binary main_v122 main_v134 main_v135 (subf : (⟨S50000x256, .f32⟩ : BufTy).Contents (Elt F) → (⟨S50000x256, .f32⟩ : BufTy).Contents (Elt F) → (⟨S50000x256, .f32⟩ : BufTy).Contents (Elt F)),
    StableHlo.nullary main_cst_31 (constant S_ .f32 0x3727C5AC#32),
    StableHlo.unary main_cst_31 main_v136 (broadcastInDim S50000x1 ![] bcast_S_S50000x1 : (⟨S_, .f32⟩ : BufTy).Contents (Elt F) → (⟨S50000x1, .f32⟩ : BufTy).Contents (Elt F)),
    StableHlo.binary main_v133 main_v136 main_v137 (addf : (⟨S50000x1, .f32⟩ : BufTy).Contents (Elt F) → (⟨S50000x1, .f32⟩ : BufTy).Contents (Elt F) → (⟨S50000x1, .f32⟩ : BufTy).Contents (Elt F)),
    StableHlo.unary main_v137 main_v138 (Host.rsqrt : (⟨S50000x1, .f32⟩ : BufTy).Contents (Elt F) → (⟨S50000x1, .f32⟩ : BufTy).Contents (Elt F)),
    StableHlo.unary main_v138 main_v139 (broadcastInDim S50000x256 ![0, 1] bcast_S50000x1_S50000x256_0_1 : (⟨S50000x1, .f32⟩ : BufTy).Contents (Elt F) → (⟨S50000x256, .f32⟩ : BufTy).Contents (Elt F)),
    StableHlo.binary main_v135 main_v139 main_v140 (mulf : (⟨S50000x256, .f32⟩ : BufTy).Contents (Elt F) → (⟨S50000x256, .f32⟩ : BufTy).Contents (Elt F) → (⟨S50000x256, .f32⟩ : BufTy).Contents (Elt F)),
    StableHlo.unary main_arg8 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S50000x256 ![0, 1] bcast_S1x256_S50000x256_0_1 : (⟨S1x256, .f32⟩ : BufTy).Contents (Elt F) → (⟨S50000x256, .f32⟩ : BufTy).Contents (Elt F)),
    StableHlo.binary main_v140 main_v142 main_v143 (mulf : (⟨S50000x256, .f32⟩ : BufTy).Contents (Elt F) → (⟨S50000x256, .f32⟩ : BufTy).Contents (Elt F) → (⟨S50000x256, .f32⟩ : BufTy).Contents (Elt F)),
    StableHlo.unary main_arg9 main_v144 (broadcastInDim S1x256 ![1] bcast_S256_S1x256_1 : (⟨S256, .f32⟩ : BufTy).Contents (Elt F) → (⟨S1x256, .f32⟩ : BufTy).Contents (Elt F)),
    StableHlo.unary main_v144 main_v145 (broadcastInDim S50000x256 ![0, 1] bcast_S1x256_S50000x256_0_1 : (⟨S1x256, .f32⟩ : BufTy).Contents (Elt F) → (⟨S50000x256, .f32⟩ : BufTy).Contents (Elt F)) ]

set_option maxRecDepth 8192 in
set_option maxHeartbeats 4000000 in
theorem part2_eq (c : Dev nD) : main_part2 (F := F) c = seq opsP2 := by
  simp only [main_part2, fn_where.body, fn_where_0.body, fn_where_1.body, fn_elu.body, fn_where_3.body, fn_where_4.body, fn_elu_2.body, fn_where_6.body, fn_where_7.body, fn_elu_5.body, seq, bind_assoc, pure_bind] <;> rfl

/-- The operations of the program's window 3, the called functions' bodies in place of the calls. -/
abbrev opsP3 : List (HloOp τ sig (Elt F)) :=
  [ StableHlo.binary main_v143 main_v145 main_v146 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v146) main_call3.v0 main_call3.v1 (cmpf .ogt),
    StableHlo.TRef.nullary main_call3.cst_0 (constant S_ .f32 0x00000000#32),
    StableHlo.TRef.unary main_call3.cst_0 main_call3.v2 (broadcastInDim S50000x256 ![] bcast_S_S50000x256),
    StableHlo.TRef.binary (.of main_v146) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x256 ![] bcast_S_S50000x256),
    StableHlo.TRef.ternary main_call3.v3 main_call3.call0.v1 (.of main_v146) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x256 ![] bcast_S_S50000x256),
    StableHlo.TRef.binary main_call3.v6 main_call3.v5 main_call3.v7 mulf,
    StableHlo.TRef.ternary main_call3.v1 (.of main_v146) main_call3.v7 main_call3.call1.v0 select,
    StableHlo.binary main_v147 main_arg10 main_v148 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_cst_32 (constant S_ .f32 0x3F800000#32),
    StableHlo.unary main_cst_32 main_v149 (broadcastInDim S800000 ![] bcast_S_S800000 : (⟨S_, .f32⟩ : BufTy).Contents (Elt F) → (⟨S800000, .f32⟩ : BufTy).Contents (Elt F)),
    StableHlo.nullary main_cst_33 (constant S_ .f32 0x00000000#32),
    StableHlo.unary main_cst_33 main_v150 (broadcastInDim S50000 ![] bcast_S_S50000 : (⟨S_, .f32⟩ : BufTy).Contents (Elt F) → (⟨S50000, .f32⟩ : BufTy).Contents (Elt F)),
    StableHlo.unary main_v3 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_34 (constant S_ .f32 0x3F800000#32),
    StableHlo.unary main_cst_34 main_v153 (broadcastInDim S50000 ![] bcast_S_S50000 : (⟨S_, .f32⟩ : BufTy).Contents (Elt F) → (⟨S50000, .f32⟩ : BufTy).Contents (Elt F)),
    StableHlo.binary main_v152 main_v153 main_v154 (addf : (⟨S50000, .f32⟩ : BufTy).Contents (Elt F) → (⟨S50000, .f32⟩ : BufTy).Contents (Elt F) → (⟨S50000, .f32⟩ : BufTy).Contents (Elt F)),
    StableHlo.nullary main_cst_35 (constant S_ .f32 0x00000000#32),
    StableHlo.unary main_cst_35 main_v155 (broadcastInDim S50000 ![] bcast_S_S50000 : (⟨S_, .f32⟩ : BufTy).Contents (Elt F) → (⟨S50000, .f32⟩ : BufTy).Contents (Elt F)),
    StableHlo.binary main_v154 main_v155 main_v156 (cmpf .ogt : (⟨S50000, .f32⟩ : BufTy).Contents (Elt F) → (⟨S50000, .f32⟩ : BufTy).Contents (Elt F) → (⟨S50000, .i1⟩ : BufTy).Contents (Elt F)),
    StableHlo.unary main_v154 main_v157 (Host.rsqrt : (⟨S50000, .f32⟩ : BufTy).Contents (Elt F) → (⟨S50000, .f32⟩ : BufTy).Contents (Elt F)),
    StableHlo.nullary main_cst_36 (constant S_ .f32 0x00000000#32),
    StableHlo.TRef.unary (.of main_cst_36) main_call4.v0 id,
    StableHlo.TRef.unary main_call4.v0 main_call4.v1 (broadcastInDim S50000 ![] bcast_S_S50000),
    StableHlo.TRef.ternary (.of main_v156) (.of main_v157) main_call4.v1 main_call4.v2 select,
    StableHlo.nullary main_c_37 (constantI S_ 32 0#32),
    StableHlo.unary main_c_37 main_v159 (broadcastInDim S800000 ![] bcast_S_S800000 : (⟨S_, .i32⟩ : BufTy).Contents (Elt F) → (⟨S800000, .i32⟩ : BufTy).Contents (Elt F)),
    StableHlo.binary main_v1 main_v159 main_v160 (cmpi .slt : (⟨S800000, .i32⟩ : BufTy).Contents (Elt F) → (⟨S800000, .i32⟩ : BufTy).Contents (Elt F) → (⟨S800000, .i1⟩ : BufTy).Contents (Elt F)),
    StableHlo.nullary main_c_38 (constantI S_ 32 50000#32),
    StableHlo.unary main_c_38 main_v161 (broadcastInDim S800000 ![] bcast_S_S800000 : (⟨S_, .i32⟩ : BufTy).Contents (Elt F) → (⟨S800000, .i32⟩ : BufTy).Contents (Elt F)),
    StableHlo.binary main_v1 main_v161 main_v162 (addi : (⟨S800000, .i32⟩ : BufTy).Contents (Elt F) → (⟨S800000, .i32⟩ : BufTy).Contents (Elt F) → (⟨S800000, .i32⟩ : BufTy).Contents (Elt F)),
    StableHlo.ternary main_v160 main_v162 main_v1 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v163 main_v164 (broadcastInDim S800000x1 ![0] bcast_S800000_S800000x1_0 : (⟨S800000, .i32⟩ : BufTy).Contents (Elt F) → (⟨S800000x1, .i32⟩ : BufTy).Contents (Elt F)),
    StableHlo.binary main_v158 main_v164 main_v165 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_39 (constantI S_ 32 0#32),
    StableHlo.unary main_c_39 main_v166 (broadcastInDim S800000 ![] bcast_S_S800000 : (⟨S_, .i32⟩ : BufTy).Contents (Elt F) → (⟨S800000, .i32⟩ : BufTy).Contents (Elt F)),
    StableHlo.binary main_v3 main_v166 main_v167 (cmpi .slt : (⟨S800000, .i32⟩ : BufTy).Contents (Elt F) → (⟨S800000, .i32⟩ : BufTy).Contents (Elt F) → (⟨S800000, .i1⟩ : BufTy).Contents (Elt F)),
    StableHlo.nullary main_c_40 (constantI S_ 32 50000#32),
    StableHlo.unary main_c_40 main_v168 (broadcastInDim S800000 ![] bcast_S_S800000 : (⟨S_, .i32⟩ : BufTy).Contents (Elt F) → (⟨S800000, .i32⟩ : BufTy).Contents (Elt F)),
    StableHlo.binary main_v3 main_v168 main_v169 (addi : (⟨S800000, .i32⟩ : BufTy).Contents (Elt F) → (⟨S800000, .i32⟩ : BufTy).Contents (Elt F) → (⟨S800000, .i32⟩ : BufTy).Contents (Elt F)),
    StableHlo.ternary main_v167 main_v169 main_v3 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v170 main_v171 (broadcastInDim S800000x1 ![0] bcast_S800000_S800000x1_0 : (⟨S800000, .i32⟩ : BufTy).Contents (Elt F) → (⟨S800000x1, .i32⟩ : BufTy).Contents (Elt F)),
    StableHlo.binary main_v158 main_v171 main_v172 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v165 main_v172 main_v173 (mulf : (⟨S800000, .f32⟩ : BufTy).Contents (Elt F) → (⟨S800000, .f32⟩ : BufTy).Contents (Elt F) → (⟨S800000, .f32⟩ : BufTy).Contents (Elt F)),
    StableHlo.nullary main_c_41 (constantI S_ 32 0#32),
    StableHlo.unary main_c_41 main_v174 (broadcastInDim S800000 ![] bcast_S_S800000 : (⟨S_, .i32⟩ : BufTy).Contents (Elt F) → (⟨S800000, .i32⟩ : BufTy).Contents (Elt F)),
    StableHlo.binary main_v1 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 50000#32),
    StableHlo.unary main_c_42 main_v176 (broadcastInDim S800000 ![] bcast_S_S800000 : (⟨S_, .i32⟩ : BufTy).Contents (Elt F) → (⟨S800000, .i32⟩ : BufTy).Contents (Elt F)),
    StableHlo.binary main_v1 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v1 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v148 main_v179 main_v180 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v173 main_v181 (broadcastInDim S800000x1 ![0] bcast_S800000_S800000x1_0 : (⟨S800000, .f32⟩ : BufTy).Contents (Elt F) → (⟨S800000x1, .f32⟩ : BufTy).Contents (Elt F)),
    StableHlo.unary main_v181 main_v182 (broadcastInDim S800000x128 ![0, 1] bcast_S800000x1_S800000x128_0_1 : (⟨S800000x1, .f32⟩ : BufTy).Contents (Elt F) → (⟨S800000x128, .f32⟩ : BufTy).Contents (Elt F)),
    StableHlo.binary main_v180 main_v182 main_v183 (mulf : (⟨S800000x128, .f32⟩ : BufTy).Contents (Elt F) → (⟨S800000x128, .f32⟩ : BufTy).Contents (Elt F) → (⟨S800000x128, .f32⟩ : BufTy).Contents (Elt F)),
    StableHlo.nullary main_cst_43 (constant S_ .f32 0x00000000#32),
    StableHlo.unary main_cst_43 main_v184 (broadcastInDim S50000x128 ![] bcast_S_S50000x128 : (⟨S_, .f32⟩ : BufTy).Contents (Elt F) → (⟨S50000x128, .f32⟩ : BufTy).Contents (Elt F)),
    StableHlo.unary main_v3 main_v185 (broadcastInDim S800000x1 ![0] bcast_S800000_S800000x1_0 : (⟨S800000, .i32⟩ : BufTy).Contents (Elt F) → (⟨S800000x1, .i32⟩ : BufTy).Contents (Elt F)),
    StableHlo.ternary main_v184 main_v185 main_v183 main_v186 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v158 main_v158 main_v187 (mulf : (⟨S50000, .f32⟩ : BufTy).Contents (Elt F) → (⟨S50000, .f32⟩ : BufTy).Contents (Elt F) → (⟨S50000, .f32⟩ : BufTy).Contents (Elt F)),
    StableHlo.unary main_v187 main_v188 (broadcastInDim S50000x1 ![0] bcast_S50000_S50000x1_0 : (⟨S50000, .f32⟩ : BufTy).Contents (Elt F) → (⟨S50000x1, .f32⟩ : BufTy).Contents (Elt F)),
    StableHlo.unary main_v188 main_v189 (broadcastInDim S50000x128 ![0, 1] bcast_S50000x1_S50000x128_0_1 : (⟨S50000x1, .f32⟩ : BufTy).Contents (Elt F) → (⟨S50000x128, .f32⟩ : BufTy).Contents (Elt F)),
    StableHlo.binary main_v148 main_v189 main_v190 (mulf : (⟨S50000x128, .f32⟩ : BufTy).Contents (Elt F) → (⟨S50000x128, .f32⟩ : BufTy).Contents (Elt F) → (⟨S50000x128, .f32⟩ : BufTy).Contents (Elt F)),
    StableHlo.binary main_v186 main_v190 main_v191 (addf : (⟨S50000x128, .f32⟩ : BufTy).Contents (Elt F) → (⟨S50000x128, .f32⟩ : BufTy).Contents (Elt F) → (⟨S50000x128, .f32⟩ : BufTy).Contents (Elt F)),
    StableHlo.unary main_arg11 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
set_option maxHeartbeats 4000000 in
theorem part3_eq (c : Dev nD) : main_part3 (F := F) c = seq opsP3 := by
  simp only [main_part3, fn_where.body, fn_where_0.body, fn_where_1.body, fn_elu.body, fn_where_3.body, fn_where_4.body, fn_elu_2.body, fn_where_6.body, fn_where_7.body, fn_elu_5.body, seq, bind_assoc, pure_bind] <;> rfl

/-- The operations of the program's window 4, the called functions' bodies in place of the calls. -/
abbrev opsP4 : List (HloOp τ sig (Elt F)) :=
  [ StableHlo.binary main_v191 main_v193 main_v194 (addf : (⟨S50000x128, .f32⟩ : BufTy).Contents (Elt F) → (⟨S50000x128, .f32⟩ : BufTy).Contents (Elt F) → (⟨S50000x128, .f32⟩ : BufTy).Contents (Elt F)),
    StableHlo.nullary main_cst_44 (constant S_ .f32 0x00000000#32),
    StableHlo.binary main_v194 main_cst_44 main_v195 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v195 main_v196 (broadcastInDim S50000x1 ![0] bcast_S50000_S50000x1_0 : (⟨S50000, .f32⟩ : BufTy).Contents (Elt F) → (⟨S50000x1, .f32⟩ : BufTy).Contents (Elt F)),
    StableHlo.nullary main_cst_45 (constant S_ .f32 0x43000000#32),
    StableHlo.unary main_cst_45 main_v197 (broadcastInDim S50000x1 ![] bcast_S_S50000x1 : (⟨S_, .f32⟩ : BufTy).Contents (Elt F) → (⟨S50000x1, .f32⟩ : BufTy).Contents (Elt F)),
    StableHlo.binary main_v196 main_v197 main_v198 (Host.divf : (⟨S50000x1, .f32⟩ : BufTy).Contents (Elt F) → (⟨S50000x1, .f32⟩ : BufTy).Contents (Elt F) → (⟨S50000x1, .f32⟩ : BufTy).Contents (Elt F)),
    StableHlo.unary main_v198 main_v199 (broadcastInDim S50000x128 ![0, 1] bcast_S50000x1_S50000x128_0_1 : (⟨S50000x1, .f32⟩ : BufTy).Contents (Elt F) → (⟨S50000x128, .f32⟩ : BufTy).Contents (Elt F)),
    StableHlo.binary main_v194 main_v199 main_v200 (subf : (⟨S50000x128, .f32⟩ : BufTy).Contents (Elt F) → (⟨S50000x128, .f32⟩ : BufTy).Contents (Elt F) → (⟨S50000x128, .f32⟩ : BufTy).Contents (Elt F)),
    StableHlo.binary main_v200 main_v200 main_v201 (mulf : (⟨S50000x128, .f32⟩ : BufTy).Contents (Elt F) → (⟨S50000x128, .f32⟩ : BufTy).Contents (Elt F) → (⟨S50000x128, .f32⟩ : BufTy).Contents (Elt F)),
    StableHlo.nullary main_cst_46 (constant S_ .f32 0x00000000#32),
    StableHlo.binary main_v201 main_cst_46 main_v202 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → (⟨S50000x1, .f32⟩ : BufTy).Contents (Elt F)),
    StableHlo.nullary main_cst_47 (constant S_ .f32 0x43000000#32),
    StableHlo.unary main_cst_47 main_v204 (broadcastInDim S50000x1 ![] bcast_S_S50000x1 : (⟨S_, .f32⟩ : BufTy).Contents (Elt F) → (⟨S50000x1, .f32⟩ : BufTy).Contents (Elt F)),
    StableHlo.binary main_v203 main_v204 main_v205 (Host.divf : (⟨S50000x1, .f32⟩ : BufTy).Contents (Elt F) → (⟨S50000x1, .f32⟩ : BufTy).Contents (Elt F) → (⟨S50000x1, .f32⟩ : BufTy).Contents (Elt F)),
    StableHlo.unary main_v198 main_v206 (broadcastInDim S50000x128 ![0, 1] bcast_S50000x1_S50000x128_0_1 : (⟨S50000x1, .f32⟩ : BufTy).Contents (Elt F) → (⟨S50000x128, .f32⟩ : BufTy).Contents (Elt F)),
    StableHlo.binary main_v194 main_v206 main_v207 (subf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3727C5AC#32),
    StableHlo.unary main_cst_48 main_v208 (broadcastInDim S50000x1 ![] bcast_S_S50000x1 : (⟨S_, .f32⟩ : BufTy).Contents (Elt F) → (⟨S50000x1, .f32⟩ : BufTy).Contents (Elt F)),
    StableHlo.binary main_v205 main_v208 main_v209 (addf : (⟨S50000x1, .f32⟩ : BufTy).Contents (Elt F) → (⟨S50000x1, .f32⟩ : BufTy).Contents (Elt F) → (⟨S50000x1, .f32⟩ : BufTy).Contents (Elt F)),
    StableHlo.unary main_v209 main_v210 (Host.rsqrt : (⟨S50000x1, .f32⟩ : BufTy).Contents (Elt F) → (⟨S50000x1, .f32⟩ : BufTy).Contents (Elt F)),
    StableHlo.unary main_v210 main_v211 (broadcastInDim S50000x128 ![0, 1] bcast_S50000x1_S50000x128_0_1 : (⟨S50000x1, .f32⟩ : BufTy).Contents (Elt F) → (⟨S50000x128, .f32⟩ : BufTy).Contents (Elt F)),
    StableHlo.binary main_v207 main_v211 main_v212 (mulf : (⟨S50000x128, .f32⟩ : BufTy).Contents (Elt F) → (⟨S50000x128, .f32⟩ : BufTy).Contents (Elt F) → (⟨S50000x128, .f32⟩ : BufTy).Contents (Elt F)),
    StableHlo.unary main_arg12 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v214 main_v215 (mulf : (⟨S50000x128, .f32⟩ : BufTy).Contents (Elt F) → (⟨S50000x128, .f32⟩ : BufTy).Contents (Elt F) → (⟨S50000x128, .f32⟩ : BufTy).Contents (Elt F)),
    StableHlo.unary main_arg13 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v218) main_call5.v0 main_call5.v1 (cmpf .ogt),
    StableHlo.TRef.nullary main_call5.cst_0 (constant S_ .f32 0x00000000#32),
    StableHlo.TRef.unary main_call5.cst_0 main_call5.v2 (broadcastInDim S50000x128 ![] bcast_S_S50000x128),
    StableHlo.TRef.binary (.of main_v218) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x128 ![] bcast_S_S50000x128),
    StableHlo.TRef.ternary main_call5.v3 main_call5.call0.v1 (.of main_v218) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x128 ![] bcast_S_S50000x128),
    StableHlo.TRef.binary main_call5.v6 main_call5.v5 main_call5.v7 mulf,
    StableHlo.TRef.ternary main_call5.v1 (.of main_v218) main_call5.v7 main_call5.call1.v0 select,
    StableHlo.binary main_v219 main_arg14 main_v220 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg15 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v222 main_v223 (addf : (⟨S50000x64, .f32⟩ : BufTy).Contents (Elt F) → (⟨S50000x64, .f32⟩ : BufTy).Contents (Elt F) → (⟨S50000x64, .f32⟩ : BufTy).Contents (Elt F)),
    StableHlo.nullary main_cst_49 (constant S_ .f32 0x00000000#32),
    StableHlo.binary main_v223 main_cst_49 main_v224 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v224 main_v225 (broadcastInDim S50000x1 ![0] bcast_S50000_S50000x1_0 : (⟨S50000, .f32⟩ : BufTy).Contents (Elt F) → (⟨S50000x1, .f32⟩ : BufTy).Contents (Elt F)),
    StableHlo.nullary main_cst_50 (constant S_ .f32 0x42800000#32),
    StableHlo.unary main_cst_50 main_v226 (broadcastInDim S50000x1 ![] bcast_S_S50000x1 : (⟨S_, .f32⟩ : BufTy).Contents (Elt F) → (⟨S50000x1, .f32⟩ : BufTy).Contents (Elt F)),
    StableHlo.binary main_v225 main_v226 main_v227 (Host.divf : (⟨S50000x1, .f32⟩ : BufTy).Contents (Elt F) → (⟨S50000x1, .f32⟩ : BufTy).Contents (Elt F) → (⟨S50000x1, .f32⟩ : BufTy).Contents (Elt F)),
    StableHlo.unary main_v227 main_v228 (broadcastInDim S50000x64 ![0, 1] bcast_S50000x1_S50000x64_0_1 : (⟨S50000x1, .f32⟩ : BufTy).Contents (Elt F) → (⟨S50000x64, .f32⟩ : BufTy).Contents (Elt F)),
    StableHlo.binary main_v223 main_v228 main_v229 (subf : (⟨S50000x64, .f32⟩ : BufTy).Contents (Elt F) → (⟨S50000x64, .f32⟩ : BufTy).Contents (Elt F) → (⟨S50000x64, .f32⟩ : BufTy).Contents (Elt F)),
    StableHlo.binary main_v229 main_v229 main_v230 (mulf : (⟨S50000x64, .f32⟩ : BufTy).Contents (Elt F) → (⟨S50000x64, .f32⟩ : BufTy).Contents (Elt F) → (⟨S50000x64, .f32⟩ : BufTy).Contents (Elt F)),
    StableHlo.nullary main_cst_51 (constant S_ .f32 0x00000000#32),
    StableHlo.binary main_v230 main_cst_51 main_v231 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v231 main_v232 (broadcastInDim S50000x1 ![0] bcast_S50000_S50000x1_0 : (⟨S50000, .f32⟩ : BufTy).Contents (Elt F) → (⟨S50000x1, .f32⟩ : BufTy).Contents (Elt F)),
    StableHlo.nullary main_cst_52 (constant S_ .f32 0x42800000#32),
    StableHlo.unary main_cst_52 main_v233 (broadcastInDim S50000x1 ![] bcast_S_S50000x1 : (⟨S_, .f32⟩ : BufTy).Contents (Elt F) → (⟨S50000x1, .f32⟩ : BufTy).Contents (Elt F)),
    StableHlo.binary main_v232 main_v233 main_v234 (Host.divf : (⟨S50000x1, .f32⟩ : BufTy).Contents (Elt F) → (⟨S50000x1, .f32⟩ : BufTy).Contents (Elt F) → (⟨S50000x1, .f32⟩ : BufTy).Contents (Elt F)),
    StableHlo.unary main_v227 main_v235 (broadcastInDim S50000x64 ![0, 1] bcast_S50000x1_S50000x64_0_1 : (⟨S50000x1, .f32⟩ : BufTy).Contents (Elt F) → (⟨S50000x64, .f32⟩ : BufTy).Contents (Elt F)),
    StableHlo.binary main_v223 main_v235 main_v236 (subf : (⟨S50000x64, .f32⟩ : BufTy).Contents (Elt F) → (⟨S50000x64, .f32⟩ : BufTy).Contents (Elt F) → (⟨S50000x64, .f32⟩ : BufTy).Contents (Elt F)),
    StableHlo.nullary main_cst_53 (constant S_ .f32 0x3727C5AC#32),
    StableHlo.unary main_cst_53 main_v237 (broadcastInDim S50000x1 ![] bcast_S_S50000x1 : (⟨S_, .f32⟩ : BufTy).Contents (Elt F) → (⟨S50000x1, .f32⟩ : BufTy).Contents (Elt F)),
    StableHlo.binary main_v234 main_v237 main_v238 (addf : (⟨S50000x1, .f32⟩ : BufTy).Contents (Elt F) → (⟨S50000x1, .f32⟩ : BufTy).Contents (Elt F) → (⟨S50000x1, .f32⟩ : BufTy).Contents (Elt F)),
    StableHlo.unary main_v238 main_v239 (Host.rsqrt : (⟨S50000x1, .f32⟩ : BufTy).Contents (Elt F) → (⟨S50000x1, .f32⟩ : BufTy).Contents (Elt F)),
    StableHlo.unary main_v239 main_v240 (broadcastInDim S50000x64 ![0, 1] bcast_S50000x1_S50000x64_0_1 : (⟨S50000x1, .f32⟩ : BufTy).Contents (Elt F) → (⟨S50000x64, .f32⟩ : BufTy).Contents (Elt F)),
    StableHlo.binary main_v236 main_v240 main_v241 (mulf : (⟨S50000x64, .f32⟩ : BufTy).Contents (Elt F) → (⟨S50000x64, .f32⟩ : BufTy).Contents (Elt F) → (⟨S50000x64, .f32⟩ : BufTy).Contents (Elt F)),
    StableHlo.unary main_arg16 main_v242 (broadcastInDim S1x64 ![1] bcast_S64_S1x64_1 : (⟨S64, .f32⟩ : BufTy).Contents (Elt F) → (⟨S1x64, .f32⟩ : BufTy).Contents (Elt F)),
    StableHlo.unary main_v242 main_v243 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
set_option maxHeartbeats 4000000 in
theorem part4_eq (c : Dev nD) : main_part4 (F := F) c = seq opsP4 := by
  simp only [main_part4, fn_where.body, fn_where_0.body, fn_where_1.body, fn_elu.body, fn_where_3.body, fn_where_4.body, fn_elu_2.body, fn_where_6.body, fn_where_7.body, fn_elu_5.body, seq, bind_assoc, pure_bind] <;> rfl

/-- The operations of the program's window 5, the called functions' bodies in place of the calls. -/
abbrev opsP5 : List (HloOp τ sig (Elt F)) :=
  [ StableHlo.binary main_v241 main_v243 main_v244 (mulf : (⟨S50000x64, .f32⟩ : BufTy).Contents (Elt F) → (⟨S50000x64, .f32⟩ : BufTy).Contents (Elt F) → (⟨S50000x64, .f32⟩ : BufTy).Contents (Elt F)),
    StableHlo.unary main_arg17 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S50000x64 ![0, 1] bcast_S1x64_S50000x64_0_1 : (⟨S1x64, .f32⟩ : BufTy).Contents (Elt F) → (⟨S50000x64, .f32⟩ : BufTy).Contents (Elt F)),
    StableHlo.binary main_v244 main_v246 main_v247 (addf : (⟨S50000x64, .f32⟩ : BufTy).Contents (Elt F) → (⟨S50000x64, .f32⟩ : BufTy).Contents (Elt F) → (⟨S50000x64, .f32⟩ : BufTy).Contents (Elt F)),
    StableHlo.TRef.nullary main_call6.cst (constant S_ .f32 0x00000000#32),
    StableHlo.TRef.unary main_call6.cst main_call6.v0 (broadcastInDim S50000x64 ![] bcast_S_S50000x64),
    StableHlo.TRef.binary (.of main_v247) main_call6.v0 main_call6.v1 (cmpf .ogt),
    StableHlo.TRef.nullary main_call6.cst_0 (constant S_ .f32 0x00000000#32),
    StableHlo.TRef.unary main_call6.cst_0 main_call6.v2 (broadcastInDim S50000x64 ![] bcast_S_S50000x64),
    StableHlo.TRef.binary (.of main_v247) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S50000x64 ![] bcast_S_S50000x64),
    StableHlo.TRef.ternary main_call6.v3 main_call6.call0.v1 (.of main_v247) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S50000x64 ![] bcast_S_S50000x64),
    StableHlo.TRef.binary main_call6.v6 main_call6.v5 main_call6.v7 mulf,
    StableHlo.TRef.ternary main_call6.v1 (.of main_v247) main_call6.v7 main_call6.call1.v0 select,
    StableHlo.binary main_v248 main_arg18 main_v249 ((fun l r => Host.dotGeneral dot_S50000x64_S64x500_S50000x500_1_0_0_1_n_n none l r) : (⟨S50000x64, .f32⟩ : BufTy).Contents (Elt F) → (⟨S64x500, .f32⟩ : BufTy).Contents (Elt F) → (⟨S50000x500, .f32⟩ : BufTy).Contents (Elt F)),
    StableHlo.unary main_arg19 main_v250 (broadcastInDim S1x500 ![1] bcast_S500_S1x500_1 : (⟨S500, .f32⟩ : BufTy).Contents (Elt F) → (⟨S1x500, .f32⟩ : BufTy).Contents (Elt F)),
    StableHlo.unary main_v250 main_v251 (broadcastInDim S50000x500 ![0, 1] bcast_S1x500_S50000x500_0_1 : (⟨S1x500, .f32⟩ : BufTy).Contents (Elt F) → (⟨S50000x500, .f32⟩ : BufTy).Contents (Elt F)),
    StableHlo.binary main_v249 main_v251 main_v252 (addf : (⟨S50000x500, .f32⟩ : BufTy).Contents (Elt F) → (⟨S50000x500, .f32⟩ : BufTy).Contents (Elt F) → (⟨S50000x500, .f32⟩ : BufTy).Contents (Elt F)) ]

set_option maxRecDepth 8192 in
set_option maxHeartbeats 4000000 in
theorem part5_eq (c : Dev nD) : main_part5 (F := F) c = seq opsP5 := by
  simp only [main_part5, fn_where.body, fn_where_0.body, fn_where_1.body, fn_elu.body, fn_where_3.body, fn_where_4.body, fn_elu_2.body, fn_where_6.body, fn_where_7.body, fn_elu_5.body, seq, bind_assoc, pure_bind] <;> rfl

/-! ## The same line cut at the stages -/

/-- The operations of stage 0: the two rows of the edge table. -/
abbrev T0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The buffers stage 0 writes. -/
abbrev wr0 : List (Ref sig .tc) :=
  [main_v0, main_v1, main_v2, main_v3]

theorem T0_sub : (T0 : List (HloOp τ sig (Elt F))).Forall fun op => op.bufs ⊆ tcRefs τ sig :=
  ⟨unary_bufs_sub .., reshape_bufs_sub .., unary_bufs_sub .., reshape_bufs_sub ..⟩

theorem T0_fresh : (T0 : List (HloOp τ sig (Elt F))).Forall fun op => op.fresh = ∅ :=
  ⟨rfl, rfl, rfl, rfl⟩

theorem T0_writes : (T0 : List (HloOp τ sig (Elt F))).Forall fun op => op.writes ⊆ (wr0.map (Proc.devRef (τ := τ) .tc)).toFinset :=
  ⟨ws main_v0 rfl (by decide), ws main_v1 rfl (by decide), ws main_v2 rfl (by decide),
    ws main_v3 rfl (by decide)⟩

/-- Stage 0 leaves every buffer it does not write as it was. -/
theorem T0_frame (W : Valuation τ sig (Elt F)) (r : Ref sig .tc) (hr : r ∉ wr0) :
    after T0 W (Proc.devRef .tc r) = W (Proc.devRef .tc r) :=
  after_of_writes_sub T0 W T0_writes hr

/-- The operations of stage 1: the first matrix product. -/
abbrev T1 : List (HloOp τ sig (Elt F)) :=
  [ StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers stage 1 writes. -/
abbrev wr1 : List (Ref sig .tc) :=
  [main_v4]

theorem T1_sub : (T1 : List (HloOp τ sig (Elt F))).Forall fun op => op.bufs ⊆ tcRefs τ sig :=
  binary_bufs_sub ..

theorem T1_fresh : (T1 : List (HloOp τ sig (Elt F))).Forall fun op => op.fresh = ∅ :=
  rfl

theorem T1_writes : (T1 : List (HloOp τ sig (Elt F))).Forall fun op => op.writes ⊆ (wr1.map (Proc.devRef (τ := τ) .tc)).toFinset :=
  ws main_v4 rfl (by decide)

/-- Stage 1 leaves every buffer it does not write as it was. -/
theorem T1_frame (W : Valuation τ sig (Elt F)) (r : Ref sig .tc) (hr : r ∉ wr1) :
    after T1 W (Proc.devRef .tc r) = W (Proc.devRef .tc r) :=
  after_of_writes_sub T1 W T1_writes hr

/-- The operations of stage 2: the first layer before normalisation. -/
abbrev T2 : List (HloOp τ sig (Elt F)) :=
  [ StableHlo.nullary main_cst (constant S_ .f32 0x3F800000#32),
    StableHlo.unary main_cst main_v5 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v6 (broadcastInDim S50000 ![] bcast_S_S50000 : (⟨S_, .f32⟩ : BufTy).Contents (Elt F) → (⟨S50000, .f32⟩ : BufTy).Contents (Elt F)),
    StableHlo.unary main_v3 main_v7 (broadcastInDim S800000x1 ![0] bcast_S800000_S800000x1_0 : (⟨S800000, .i32⟩ : BufTy).Contents (Elt F) → (⟨S800000x1, .i32⟩ : BufTy).Contents (Elt F)),
    StableHlo.ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v9 (broadcastInDim S50000 ![] bcast_S_S50000 : (⟨S_, .f32⟩ : BufTy).Contents (Elt F) → (⟨S50000, .f32⟩ : BufTy).Contents (Elt F)),
    StableHlo.binary main_v8 main_v9 main_v10 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x00000000#32),
    StableHlo.unary main_cst_2 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v15 (broadcastInDim S800000 ![] bcast_S_S800000 : (⟨S_, .i32⟩ : BufTy).Contents (Elt F) → (⟨S800000, .i32⟩ : BufTy).Contents (Elt F)),
    StableHlo.binary main_v1 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v17 (broadcastInDim S800000 ![] bcast_S_S800000 : (⟨S_, .i32⟩ : BufTy).Contents (Elt F) → (⟨S800000, .i32⟩ : BufTy).Contents (Elt F)),
    StableHlo.binary main_v1 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v14 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_5 (constantI S_ 32 0#32),
    StableHlo.unary main_c_5 main_v22 (broadcastInDim S800000 ![] bcast_S_S800000 : (⟨S_, .i32⟩ : BufTy).Contents (Elt F) → (⟨S800000, .i32⟩ : BufTy).Contents (Elt F)),
    StableHlo.binary main_v3 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v24 (broadcastInDim S800000 ![] bcast_S_S800000 : (⟨S_, .i32⟩ : BufTy).Contents (Elt F) → (⟨S800000, .i32⟩ : BufTy).Contents (Elt F)),
    StableHlo.binary main_v3 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v14 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v21 main_v28 main_v29 (mulf : (⟨S800000, .f32⟩ : BufTy).Contents (Elt F) → (⟨S800000, .f32⟩ : BufTy).Contents (Elt F) → (⟨S800000, .f32⟩ : BufTy).Contents (Elt F)),
    StableHlo.nullary main_c_7 (constantI S_ 32 0#32),
    StableHlo.unary main_c_7 main_v30 (broadcastInDim S800000 ![] bcast_S_S800000 : (⟨S_, .i32⟩ : BufTy).Contents (Elt F) → (⟨S800000, .i32⟩ : BufTy).Contents (Elt F)),
    StableHlo.binary main_v1 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v32 (broadcastInDim S800000 ![] bcast_S_S800000 : (⟨S_, .i32⟩ : BufTy).Contents (Elt F) → (⟨S800000, .i32⟩ : BufTy).Contents (Elt F)),
    StableHlo.binary main_v1 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v4 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v29 main_v37 (broadcastInDim S800000x1 ![0] bcast_S800000_S800000x1_0 : (⟨S800000, .f32⟩ : BufTy).Contents (Elt F) → (⟨S800000x1, .f32⟩ : BufTy).Contents (Elt F)),
    StableHlo.unary main_v37 main_v38 (broadcastInDim S800000x128 ![0, 1] bcast_S800000x1_S800000x128_0_1 : (⟨S800000x1, .f32⟩ : BufTy).Contents (Elt F) → (⟨S800000x128, .f32⟩ : BufTy).Contents (Elt F)),
    StableHlo.binary main_v36 main_v38 main_v39 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v40 (broadcastInDim S50000x128 ![] bcast_S_S50000x128 : (⟨S_, .f32⟩ : BufTy).Contents (Elt F) → (⟨S50000x128, .f32⟩ : BufTy).Contents (Elt F)),
    StableHlo.unary main_v3 main_v41 (broadcastInDim S800000x1 ![0] bcast_S800000_S800000x1_0 : (⟨S800000, .i32⟩ : BufTy).Contents (Elt F) → (⟨S800000x1, .i32⟩ : BufTy).Contents (Elt F)),
    StableHlo.ternary main_v40 main_v41 main_v39 main_v42 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v14 main_v14 main_v43 (mulf : (⟨S50000, .f32⟩ : BufTy).Contents (Elt F) → (⟨S50000, .f32⟩ : BufTy).Contents (Elt F) → (⟨S50000, .f32⟩ : BufTy).Contents (Elt F)),
    StableHlo.unary main_v43 main_v44 (broadcastInDim S50000x1 ![0] bcast_S50000_S50000x1_0 : (⟨S50000, .f32⟩ : BufTy).Contents (Elt F) → (⟨S50000x1, .f32⟩ : BufTy).Contents (Elt F)),
    StableHlo.unary main_v44 main_v45 (broadcastInDim S50000x128 ![0, 1] bcast_S50000x1_S50000x128_0_1 : (⟨S50000x1, .f32⟩ : BufTy).Contents (Elt F) → (⟨S50000x128, .f32⟩ : BufTy).Contents (Elt F)),
    StableHlo.binary main_v4 main_v45 main_v46 (mulf : (⟨S50000x128, .f32⟩ : BufTy).Contents (Elt F) → (⟨S50000x128, .f32⟩ : BufTy).Contents (Elt F) → (⟨S50000x128, .f32⟩ : BufTy).Contents (Elt F)),
    StableHlo.binary main_v42 main_v46 main_v47 (addf : (⟨S50000x128, .f32⟩ : BufTy).Contents (Elt F) → (⟨S50000x128, .f32⟩ : BufTy).Contents (Elt F) → (⟨S50000x128, .f32⟩ : BufTy).Contents (Elt F)),
    StableHlo.unary main_arg3 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (addf : (⟨S50000x128, .f32⟩ : BufTy).Contents (Elt F) → (⟨S50000x128, .f32⟩ : BufTy).Contents (Elt F) → (⟨S50000x128, .f32⟩ : BufTy).Contents (Elt F)) ]

/-- The buffers stage 2 writes. -/
abbrev wr2 : List (Ref sig .tc) :=
  [main_cst, main_v5, main_cst_0, main_v6, main_v7, main_v8, main_cst_1, main_v9, main_v10, main_cst_2,
    main_v11, main_v12, main_v13, main_cst_3, main_call0_v0, main_call0_v1, main_v14, main_c, main_v15, main_v16,
    main_c_4, main_v17, main_v18, main_v19, main_v20, main_v21, main_c_5, main_v22, main_v23, main_c_6,
    main_v24, main_v25, main_v26, main_v27, main_v28, main_v29, main_c_7, main_v30, main_v31, main_c_8,
    main_v32, main_v33, main_v34, main_v35, main_v36, main_v37, main_v38, main_v39, main_cst_9, main_v40,
    main_v41, main_v42, main_v43, main_v44, main_v45, main_v46, main_v47, main_v48, main_v49, main_v50]

theorem T2_sub : (T2 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..⟩

theorem T2_fresh : (T2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem T2_writes : (T2 : List (HloOp τ sig (Elt F))).Forall fun op => op.writes ⊆ (wr2.map (Proc.devRef (τ := τ) .tc)).toFinset :=
  ⟨ws main_cst rfl (by decide), ws main_v5 rfl (by decide), ws main_cst_0 rfl (by decide),
    ws main_v6 rfl (by decide), ws main_v7 rfl (by decide), ws main_v8 rfl (by decide),
    ws main_cst_1 rfl (by decide), ws main_v9 rfl (by decide), ws main_v10 rfl (by decide),
    ws main_cst_2 rfl (by decide), ws main_v11 rfl (by decide), ws main_v12 rfl (by decide),
    ws main_v13 rfl (by decide), ws main_cst_3 rfl (by decide), ws main_call0_v0 rfl (by decide),
    ws main_call0_v1 rfl (by decide), ws main_v14 rfl (by decide), ws main_c rfl (by decide),
    ws main_v15 rfl (by decide), ws main_v16 rfl (by decide), ws main_c_4 rfl (by decide),
    ws main_v17 rfl (by decide), ws main_v18 rfl (by decide), ws main_v19 rfl (by decide),
    ws main_v20 rfl (by decide), ws main_v21 rfl (by decide), ws main_c_5 rfl (by decide),
    ws main_v22 rfl (by decide), ws main_v23 rfl (by decide), ws main_c_6 rfl (by decide),
    ws main_v24 rfl (by decide), ws main_v25 rfl (by decide), ws main_v26 rfl (by decide),
    ws main_v27 rfl (by decide), ws main_v28 rfl (by decide), ws main_v29 rfl (by decide),
    ws main_c_7 rfl (by decide), ws main_v30 rfl (by decide), ws main_v31 rfl (by decide),
    ws main_c_8 rfl (by decide), ws main_v32 rfl (by decide), ws main_v33 rfl (by decide),
    ws main_v34 rfl (by decide), ws main_v35 rfl (by decide), ws main_v36 rfl (by decide),
    ws main_v37 rfl (by decide), ws main_v38 rfl (by decide), ws main_v39 rfl (by decide),
    ws main_cst_9 rfl (by decide), ws main_v40 rfl (by decide), ws main_v41 rfl (by decide),
    ws main_v42 rfl (by decide), ws main_v43 rfl (by decide), ws main_v44 rfl (by decide),
    ws main_v45 rfl (by decide), ws main_v46 rfl (by decide), ws main_v47 rfl (by decide),
    ws main_v48 rfl (by decide), ws main_v49 rfl (by decide), ws main_v50 rfl (by decide)⟩

/-- Stage 2 leaves every buffer it does not write as it was. -/
theorem T2_frame (W : Valuation τ sig (Elt F)) (r : Ref sig .tc) (hr : r ∉ wr2) :
    after T2 W (Proc.devRef .tc r) = W (Proc.devRef .tc r) :=
  after_of_writes_sub T2 W T2_writes hr

/-- The operations of stage 3: the first normalisation and ELU. -/
abbrev T3 : List (HloOp τ sig (Elt F)) :=
  [ StableHlo.nullary main_cst_10 (constant S_ .f32 0x00000000#32),
    StableHlo.binary main_v50 main_cst_10 main_v51 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v51 main_v52 (broadcastInDim S50000x1 ![0] bcast_S50000_S50000x1_0 : (⟨S50000, .f32⟩ : BufTy).Contents (Elt F) → (⟨S50000x1, .f32⟩ : BufTy).Contents (Elt F)),
    StableHlo.nullary main_cst_11 (constant S_ .f32 0x43000000#32),
    StableHlo.unary main_cst_11 main_v53 (broadcastInDim S50000x1 ![] bcast_S_S50000x1 : (⟨S_, .f32⟩ : BufTy).Contents (Elt F) → (⟨S50000x1, .f32⟩ : BufTy).Contents (Elt F)),
    StableHlo.binary main_v52 main_v53 main_v54 (Host.divf : (⟨S50000x1, .f32⟩ : BufTy).Contents (Elt F) → (⟨S50000x1, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v55 main_v56 (subf : (⟨S50000x128, .f32⟩ : BufTy).Contents (Elt F) → (⟨S50000x128, .f32⟩ : BufTy).Contents (Elt F) → (⟨S50000x128, .f32⟩ : BufTy).Contents (Elt F)),
    StableHlo.binary main_v56 main_v56 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v57 main_cst_12 main_v58 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v58 main_v59 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x43000000#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v59 main_v60 main_v61 (Host.divf : (⟨S50000x1, .f32⟩ : BufTy).Contents (Elt F) → (⟨S50000x1, .f32⟩ : BufTy).Contents (Elt F) → (⟨S50000x1, .f32⟩ : BufTy).Contents (Elt F)),
    StableHlo.unary main_v54 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v62 main_v63 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v64 (broadcastInDim S50000x1 ![] bcast_S_S50000x1 : (⟨S_, .f32⟩ : BufTy).Contents (Elt F) → (⟨S50000x1, .f32⟩ : BufTy).Contents (Elt F)),
    StableHlo.binary main_v61 main_v64 main_v65 (addf : (⟨S50000x1, .f32⟩ : BufTy).Contents (Elt F) → (⟨S50000x1, .f32⟩ : BufTy).Contents (Elt F) → (⟨S50000x1, .f32⟩ : BufTy).Contents (Elt F)),
    StableHlo.unary main_v65 main_v66 (Host.rsqrt : (⟨S50000x1, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg4 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg5 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v74 main_call1_v0 main_call1_v1 (cmpf .ogt : (⟨S50000x128, .f32⟩ : BufTy).Contents (Elt F) → (⟨S50000x128, .f32⟩ : BufTy).Contents (Elt F) → (⟨S50000x128, .i1⟩ : BufTy).Contents (Elt F)),
    StableHlo.nullary main_call1_cst_0 (constant S_ .f32 0x00000000#32),
    StableHlo.unary main_call1_cst_0 main_call1_v2 (broadcastInDim S50000x128 ![] bcast_S_S50000x128 : (⟨S_, .f32⟩ : BufTy).Contents (Elt F) → (⟨S50000x128, .f32⟩ : BufTy).Contents (Elt F)),
    StableHlo.binary main_v74 main_call1_v2 main_call1_v3 (cmpf .ogt : (⟨S50000x128, .f32⟩ : BufTy).Contents (Elt F) → (⟨S50000x128, .f32⟩ : BufTy).Contents (Elt F) → (⟨S50000x128, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S50000x128 ![] bcast_S_S50000x128 : (⟨S_, .f32⟩ : BufTy).Contents (Elt F) → (⟨S50000x128, .f32⟩ : BufTy).Contents (Elt F)),
    StableHlo.ternary main_call1_v3 main_call1_call0_v1 main_v74 main_call1_v4 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_call1_v4 main_call1_v5 (Host.expm1 : (⟨S50000x128, .f32⟩ : BufTy).Contents (Elt F) → (⟨S50000x128, .f32⟩ : BufTy).Contents (Elt F)),
    StableHlo.nullary main_call1_cst_2 (constant S_ .f32 0x3F800000#32),
    StableHlo.unary main_call1_cst_2 main_call1_v6 (broadcastInDim S50000x128 ![] bcast_S_S50000x128 : (⟨S_, .f32⟩ : BufTy).Contents (Elt F) → (⟨S50000x128, .f32⟩ : BufTy).Contents (Elt F)),
    StableHlo.binary main_call1_v6 main_call1_v5 main_call1_v7 (mulf : (⟨S50000x128, .f32⟩ : BufTy).Contents (Elt F) → (⟨S50000x128, .f32⟩ : BufTy).Contents (Elt F) → (⟨S50000x128, .f32⟩ : BufTy).Contents (Elt F)),
    StableHlo.ternary main_call1_v1 main_v74 main_call1_v7 main_v75 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

/-- The buffers stage 3 writes. -/
abbrev wr3 : List (Ref sig .tc) :=
  [main_cst_10, main_v51, main_v52, main_cst_11, main_v53, main_v54, main_v55, main_v56, main_v57, main_cst_12,
    main_v58, main_v59, main_cst_13, main_v60, main_v61, main_v62, main_v63, main_cst_14, main_v64, main_v65,
    main_v66, main_v67, main_v68, main_v69, main_v70, main_v71, main_v72, main_v73, main_v74, main_call1_cst,
    main_call1_v0, main_call1_v1, main_call1_cst_0, main_call1_v2, main_call1_v3, main_call1_cst_1, main_call1_call0_v0, main_call1_call0_v1, main_call1_v4, main_call1_v5,
    main_call1_cst_2, main_call1_v6, main_call1_v7, main_v75]

theorem T3_sub : (T3 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem T3_fresh : (T3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem T3_writes : (T3 : List (HloOp τ sig (Elt F))).Forall fun op => op.writes ⊆ (wr3.map (Proc.devRef (τ := τ) .tc)).toFinset :=
  ⟨ws main_cst_10 rfl (by decide), ws main_v51 rfl (by decide), ws main_v52 rfl (by decide),
    ws main_cst_11 rfl (by decide), ws main_v53 rfl (by decide), ws main_v54 rfl (by decide),
    ws main_v55 rfl (by decide), ws main_v56 rfl (by decide), ws main_v57 rfl (by decide),
    ws main_cst_12 rfl (by decide), ws main_v58 rfl (by decide), ws main_v59 rfl (by decide),
    ws main_cst_13 rfl (by decide), ws main_v60 rfl (by decide), ws main_v61 rfl (by decide),
    ws main_v62 rfl (by decide), ws main_v63 rfl (by decide), ws main_cst_14 rfl (by decide),
    ws main_v64 rfl (by decide), ws main_v65 rfl (by decide), ws main_v66 rfl (by decide),
    ws main_v67 rfl (by decide), ws main_v68 rfl (by decide), ws main_v69 rfl (by decide),
    ws main_v70 rfl (by decide), ws main_v71 rfl (by decide), ws main_v72 rfl (by decide),
    ws main_v73 rfl (by decide), ws main_v74 rfl (by decide), ws main_call1_cst rfl (by decide),
    ws main_call1_v0 rfl (by decide), ws main_call1_v1 rfl (by decide), ws main_call1_cst_0 rfl (by decide),
    ws main_call1_v2 rfl (by decide), ws main_call1_v3 rfl (by decide), ws main_call1_cst_1 rfl (by decide),
    ws main_call1_call0_v0 rfl (by decide), ws main_call1_call0_v1 rfl (by decide), ws main_call1_v4 rfl (by decide),
    ws main_call1_v5 rfl (by decide), ws main_call1_cst_2 rfl (by decide), ws main_call1_v6 rfl (by decide),
    ws main_call1_v7 rfl (by decide), ws main_v75 rfl (by decide)⟩

/-- Stage 3 leaves every buffer it does not write as it was. -/
theorem T3_frame (W : Valuation τ sig (Elt F)) (r : Ref sig .tc) (hr : r ∉ wr3) :
    after T3 W (Proc.devRef .tc r) = W (Proc.devRef .tc r) :=
  after_of_writes_sub T3 W T3_writes hr

/-- The operations of stage 4: the second matrix product. -/
abbrev T4 : List (HloOp τ sig (Elt F)) :=
  [ StableHlo.binary main_v75 main_arg6 main_v76 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

/-- The buffers stage 4 writes. -/
abbrev wr4 : List (Ref sig .tc) :=
  [main_v76]

theorem T4_sub : (T4 : List (HloOp τ sig (Elt F))).Forall fun op => op.bufs ⊆ tcRefs τ sig :=
  binary_bufs_sub ..

theorem T4_fresh : (T4 : List (HloOp τ sig (Elt F))).Forall fun op => op.fresh = ∅ :=
  rfl

theorem T4_writes : (T4 : List (HloOp τ sig (Elt F))).Forall fun op => op.writes ⊆ (wr4.map (Proc.devRef (τ := τ) .tc)).toFinset :=
  ws main_v76 rfl (by decide)

/-- Stage 4 leaves every buffer it does not write as it was. -/
theorem T4_frame (W : Valuation τ sig (Elt F)) (r : Ref sig .tc) (hr : r ∉ wr4) :
    after T4 W (Proc.devRef .tc r) = W (Proc.devRef .tc r) :=
  after_of_writes_sub T4 W T4_writes hr

/-- The operations of stage 5: the second layer before normalisation. -/
abbrev T5 : List (HloOp τ sig (Elt F)) :=
  [ StableHlo.nullary main_cst_15 (constant S_ .f32 0x3F800000#32),
    StableHlo.unary main_cst_15 main_v77 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v78 (broadcastInDim S50000 ![] bcast_S_S50000 : (⟨S_, .f32⟩ : BufTy).Contents (Elt F) → (⟨S50000, .f32⟩ : BufTy).Contents (Elt F)),
    StableHlo.unary main_v3 main_v79 (broadcastInDim S800000x1 ![0] bcast_S800000_S800000x1_0 : (⟨S800000, .i32⟩ : BufTy).Contents (Elt F) → (⟨S800000x1, .i32⟩ : BufTy).Contents (Elt F)),
    StableHlo.ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v81 (broadcastInDim S50000 ![] bcast_S_S50000 : (⟨S_, .f32⟩ : BufTy).Contents (Elt F) → (⟨S50000, .f32⟩ : BufTy).Contents (Elt F)),
    StableHlo.binary main_v80 main_v81 main_v82 (addf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.unary main_cst_18 main_v83 (broadcastInDim S50000 ![] bcast_S_S50000 : (⟨S_, .f32⟩ : BufTy).Contents (Elt F) → (⟨S50000, .f32⟩ : BufTy).Contents (Elt F)),
    StableHlo.binary main_v82 main_v83 main_v84 (cmpf .ogt : (⟨S50000, .f32⟩ : BufTy).Contents (Elt F) → (⟨S50000, .f32⟩ : BufTy).Contents (Elt F) → (⟨S50000, .i1⟩ : BufTy).Contents (Elt F)),
    StableHlo.unary main_v82 main_v85 (Host.rsqrt : (⟨S50000, .f32⟩ : BufTy).Contents (Elt F) → (⟨S50000, .f32⟩ : BufTy).Contents (Elt F)),
    StableHlo.nullary main_cst_19 (constant S_ .f32 0x00000000#32),
    StableHlo.unary main_cst_19 main_call2_v0 (id : (⟨S_, .f32⟩ : BufTy).Contents (Elt F) → (⟨S_, .f32⟩ : BufTy).Contents (Elt F)),
    StableHlo.unary main_call2_v0 main_call2_v1 (broadcastInDim S50000 ![] bcast_S_S50000 : (⟨S_, .f32⟩ : BufTy).Contents (Elt F) → (⟨S50000, .f32⟩ : BufTy).Contents (Elt F)),
    StableHlo.ternary main_v84 main_v85 main_call2_v1 main_v86 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c_20 (constantI S_ 32 0#32),
    StableHlo.unary main_c_20 main_v87 (broadcastInDim S800000 ![] bcast_S_S800000 : (⟨S_, .i32⟩ : BufTy).Contents (Elt F) → (⟨S800000, .i32⟩ : BufTy).Contents (Elt F)),
    StableHlo.binary main_v1 main_v87 main_v88 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v89 (broadcastInDim S800000 ![] bcast_S_S800000 : (⟨S_, .i32⟩ : BufTy).Contents (Elt F) → (⟨S800000, .i32⟩ : BufTy).Contents (Elt F)),
    StableHlo.binary main_v1 main_v89 main_v90 (addi : (⟨S800000, .i32⟩ : BufTy).Contents (Elt F) → (⟨S800000, .i32⟩ : BufTy).Contents (Elt F) → (⟨S800000, .i32⟩ : BufTy).Contents (Elt F)),
    StableHlo.ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v91 main_v92 (broadcastInDim S800000x1 ![0] bcast_S800000_S800000x1_0 : (⟨S800000, .i32⟩ : BufTy).Contents (Elt F) → (⟨S800000x1, .i32⟩ : BufTy).Contents (Elt F)),
    StableHlo.binary main_v86 main_v92 main_v93 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_22 (constantI S_ 32 0#32),
    StableHlo.unary main_c_22 main_v94 (broadcastInDim S800000 ![] bcast_S_S800000 : (⟨S_, .i32⟩ : BufTy).Contents (Elt F) → (⟨S800000, .i32⟩ : BufTy).Contents (Elt F)),
    StableHlo.binary main_v3 main_v94 main_v95 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v96 (broadcastInDim S800000 ![] bcast_S_S800000 : (⟨S_, .i32⟩ : BufTy).Contents (Elt F) → (⟨S800000, .i32⟩ : BufTy).Contents (Elt F)),
    StableHlo.binary main_v3 main_v96 main_v97 (addi : (⟨S800000, .i32⟩ : BufTy).Contents (Elt F) → (⟨S800000, .i32⟩ : BufTy).Contents (Elt F) → (⟨S800000, .i32⟩ : BufTy).Contents (Elt F)),
    StableHlo.ternary main_v95 main_v97 main_v3 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v98 main_v99 (broadcastInDim S800000x1 ![0] bcast_S800000_S800000x1_0 : (⟨S800000, .i32⟩ : BufTy).Contents (Elt F) → (⟨S800000x1, .i32⟩ : BufTy).Contents (Elt F)),
    StableHlo.binary main_v86 main_v99 main_v100 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v93 main_v100 main_v101 (mulf : (⟨S800000, .f32⟩ : BufTy).Contents (Elt F) → (⟨S800000, .f32⟩ : BufTy).Contents (Elt F) → (⟨S800000, .f32⟩ : BufTy).Contents (Elt F)),
    StableHlo.nullary main_c_24 (constantI S_ 32 0#32),
    StableHlo.unary main_c_24 main_v102 (broadcastInDim S800000 ![] bcast_S_S800000 : (⟨S_, .i32⟩ : BufTy).Contents (Elt F) → (⟨S800000, .i32⟩ : BufTy).Contents (Elt F)),
    StableHlo.binary main_v1 main_v102 main_v103 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v104 (broadcastInDim S800000 ![] bcast_S_S800000 : (⟨S_, .i32⟩ : BufTy).Contents (Elt F) → (⟨S800000, .i32⟩ : BufTy).Contents (Elt F)),
    StableHlo.binary main_v1 main_v104 main_v105 (addi : (⟨S800000, .i32⟩ : BufTy).Contents (Elt F) → (⟨S800000, .i32⟩ : BufTy).Contents (Elt F) → (⟨S800000, .i32⟩ : BufTy).Contents (Elt F)),
    StableHlo.ternary main_v103 main_v105 main_v1 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v106 main_v107 (broadcastInDim S800000x1 ![0] bcast_S800000_S800000x1_0 : (⟨S800000, .i32⟩ : BufTy).Contents (Elt F) → (⟨S800000x1, .i32⟩ : BufTy).Contents (Elt F)),
    StableHlo.binary main_v76 main_v107 main_v108 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v101 main_v109 (broadcastInDim S800000x1 ![0] bcast_S800000_S800000x1_0 : (⟨S800000, .f32⟩ : BufTy).Contents (Elt F) → (⟨S800000x1, .f32⟩ : BufTy).Contents (Elt F)),
    StableHlo.unary main_v109 main_v110 (broadcastInDim S800000x256 ![0, 1] bcast_S800000x1_S800000x256_0_1 : (⟨S800000x1, .f32⟩ : BufTy).Contents (Elt F) → (⟨S800000x256, .f32⟩ : BufTy).Contents (Elt F)),
    StableHlo.binary main_v108 main_v110 main_v111 (mulf : (⟨S800000x256, .f32⟩ : BufTy).Contents (Elt F) → (⟨S800000x256, .f32⟩ : BufTy).Contents (Elt F) → (⟨S800000x256, .f32⟩ : BufTy).Contents (Elt F)),
    StableHlo.nullary main_cst_26 (constant S_ .f32 0x00000000#32),
    StableHlo.unary main_cst_26 main_v112 (broadcastInDim S50000x256 ![] bcast_S_S50000x256 : (⟨S_, .f32⟩ : BufTy).Contents (Elt F) → (⟨S50000x256, .f32⟩ : BufTy).Contents (Elt F)),
    StableHlo.unary main_v3 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v86 main_v86 main_v115 (mulf : (⟨S50000, .f32⟩ : BufTy).Contents (Elt F) → (⟨S50000, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.unary main_v116 main_v117 (broadcastInDim S50000x256 ![0, 1] bcast_S50000x1_S50000x256_0_1 : (⟨S50000x1, .f32⟩ : BufTy).Contents (Elt F) → (⟨S50000x256, .f32⟩ : BufTy).Contents (Elt F)),
    StableHlo.binary main_v76 main_v117 main_v118 (mulf : (⟨S50000x256, .f32⟩ : BufTy).Contents (Elt F) → (⟨S50000x256, .f32⟩ : BufTy).Contents (Elt F) → (⟨S50000x256, .f32⟩ : BufTy).Contents (Elt F)),
    StableHlo.binary main_v114 main_v118 main_v119 (addf : (⟨S50000x256, .f32⟩ : BufTy).Contents (Elt F) → (⟨S50000x256, .f32⟩ : BufTy).Contents (Elt F) → (⟨S50000x256, .f32⟩ : BufTy).Contents (Elt F)),
    StableHlo.unary main_arg7 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v121 main_v122 (addf : (⟨S50000x256, .f32⟩ : BufTy).Contents (Elt F) → (⟨S50000x256, .f32⟩ : BufTy).Contents (Elt F) → (⟨S50000x256, .f32⟩ : BufTy).Contents (Elt F)) ]

/-- The buffers stage 5 writes. -/
abbrev wr5 : List (Ref sig .tc) :=
  [main_cst_15, main_v77, main_cst_16, main_v78, main_v79, main_v80, main_cst_17, main_v81, main_v82, main_cst_18,
    main_v83, main_v84, main_v85, main_cst_19, main_call2_v0, main_call2_v1, main_v86, main_c_20, main_v87, main_v88,
    main_c_21, main_v89, main_v90, main_v91, main_v92, main_v93, main_c_22, main_v94, main_v95, main_c_23,
    main_v96, main_v97, main_v98, main_v99, main_v100, main_v101, main_c_24, main_v102, main_v103, main_c_25,
    main_v104, main_v105, main_v106, main_v107, main_v108, main_v109, main_v110, main_v111, main_cst_26, main_v112,
    main_v113, main_v114, main_v115, main_v116, main_v117, main_v118, main_v119, main_v120, main_v121, main_v122]

theorem T5_sub : (T5 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..⟩

theorem T5_fresh : (T5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem T5_writes : (T5 : List (HloOp τ sig (Elt F))).Forall fun op => op.writes ⊆ (wr5.map (Proc.devRef (τ := τ) .tc)).toFinset :=
  ⟨ws main_cst_15 rfl (by decide), ws main_v77 rfl (by decide), ws main_cst_16 rfl (by decide),
    ws main_v78 rfl (by decide), ws main_v79 rfl (by decide), ws main_v80 rfl (by decide),
    ws main_cst_17 rfl (by decide), ws main_v81 rfl (by decide), ws main_v82 rfl (by decide),
    ws main_cst_18 rfl (by decide), ws main_v83 rfl (by decide), ws main_v84 rfl (by decide),
    ws main_v85 rfl (by decide), ws main_cst_19 rfl (by decide), ws main_call2_v0 rfl (by decide),
    ws main_call2_v1 rfl (by decide), ws main_v86 rfl (by decide), ws main_c_20 rfl (by decide),
    ws main_v87 rfl (by decide), ws main_v88 rfl (by decide), ws main_c_21 rfl (by decide),
    ws main_v89 rfl (by decide), ws main_v90 rfl (by decide), ws main_v91 rfl (by decide),
    ws main_v92 rfl (by decide), ws main_v93 rfl (by decide), ws main_c_22 rfl (by decide),
    ws main_v94 rfl (by decide), ws main_v95 rfl (by decide), ws main_c_23 rfl (by decide),
    ws main_v96 rfl (by decide), ws main_v97 rfl (by decide), ws main_v98 rfl (by decide),
    ws main_v99 rfl (by decide), ws main_v100 rfl (by decide), ws main_v101 rfl (by decide),
    ws main_c_24 rfl (by decide), ws main_v102 rfl (by decide), ws main_v103 rfl (by decide),
    ws main_c_25 rfl (by decide), ws main_v104 rfl (by decide), ws main_v105 rfl (by decide),
    ws main_v106 rfl (by decide), ws main_v107 rfl (by decide), ws main_v108 rfl (by decide),
    ws main_v109 rfl (by decide), ws main_v110 rfl (by decide), ws main_v111 rfl (by decide),
    ws main_cst_26 rfl (by decide), ws main_v112 rfl (by decide), ws main_v113 rfl (by decide),
    ws main_v114 rfl (by decide), ws main_v115 rfl (by decide), ws main_v116 rfl (by decide),
    ws main_v117 rfl (by decide), ws main_v118 rfl (by decide), ws main_v119 rfl (by decide),
    ws main_v120 rfl (by decide), ws main_v121 rfl (by decide), ws main_v122 rfl (by decide)⟩

/-- Stage 5 leaves every buffer it does not write as it was. -/
theorem T5_frame (W : Valuation τ sig (Elt F)) (r : Ref sig .tc) (hr : r ∉ wr5) :
    after T5 W (Proc.devRef .tc r) = W (Proc.devRef .tc r) :=
  after_of_writes_sub T5 W T5_writes hr

/-- The operations of stage 6: the second normalisation and ELU. -/
abbrev T6 : List (HloOp τ sig (Elt F)) :=
  [ StableHlo.nullary main_cst_27 (constant S_ .f32 0x00000000#32),
    StableHlo.binary main_v122 main_cst_27 main_v123 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v123 main_v124 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43800000#32),
    StableHlo.unary main_cst_28 main_v125 (broadcastInDim S50000x1 ![] bcast_S_S50000x1 : (⟨S_, .f32⟩ : BufTy).Contents (Elt F) → (⟨S50000x1, .f32⟩ : BufTy).Contents (Elt F)),
    StableHlo.binary main_v124 main_v125 main_v126 (Host.divf : (⟨S50000x1, .f32⟩ : BufTy).Contents (Elt F) → (⟨S50000x1, .f32⟩ : BufTy).Contents (Elt F) → (⟨S50000x1, .f32⟩ : BufTy).Contents (Elt F)),
    StableHlo.unary main_v126 main_v127 (broadcastInDim S50000x256 ![0, 1] bcast_S50000x1_S50000x256_0_1 : (⟨S50000x1, .f32⟩ : BufTy).Contents (Elt F) → (⟨S50000x256, .f32⟩ : BufTy).Contents (Elt F)),
    StableHlo.binary main_v122 main_v127 main_v128 (subf : (⟨S50000x256, .f32⟩ : BufTy).Contents (Elt F) → (⟨S50000x256, .f32⟩ : BufTy).Contents (Elt F) → (⟨S50000x256, .f32⟩ : BufTy).Contents (Elt F)),
    StableHlo.binary main_v128 main_v128 main_v129 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x00000000#32),
    StableHlo.binary main_v129 main_cst_29 main_v130 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v130 main_v131 (broadcastInDim S50000x1 ![0] bcast_S50000_S50000x1_0 : (⟨S50000, .f32⟩ : BufTy).Contents (Elt F) → (⟨S50000x1, .f32⟩ : BufTy).Contents (Elt F)),
    StableHlo.nullary main_cst_30 (constant S_ .f32 0x43800000#32),
    StableHlo.unary main_cst_30 main_v132 (broadcastInDim S50000x1 ![] bcast_S_S50000x1 : (⟨S_, .f32⟩ : BufTy).Contents (Elt F) → (⟨S50000x1, .f32⟩ : BufTy).Contents (Elt F)),
    StableHlo.binary main_v131 main_v132 main_v133 (Host.divf : (⟨S50000x1, .f32⟩ : BufTy).Contents (Elt F) → (⟨S50000x1, .f32⟩ : BufTy).Contents (Elt F) → (⟨S50000x1, .f32⟩ : BufTy).Contents (Elt F)),
    StableHlo.unary main_v126 main_v134 (broadcastInDim S50000x256 ![0, 1] bcast_S50000x1_S50000x256_0_1 : (⟨S50000x1, .f32⟩ : BufTy).Contents (Elt F) → (⟨S50000x256, .f32⟩ : BufTy).Contents (Elt F)),
    StableHlo.binary main_v122 main_v134 main_v135 (subf : (⟨S50000x256, .f32⟩ : BufTy).Contents (Elt F) → (⟨S50000x256, .f32⟩ : BufTy).Contents (Elt F) → (⟨S50000x256, .f32⟩ : BufTy).Contents (Elt F)),
    StableHlo.nullary main_cst_31 (constant S_ .f32 0x3727C5AC#32),
    StableHlo.unary main_cst_31 main_v136 (broadcastInDim S50000x1 ![] bcast_S_S50000x1 : (⟨S_, .f32⟩ : BufTy).Contents (Elt F) → (⟨S50000x1, .f32⟩ : BufTy).Contents (Elt F)),
    StableHlo.binary main_v133 main_v136 main_v137 (addf : (⟨S50000x1, .f32⟩ : BufTy).Contents (Elt F) → (⟨S50000x1, .f32⟩ : BufTy).Contents (Elt F) → (⟨S50000x1, .f32⟩ : BufTy).Contents (Elt F)),
    StableHlo.unary main_v137 main_v138 (Host.rsqrt : (⟨S50000x1, .f32⟩ : BufTy).Contents (Elt F) → (⟨S50000x1, .f32⟩ : BufTy).Contents (Elt F)),
    StableHlo.unary main_v138 main_v139 (broadcastInDim S50000x256 ![0, 1] bcast_S50000x1_S50000x256_0_1 : (⟨S50000x1, .f32⟩ : BufTy).Contents (Elt F) → (⟨S50000x256, .f32⟩ : BufTy).Contents (Elt F)),
    StableHlo.binary main_v135 main_v139 main_v140 (mulf : (⟨S50000x256, .f32⟩ : BufTy).Contents (Elt F) → (⟨S50000x256, .f32⟩ : BufTy).Contents (Elt F) → (⟨S50000x256, .f32⟩ : BufTy).Contents (Elt F)),
    StableHlo.unary main_arg8 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S50000x256 ![0, 1] bcast_S1x256_S50000x256_0_1 : (⟨S1x256, .f32⟩ : BufTy).Contents (Elt F) → (⟨S50000x256, .f32⟩ : BufTy).Contents (Elt F)),
    StableHlo.binary main_v140 main_v142 main_v143 (mulf : (⟨S50000x256, .f32⟩ : BufTy).Contents (Elt F) → (⟨S50000x256, .f32⟩ : BufTy).Contents (Elt F) → (⟨S50000x256, .f32⟩ : BufTy).Contents (Elt F)),
    StableHlo.unary main_arg9 main_v144 (broadcastInDim S1x256 ![1] bcast_S256_S1x256_1 : (⟨S256, .f32⟩ : BufTy).Contents (Elt F) → (⟨S1x256, .f32⟩ : BufTy).Contents (Elt F)),
    StableHlo.unary main_v144 main_v145 (broadcastInDim S50000x256 ![0, 1] bcast_S1x256_S50000x256_0_1 : (⟨S1x256, .f32⟩ : BufTy).Contents (Elt F) → (⟨S50000x256, .f32⟩ : BufTy).Contents (Elt F)),
    StableHlo.binary main_v143 main_v145 main_v146 (addf : (⟨S50000x256, .f32⟩ : BufTy).Contents (Elt F) → (⟨S50000x256, .f32⟩ : BufTy).Contents (Elt F) → (⟨S50000x256, .f32⟩ : BufTy).Contents (Elt F)),
    StableHlo.nullary main_call3_cst (constant S_ .f32 0x00000000#32),
    StableHlo.unary main_call3_cst main_call3_v0 (broadcastInDim S50000x256 ![] bcast_S_S50000x256 : (⟨S_, .f32⟩ : BufTy).Contents (Elt F) → (⟨S50000x256, .f32⟩ : BufTy).Contents (Elt F)),
    StableHlo.binary main_v146 main_call3_v0 main_call3_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_0 (constant S_ .f32 0x00000000#32),
    StableHlo.unary main_call3_cst_0 main_call3_v2 (broadcastInDim S50000x256 ![] bcast_S_S50000x256 : (⟨S_, .f32⟩ : BufTy).Contents (Elt F) → (⟨S50000x256, .f32⟩ : BufTy).Contents (Elt F)),
    StableHlo.binary main_v146 main_call3_v2 main_call3_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S50000x256 ![] bcast_S_S50000x256 : (⟨S_, .f32⟩ : BufTy).Contents (Elt F) → (⟨S50000x256, .f32⟩ : BufTy).Contents (Elt F)),
    StableHlo.ternary main_call3_v3 main_call3_call0_v1 main_v146 main_call3_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call3_v4 main_call3_v5 (Host.expm1 : (⟨S50000x256, .f32⟩ : BufTy).Contents (Elt F) → (⟨S50000x256, .f32⟩ : BufTy).Contents (Elt F)),
    StableHlo.nullary main_call3_cst_2 (constant S_ .f32 0x3F800000#32),
    StableHlo.unary main_call3_cst_2 main_call3_v6 (broadcastInDim S50000x256 ![] bcast_S_S50000x256 : (⟨S_, .f32⟩ : BufTy).Contents (Elt F) → (⟨S50000x256, .f32⟩ : BufTy).Contents (Elt F)),
    StableHlo.binary main_call3_v6 main_call3_v5 main_call3_v7 (mulf : (⟨S50000x256, .f32⟩ : BufTy).Contents (Elt F) → (⟨S50000x256, .f32⟩ : BufTy).Contents (Elt F) → (⟨S50000x256, .f32⟩ : BufTy).Contents (Elt F)),
    StableHlo.ternary main_call3_v1 main_v146 main_call3_v7 main_v147 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- The buffers stage 6 writes. -/
abbrev wr6 : List (Ref sig .tc) :=
  [main_cst_27, main_v123, main_v124, main_cst_28, main_v125, main_v126, main_v127, main_v128, main_v129, main_cst_29,
    main_v130, main_v131, main_cst_30, main_v132, main_v133, main_v134, main_v135, main_cst_31, main_v136, main_v137,
    main_v138, main_v139, main_v140, main_v141, main_v142, main_v143, main_v144, main_v145, main_v146, main_call3_cst,
    main_call3_v0, main_call3_v1, main_call3_cst_0, main_call3_v2, main_call3_v3, main_call3_cst_1, main_call3_call0_v0, main_call3_call0_v1, main_call3_v4, main_call3_v5,
    main_call3_cst_2, main_call3_v6, main_call3_v7, main_v147]

theorem T6_sub : (T6 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem T6_fresh : (T6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem T6_writes : (T6 : List (HloOp τ sig (Elt F))).Forall fun op => op.writes ⊆ (wr6.map (Proc.devRef (τ := τ) .tc)).toFinset :=
  ⟨ws main_cst_27 rfl (by decide), ws main_v123 rfl (by decide), ws main_v124 rfl (by decide),
    ws main_cst_28 rfl (by decide), ws main_v125 rfl (by decide), ws main_v126 rfl (by decide),
    ws main_v127 rfl (by decide), ws main_v128 rfl (by decide), ws main_v129 rfl (by decide),
    ws main_cst_29 rfl (by decide), ws main_v130 rfl (by decide), ws main_v131 rfl (by decide),
    ws main_cst_30 rfl (by decide), ws main_v132 rfl (by decide), ws main_v133 rfl (by decide),
    ws main_v134 rfl (by decide), ws main_v135 rfl (by decide), ws main_cst_31 rfl (by decide),
    ws main_v136 rfl (by decide), ws main_v137 rfl (by decide), ws main_v138 rfl (by decide),
    ws main_v139 rfl (by decide), ws main_v140 rfl (by decide), ws main_v141 rfl (by decide),
    ws main_v142 rfl (by decide), ws main_v143 rfl (by decide), ws main_v144 rfl (by decide),
    ws main_v145 rfl (by decide), ws main_v146 rfl (by decide), ws main_call3_cst rfl (by decide),
    ws main_call3_v0 rfl (by decide), ws main_call3_v1 rfl (by decide), ws main_call3_cst_0 rfl (by decide),
    ws main_call3_v2 rfl (by decide), ws main_call3_v3 rfl (by decide), ws main_call3_cst_1 rfl (by decide),
    ws main_call3_call0_v0 rfl (by decide), ws main_call3_call0_v1 rfl (by decide), ws main_call3_v4 rfl (by decide),
    ws main_call3_v5 rfl (by decide), ws main_call3_cst_2 rfl (by decide), ws main_call3_v6 rfl (by decide),
    ws main_call3_v7 rfl (by decide), ws main_v147 rfl (by decide)⟩

/-- Stage 6 leaves every buffer it does not write as it was. -/
theorem T6_frame (W : Valuation τ sig (Elt F)) (r : Ref sig .tc) (hr : r ∉ wr6) :
    after T6 W (Proc.devRef .tc r) = W (Proc.devRef .tc r) :=
  after_of_writes_sub T6 W T6_writes hr

/-- The operations of stage 7: the third matrix product. -/
abbrev T7 : List (HloOp τ sig (Elt F)) :=
  [ StableHlo.binary main_v147 main_arg10 main_v148 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The buffers stage 7 writes. -/
abbrev wr7 : List (Ref sig .tc) :=
  [main_v148]

theorem T7_sub : (T7 : List (HloOp τ sig (Elt F))).Forall fun op => op.bufs ⊆ tcRefs τ sig :=
  binary_bufs_sub ..

theorem T7_fresh : (T7 : List (HloOp τ sig (Elt F))).Forall fun op => op.fresh = ∅ :=
  rfl

theorem T7_writes : (T7 : List (HloOp τ sig (Elt F))).Forall fun op => op.writes ⊆ (wr7.map (Proc.devRef (τ := τ) .tc)).toFinset :=
  ws main_v148 rfl (by decide)

/-- Stage 7 leaves every buffer it does not write as it was. -/
theorem T7_frame (W : Valuation τ sig (Elt F)) (r : Ref sig .tc) (hr : r ∉ wr7) :
    after T7 W (Proc.devRef .tc r) = W (Proc.devRef .tc r) :=
  after_of_writes_sub T7 W T7_writes hr

/-- The operations of stage 8: the third layer before normalisation. -/
abbrev T8 : List (HloOp τ sig (Elt F)) :=
  [ StableHlo.nullary main_cst_32 (constant S_ .f32 0x3F800000#32),
    StableHlo.unary main_cst_32 main_v149 (broadcastInDim S800000 ![] bcast_S_S800000 : (⟨S_, .f32⟩ : BufTy).Contents (Elt F) → (⟨S800000, .f32⟩ : BufTy).Contents (Elt F)),
    StableHlo.nullary main_cst_33 (constant S_ .f32 0x00000000#32),
    StableHlo.unary main_cst_33 main_v150 (broadcastInDim S50000 ![] bcast_S_S50000 : (⟨S_, .f32⟩ : BufTy).Contents (Elt F) → (⟨S50000, .f32⟩ : BufTy).Contents (Elt F)),
    StableHlo.unary main_v3 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_34 (constant S_ .f32 0x3F800000#32),
    StableHlo.unary main_cst_34 main_v153 (broadcastInDim S50000 ![] bcast_S_S50000 : (⟨S_, .f32⟩ : BufTy).Contents (Elt F) → (⟨S50000, .f32⟩ : BufTy).Contents (Elt F)),
    StableHlo.binary main_v152 main_v153 main_v154 (addf : (⟨S50000, .f32⟩ : BufTy).Contents (Elt F) → (⟨S50000, .f32⟩ : BufTy).Contents (Elt F) → (⟨S50000, .f32⟩ : BufTy).Contents (Elt F)),
    StableHlo.nullary main_cst_35 (constant S_ .f32 0x00000000#32),
    StableHlo.unary main_cst_35 main_v155 (broadcastInDim S50000 ![] bcast_S_S50000 : (⟨S_, .f32⟩ : BufTy).Contents (Elt F) → (⟨S50000, .f32⟩ : BufTy).Contents (Elt F)),
    StableHlo.binary main_v154 main_v155 main_v156 (cmpf .ogt : (⟨S50000, .f32⟩ : BufTy).Contents (Elt F) → (⟨S50000, .f32⟩ : BufTy).Contents (Elt F) → (⟨S50000, .i1⟩ : BufTy).Contents (Elt F)),
    StableHlo.unary main_v154 main_v157 (Host.rsqrt : (⟨S50000, .f32⟩ : BufTy).Contents (Elt F) → (⟨S50000, .f32⟩ : BufTy).Contents (Elt F)),
    StableHlo.nullary main_cst_36 (constant S_ .f32 0x00000000#32),
    StableHlo.unary main_cst_36 main_call4_v0 (id : (⟨S_, .f32⟩ : BufTy).Contents (Elt F) → (⟨S_, .f32⟩ : BufTy).Contents (Elt F)),
    StableHlo.unary main_call4_v0 main_call4_v1 (broadcastInDim S50000 ![] bcast_S_S50000 : (⟨S_, .f32⟩ : BufTy).Contents (Elt F) → (⟨S50000, .f32⟩ : BufTy).Contents (Elt F)),
    StableHlo.ternary main_v156 main_v157 main_call4_v1 main_v158 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c_37 (constantI S_ 32 0#32),
    StableHlo.unary main_c_37 main_v159 (broadcastInDim S800000 ![] bcast_S_S800000 : (⟨S_, .i32⟩ : BufTy).Contents (Elt F) → (⟨S800000, .i32⟩ : BufTy).Contents (Elt F)),
    StableHlo.binary main_v1 main_v159 main_v160 (cmpi .slt : (⟨S800000, .i32⟩ : BufTy).Contents (Elt F) → (⟨S800000, .i32⟩ : BufTy).Contents (Elt F) → (⟨S800000, .i1⟩ : BufTy).Contents (Elt F)),
    StableHlo.nullary main_c_38 (constantI S_ 32 50000#32),
    StableHlo.unary main_c_38 main_v161 (broadcastInDim S800000 ![] bcast_S_S800000 : (⟨S_, .i32⟩ : BufTy).Contents (Elt F) → (⟨S800000, .i32⟩ : BufTy).Contents (Elt F)),
    StableHlo.binary main_v1 main_v161 main_v162 (addi : (⟨S800000, .i32⟩ : BufTy).Contents (Elt F) → (⟨S800000, .i32⟩ : BufTy).Contents (Elt F) → (⟨S800000, .i32⟩ : BufTy).Contents (Elt F)),
    StableHlo.ternary main_v160 main_v162 main_v1 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v163 main_v164 (broadcastInDim S800000x1 ![0] bcast_S800000_S800000x1_0 : (⟨S800000, .i32⟩ : BufTy).Contents (Elt F) → (⟨S800000x1, .i32⟩ : BufTy).Contents (Elt F)),
    StableHlo.binary main_v158 main_v164 main_v165 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_39 (constantI S_ 32 0#32),
    StableHlo.unary main_c_39 main_v166 (broadcastInDim S800000 ![] bcast_S_S800000 : (⟨S_, .i32⟩ : BufTy).Contents (Elt F) → (⟨S800000, .i32⟩ : BufTy).Contents (Elt F)),
    StableHlo.binary main_v3 main_v166 main_v167 (cmpi .slt : (⟨S800000, .i32⟩ : BufTy).Contents (Elt F) → (⟨S800000, .i32⟩ : BufTy).Contents (Elt F) → (⟨S800000, .i1⟩ : BufTy).Contents (Elt F)),
    StableHlo.nullary main_c_40 (constantI S_ 32 50000#32),
    StableHlo.unary main_c_40 main_v168 (broadcastInDim S800000 ![] bcast_S_S800000 : (⟨S_, .i32⟩ : BufTy).Contents (Elt F) → (⟨S800000, .i32⟩ : BufTy).Contents (Elt F)),
    StableHlo.binary main_v3 main_v168 main_v169 (addi : (⟨S800000, .i32⟩ : BufTy).Contents (Elt F) → (⟨S800000, .i32⟩ : BufTy).Contents (Elt F) → (⟨S800000, .i32⟩ : BufTy).Contents (Elt F)),
    StableHlo.ternary main_v167 main_v169 main_v3 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v170 main_v171 (broadcastInDim S800000x1 ![0] bcast_S800000_S800000x1_0 : (⟨S800000, .i32⟩ : BufTy).Contents (Elt F) → (⟨S800000x1, .i32⟩ : BufTy).Contents (Elt F)),
    StableHlo.binary main_v158 main_v171 main_v172 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v165 main_v172 main_v173 (mulf : (⟨S800000, .f32⟩ : BufTy).Contents (Elt F) → (⟨S800000, .f32⟩ : BufTy).Contents (Elt F) → (⟨S800000, .f32⟩ : BufTy).Contents (Elt F)),
    StableHlo.nullary main_c_41 (constantI S_ 32 0#32),
    StableHlo.unary main_c_41 main_v174 (broadcastInDim S800000 ![] bcast_S_S800000 : (⟨S_, .i32⟩ : BufTy).Contents (Elt F) → (⟨S800000, .i32⟩ : BufTy).Contents (Elt F)),
    StableHlo.binary main_v1 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 50000#32),
    StableHlo.unary main_c_42 main_v176 (broadcastInDim S800000 ![] bcast_S_S800000 : (⟨S_, .i32⟩ : BufTy).Contents (Elt F) → (⟨S800000, .i32⟩ : BufTy).Contents (Elt F)),
    StableHlo.binary main_v1 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v1 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v148 main_v179 main_v180 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v173 main_v181 (broadcastInDim S800000x1 ![0] bcast_S800000_S800000x1_0 : (⟨S800000, .f32⟩ : BufTy).Contents (Elt F) → (⟨S800000x1, .f32⟩ : BufTy).Contents (Elt F)),
    StableHlo.unary main_v181 main_v182 (broadcastInDim S800000x128 ![0, 1] bcast_S800000x1_S800000x128_0_1 : (⟨S800000x1, .f32⟩ : BufTy).Contents (Elt F) → (⟨S800000x128, .f32⟩ : BufTy).Contents (Elt F)),
    StableHlo.binary main_v180 main_v182 main_v183 (mulf : (⟨S800000x128, .f32⟩ : BufTy).Contents (Elt F) → (⟨S800000x128, .f32⟩ : BufTy).Contents (Elt F) → (⟨S800000x128, .f32⟩ : BufTy).Contents (Elt F)),
    StableHlo.nullary main_cst_43 (constant S_ .f32 0x00000000#32),
    StableHlo.unary main_cst_43 main_v184 (broadcastInDim S50000x128 ![] bcast_S_S50000x128 : (⟨S_, .f32⟩ : BufTy).Contents (Elt F) → (⟨S50000x128, .f32⟩ : BufTy).Contents (Elt F)),
    StableHlo.unary main_v3 main_v185 (broadcastInDim S800000x1 ![0] bcast_S800000_S800000x1_0 : (⟨S800000, .i32⟩ : BufTy).Contents (Elt F) → (⟨S800000x1, .i32⟩ : BufTy).Contents (Elt F)),
    StableHlo.ternary main_v184 main_v185 main_v183 main_v186 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v158 main_v158 main_v187 (mulf : (⟨S50000, .f32⟩ : BufTy).Contents (Elt F) → (⟨S50000, .f32⟩ : BufTy).Contents (Elt F) → (⟨S50000, .f32⟩ : BufTy).Contents (Elt F)),
    StableHlo.unary main_v187 main_v188 (broadcastInDim S50000x1 ![0] bcast_S50000_S50000x1_0 : (⟨S50000, .f32⟩ : BufTy).Contents (Elt F) → (⟨S50000x1, .f32⟩ : BufTy).Contents (Elt F)),
    StableHlo.unary main_v188 main_v189 (broadcastInDim S50000x128 ![0, 1] bcast_S50000x1_S50000x128_0_1 : (⟨S50000x1, .f32⟩ : BufTy).Contents (Elt F) → (⟨S50000x128, .f32⟩ : BufTy).Contents (Elt F)),
    StableHlo.binary main_v148 main_v189 main_v190 (mulf : (⟨S50000x128, .f32⟩ : BufTy).Contents (Elt F) → (⟨S50000x128, .f32⟩ : BufTy).Contents (Elt F) → (⟨S50000x128, .f32⟩ : BufTy).Contents (Elt F)),
    StableHlo.binary main_v186 main_v190 main_v191 (addf : (⟨S50000x128, .f32⟩ : BufTy).Contents (Elt F) → (⟨S50000x128, .f32⟩ : BufTy).Contents (Elt F) → (⟨S50000x128, .f32⟩ : BufTy).Contents (Elt F)),
    StableHlo.unary main_arg11 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v191 main_v193 main_v194 (addf : (⟨S50000x128, .f32⟩ : BufTy).Contents (Elt F) → (⟨S50000x128, .f32⟩ : BufTy).Contents (Elt F) → (⟨S50000x128, .f32⟩ : BufTy).Contents (Elt F)) ]

/-- The buffers stage 8 writes. -/
abbrev wr8 : List (Ref sig .tc) :=
  [main_cst_32, main_v149, main_cst_33, main_v150, main_v151, main_v152, main_cst_34, main_v153, main_v154, main_cst_35,
    main_v155, main_v156, main_v157, main_cst_36, main_call4_v0, main_call4_v1, main_v158, main_c_37, main_v159, main_v160,
    main_c_38, main_v161, main_v162, main_v163, main_v164, main_v165, main_c_39, main_v166, main_v167, main_c_40,
    main_v168, main_v169, main_v170, main_v171, main_v172, main_v173, main_c_41, main_v174, main_v175, main_c_42,
    main_v176, main_v177, main_v178, main_v179, main_v180, main_v181, main_v182, main_v183, main_cst_43, main_v184,
    main_v185, main_v186, main_v187, main_v188, main_v189, main_v190, main_v191, main_v192, main_v193, main_v194]

theorem T8_sub : (T8 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..⟩

theorem T8_fresh : (T8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem T8_writes : (T8 : List (HloOp τ sig (Elt F))).Forall fun op => op.writes ⊆ (wr8.map (Proc.devRef (τ := τ) .tc)).toFinset :=
  ⟨ws main_cst_32 rfl (by decide), ws main_v149 rfl (by decide), ws main_cst_33 rfl (by decide),
    ws main_v150 rfl (by decide), ws main_v151 rfl (by decide), ws main_v152 rfl (by decide),
    ws main_cst_34 rfl (by decide), ws main_v153 rfl (by decide), ws main_v154 rfl (by decide),
    ws main_cst_35 rfl (by decide), ws main_v155 rfl (by decide), ws main_v156 rfl (by decide),
    ws main_v157 rfl (by decide), ws main_cst_36 rfl (by decide), ws main_call4_v0 rfl (by decide),
    ws main_call4_v1 rfl (by decide), ws main_v158 rfl (by decide), ws main_c_37 rfl (by decide),
    ws main_v159 rfl (by decide), ws main_v160 rfl (by decide), ws main_c_38 rfl (by decide),
    ws main_v161 rfl (by decide), ws main_v162 rfl (by decide), ws main_v163 rfl (by decide),
    ws main_v164 rfl (by decide), ws main_v165 rfl (by decide), ws main_c_39 rfl (by decide),
    ws main_v166 rfl (by decide), ws main_v167 rfl (by decide), ws main_c_40 rfl (by decide),
    ws main_v168 rfl (by decide), ws main_v169 rfl (by decide), ws main_v170 rfl (by decide),
    ws main_v171 rfl (by decide), ws main_v172 rfl (by decide), ws main_v173 rfl (by decide),
    ws main_c_41 rfl (by decide), ws main_v174 rfl (by decide), ws main_v175 rfl (by decide),
    ws main_c_42 rfl (by decide), ws main_v176 rfl (by decide), ws main_v177 rfl (by decide),
    ws main_v178 rfl (by decide), ws main_v179 rfl (by decide), ws main_v180 rfl (by decide),
    ws main_v181 rfl (by decide), ws main_v182 rfl (by decide), ws main_v183 rfl (by decide),
    ws main_cst_43 rfl (by decide), ws main_v184 rfl (by decide), ws main_v185 rfl (by decide),
    ws main_v186 rfl (by decide), ws main_v187 rfl (by decide), ws main_v188 rfl (by decide),
    ws main_v189 rfl (by decide), ws main_v190 rfl (by decide), ws main_v191 rfl (by decide),
    ws main_v192 rfl (by decide), ws main_v193 rfl (by decide), ws main_v194 rfl (by decide)⟩

/-- Stage 8 leaves every buffer it does not write as it was. -/
theorem T8_frame (W : Valuation τ sig (Elt F)) (r : Ref sig .tc) (hr : r ∉ wr8) :
    after T8 W (Proc.devRef .tc r) = W (Proc.devRef .tc r) :=
  after_of_writes_sub T8 W T8_writes hr

/-- The operations of stage 9: the third normalisation and ELU. -/
abbrev T9 : List (HloOp τ sig (Elt F)) :=
  [ StableHlo.nullary main_cst_44 (constant S_ .f32 0x00000000#32),
    StableHlo.binary main_v194 main_cst_44 main_v195 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v195 main_v196 (broadcastInDim S50000x1 ![0] bcast_S50000_S50000x1_0 : (⟨S50000, .f32⟩ : BufTy).Contents (Elt F) → (⟨S50000x1, .f32⟩ : BufTy).Contents (Elt F)),
    StableHlo.nullary main_cst_45 (constant S_ .f32 0x43000000#32),
    StableHlo.unary main_cst_45 main_v197 (broadcastInDim S50000x1 ![] bcast_S_S50000x1 : (⟨S_, .f32⟩ : BufTy).Contents (Elt F) → (⟨S50000x1, .f32⟩ : BufTy).Contents (Elt F)),
    StableHlo.binary main_v196 main_v197 main_v198 (Host.divf : (⟨S50000x1, .f32⟩ : BufTy).Contents (Elt F) → (⟨S50000x1, .f32⟩ : BufTy).Contents (Elt F) → (⟨S50000x1, .f32⟩ : BufTy).Contents (Elt F)),
    StableHlo.unary main_v198 main_v199 (broadcastInDim S50000x128 ![0, 1] bcast_S50000x1_S50000x128_0_1 : (⟨S50000x1, .f32⟩ : BufTy).Contents (Elt F) → (⟨S50000x128, .f32⟩ : BufTy).Contents (Elt F)),
    StableHlo.binary main_v194 main_v199 main_v200 (subf : (⟨S50000x128, .f32⟩ : BufTy).Contents (Elt F) → (⟨S50000x128, .f32⟩ : BufTy).Contents (Elt F) → (⟨S50000x128, .f32⟩ : BufTy).Contents (Elt F)),
    StableHlo.binary main_v200 main_v200 main_v201 (mulf : (⟨S50000x128, .f32⟩ : BufTy).Contents (Elt F) → (⟨S50000x128, .f32⟩ : BufTy).Contents (Elt F) → (⟨S50000x128, .f32⟩ : BufTy).Contents (Elt F)),
    StableHlo.nullary main_cst_46 (constant S_ .f32 0x00000000#32),
    StableHlo.binary main_v201 main_cst_46 main_v202 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → (⟨S50000x1, .f32⟩ : BufTy).Contents (Elt F)),
    StableHlo.nullary main_cst_47 (constant S_ .f32 0x43000000#32),
    StableHlo.unary main_cst_47 main_v204 (broadcastInDim S50000x1 ![] bcast_S_S50000x1 : (⟨S_, .f32⟩ : BufTy).Contents (Elt F) → (⟨S50000x1, .f32⟩ : BufTy).Contents (Elt F)),
    StableHlo.binary main_v203 main_v204 main_v205 (Host.divf : (⟨S50000x1, .f32⟩ : BufTy).Contents (Elt F) → (⟨S50000x1, .f32⟩ : BufTy).Contents (Elt F) → (⟨S50000x1, .f32⟩ : BufTy).Contents (Elt F)),
    StableHlo.unary main_v198 main_v206 (broadcastInDim S50000x128 ![0, 1] bcast_S50000x1_S50000x128_0_1 : (⟨S50000x1, .f32⟩ : BufTy).Contents (Elt F) → (⟨S50000x128, .f32⟩ : BufTy).Contents (Elt F)),
    StableHlo.binary main_v194 main_v206 main_v207 (subf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3727C5AC#32),
    StableHlo.unary main_cst_48 main_v208 (broadcastInDim S50000x1 ![] bcast_S_S50000x1 : (⟨S_, .f32⟩ : BufTy).Contents (Elt F) → (⟨S50000x1, .f32⟩ : BufTy).Contents (Elt F)),
    StableHlo.binary main_v205 main_v208 main_v209 (addf : (⟨S50000x1, .f32⟩ : BufTy).Contents (Elt F) → (⟨S50000x1, .f32⟩ : BufTy).Contents (Elt F) → (⟨S50000x1, .f32⟩ : BufTy).Contents (Elt F)),
    StableHlo.unary main_v209 main_v210 (Host.rsqrt : (⟨S50000x1, .f32⟩ : BufTy).Contents (Elt F) → (⟨S50000x1, .f32⟩ : BufTy).Contents (Elt F)),
    StableHlo.unary main_v210 main_v211 (broadcastInDim S50000x128 ![0, 1] bcast_S50000x1_S50000x128_0_1 : (⟨S50000x1, .f32⟩ : BufTy).Contents (Elt F) → (⟨S50000x128, .f32⟩ : BufTy).Contents (Elt F)),
    StableHlo.binary main_v207 main_v211 main_v212 (mulf : (⟨S50000x128, .f32⟩ : BufTy).Contents (Elt F) → (⟨S50000x128, .f32⟩ : BufTy).Contents (Elt F) → (⟨S50000x128, .f32⟩ : BufTy).Contents (Elt F)),
    StableHlo.unary main_arg12 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v214 main_v215 (mulf : (⟨S50000x128, .f32⟩ : BufTy).Contents (Elt F) → (⟨S50000x128, .f32⟩ : BufTy).Contents (Elt F) → (⟨S50000x128, .f32⟩ : BufTy).Contents (Elt F)),
    StableHlo.unary main_arg13 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v217 main_v218 (addf : (⟨S50000x128, .f32⟩ : BufTy).Contents (Elt F) → (⟨S50000x128, .f32⟩ : BufTy).Contents (Elt F) → (⟨S50000x128, .f32⟩ : BufTy).Contents (Elt F)),
    StableHlo.nullary main_call5_cst (constant S_ .f32 0x00000000#32),
    StableHlo.unary main_call5_cst main_call5_v0 (broadcastInDim S50000x128 ![] bcast_S_S50000x128 : (⟨S_, .f32⟩ : BufTy).Contents (Elt F) → (⟨S50000x128, .f32⟩ : BufTy).Contents (Elt F)),
    StableHlo.binary main_v218 main_call5_v0 main_call5_v1 (cmpf .ogt : (⟨S50000x128, .f32⟩ : BufTy).Contents (Elt F) → (⟨S50000x128, .f32⟩ : BufTy).Contents (Elt F) → (⟨S50000x128, .i1⟩ : BufTy).Contents (Elt F)),
    StableHlo.nullary main_call5_cst_0 (constant S_ .f32 0x00000000#32),
    StableHlo.unary main_call5_cst_0 main_call5_v2 (broadcastInDim S50000x128 ![] bcast_S_S50000x128 : (⟨S_, .f32⟩ : BufTy).Contents (Elt F) → (⟨S50000x128, .f32⟩ : BufTy).Contents (Elt F)),
    StableHlo.binary main_v218 main_call5_v2 main_call5_v3 (cmpf .ogt : (⟨S50000x128, .f32⟩ : BufTy).Contents (Elt F) → (⟨S50000x128, .f32⟩ : BufTy).Contents (Elt F) → (⟨S50000x128, .i1⟩ : BufTy).Contents (Elt F)),
    StableHlo.nullary main_call5_cst_1 (constant S_ .f32 0x00000000#32),
    StableHlo.unary main_call5_cst_1 main_call5_call0_v0 (id : (⟨S_, .f32⟩ : BufTy).Contents (Elt F) → (⟨S_, .f32⟩ : BufTy).Contents (Elt F)),
    StableHlo.unary main_call5_call0_v0 main_call5_call0_v1 (broadcastInDim S50000x128 ![] bcast_S_S50000x128 : (⟨S_, .f32⟩ : BufTy).Contents (Elt F) → (⟨S50000x128, .f32⟩ : BufTy).Contents (Elt F)),
    StableHlo.ternary main_call5_v3 main_call5_call0_v1 main_v218 main_call5_v4 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.unary main_call5_v4 main_call5_v5 (Host.expm1 : (⟨S50000x128, .f32⟩ : BufTy).Contents (Elt F) → (⟨S50000x128, .f32⟩ : BufTy).Contents (Elt F)),
    StableHlo.nullary main_call5_cst_2 (constant S_ .f32 0x3F800000#32),
    StableHlo.unary main_call5_cst_2 main_call5_v6 (broadcastInDim S50000x128 ![] bcast_S_S50000x128 : (⟨S_, .f32⟩ : BufTy).Contents (Elt F) → (⟨S50000x128, .f32⟩ : BufTy).Contents (Elt F)),
    StableHlo.binary main_call5_v6 main_call5_v5 main_call5_v7 (mulf : (⟨S50000x128, .f32⟩ : BufTy).Contents (Elt F) → (⟨S50000x128, .f32⟩ : BufTy).Contents (Elt F) → (⟨S50000x128, .f32⟩ : BufTy).Contents (Elt F)),
    StableHlo.ternary main_call5_v1 main_v218 main_call5_v7 main_v219 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

/-- The buffers stage 9 writes. -/
abbrev wr9 : List (Ref sig .tc) :=
  [main_cst_44, main_v195, main_v196, main_cst_45, main_v197, main_v198, main_v199, main_v200, main_v201, main_cst_46,
    main_v202, main_v203, main_cst_47, main_v204, main_v205, main_v206, main_v207, main_cst_48, main_v208, main_v209,
    main_v210, main_v211, main_v212, main_v213, main_v214, main_v215, main_v216, main_v217, main_v218, main_call5_cst,
    main_call5_v0, main_call5_v1, main_call5_cst_0, main_call5_v2, main_call5_v3, main_call5_cst_1, main_call5_call0_v0, main_call5_call0_v1, main_call5_v4, main_call5_v5,
    main_call5_cst_2, main_call5_v6, main_call5_v7, main_v219]

theorem T9_sub : (T9 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem T9_fresh : (T9 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem T9_writes : (T9 : List (HloOp τ sig (Elt F))).Forall fun op => op.writes ⊆ (wr9.map (Proc.devRef (τ := τ) .tc)).toFinset :=
  ⟨ws main_cst_44 rfl (by decide), ws main_v195 rfl (by decide), ws main_v196 rfl (by decide),
    ws main_cst_45 rfl (by decide), ws main_v197 rfl (by decide), ws main_v198 rfl (by decide),
    ws main_v199 rfl (by decide), ws main_v200 rfl (by decide), ws main_v201 rfl (by decide),
    ws main_cst_46 rfl (by decide), ws main_v202 rfl (by decide), ws main_v203 rfl (by decide),
    ws main_cst_47 rfl (by decide), ws main_v204 rfl (by decide), ws main_v205 rfl (by decide),
    ws main_v206 rfl (by decide), ws main_v207 rfl (by decide), ws main_cst_48 rfl (by decide),
    ws main_v208 rfl (by decide), ws main_v209 rfl (by decide), ws main_v210 rfl (by decide),
    ws main_v211 rfl (by decide), ws main_v212 rfl (by decide), ws main_v213 rfl (by decide),
    ws main_v214 rfl (by decide), ws main_v215 rfl (by decide), ws main_v216 rfl (by decide),
    ws main_v217 rfl (by decide), ws main_v218 rfl (by decide), ws main_call5_cst rfl (by decide),
    ws main_call5_v0 rfl (by decide), ws main_call5_v1 rfl (by decide), ws main_call5_cst_0 rfl (by decide),
    ws main_call5_v2 rfl (by decide), ws main_call5_v3 rfl (by decide), ws main_call5_cst_1 rfl (by decide),
    ws main_call5_call0_v0 rfl (by decide), ws main_call5_call0_v1 rfl (by decide), ws main_call5_v4 rfl (by decide),
    ws main_call5_v5 rfl (by decide), ws main_call5_cst_2 rfl (by decide), ws main_call5_v6 rfl (by decide),
    ws main_call5_v7 rfl (by decide), ws main_v219 rfl (by decide)⟩

/-- Stage 9 leaves every buffer it does not write as it was. -/
theorem T9_frame (W : Valuation τ sig (Elt F)) (r : Ref sig .tc) (hr : r ∉ wr9) :
    after T9 W (Proc.devRef .tc r) = W (Proc.devRef .tc r) :=
  after_of_writes_sub T9 W T9_writes hr

/-- The operations of stage 10: the first dense product. -/
abbrev T10 : List (HloOp τ sig (Elt F)) :=
  [ StableHlo.binary main_v219 main_arg14 main_v220 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The buffers stage 10 writes. -/
abbrev wr10 : List (Ref sig .tc) :=
  [main_v220]

theorem T10_sub : (T10 : List (HloOp τ sig (Elt F))).Forall fun op => op.bufs ⊆ tcRefs τ sig :=
  binary_bufs_sub ..

theorem T10_fresh : (T10 : List (HloOp τ sig (Elt F))).Forall fun op => op.fresh = ∅ :=
  rfl

theorem T10_writes : (T10 : List (HloOp τ sig (Elt F))).Forall fun op => op.writes ⊆ (wr10.map (Proc.devRef (τ := τ) .tc)).toFinset :=
  ws main_v220 rfl (by decide)

/-- Stage 10 leaves every buffer it does not write as it was. -/
theorem T10_frame (W : Valuation τ sig (Elt F)) (r : Ref sig .tc) (hr : r ∉ wr10) :
    after T10 W (Proc.devRef .tc r) = W (Proc.devRef .tc r) :=
  after_of_writes_sub T10 W T10_writes hr

/-- The operations of stage 11: the first dense bias. -/
abbrev T11 : List (HloOp τ sig (Elt F)) :=
  [ StableHlo.unary main_arg15 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v222 main_v223 (addf : (⟨S50000x64, .f32⟩ : BufTy).Contents (Elt F) → (⟨S50000x64, .f32⟩ : BufTy).Contents (Elt F) → (⟨S50000x64, .f32⟩ : BufTy).Contents (Elt F)) ]

/-- The buffers stage 11 writes. -/
abbrev wr11 : List (Ref sig .tc) :=
  [main_v221, main_v222, main_v223]

theorem T11_sub : (T11 : List (HloOp τ sig (Elt F))).Forall fun op => op.bufs ⊆ tcRefs τ sig :=
  ⟨unary_bufs_sub .., unary_bufs_sub .., binary_bufs_sub ..⟩

theorem T11_fresh : (T11 : List (HloOp τ sig (Elt F))).Forall fun op => op.fresh = ∅ :=
  ⟨rfl, rfl, rfl⟩

theorem T11_writes : (T11 : List (HloOp τ sig (Elt F))).Forall fun op => op.writes ⊆ (wr11.map (Proc.devRef (τ := τ) .tc)).toFinset :=
  ⟨ws main_v221 rfl (by decide), ws main_v222 rfl (by decide), ws main_v223 rfl (by decide)⟩

/-- Stage 11 leaves every buffer it does not write as it was. -/
theorem T11_frame (W : Valuation τ sig (Elt F)) (r : Ref sig .tc) (hr : r ∉ wr11) :
    after T11 W (Proc.devRef .tc r) = W (Proc.devRef .tc r) :=
  after_of_writes_sub T11 W T11_writes hr

/-- The operations of stage 12: the dense normalisation and ELU. -/
abbrev T12 : List (HloOp τ sig (Elt F)) :=
  [ StableHlo.nullary main_cst_49 (constant S_ .f32 0x00000000#32),
    StableHlo.binary main_v223 main_cst_49 main_v224 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v224 main_v225 (broadcastInDim S50000x1 ![0] bcast_S50000_S50000x1_0 : (⟨S50000, .f32⟩ : BufTy).Contents (Elt F) → (⟨S50000x1, .f32⟩ : BufTy).Contents (Elt F)),
    StableHlo.nullary main_cst_50 (constant S_ .f32 0x42800000#32),
    StableHlo.unary main_cst_50 main_v226 (broadcastInDim S50000x1 ![] bcast_S_S50000x1 : (⟨S_, .f32⟩ : BufTy).Contents (Elt F) → (⟨S50000x1, .f32⟩ : BufTy).Contents (Elt F)),
    StableHlo.binary main_v225 main_v226 main_v227 (Host.divf : (⟨S50000x1, .f32⟩ : BufTy).Contents (Elt F) → (⟨S50000x1, .f32⟩ : BufTy).Contents (Elt F) → (⟨S50000x1, .f32⟩ : BufTy).Contents (Elt F)),
    StableHlo.unary main_v227 main_v228 (broadcastInDim S50000x64 ![0, 1] bcast_S50000x1_S50000x64_0_1 : (⟨S50000x1, .f32⟩ : BufTy).Contents (Elt F) → (⟨S50000x64, .f32⟩ : BufTy).Contents (Elt F)),
    StableHlo.binary main_v223 main_v228 main_v229 (subf : (⟨S50000x64, .f32⟩ : BufTy).Contents (Elt F) → (⟨S50000x64, .f32⟩ : BufTy).Contents (Elt F) → (⟨S50000x64, .f32⟩ : BufTy).Contents (Elt F)),
    StableHlo.binary main_v229 main_v229 main_v230 (mulf : (⟨S50000x64, .f32⟩ : BufTy).Contents (Elt F) → (⟨S50000x64, .f32⟩ : BufTy).Contents (Elt F) → (⟨S50000x64, .f32⟩ : BufTy).Contents (Elt F)),
    StableHlo.nullary main_cst_51 (constant S_ .f32 0x00000000#32),
    StableHlo.binary main_v230 main_cst_51 main_v231 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v231 main_v232 (broadcastInDim S50000x1 ![0] bcast_S50000_S50000x1_0 : (⟨S50000, .f32⟩ : BufTy).Contents (Elt F) → (⟨S50000x1, .f32⟩ : BufTy).Contents (Elt F)),
    StableHlo.nullary main_cst_52 (constant S_ .f32 0x42800000#32),
    StableHlo.unary main_cst_52 main_v233 (broadcastInDim S50000x1 ![] bcast_S_S50000x1 : (⟨S_, .f32⟩ : BufTy).Contents (Elt F) → (⟨S50000x1, .f32⟩ : BufTy).Contents (Elt F)),
    StableHlo.binary main_v232 main_v233 main_v234 (Host.divf : (⟨S50000x1, .f32⟩ : BufTy).Contents (Elt F) → (⟨S50000x1, .f32⟩ : BufTy).Contents (Elt F) → (⟨S50000x1, .f32⟩ : BufTy).Contents (Elt F)),
    StableHlo.unary main_v227 main_v235 (broadcastInDim S50000x64 ![0, 1] bcast_S50000x1_S50000x64_0_1 : (⟨S50000x1, .f32⟩ : BufTy).Contents (Elt F) → (⟨S50000x64, .f32⟩ : BufTy).Contents (Elt F)),
    StableHlo.binary main_v223 main_v235 main_v236 (subf : (⟨S50000x64, .f32⟩ : BufTy).Contents (Elt F) → (⟨S50000x64, .f32⟩ : BufTy).Contents (Elt F) → (⟨S50000x64, .f32⟩ : BufTy).Contents (Elt F)),
    StableHlo.nullary main_cst_53 (constant S_ .f32 0x3727C5AC#32),
    StableHlo.unary main_cst_53 main_v237 (broadcastInDim S50000x1 ![] bcast_S_S50000x1 : (⟨S_, .f32⟩ : BufTy).Contents (Elt F) → (⟨S50000x1, .f32⟩ : BufTy).Contents (Elt F)),
    StableHlo.binary main_v234 main_v237 main_v238 (addf : (⟨S50000x1, .f32⟩ : BufTy).Contents (Elt F) → (⟨S50000x1, .f32⟩ : BufTy).Contents (Elt F) → (⟨S50000x1, .f32⟩ : BufTy).Contents (Elt F)),
    StableHlo.unary main_v238 main_v239 (Host.rsqrt : (⟨S50000x1, .f32⟩ : BufTy).Contents (Elt F) → (⟨S50000x1, .f32⟩ : BufTy).Contents (Elt F)),
    StableHlo.unary main_v239 main_v240 (broadcastInDim S50000x64 ![0, 1] bcast_S50000x1_S50000x64_0_1 : (⟨S50000x1, .f32⟩ : BufTy).Contents (Elt F) → (⟨S50000x64, .f32⟩ : BufTy).Contents (Elt F)),
    StableHlo.binary main_v236 main_v240 main_v241 (mulf : (⟨S50000x64, .f32⟩ : BufTy).Contents (Elt F) → (⟨S50000x64, .f32⟩ : BufTy).Contents (Elt F) → (⟨S50000x64, .f32⟩ : BufTy).Contents (Elt F)),
    StableHlo.unary main_arg16 main_v242 (broadcastInDim S1x64 ![1] bcast_S64_S1x64_1 : (⟨S64, .f32⟩ : BufTy).Contents (Elt F) → (⟨S1x64, .f32⟩ : BufTy).Contents (Elt F)),
    StableHlo.unary main_v242 main_v243 (broadcastInDim S50000x64 ![0, 1] bcast_S1x64_S50000x64_0_1 : (⟨S1x64, .f32⟩ : BufTy).Contents (Elt F) → (⟨S50000x64, .f32⟩ : BufTy).Contents (Elt F)),
    StableHlo.binary main_v241 main_v243 main_v244 (mulf : (⟨S50000x64, .f32⟩ : BufTy).Contents (Elt F) → (⟨S50000x64, .f32⟩ : BufTy).Contents (Elt F) → (⟨S50000x64, .f32⟩ : BufTy).Contents (Elt F)),
    StableHlo.unary main_arg17 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S50000x64 ![0, 1] bcast_S1x64_S50000x64_0_1 : (⟨S1x64, .f32⟩ : BufTy).Contents (Elt F) → (⟨S50000x64, .f32⟩ : BufTy).Contents (Elt F)),
    StableHlo.binary main_v244 main_v246 main_v247 (addf : (⟨S50000x64, .f32⟩ : BufTy).Contents (Elt F) → (⟨S50000x64, .f32⟩ : BufTy).Contents (Elt F) → (⟨S50000x64, .f32⟩ : BufTy).Contents (Elt F)),
    StableHlo.nullary main_call6_cst (constant S_ .f32 0x00000000#32),
    StableHlo.unary main_call6_cst main_call6_v0 (broadcastInDim S50000x64 ![] bcast_S_S50000x64 : (⟨S_, .f32⟩ : BufTy).Contents (Elt F) → (⟨S50000x64, .f32⟩ : BufTy).Contents (Elt F)),
    StableHlo.binary main_v247 main_call6_v0 main_call6_v1 (cmpf .ogt : (⟨S50000x64, .f32⟩ : BufTy).Contents (Elt F) → (⟨S50000x64, .f32⟩ : BufTy).Contents (Elt F) → (⟨S50000x64, .i1⟩ : BufTy).Contents (Elt F)),
    StableHlo.nullary main_call6_cst_0 (constant S_ .f32 0x00000000#32),
    StableHlo.unary main_call6_cst_0 main_call6_v2 (broadcastInDim S50000x64 ![] bcast_S_S50000x64 : (⟨S_, .f32⟩ : BufTy).Contents (Elt F) → (⟨S50000x64, .f32⟩ : BufTy).Contents (Elt F)),
    StableHlo.binary main_v247 main_call6_v2 main_call6_v3 (cmpf .ogt : (⟨S50000x64, .f32⟩ : BufTy).Contents (Elt F) → (⟨S50000x64, .f32⟩ : BufTy).Contents (Elt F) → (⟨S50000x64, .i1⟩ : BufTy).Contents (Elt F)),
    StableHlo.nullary main_call6_cst_1 (constant S_ .f32 0x00000000#32),
    StableHlo.unary main_call6_cst_1 main_call6_call0_v0 (id : (⟨S_, .f32⟩ : BufTy).Contents (Elt F) → (⟨S_, .f32⟩ : BufTy).Contents (Elt F)),
    StableHlo.unary main_call6_call0_v0 main_call6_call0_v1 (broadcastInDim S50000x64 ![] bcast_S_S50000x64 : (⟨S_, .f32⟩ : BufTy).Contents (Elt F) → (⟨S50000x64, .f32⟩ : BufTy).Contents (Elt F)),
    StableHlo.ternary main_call6_v3 main_call6_call0_v1 main_v247 main_call6_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.unary main_call6_v4 main_call6_v5 (Host.expm1 : (⟨S50000x64, .f32⟩ : BufTy).Contents (Elt F) → (⟨S50000x64, .f32⟩ : BufTy).Contents (Elt F)),
    StableHlo.nullary main_call6_cst_2 (constant S_ .f32 0x3F800000#32),
    StableHlo.unary main_call6_cst_2 main_call6_v6 (broadcastInDim S50000x64 ![] bcast_S_S50000x64 : (⟨S_, .f32⟩ : BufTy).Contents (Elt F) → (⟨S50000x64, .f32⟩ : BufTy).Contents (Elt F)),
    StableHlo.binary main_call6_v6 main_call6_v5 main_call6_v7 (mulf : (⟨S50000x64, .f32⟩ : BufTy).Contents (Elt F) → (⟨S50000x64, .f32⟩ : BufTy).Contents (Elt F) → (⟨S50000x64, .f32⟩ : BufTy).Contents (Elt F)),
    StableHlo.ternary main_call6_v1 main_v247 main_call6_v7 main_v248 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- The buffers stage 12 writes. -/
abbrev wr12 : List (Ref sig .tc) :=
  [main_cst_49, main_v224, main_v225, main_cst_50, main_v226, main_v227, main_v228, main_v229, main_v230, main_cst_51,
    main_v231, main_v232, main_cst_52, main_v233, main_v234, main_v235, main_v236, main_cst_53, main_v237, main_v238,
    main_v239, main_v240, main_v241, main_v242, main_v243, main_v244, main_v245, main_v246, main_v247, main_call6_cst,
    main_call6_v0, main_call6_v1, main_call6_cst_0, main_call6_v2, main_call6_v3, main_call6_cst_1, main_call6_call0_v0, main_call6_call0_v1, main_call6_v4, main_call6_v5,
    main_call6_cst_2, main_call6_v6, main_call6_v7, main_v248]

theorem T12_sub : (T12 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem T12_fresh : (T12 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem T12_writes : (T12 : List (HloOp τ sig (Elt F))).Forall fun op => op.writes ⊆ (wr12.map (Proc.devRef (τ := τ) .tc)).toFinset :=
  ⟨ws main_cst_49 rfl (by decide), ws main_v224 rfl (by decide), ws main_v225 rfl (by decide),
    ws main_cst_50 rfl (by decide), ws main_v226 rfl (by decide), ws main_v227 rfl (by decide),
    ws main_v228 rfl (by decide), ws main_v229 rfl (by decide), ws main_v230 rfl (by decide),
    ws main_cst_51 rfl (by decide), ws main_v231 rfl (by decide), ws main_v232 rfl (by decide),
    ws main_cst_52 rfl (by decide), ws main_v233 rfl (by decide), ws main_v234 rfl (by decide),
    ws main_v235 rfl (by decide), ws main_v236 rfl (by decide), ws main_cst_53 rfl (by decide),
    ws main_v237 rfl (by decide), ws main_v238 rfl (by decide), ws main_v239 rfl (by decide),
    ws main_v240 rfl (by decide), ws main_v241 rfl (by decide), ws main_v242 rfl (by decide),
    ws main_v243 rfl (by decide), ws main_v244 rfl (by decide), ws main_v245 rfl (by decide),
    ws main_v246 rfl (by decide), ws main_v247 rfl (by decide), ws main_call6_cst rfl (by decide),
    ws main_call6_v0 rfl (by decide), ws main_call6_v1 rfl (by decide), ws main_call6_cst_0 rfl (by decide),
    ws main_call6_v2 rfl (by decide), ws main_call6_v3 rfl (by decide), ws main_call6_cst_1 rfl (by decide),
    ws main_call6_call0_v0 rfl (by decide), ws main_call6_call0_v1 rfl (by decide), ws main_call6_v4 rfl (by decide),
    ws main_call6_v5 rfl (by decide), ws main_call6_cst_2 rfl (by decide), ws main_call6_v6 rfl (by decide),
    ws main_call6_v7 rfl (by decide), ws main_v248 rfl (by decide)⟩

/-- Stage 12 leaves every buffer it does not write as it was. -/
theorem T12_frame (W : Valuation τ sig (Elt F)) (r : Ref sig .tc) (hr : r ∉ wr12) :
    after T12 W (Proc.devRef .tc r) = W (Proc.devRef .tc r) :=
  after_of_writes_sub T12 W T12_writes hr

/-- The operations of stage 13: the last dense product. -/
abbrev T13 : List (HloOp τ sig (Elt F)) :=
  [ StableHlo.binary main_v248 main_arg18 main_v249 ((fun l r => Host.dotGeneral dot_S50000x64_S64x500_S50000x500_1_0_0_1_n_n none l r) : (⟨S50000x64, .f32⟩ : BufTy).Contents (Elt F) → (⟨S64x500, .f32⟩ : BufTy).Contents (Elt F) → (⟨S50000x500, .f32⟩ : BufTy).Contents (Elt F)) ]

/-- The buffers stage 13 writes. -/
abbrev wr13 : List (Ref sig .tc) :=
  [main_v249]

theorem T13_sub : (T13 : List (HloOp τ sig (Elt F))).Forall fun op => op.bufs ⊆ tcRefs τ sig :=
  binary_bufs_sub ..

theorem T13_fresh : (T13 : List (HloOp τ sig (Elt F))).Forall fun op => op.fresh = ∅ :=
  rfl

theorem T13_writes : (T13 : List (HloOp τ sig (Elt F))).Forall fun op => op.writes ⊆ (wr13.map (Proc.devRef (τ := τ) .tc)).toFinset :=
  ws main_v249 rfl (by decide)

/-- Stage 13 leaves every buffer it does not write as it was. -/
theorem T13_frame (W : Valuation τ sig (Elt F)) (r : Ref sig .tc) (hr : r ∉ wr13) :
    after T13 W (Proc.devRef .tc r) = W (Proc.devRef .tc r) :=
  after_of_writes_sub T13 W T13_writes hr

/-- The operations of stage 14: the last dense bias. -/
abbrev T14 : List (HloOp τ sig (Elt F)) :=
  [ StableHlo.unary main_arg19 main_v250 (broadcastInDim S1x500 ![1] bcast_S500_S1x500_1 : (⟨S500, .f32⟩ : BufTy).Contents (Elt F) → (⟨S1x500, .f32⟩ : BufTy).Contents (Elt F)),
    StableHlo.unary main_v250 main_v251 (broadcastInDim S50000x500 ![0, 1] bcast_S1x500_S50000x500_0_1 : (⟨S1x500, .f32⟩ : BufTy).Contents (Elt F) → (⟨S50000x500, .f32⟩ : BufTy).Contents (Elt F)),
    StableHlo.binary main_v249 main_v251 main_v252 (addf : (⟨S50000x500, .f32⟩ : BufTy).Contents (Elt F) → (⟨S50000x500, .f32⟩ : BufTy).Contents (Elt F) → (⟨S50000x500, .f32⟩ : BufTy).Contents (Elt F)) ]

/-- The buffers stage 14 writes. -/
abbrev wr14 : List (Ref sig .tc) :=
  [main_v250, main_v251, main_v252]

theorem T14_sub : (T14 : List (HloOp τ sig (Elt F))).Forall fun op => op.bufs ⊆ tcRefs τ sig :=
  ⟨unary_bufs_sub .., unary_bufs_sub .., binary_bufs_sub ..⟩

theorem T14_fresh : (T14 : List (HloOp τ sig (Elt F))).Forall fun op => op.fresh = ∅ :=
  ⟨rfl, rfl, rfl⟩

theorem T14_writes : (T14 : List (HloOp τ sig (Elt F))).Forall fun op => op.writes ⊆ (wr14.map (Proc.devRef (τ := τ) .tc)).toFinset :=
  ⟨ws main_v250 rfl (by decide), ws main_v251 rfl (by decide), ws main_v252 rfl (by decide)⟩

/-- Stage 14 leaves every buffer it does not write as it was. -/
theorem T14_frame (W : Valuation τ sig (Elt F)) (r : Ref sig .tc) (hr : r ∉ wr14) :
    after T14 W (Proc.devRef .tc r) = W (Proc.devRef .tc r) :=
  after_of_writes_sub T14 W T14_writes hr

/-! ## Each stage's result as the stage's function of what it reads -/

attribute [local irreducible] Host.gather Host.scatterAdd Host.reduceAdd in
set_option maxRecDepth 8192 in
set_option maxHeartbeats 4000000 in
theorem T0_src (W : Valuation τ sig (Elt Ideal)) :
    after (T0 (F := Ideal)) W (Proc.devRef .tc main_v1) = srcRow (W (Proc.devRef .tc main_arg1)) := by
  after_results_simp
  rfl

attribute [local irreducible] Host.gather Host.scatterAdd Host.reduceAdd in
set_option maxRecDepth 8192 in
set_option maxHeartbeats 4000000 in
theorem T0_dst (W : Valuation τ sig (Elt Ideal)) :
    after (T0 (F := Ideal)) W (Proc.devRef .tc main_v3) = dstRow (W (Proc.devRef .tc main_arg1)) := by
  after_results_simp
  rfl

attribute [local irreducible] Host.gather Host.scatterAdd Host.reduceAdd in
set_option maxRecDepth 8192 in
set_option maxHeartbeats 4000000 in
theorem T1_out (W : Valuation τ sig (Elt Ideal)) :
    after (T1 (F := Ideal)) W (Proc.devRef .tc main_v4) = dot_128_128 (W (Proc.devRef .tc main_arg0)) (W (Proc.devRef .tc main_arg2)) := by
  after_results_simp
  rfl

attribute [local irreducible] Host.gather Host.scatterAdd Host.reduceAdd in
set_option maxRecDepth 8192 in
set_option maxHeartbeats 4000000 in
theorem T2_out (W : Valuation τ sig (Elt Ideal)) (ei : IVec S2x800000 32)
    (hs : W (Proc.devRef .tc main_v1) = srcRow ei) (hd : W (Proc.devRef .tc main_v3) = dstRow ei) :
    after (T2 (F := Ideal)) W (Proc.devRef .tc main_v50) = conv128 ei (W (Proc.devRef .tc main_v4)) (W (Proc.devRef .tc main_arg3)) := by
  after_results_simp
  simp only [hs, hd]
  rfl

attribute [local irreducible] Host.gather Host.scatterAdd Host.reduceAdd in
set_option maxRecDepth 8192 in
set_option maxHeartbeats 4000000 in
theorem T3_out (W : Valuation τ sig (Elt Ideal)) :
    after (T3 (F := Ideal)) W (Proc.devRef .tc main_v75) = lnelu128 (W (Proc.devRef .tc main_v50)) (W (Proc.devRef .tc main_arg4)) (W (Proc.devRef .tc main_arg5)) := by
  after_results_simp
  rfl

attribute [local irreducible] Host.gather Host.scatterAdd Host.reduceAdd in
set_option maxRecDepth 8192 in
set_option maxHeartbeats 4000000 in
theorem T4_out (W : Valuation τ sig (Elt Ideal)) :
    after (T4 (F := Ideal)) W (Proc.devRef .tc main_v76) = dot_128_256 (W (Proc.devRef .tc main_v75)) (W (Proc.devRef .tc main_arg6)) := by
  after_results_simp
  rfl

attribute [local irreducible] Host.gather Host.scatterAdd Host.reduceAdd in
set_option maxRecDepth 8192 in
set_option maxHeartbeats 4000000 in
theorem T5_out (W : Valuation τ sig (Elt Ideal)) (ei : IVec S2x800000 32)
    (hs : W (Proc.devRef .tc main_v1) = srcRow ei) (hd : W (Proc.devRef .tc main_v3) = dstRow ei) :
    after (T5 (F := Ideal)) W (Proc.devRef .tc main_v122) = conv256 ei (W (Proc.devRef .tc main_v76)) (W (Proc.devRef .tc main_arg7)) := by
  after_results_simp
  simp only [hs, hd]
  rfl

attribute [local irreducible] Host.gather Host.scatterAdd Host.reduceAdd in
set_option maxRecDepth 8192 in
set_option maxHeartbeats 4000000 in
theorem T6_out (W : Valuation τ sig (Elt Ideal)) :
    after (T6 (F := Ideal)) W (Proc.devRef .tc main_v147) = lnelu256 (W (Proc.devRef .tc main_v122)) (W (Proc.devRef .tc main_arg8)) (W (Proc.devRef .tc main_arg9)) := by
  after_results_simp
  rfl

attribute [local irreducible] Host.gather Host.scatterAdd Host.reduceAdd in
set_option maxRecDepth 8192 in
set_option maxHeartbeats 4000000 in
theorem T7_out (W : Valuation τ sig (Elt Ideal)) :
    after (T7 (F := Ideal)) W (Proc.devRef .tc main_v148) = dot_256_128 (W (Proc.devRef .tc main_v147)) (W (Proc.devRef .tc main_arg10)) := by
  after_results_simp
  rfl

attribute [local irreducible] Host.gather Host.scatterAdd Host.reduceAdd in
set_option maxRecDepth 8192 in
set_option maxHeartbeats 4000000 in
theorem T8_out (W : Valuation τ sig (Elt Ideal)) (ei : IVec S2x800000 32)
    (hs : W (Proc.devRef .tc main_v1) = srcRow ei) (hd : W (Proc.devRef .tc main_v3) = dstRow ei) :
    after (T8 (F := Ideal)) W (Proc.devRef .tc main_v194) = conv128 ei (W (Proc.devRef .tc main_v148)) (W (Proc.devRef .tc main_arg11)) := by
  after_results_simp
  simp only [hs, hd]
  rfl

attribute [local irreducible] Host.gather Host.scatterAdd Host.reduceAdd in
set_option maxRecDepth 8192 in
set_option maxHeartbeats 4000000 in
theorem T9_out (W : Valuation τ sig (Elt Ideal)) :
    after (T9 (F := Ideal)) W (Proc.devRef .tc main_v219) = lnelu128 (W (Proc.devRef .tc main_v194)) (W (Proc.devRef .tc main_arg12)) (W (Proc.devRef .tc main_arg13)) := by
  after_results_simp
  rfl

attribute [local irreducible] Host.gather Host.scatterAdd Host.reduceAdd in
set_option maxRecDepth 8192 in
set_option maxHeartbeats 4000000 in
theorem T10_out (W : Valuation τ sig (Elt Ideal)) :
    after (T10 (F := Ideal)) W (Proc.devRef .tc main_v220) = dot_128_64 (W (Proc.devRef .tc main_v219)) (W (Proc.devRef .tc main_arg14)) := by
  after_results_simp
  rfl

attribute [local irreducible] Host.gather Host.scatterAdd Host.reduceAdd in
set_option maxRecDepth 8192 in
set_option maxHeartbeats 4000000 in
theorem T11_out (W : Valuation τ sig (Elt Ideal)) :
    after (T11 (F := Ideal)) W (Proc.devRef .tc main_v223) = bias64 (W (Proc.devRef .tc main_v220)) (W (Proc.devRef .tc main_arg15)) := by
  after_results_simp
  rfl

attribute [local irreducible] Host.gather Host.scatterAdd Host.reduceAdd in
set_option maxRecDepth 8192 in
set_option maxHeartbeats 4000000 in
theorem T12_out (W : Valuation τ sig (Elt Ideal)) :
    after (T12 (F := Ideal)) W (Proc.devRef .tc main_v248) = lnelu64 (W (Proc.devRef .tc main_v223)) (W (Proc.devRef .tc main_arg16)) (W (Proc.devRef .tc main_arg17)) := by
  after_results_simp
  rfl

attribute [local irreducible] Host.gather Host.scatterAdd Host.reduceAdd in
set_option maxRecDepth 8192 in
set_option maxHeartbeats 4000000 in
theorem T13_out (W : Valuation τ sig (Elt Ideal)) :
    after (T13 (F := Ideal)) W (Proc.devRef .tc main_v249) = dot_64_500 (W (Proc.devRef .tc main_v248)) (W (Proc.devRef .tc main_arg18)) := by
  after_results_simp
  rfl

attribute [local irreducible] Host.gather Host.scatterAdd Host.reduceAdd in
set_option maxRecDepth 8192 in
set_option maxHeartbeats 4000000 in
theorem T14_out (W : Valuation τ sig (Elt Ideal)) :
    after (T14 (F := Ideal)) W (Proc.devRef .tc main_v252) = bias500 (W (Proc.devRef .tc main_v249)) (W (Proc.devRef .tc main_arg19)) := by
  after_results_simp
  rfl

/-! ## The whole line -/

/-- The program's operations, in order, grouped by stage. -/
abbrev ops : List (HloOp τ sig (Elt F)) :=
  T0 ++ (T1 ++ (T2 ++ (T3 ++ (T4 ++ (T5 ++ (T6 ++ (T7 ++ (T8 ++ (T9 ++ (T10 ++ (T11 ++ (T12 ++ (T13 ++ (T14))))))))))))))

/-- The windows' lists, concatenated, are the stages' lists, concatenated: the same operations in the same order. -/
theorem windows_eq_stages :
    (opsP0 ++ (opsP1 ++ (opsP2 ++ (opsP3 ++ (opsP4 ++ opsP5)))) : List (HloOp τ sig (Elt F))) = ops := rfl

/-- @main is that straight line. -/
theorem main_eq (c : Dev nD) : main (F := F) c = seq ops := by
  rw [← windows_eq_stages]
  simp only [seq_append]
  rw [← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app T0_sub (forall_app T1_sub (forall_app T2_sub (forall_app T3_sub (forall_app T4_sub (forall_app T5_sub (forall_app T6_sub (forall_app T7_sub (forall_app T8_sub (forall_app T9_sub (forall_app T10_sub (forall_app T11_sub (forall_app T12_sub (forall_app T13_sub (T14_sub))))))))))))))

theorem ops_fresh : ∀ op ∈ (ops : List (HloOp τ sig (Elt F))), op.fresh = ∅ :=
  List.forall_iff_forall_mem.mp (forall_app T0_fresh (forall_app T1_fresh (forall_app T2_fresh (forall_app T3_fresh (forall_app T4_fresh (forall_app T5_fresh (forall_app T6_fresh (forall_app T7_fresh (forall_app T8_fresh (forall_app T9_fresh (forall_app T10_fresh (forall_app T11_fresh (forall_app T12_fresh (forall_app T13_fresh (T14_fresh)))))))))))))))

/-- The fold over the whole line is the stages' folds, one after the other. -/
theorem after_ops (V : Valuation τ sig (Elt F)) : after ops V = (after T14 (after T13 (after T12 (after T11 (after T10 (after T9 (after T8 (after T7 (after T6 (after T5 (after T4 (after T3 (after T2 (after T1 (after T0 V))))))))))))))) := by
  simp only [ops, after_app]

/-- A buffer none of the first k stages writes holds after them what it held at the start. -/
theorem keep1 (V : Valuation τ sig (Elt F)) (r : Ref sig .tc) (h0 : r ∉ wr0) :
    (after T0 V) (Proc.devRef .tc r) = V (Proc.devRef .tc r) :=
  T0_frame V r h0

theorem keep2 (V : Valuation τ sig (Elt F)) (r : Ref sig .tc) (h0 : r ∉ wr0) (h1 : r ∉ wr1) :
    (after T1 (after T0 V)) (Proc.devRef .tc r) = V (Proc.devRef .tc r) :=
  (T1_frame _ r h1).trans (keep1 V r h0)

theorem keep3 (V : Valuation τ sig (Elt F)) (r : Ref sig .tc) (h0 : r ∉ wr0) (h1 : r ∉ wr1) (h2 : r ∉ wr2) :
    (after T2 (after T1 (after T0 V))) (Proc.devRef .tc r) = V (Proc.devRef .tc r) :=
  (T2_frame _ r h2).trans (keep2 V r h0 h1)

theorem keep4 (V : Valuation τ sig (Elt F)) (r : Ref sig .tc) (h0 : r ∉ wr0) (h1 : r ∉ wr1) (h2 : r ∉ wr2) (h3 : r ∉ wr3) :
    (after T3 (after T2 (after T1 (after T0 V)))) (Proc.devRef .tc r) = V (Proc.devRef .tc r) :=
  (T3_frame _ r h3).trans (keep3 V r h0 h1 h2)

theorem keep5 (V : Valuation τ sig (Elt F)) (r : Ref sig .tc) (h0 : r ∉ wr0) (h1 : r ∉ wr1) (h2 : r ∉ wr2) (h3 : r ∉ wr3) (h4 : r ∉ wr4) :
    (after T4 (after T3 (after T2 (after T1 (after T0 V))))) (Proc.devRef .tc r) = V (Proc.devRef .tc r) :=
  (T4_frame _ r h4).trans (keep4 V r h0 h1 h2 h3)

theorem keep6 (V : Valuation τ sig (Elt F)) (r : Ref sig .tc) (h0 : r ∉ wr0) (h1 : r ∉ wr1) (h2 : r ∉ wr2) (h3 : r ∉ wr3) (h4 : r ∉ wr4) (h5 : r ∉ wr5) :
    (after T5 (after T4 (after T3 (after T2 (after T1 (after T0 V)))))) (Proc.devRef .tc r) = V (Proc.devRef .tc r) :=
  (T5_frame _ r h5).trans (keep5 V r h0 h1 h2 h3 h4)

theorem keep7 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) :
    (after T6 (after T5 (after T4 (after T3 (after T2 (after T1 (after T0 V))))))) (Proc.devRef .tc r) = V (Proc.devRef .tc r) :=
  (T6_frame _ r h6).trans (keep6 V r h0 h1 h2 h3 h4 h5)

theorem keep8 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) :
    (after T7 (after T6 (after T5 (after T4 (after T3 (after T2 (after T1 (after T0 V)))))))) (Proc.devRef .tc r) = V (Proc.devRef .tc r) :=
  (T7_frame _ r h7).trans (keep7 V r h0 h1 h2 h3 h4 h5 h6)

theorem keep9 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) :
    (after T8 (after T7 (after T6 (after T5 (after T4 (after T3 (after T2 (after T1 (after T0 V))))))))) (Proc.devRef .tc r) = V (Proc.devRef .tc r) :=
  (T8_frame _ r h8).trans (keep8 V r h0 h1 h2 h3 h4 h5 h6 h7)

theorem keep10 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) :
    (after T9 (after T8 (after T7 (after T6 (after T5 (after T4 (after T3 (after T2 (after T1 (after T0 V)))))))))) (Proc.devRef .tc r) = V (Proc.devRef .tc r) :=
  (T9_frame _ r h9).trans (keep9 V r h0 h1 h2 h3 h4 h5 h6 h7 h8)

theorem keep11 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) :
    (after T10 (after T9 (after T8 (after T7 (after T6 (after T5 (after T4 (after T3 (after T2 (after T1 (after T0 V))))))))))) (Proc.devRef .tc r) = V (Proc.devRef .tc r) :=
  (T10_frame _ r h10).trans (keep10 V r h0 h1 h2 h3 h4 h5 h6 h7 h8 h9)

theorem keep12 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) :
    (after T11 (after T10 (after T9 (after T8 (after T7 (after T6 (after T5 (after T4 (after T3 (after T2 (after T1 (after T0 V)))))))))))) (Proc.devRef .tc r) = V (Proc.devRef .tc r) :=
  (T11_frame _ r h11).trans (keep11 V r h0 h1 h2 h3 h4 h5 h6 h7 h8 h9 h10)

theorem keep13 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) :
    (after T12 (after T11 (after T10 (after T9 (after T8 (after T7 (after T6 (after T5 (after T4 (after T3 (after T2 (after T1 (after T0 V))))))))))))) (Proc.devRef .tc r) = V (Proc.devRef .tc r) :=
  (T12_frame _ r h12).trans (keep12 V r h0 h1 h2 h3 h4 h5 h6 h7 h8 h9 h10 h11)

theorem keep14 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) :
    (after T13 (after T12 (after T11 (after T10 (after T9 (after T8 (after T7 (after T6 (after T5 (after T4 (after T3 (after T2 (after T1 (after T0 V)))))))))))))) (Proc.devRef .tc r) = V (Proc.devRef .tc r) :=
  (T13_frame _ r h13).trans (keep13 V r h0 h1 h2 h3 h4 h5 h6 h7 h8 h9 h10 h11 h12)

theorem keep15 (V : Valuation τ sig (Elt F)) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) (h14 : r ∉ wr14) :
    (after T14 (after T13 (after T12 (after T11 (after T10 (after T9 (after T8 (after T7 (after T6 (after T5 (after T4 (after T3 (after T2 (after T1 (after T0 V))))))))))))))) (Proc.devRef .tc r) = V (Proc.devRef .tc r) :=
  (T14_frame _ r h14).trans (keep14 V r h0 h1 h2 h3 h4 h5 h6 h7 h8 h9 h10 h11 h12 h13)

/-- The two rows of the edge table, made by the first stage, are still in their buffers when each layer reads them. -/
theorem src_at2 (V : Valuation τ sig (Elt Ideal)) :
    (after (T1 (F := Ideal)) (after (T0 (F := Ideal)) V)) (Proc.devRef .tc main_v1) = srcRow (V (Proc.devRef .tc main_arg1)) :=
  (T1_frame _ main_v1 (by decide)).trans (T0_src V)

theorem src_at5 (V : Valuation τ sig (Elt Ideal)) :
    (after (T4 (F := Ideal)) (after (T3 (F := Ideal)) (after (T2 (F := Ideal)) (after (T1 (F := Ideal)) (after (T0 (F := Ideal)) V))))) (Proc.devRef .tc main_v1) = srcRow (V (Proc.devRef .tc main_arg1)) :=
  (T4_frame _ main_v1 (by decide)).trans ((T3_frame _ main_v1 (by decide)).trans ((T2_frame _ main_v1 (by decide)).trans ((T1_frame _ main_v1 (by decide)).trans (T0_src V))))

theorem src_at8 (V : Valuation τ sig (Elt Ideal)) :
    (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))) (Proc.devRef .tc main_v1) = srcRow (V (Proc.devRef .tc main_arg1)) :=
  (T7_frame _ main_v1 (by decide)).trans ((T6_frame _ main_v1 (by decide)).trans ((T5_frame _ main_v1 (by decide)).trans ((T4_frame _ main_v1 (by decide)).trans ((T3_frame _ main_v1 (by decide)).trans ((T2_frame _ main_v1 (by decide)).trans ((T1_frame _ main_v1 (by decide)).trans (T0_src V)))))))

theorem dst_at2 (V : Valuation τ sig (Elt Ideal)) :
    (after (T1 (F := Ideal)) (after (T0 (F := Ideal)) V)) (Proc.devRef .tc main_v3) = dstRow (V (Proc.devRef .tc main_arg1)) :=
  (T1_frame _ main_v3 (by decide)).trans (T0_dst V)

theorem dst_at5 (V : Valuation τ sig (Elt Ideal)) :
    (after (T4 (F := Ideal)) (after (T3 (F := Ideal)) (after (T2 (F := Ideal)) (after (T1 (F := Ideal)) (after (T0 (F := Ideal)) V))))) (Proc.devRef .tc main_v3) = dstRow (V (Proc.devRef .tc main_arg1)) :=
  (T4_frame _ main_v3 (by decide)).trans ((T3_frame _ main_v3 (by decide)).trans ((T2_frame _ main_v3 (by decide)).trans ((T1_frame _ main_v3 (by decide)).trans (T0_dst V))))

theorem dst_at8 (V : Valuation τ sig (Elt Ideal)) :
    (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))) (Proc.devRef .tc main_v3) = dstRow (V (Proc.devRef .tc main_arg1)) :=
  (T7_frame _ main_v3 (by decide)).trans ((T6_frame _ main_v3 (by decide)).trans ((T5_frame _ main_v3 (by decide)).trans ((T4_frame _ main_v3 (by decide)).trans ((T3_frame _ main_v3 (by decide)).trans ((T2_frame _ main_v3 (by decide)).trans ((T1_frame _ main_v3 (by decide)).trans (T0_dst V)))))))

/-- Stage by stage: the result buffer of stage k, after the first k+1 stages, as a function of the arguments' launch contents. -/
theorem res1 (V : Valuation τ sig (Elt Ideal)) :
    (after (T1 (F := Ideal)) (after (T0 (F := Ideal)) V)) (Proc.devRef .tc main_v4) = dot_128_128 (V (Proc.devRef .tc main_arg0)) (V (Proc.devRef .tc main_arg2)) := by
  rw [T1_out (after (T0 (F := Ideal)) V),
    keep1 V main_arg0 (by decide),
    keep1 V main_arg2 (by decide)]

theorem res2 (V : Valuation τ sig (Elt Ideal)) :
    (after (T2 (F := Ideal)) (after (T1 (F := Ideal)) (after (T0 (F := Ideal)) V))) (Proc.devRef .tc main_v50) = conv128 (V (Proc.devRef .tc main_arg1)) (dot_128_128 (V (Proc.devRef .tc main_arg0)) (V (Proc.devRef .tc main_arg2))) (V (Proc.devRef .tc main_arg3)) := by
  rw [T2_out (after (T1 (F := Ideal)) (after (T0 (F := Ideal)) V)) (V (Proc.devRef .tc main_arg1)) (src_at2 V) (dst_at2 V),
    res1 V,
    keep2 V main_arg3 (by decide) (by decide)]

theorem res3 (V : Valuation τ sig (Elt Ideal)) :
    (after (T3 (F := Ideal)) (after (T2 (F := Ideal)) (after (T1 (F := Ideal)) (after (T0 (F := Ideal)) V)))) (Proc.devRef .tc main_v75) = lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5)) := by
  rw [T3_out (after (T2 (F := Ideal)) (after (T1 (F := Ideal)) (after (T0 (F := Ideal)) V))),
    res2 V,
    keep3 V main_arg4 (by decide) (by decide) (by decide),
    keep3 V main_arg5 (by decide) (by decide) (by decide)]

theorem res4 (V : Valuation τ sig (Elt Ideal)) :
    (after (T4 (F := Ideal)) (after (T3 (F := Ideal)) (after (T2 (F := Ideal)) (after (T1 (F := Ideal)) (after (T0 (F := Ideal)) V))))) (Proc.devRef .tc main_v76) = dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6)) := by
  rw [T4_out (after (T3 (F := Ideal)) (after (T2 (F := Ideal)) (after (T1 (F := Ideal)) (after (T0 (F := Ideal)) V)))),
    res3 V,
    keep4 V main_arg6 (by decide) (by decide) (by decide) (by decide)]

theorem res5 (V : Valuation τ sig (Elt Ideal)) :
    (after (T5 (F := Ideal)) (after (T4 (F := Ideal)) (after (T3 (F := Ideal)) (after (T2 (F := Ideal)) (after (T1 (F := Ideal)) (after (T0 (F := Ideal)) V)))))) (Proc.devRef .tc main_v122) = conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7)) := by
  rw [T5_out (after (T4 (F := Ideal)) (after (T3 (F := Ideal)) (after (T2 (F := Ideal)) (after (T1 (F := Ideal)) (after (T0 (F := Ideal)) V))))) (V (Proc.devRef .tc main_arg1)) (src_at5 V) (dst_at5 V),
    res4 V,
    keep5 V main_arg7 (by decide) (by decide) (by decide) (by decide) (by decide)]

theorem res6 (V : Valuation τ sig (Elt Ideal)) :
    (after (T6 (F := Ideal)) (after (T5 (F := Ideal)) (after (T4 (F := Ideal)) (after (T3 (F := Ideal)) (after (T2 (F := Ideal)) (after (T1 (F := Ideal)) (after (T0 (F := Ideal)) V))))))) (Proc.devRef .tc main_v147) = lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9)) := by
  rw [T6_out (after (T5 (F := Ideal)) (after (T4 (F := Ideal)) (after (T3 (F := Ideal)) (after (T2 (F := Ideal)) (after (T1 (F := Ideal)) (after (T0 (F := Ideal)) V)))))),
    res5 V,
    keep6 V main_arg8 (by decide) (by decide) (by decide) (by decide) (by decide) (by decide),
    keep6 V main_arg9 (by decide) (by decide) (by decide) (by decide) (by decide) (by decide)]

theorem res7 (V : Valuation τ sig (Elt Ideal)) :
    (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))) (Proc.devRef .tc main_v148) = dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10)) := by
  rw [T7_out (after (T6 (F := Ideal)) (after (T5 (F := Ideal)) (after (T4 (F := Ideal)) (after (T3 (F := Ideal)) (after (T2 (F := Ideal)) (after (T1 (F := Ideal)) (after (T0 (F := Ideal)) V))))))),
    res6 V,
    keep7 V main_arg10 (by decide) (by decide) (by decide) (by decide) (by decide) (by decide) (by decide)]

theorem res8 (V : Valuation τ sig (Elt Ideal)) :
    (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))) (Proc.devRef .tc main_v194) = conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11)) := by
  rw [T8_out (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))) (V (Proc.devRef .tc main_arg1)) (src_at8 V) (dst_at8 V),
    res7 V,
    keep8 V main_arg11 (by decide) (by decide) (by decide) (by decide) (by decide) (by decide) (by decide) (by decide)]

theorem res9 (V : Valuation τ sig (Elt Ideal)) :
    (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))) (Proc.devRef .tc main_v219) = lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13)) := by
  rw [T9_out (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))),
    res8 V,
    keep9 V main_arg12 (by decide) (by decide) (by decide) (by decide) (by decide) (by decide) (by decide) (by decide) (by decide),
    keep9 V main_arg13 (by decide) (by decide) (by decide) (by decide) (by decide) (by decide) (by decide) (by decide) (by decide)]

theorem res10 (V : Valuation τ sig (Elt Ideal)) :
    (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))))) (Proc.devRef .tc main_v220) = dot_128_64 (lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13))) (V (Proc.devRef .tc main_arg14)) := by
  rw [T10_out (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))),
    res9 V,
    keep10 V main_arg14 (by decide) (by decide) (by decide) (by decide) (by decide) (by decide) (by decide) (by decide) (by decide) (by decide)]

theorem res11 (V : Valuation τ sig (Elt Ideal)) :
    (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))))) (Proc.devRef .tc main_v223) = bias64 (dot_128_64 (lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13))) (V (Proc.devRef .tc main_arg14))) (V (Proc.devRef .tc main_arg15)) := by
  rw [T11_out (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))))),
    res10 V,
    keep11 V main_arg15 (by decide) (by decide) (by decide) (by decide) (by decide) (by decide) (by decide) (by decide) (by decide) (by decide) (by decide)]

theorem res12 (V : Valuation τ sig (Elt Ideal)) :
    (after (T12 (F := Ideal)) (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))))))) (Proc.devRef .tc main_v248) = lnelu64 (bias64 (dot_128_64 (lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13))) (V (Proc.devRef .tc main_arg14))) (V (Proc.devRef .tc main_arg15))) (V (Proc.devRef .tc main_arg16)) (V (Proc.devRef .tc main_arg17)) := by
  rw [T12_out (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))))),
    res11 V,
    keep12 V main_arg16 (by decide) (by decide) (by decide) (by decide) (by decide) (by decide) (by decide) (by decide) (by decide) (by decide) (by decide) (by decide),
    keep12 V main_arg17 (by decide) (by decide) (by decide) (by decide) (by decide) (by decide) (by decide) (by decide) (by decide) (by decide) (by decide) (by decide)]

theorem res13 (V : Valuation τ sig (Elt Ideal)) :
    (after (T13 (F := Ideal)) (after (T12 (F := Ideal)) (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))))))) (Proc.devRef .tc main_v249) = dot_64_500 (lnelu64 (bias64 (dot_128_64 (lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13))) (V (Proc.devRef .tc main_arg14))) (V (Proc.devRef .tc main_arg15))) (V (Proc.devRef .tc main_arg16)) (V (Proc.devRef .tc main_arg17))) (V (Proc.devRef .tc main_arg18)) := by
  rw [T13_out (after (T12 (F := Ideal)) (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))))))),
    res12 V,
    keep13 V main_arg18 (by decide) (by decide) (by decide) (by decide) (by decide) (by decide) (by decide) (by decide) (by decide) (by decide) (by decide) (by decide) (by decide)]

theorem res14 (V : Valuation τ sig (Elt Ideal)) :
    (after (T14 (F := Ideal)) (after (T13 (F := Ideal)) (after (T12 (F := Ideal)) (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V))))))))))))))) (Proc.devRef .tc main_v252) = bias500 (dot_64_500 (lnelu64 (bias64 (dot_128_64 (lnelu128 (conv128 (V (Proc.devRef .tc main_arg1)) (dot_256_128 (lnelu256 (conv256 (V (Proc.devRef .tc main_arg1)) (dot_128_256 (lnelu128 (conv128 (V (Proc.devRef .tc main_arg1)) (dot_128_128 (V (Proc.devRef .tc main_arg0)) (V (Proc.devRef .tc main_arg2))) (V (Proc.devRef .tc main_arg3))) (V (Proc.devRef .tc main_arg4)) (V (Proc.devRef .tc main_arg5))) (V (Proc.devRef .tc main_arg6))) (V (Proc.devRef .tc main_arg7))) (V (Proc.devRef .tc main_arg8)) (V (Proc.devRef .tc main_arg9))) (V (Proc.devRef .tc main_arg10))) (V (Proc.devRef .tc main_arg11))) (V (Proc.devRef .tc main_arg12)) (V (Proc.devRef .tc main_arg13))) (V (Proc.devRef .tc main_arg14))) (V (Proc.devRef .tc main_arg15))) (V (Proc.devRef .tc main_arg16)) (V (Proc.devRef .tc main_arg17))) (V (Proc.devRef .tc main_arg18))) (V (Proc.devRef .tc main_arg19)) := by
  rw [T14_out (after (T13 (F := Ideal)) (after (T12 (F := Ideal)) (after (T11 (F := Ideal)) (after (T10 (F := Ideal)) (after (T9 (F := Ideal)) (after (T8 (F := Ideal)) (after (T7 (F := Ideal)) (after (T6 (F := Ideal)) (after (T5 (F := Ideal)) (after (T4 (F := Ideal)) (after (T3 (F := Ideal)) (after (T2 (F := Ideal)) (after (T1 (F := Ideal)) (after (T0 (F := Ideal)) V)))))))))))))),
    res13 V,
    keep14 V main_arg19 (by decide) (by decide) (by decide) (by decide) (by decide) (by decide) (by decide) (by decide) (by decide) (by decide) (by decide) (by decide) (by decide) (by decide)]

/-- After the whole line the result buffer holds the network of the arguments' launch contents. -/
theorem out_eq (V : Valuation τ sig (Elt Ideal)) :
    after (ops (F := Ideal)) V (Proc.devRef .tc main_v252)
      = out (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12))
        (V (Proc.devRef .tc main_arg13))
        (V (Proc.devRef .tc main_arg14))
        (V (Proc.devRef .tc main_arg15))
        (V (Proc.devRef .tc main_arg16))
        (V (Proc.devRef .tc main_arg17))
        (V (Proc.devRef .tc main_arg18))
        (V (Proc.devRef .tc main_arg19)) := by
  rw [after_ops, res14 V]
  rfl

/-- No operation writes an argument. -/
theorem arg_eq (V : Valuation τ sig (Elt F)) (r : Ref sig .tc)
    (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) (h14 : r ∉ wr14) :
    after ops V (Proc.devRef .tc r) = V (Proc.devRef .tc r) := by
  rw [after_ops]
  exact keep15 V r h0 h1 h2 h3 h4 h5 h6 h7 h8 h9 h10 h11 h12 h13 h14

/-- On every device, from any memory with zero counters: every weakly fair execution of @main terminates with the
    result buffer at the network of the arguments' launch contents and every argument unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v252)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c main_v252).trans (out_eq _),
      (h c main_arg0).trans (arg_eq _ main_arg0 (by decide) (by decide) (by decide) (by decide) (by decide) (by decide) (by decide) (by decide) (by decide) (by decide) (by decide) (by decide) (by decide) (by decide) (by decide)),
      (h c main_arg1).trans (arg_eq _ main_arg1 (by decide) (by decide) (by decide) (by decide) (by decide) (by decide) (by decide) (by decide) (by decide) (by decide) (by decide) (by decide) (by decide) (by decide) (by decide)),
      (h c main_arg2).trans (arg_eq _ main_arg2 (by decide) (by decide) (by decide) (by decide) (by decide) (by decide) (by decide) (by decide) (by decide) (by decide) (by decide) (by decide) (by decide) (by decide) (by decide)),
      (h c main_arg3).trans (arg_eq _ main_arg3 (by decide) (by decide) (by decide) (by decide) (by decide) (by decide) (by decide) (by decide) (by decide) (by decide) (by decide) (by decide) (by decide) (by decide) (by decide)),
      (h c main_arg4).trans (arg_eq _ main_arg4 (by decide) (by decide) (by decide) (by decide) (by decide) (by decide) (by decide) (by decide) (by decide) (by decide) (by decide) (by decide) (by decide) (by decide) (by decide)),
      (h c main_arg5).trans (arg_eq _ main_arg5 (by decide) (by decide) (by decide) (by decide) (by decide) (by decide) (by decide) (by decide) (by decide) (by decide) (by decide) (by decide) (by decide) (by decide) (by decide)),
      (h c main_arg6).trans (arg_eq _ main_arg6 (by decide) (by decide) (by decide) (by decide) (by decide) (by decide) (by decide) (by decide) (by decide) (by decide) (by decide) (by decide) (by decide) (by decide) (by decide)),
      (h c main_arg7).trans (arg_eq _ main_arg7 (by decide) (by decide) (by decide) (by decide) (by decide) (by decide) (by decide) (by decide) (by decide) (by decide) (by decide) (by decide) (by decide) (by decide) (by decide)),
      (h c main_arg8).trans (arg_eq _ main_arg8 (by decide) (by decide) (by decide) (by decide) (by decide) (by decide) (by decide) (by decide) (by decide) (by decide) (by decide) (by decide) (by decide) (by decide) (by decide)),
      (h c main_arg9).trans (arg_eq _ main_arg9 (by decide) (by decide) (by decide) (by decide) (by decide) (by decide) (by decide) (by decide) (by decide) (by decide) (by decide) (by decide) (by decide) (by decide) (by decide)),
      (h c main_arg10).trans (arg_eq _ main_arg10 (by decide) (by decide) (by decide) (by decide) (by decide) (by decide) (by decide) (by decide) (by decide) (by decide) (by decide) (by decide) (by decide) (by decide) (by decide)),
      (h c main_arg11).trans (arg_eq _ main_arg11 (by decide) (by decide) (by decide) (by decide) (by decide) (by decide) (by decide) (by decide) (by decide) (by decide) (by decide) (by decide) (by decide) (by decide) (by decide)),
      (h c main_arg12).trans (arg_eq _ main_arg12 (by decide) (by decide) (by decide) (by decide) (by decide) (by decide) (by decide) (by decide) (by decide) (by decide) (by decide) (by decide) (by decide) (by decide) (by decide)),
      (h c main_arg13).trans (arg_eq _ main_arg13 (by decide) (by decide) (by decide) (by decide) (by decide) (by decide) (by decide) (by decide) (by decide) (by decide) (by decide) (by decide) (by decide) (by decide) (by decide)),
      (h c main_arg14).trans (arg_eq _ main_arg14 (by decide) (by decide) (by decide) (by decide) (by decide) (by decide) (by decide) (by decide) (by decide) (by decide) (by decide) (by decide) (by decide) (by decide) (by decide)),
      (h c main_arg15).trans (arg_eq _ main_arg15 (by decide) (by decide) (by decide) (by decide) (by decide) (by decide) (by decide) (by decide) (by decide) (by decide) (by decide) (by decide) (by decide) (by decide) (by decide)),
      (h c main_arg16).trans (arg_eq _ main_arg16 (by decide) (by decide) (by decide) (by decide) (by decide) (by decide) (by decide) (by decide) (by decide) (by decide) (by decide) (by decide) (by decide) (by decide) (by decide)),
      (h c main_arg17).trans (arg_eq _ main_arg17 (by decide) (by decide) (by decide) (by decide) (by decide) (by decide) (by decide) (by decide) (by decide) (by decide) (by decide) (by decide) (by decide) (by decide) (by decide)),
      (h c main_arg18).trans (arg_eq _ main_arg18 (by decide) (by decide) (by decide) (by decide) (by decide) (by decide) (by decide) (by decide) (by decide) (by decide) (by decide) (by decide) (by decide) (by decide) (by decide)),
      (h c main_arg19).trans (arg_eq _ main_arg19 (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.RefSide

end
-- ==== Proof.Agree.lean ====
/-
  The two programs end with the same result array.

  Read at (p, q), the kernel program's result is the network with every layer in the arrangement that scales the rows
  by the node weights first; the reference's result is the network with every layer in the arrangement that weighs each
  arriving row by the product of its two end weights. The edge data and the node weights are the same functions of the
  edge array on both sides, every node weight is nonnegative and finite (the inverse square root of a positive degree,
  or zero), and every edge counted at node p has p as its destination; so the two arrangements of each layer agree, and
  with them the two networks.
-/
import proofs.«137113_j6760278524492_2_alg».proof.Proof.KerChain
import proofs.«137113_j6760278524492_2_alg».proof.Proof.Cross
import proofs.«137113_j6760278524492_2_alg».proof.Proof.RefRead
import proofs.«137113_j6760278524492_2_alg».proof.Proof.RefRun

set_option maxRecDepth 16384
noncomputable section
namespace Cert.Agree
open Idealize.ShloMosaic Idealize.ShloMosaic.TcCoe Idealize.ShloMosaic.ValueIdx Idealize.SL.Sem Cert.GCN

variable [Cert.KernelIdeal.Facts] [Cert.ReferenceIdeal.Facts]

theorem SRC_eq (ei : IVec Cert.KernelIdeal.S2x800000 32) : Cert.KerSide.SRC ei = Cert.RefSide.srcOf ei := by
  funext e
  unfold Cert.KerSide.SRC Cert.RefSide.srcOf
  rw [Cert.Cross.srcIdx_eq]

theorem INB_eq (ei : IVec Cert.KernelIdeal.S2x800000 32) : Cert.KerSide.INB ei = Cert.RefSide.inbOf ei := by
  funext p
  unfold Cert.KerSide.INB Cert.RefSide.inbOf
  rw [Cert.Cross.dstRaw_eq]

theorem DV_eq (ei : IVec Cert.KernelIdeal.S2x800000 32) : Cert.KerSide.DV ei = Cert.RefSide.dvOf ei := by
  funext p
  unfold Cert.KerSide.DV Cert.RefSide.dvOf
  rw [Cert.Cross.dinv_eq]

/-- Every node weight is nonnegative and finite. -/
theorem dv_ok (ei : IVec Cert.KernelIdeal.S2x800000 32) (p : Fin 50000) :
    0 ≤ Cert.RefSide.dvOf ei p ∧ Cert.RefSide.dvOf ei p ≠ ⊤ := by
  unfold Cert.RefSide.dvOf
  rw [Cert.RefSide.dinv_apply]
  exact dinvOf_nonneg_finite _

/-- The two arrangements of a layer over the reference's edge data agree. -/
theorem layer_agree {k d : Nat} (cd eps : EReal) (ei : IVec Cert.KernelIdeal.S2x800000 32)
    (w : Fin k → Fin d → EReal) (b g be : Fin d → EReal) (h : Fin 50000 → Fin k → EReal) :
    layerK cd eps (Cert.RefSide.dvOf ei) (Cert.RefSide.srcOf ei) (Cert.RefSide.inbOf ei) w b g be h
      = layerR cd eps (Cert.RefSide.dvOf ei) (Cert.RefSide.srcOf ei) (Cert.RefSide.dstOf ei) (Cert.RefSide.inbOf ei) w b g be h :=
  layerK_eq_layerR cd eps _ (dv_ok ei) _ _ _ (fun p e he => Cert.RefSide.dstOf_eq_of_mem ei p e he) w b g be h

/-- The reference's result on the kernel program's argument arrays is the kernel program's result array. -/
theorem values_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.RefSide.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      = Cert.KernelIdeal.Gen.W14 (F := Ideal) m ρ c (Proc.devRef .tc Cert.KernelIdeal.main_v64) := by
  funext j
  obtain ⟨p, q, rfl⟩ : ∃ (p : Fin 50000) (q : Fin 500), j = ix2 p q := ⟨j 0, j 1, eq_ix2 j⟩
  rw [Cert.RefSide.out_apply]
  refine Eq.trans ?_ (Cert.KerSide.ker_out_apply m ρ c p q).symm
  rw [DV_eq, SRC_eq, INB_eq, layer_agree, layer_agree, layer_agree]

end Cert.Agree
end
-- ==== Proof.lean ====
/-
  The certificate of a three-layer graph-convolution network computed by seven kernels among host gathers and
  scatters, against its plain reference.

  At the ideal instance every float is an extended real and a change of float format is the identity. Per layer the
  kernel program multiplies the node features by the weight matrix and by the node weight dv p (first kernel), sums
  over the edges arriving at each node the scaled rows of their sources (host gather and accumulating scatter), and
  multiplies the sum plus the node's own scaled row by dv p once more, adds the bias, normalises each row and applies
  ELU (second kernel); a last kernel applies two dense layers. The reference weighs each arriving row by the product of
  the two end weights, adds the node's own row times dv p squared and the bias, then normalises and applies ELU with its
  own host operations. The two agree because a nonnegative finite factor distributes over every sum of extended reals
  and multiplication is commutative and associative there: no finiteness of the features is needed, so the
  precondition is never opened. The frames of the two kernel programs are the generated ones; the reference's frame is
  its run with the result dropped; the idealization rewrote nothing, so that conjunct is trivial.
-/
import proofs.«137113_j6760278524492_2_alg».proof.Defs
import proofs.«137113_j6760278524492_2_alg».proof.Proof.Gen.Kernel
import proofs.«137113_j6760278524492_2_alg».proof.Proof.Gen.Kernel.Skeleton
import proofs.«137113_j6760278524492_2_alg».proof.Proof.Gen.Kernel.Launch
import proofs.«137113_j6760278524492_2_alg».proof.Proof.Gen.Kernel.Points
import proofs.«137113_j6760278524492_2_alg».proof.Proof.Gen.Kernel.Frame
import proofs.«137113_j6760278524492_2_alg».proof.Proof.Gen.KernelIdeal
import proofs.«137113_j6760278524492_2_alg».proof.Proof.Gen.KernelIdeal.Skeleton
import proofs.«137113_j6760278524492_2_alg».proof.Proof.Gen.KernelIdeal.Launch
import proofs.«137113_j6760278524492_2_alg».proof.Proof.Gen.KernelIdeal.Points
import proofs.«137113_j6760278524492_2_alg».proof.Proof.Gen.KernelIdeal.Frame
import proofs.«137113_j6760278524492_2_alg».proof.Proof.Gen.ReferenceIdeal
import proofs.«137113_j6760278524492_2_alg».proof.Proof.Gen.Pre_finite_inputs
import proofs.«137113_j6760278524492_2_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.RefSide.run m ρ)

set_option maxHeartbeats 4000000 in
/-- From memories agreeing on the arguments both programs run, and the reference's result array is the kernel
    program's. -/
theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v64),
    Cert.KerSide.run_main m ρ, ?_⟩
  refine (θ_run Cert.ReferenceIdeal.defs _ _).mono (fun _ h c => ⟨(h c).1.trans ?_, (h c).2⟩)
    (Cert.RefSide.run m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]
  exact Cert.Agree.values_agree m ρ c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
